-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S4x128 .f32) (main_arg6 : FVec F S4x128x128 .f32) (main_arg7 : FVec F S4x128 .f32) (main_arg8 : FVec F S128x128 .f32) (main_arg9 : FVec F S128 .f32) (main_arg10 : FVec F S128x1 .f32) (main_arg11 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S4x128x128 .f32) (main_arg3 : FVec F S4x128 .f32) (main_arg4 : FVec F S4x128 .f32) (main_arg5 : FVec F S4x128 .f32) (main_arg6 : FVec F S4x128x128 .f32) (main_arg7 : FVec F S4x128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S5000x128 : Shape := ⟨2, ![5000, 128]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 205
  | .vmem => 80
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128, .f32⟩
  | 4 => ⟨S4x128, .f32⟩
  | 5 => ⟨S4x128, .f32⟩
  | 6 => ⟨S4x128x128, .f32⟩
  | 7 => ⟨S4x128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S50000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S50000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128x128, .f32⟩
  | 86 => ⟨S128x128, .f32⟩
  | 87 => ⟨S1x128, .f32⟩
  | 88 => ⟨S128, .f32⟩
  | 89 => ⟨S50000x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S50000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S50000x128, .f32⟩
  | 124 => ⟨S1x128x128, .f32⟩
  | 125 => ⟨S128x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S128, .f32⟩
  | 8 => ⟨S50000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S50000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S50000x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S50000x128, .f32⟩
  | 76 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S128x128, .f32⟩
  | .local _ .vmem, ⟨69, _⟩ => ⟨S128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S128, .f32⟩
  | .local _ .vmem, ⟨76, _⟩ => ⟨S128x1, .f32⟩
  | .local _ .vmem, ⟨77, _⟩ => ⟨S1, .f32⟩
  | .local _ .vmem, ⟨78, _⟩ => ⟨S5000x1, .f32⟩
  | .local _ .vmem, ⟨79, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_4 : Ref sig .tc := ⟨.hbm, 63, rfl⟩
abbrev main_v43 : Ref sig .tc := ⟨.hbm, 64, rfl⟩
abbrev main_v44 : Ref sig .tc := ⟨.hbm, 65, rfl⟩
abbrev main_c_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v66_2 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_cst_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_9 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_10 : Ref sig .tc := ⟨.hbm, 110, rfl⟩
abbrev main_v82 : Ref sig .tc := ⟨.hbm, 111, rfl⟩
abbrev main_v83 : Ref sig .tc := ⟨.hbm, 112, rfl⟩
abbrev main_c_11 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_12 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105_0 : Ref sig .tc := ⟨.hbm, 136, rfl⟩
abbrev main_v105_1 : Ref sig .tc := ⟨.hbm, 137, rfl⟩
abbrev main_v105_2 : Ref sig .tc := ⟨.hbm, 138, rfl⟩
abbrev main_cst_13 : Ref sig .tc := ⟨.hbm, 139, rfl⟩
abbrev main_v106 : Ref sig .tc := ⟨.hbm, 140, rfl⟩
abbrev main_v107 : Ref sig .tc := ⟨.hbm, 141, rfl⟩
abbrev main_cst_14 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_15 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_16 : Ref sig .tc := ⟨.hbm, 157, rfl⟩
abbrev main_v121 : Ref sig .tc := ⟨.hbm, 158, rfl⟩
abbrev main_v122 : Ref sig .tc := ⟨.hbm, 159, rfl⟩
abbrev main_c_17 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_18 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144_0 : Ref sig .tc := ⟨.hbm, 183, rfl⟩
abbrev main_v144_1 : Ref sig .tc := ⟨.hbm, 184, rfl⟩
abbrev main_v144_2 : Ref sig .tc := ⟨.hbm, 185, rfl⟩
abbrev main_cst_19 : Ref sig .tc := ⟨.hbm, 186, rfl⟩
abbrev main_v145 : Ref sig .tc := ⟨.hbm, 187, rfl⟩
abbrev main_v146 : Ref sig .tc := ⟨.hbm, 188, rfl⟩
abbrev main_cst_20 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_21 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc4_scratch0 : Ref sig .tc := ⟨.vmem, 44, rfl⟩
abbrev cc4_scratch1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg5_0 : Ref sig .tc := ⟨.vmem, 61, rfl⟩
abbrev cc6_scratch0 : Ref sig .tc := ⟨.vmem, 62, rfl⟩
abbrev cc6_scratch1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg4_0 : Ref sig .tc := ⟨.vmem, 77, rfl⟩
abbrev cc8_stg5_0 : Ref sig .tc := ⟨.vmem, 78, rfl⟩
abbrev cc8_stg5_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem5_0 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_18 : BitVec 32 := 0#32
  let v35 : BitVec 1 := Scalar.cmpi .ne v34 c0_i32_18
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_18 : BitVec 32 := 0#32
  let v35 : BitVec 1 := Scalar.cmpi .ne v34 c0_i32_18
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_18 : BitVec 32 := 0#32
  let v35 : BitVec 1 := Scalar.cmpi .ne v34 c0_i32_18
  v35

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reduces_S5000x128_S128 : S5000x128.Reduces [0] S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x1.size a ≤ S128x1.size a
  hwx8_3 : ∀ i : grid8.Coords, EltTy.bits .f32 = 32 ∨ (Rect.block (s := S128x1) S128x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1.size a ≤ S1.size a
  hwx8_4 : ∀ i : grid8.Coords, EltTy.bits .f32 = 32 ∨ (Rect.block (s := S1) S1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x1.size a ≤ S50000x1.size a
  hwx8_5 : ∀ i : grid8.Coords, EltTy.bits .f32 = 32 ∨ (Rect.block (s := S50000x1) S5000x1.size (cc8_transform_5 i) (hinb8_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v66_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v105_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v105_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v105_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v131) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v135) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v144_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v144_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v144_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v155) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v141) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v143) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v159) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v159) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg9) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg10) S128x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg11) S1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S5000x1.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S1x128x128 : Shape := ⟨3, ![1, 128, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x1 : Shape := ⟨2, ![1, 1]⟩

abbrev nBuf : Space → Nat
  | .hbm => 303
  | .vmem => 0
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128, .f32⟩
  | 4 => ⟨S4x128, .f32⟩
  | 5 => ⟨S4x128, .f32⟩
  | 6 => ⟨S4x128x128, .f32⟩
  | 7 => ⟨S4x128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128x128, .f32⟩
  | 25 => ⟨S128x128, .f32⟩
  | 26 => ⟨S1x128, .f32⟩
  | 27 => ⟨S128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S_, .f32⟩
  | 38 => ⟨S50000x128, .f32⟩
  | 39 => ⟨S600000x1, .i32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S_, .f32⟩
  | 67 => ⟨S1x128, .f32⟩
  | 68 => ⟨S1x128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S50000x128, .f32⟩
  | 6 => ⟨S50000x128, .f32⟩
  | 7 => ⟨S_, .f32⟩
  | 8 => ⟨S1x128, .f32⟩
  | 9 => ⟨S1x128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S50000x128, .f32⟩
  | 75 => ⟨S50000x128, .f32⟩
  | 76 => ⟨S_, .f32⟩
  | 77 => ⟨S1x128, .f32⟩
  | 78 => ⟨S1x128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128x128, .f32⟩
  | 104 => ⟨S128x128, .f32⟩
  | 105 => ⟨S1x128, .f32⟩
  | 106 => ⟨S128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S_, .f32⟩
  | 117 => ⟨S50000x128, .f32⟩
  | 118 => ⟨S600000x1, .i32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S128, .f32⟩
  | 2 => ⟨S1x128, .f32⟩
  | 3 => ⟨S_, .f32⟩
  | 4 => ⟨S1x128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S50000x128, .f32⟩
  | 16 => ⟨S50000x128, .f32⟩
  | 17 => ⟨S_, .f32⟩
  | 18 => ⟨S1x128, .f32⟩
  | 19 => ⟨S1x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x1, .f32⟩
  | 44 => ⟨S1x1, .f32⟩
  | 45 => ⟨S50000x1, .f32⟩
  | 46 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_6 : Ref sig .tc := ⟨.hbm, 97, rfl⟩
abbrev main_v73 : Ref sig .tc := ⟨.hbm, 98, rfl⟩
abbrev main_v74 : Ref sig .tc := ⟨.hbm, 99, rfl⟩
abbrev main_c_7 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_8 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call2_cst : Ref sig .tc := ⟨.hbm, 115, rfl⟩
abbrev main_call2_v0 : Ref sig .tc := ⟨.hbm, 116, rfl⟩
abbrev main_v88 : Ref sig .tc := ⟨.hbm, 117, rfl⟩
abbrev main_cst_9 : Ref sig .tc := ⟨.hbm, 118, rfl⟩
abbrev main_v89 : Ref sig .tc := ⟨.hbm, 119, rfl⟩
abbrev main_v90 : Ref sig .tc := ⟨.hbm, 120, rfl⟩
abbrev main_cst_10 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_11 : Ref sig .tc := ⟨.hbm, 127, rfl⟩
abbrev main_v96 : Ref sig .tc := ⟨.hbm, 128, rfl⟩
abbrev main_v97 : Ref sig .tc := ⟨.hbm, 129, rfl⟩
abbrev main_cst_12 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_13 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_call3_cst : Ref sig .tc := ⟨.hbm, 151, rfl⟩
abbrev main_call3_v0 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_14 : Ref sig .tc := ⟨.hbm, 166, rfl⟩
abbrev main_v130 : Ref sig .tc := ⟨.hbm, 167, rfl⟩
abbrev main_v131 : Ref sig .tc := ⟨.hbm, 168, rfl⟩
abbrev main_c_15 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_16 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_call4_cst : Ref sig .tc := ⟨.hbm, 184, rfl⟩
abbrev main_call4_v0 : Ref sig .tc := ⟨.hbm, 185, rfl⟩
abbrev main_v145 : Ref sig .tc := ⟨.hbm, 186, rfl⟩
abbrev main_cst_17 : Ref sig .tc := ⟨.hbm, 187, rfl⟩
abbrev main_v146 : Ref sig .tc := ⟨.hbm, 188, rfl⟩
abbrev main_v147 : Ref sig .tc := ⟨.hbm, 189, rfl⟩
abbrev main_cst_18 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_19 : Ref sig .tc := ⟨.hbm, 196, rfl⟩
abbrev main_v153 : Ref sig .tc := ⟨.hbm, 197, rfl⟩
abbrev main_v154 : Ref sig .tc := ⟨.hbm, 198, rfl⟩
abbrev main_cst_20 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_21 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_call5_cst : Ref sig .tc := ⟨.hbm, 220, rfl⟩
abbrev main_call5_v0 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_c_22 : Ref sig .tc := ⟨.hbm, 235, rfl⟩
abbrev main_v187 : Ref sig .tc := ⟨.hbm, 236, rfl⟩
abbrev main_v188 : Ref sig .tc := ⟨.hbm, 237, rfl⟩
abbrev main_c_23 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_24 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_call6_cst : Ref sig .tc := ⟨.hbm, 253, rfl⟩
abbrev main_call6_v0 : Ref sig .tc := ⟨.hbm, 254, rfl⟩
abbrev main_v202 : Ref sig .tc := ⟨.hbm, 255, rfl⟩
abbrev main_cst_25 : Ref sig .tc := ⟨.hbm, 256, rfl⟩
abbrev main_v203 : Ref sig .tc := ⟨.hbm, 257, rfl⟩
abbrev main_v204 : Ref sig .tc := ⟨.hbm, 258, rfl⟩
abbrev main_cst_26 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_27 : Ref sig .tc := ⟨.hbm, 265, rfl⟩
abbrev main_v210 : Ref sig .tc := ⟨.hbm, 266, rfl⟩
abbrev main_v211 : Ref sig .tc := ⟨.hbm, 267, rfl⟩
abbrev main_cst_28 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_cst_29 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_call7_cst : Ref sig .tc := ⟨.hbm, 289, rfl⟩
abbrev main_call7_v0 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_call8_cst : Ref sig .tc := ⟨.hbm, 296, rfl⟩
abbrev main_call8_v0 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.K.Reg0S.lean ====
/-
  Region 0: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's first condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- The body's second condition: the grid coordinate is 9, the last. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel

/-- One staging buffer of each output window, through which its contents are stated. -/
abbrev VO0_3 : View sig .tc .vmem S5000x128 .f32 := (Memref.whole cc0_stg3_0 : Memref sig .tc .vmem S5000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two running sums the body keeps between points: whole scoped buffers of its own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The rest of the scoped buffers, beside the two running sums. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region's entry invariant with the two running sums as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.Kernel.Hand

end
-- ==== Proof.K.Reg0RunA.lean ====
/-
  Region 0, the body's run at the first point: the running sums are set to zero before the block's sums are added.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg0RunB.lean ====
/-
  Region 0, the body's run at a middle point: the block's sums are added to the running sums.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg0RunC.lean ====
/-
  Region 0, the body's run at the last point: the block's sums are added and the running sums are copied out to the two statistics windows.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Reg0.lean ====
/-
  Region 0: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg0RunA
import proofs.«121608_j10213432229998_1_alg».proof.Proof.K.Reg0RunB
import proofs.«121608_j10213432229998_1_alg».proof.Proof.K.Reg0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S5000x128.Idx) :
    ∃ pc ∈ (kernelRun0_A c i arg1 harg1 arg2 harg2 arg3 harg3 arg4 harg4 arg5 harg5 arg6 harg6 arg7 harg7 arg8 harg8 hc0 hc1 x0 x1 x2).1, y ∈ pc.1.set :=
  View.cover_of_tiledL (kernelRun0_A c i arg1 harg1 arg2 harg2 arg3 harg3 arg4 harg4 arg5 harg5 arg6 harg6 arg7 harg7 arg8 harg8 hc0 hc1 x0 x1 x2).1 S5000x128.size (by sl_kernel_rfl) y

def out0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S5000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S1x128.Idx) :
    ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S1x128.size (by sl_kernel_rfl) y

def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.1)

theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S1x128.Idx) :
    ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S1x128.size (by sl_kernel_rfl) y

def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.1)

theorem cover0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).1 S5000x128.size (by sl_kernel_rfl) y

def out0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S5000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.1 S1x128.size (by sl_kernel_rfl) y

def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 xs0 xs1).2.1)

theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.1 S1x128.size (by sl_kernel_rfl) y

def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.1)

theorem cover0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).1 S5000x128.size (by sl_kernel_rfl) y

def out0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S5000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xs0 xs1).1)

theorem cover0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.1 S1x128.size (by sl_kernel_rfl) y

def out0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 xs0 xs1).2.1)

theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.1 S1x128.size (by sl_kernel_rfl) y

def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 xs0 xs1).2.2.1)

theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 xs0 xs1).2.2.2.1)

theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk0_4 : Vec F S1x128 .f32 := VO0_4.read (Elt F) VO0_4.junk
def junk0_5 : Vec F S1x128 .f32 := VO0_5.read (Elt F) VO0_5.junk

/-- What the three output windows' buffers and the two running sums hold after the body at position n:
    the first point's run, a middle point's, or the last point's, the running sums taken from the point before. -/
def outsAt0 (c : Dev nD) : (n : ℕ) → n < cfg0.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩), junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩))) (Nat.zero_mod _) (by decide)
  | n + 1, hn =>
    if h1 : (n + 1) % 10 = 9 then
      (fun (h0 : ¬ (n + 1) % 10 = 0) => (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)) (by have hN : n + 1 < 10 := lt_of_lt_of_eq hn (show cfg0.N = 10 from N_0); omega)
    else
      (fun (h0 : ¬ (n + 1) % 10 = 0) => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)) (by have hN : n + 1 < 10 := lt_of_lt_of_eq hn (show cfg0.N = 10 from N_0); omega)

theorem outsAt0_A (c : Dev nD) (t : Fin cfg0.N) (h0 : t.val % 10 = 0) (h1 : ¬t.val % 10 = 9) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (by exfalso; (try dsimp only at h0); have hN : n + 1 < 10 := lt_of_lt_of_eq hn (show cfg0.N = 10 from N_0); omega)

theorem outsAt0_B (c : Dev nD) (t : Fin cfg0.N) (h0 : ¬t.val % 10 = 0) (h1 : ¬t.val % 10 = 9) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 10 = 0) (h1 : t.val % 10 = 9) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-- The proof data of this pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h1 : t.val % 10 = 9
  · have h0 : ¬t.val % 10 = 0 := by omega
    have hz : t.val ≠ 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4_C t ((hcond0_1 t).mpr h1)], after0_4]
    rw [show (dat0 V c).leavesExact 5 t = owns (c : Thread nD τ) (ms0_5 t) fullShare ((dat0 V c).after 5 t) from by
      unfold Dat.leavesExact; rw [liveAt0_5_C t ((hcond0_1 t).mpr h1)], after0_5]
    rw [outsAt0_C V c t h0 h1]
    unfold out0_C_3 out0_C_4 out0_C_5 sout0_C_0 sout0_C_1; (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _)
  · by_cases h0 : t.val % 10 = 0
    · have hz : t.val = 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_3 sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
    · have hz : t.val ≠ 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the entry invariant. -/
theorem hPhi0_0 (c : Dev nD) : (dat0 V c).Φ 0 = Pipeline.ΦA spec0 c := by
  rw [show (dat0 V c).Φ 0 = PhiS0 V c 0 (Nat.zero_le _) from rfl, PhiS0_zero V c 0 _ rfl]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the running sums' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.K.Reg1.lean ====
/-
  Region 1: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rR1 : Rect S1x128 := Rect.unit (s := S1x128) ![0, 0] S1x128.size inb_S1x128_S1x128_0_0
abbrev rW1 : Rect S128x128 := Rect.unit (s := S128x128) ![0, 0] S128x128.size inb_S128x128_S128x128_0_0
abbrev rB1 : Rect S128 := Rect.unit (s := S128) ![0] S128.size inb_S128_S128_0

/-- The output block after the body: one store over the whole block. -/
def out1_5 (x0 : Vec F S5000x128 .f32) (x1 : Vec F S1x128 .f32) (x2 : Vec F S1x128 .f32) (x3 : Vec F S128x128 .f32) (x4 : Vec F S128 .f32) : Vec F S5000x128 .f32 :=
  View.canon [⟨rA1, k1_pay1 (View.ld x0 rA1) (View.ld x1 rR1) (View.ld x2 rR1) (View.ld x3 rW1) (View.ld x4 rB1)⟩]

theorem cover1_5 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 2000000 in
/-- The body on whole staging memrefs: the inputs keep their contents, the output ends at out1_5 of them. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__matmul2_relu_kernel i arg1 harg1 arg2 harg2 arg3 harg3 arg4 harg4 arg5 harg5 arg6 harg6) K := by
  simp only [cc1__matmul2_relu_kernel_eq_skeleton]; unfold cc1__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core c: the arrays as the region finds them; after the body each
    input's buffer at its block and the output's at out1_5 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2S.lean ====
/-
  Region 2: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first condition: the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
/-- The body's second condition: the grid coordinate is 9, the last. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4_C : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5_C : ∀ t : Fin cfg2.N, cond2_1 (grid2.coords t) → cfg2.idle 5 (grid2.coords t) = false := by decide +kernel

/-- One staging buffer of each output window, through which its contents are stated. -/
abbrev VO2_3 : View sig .tc .vmem S5000x128 .f32 := (Memref.whole cc2_stg3_0 : Memref sig .tc .vmem S5000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
/-- The two running sums the body keeps between points: whole scoped buffers of its own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The rest of the scoped buffers, beside the two running sums. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two running sums as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.Kernel.Hand

end
-- ==== Proof.K.Reg2RunA.lean ====
/-
  Region 2, the body's run at the first point: the running sums are set to zero before the block's sums are added.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg2RunB.lean ====
/-
  Region 2, the body's run at a middle point: the block's sums are added to the running sums.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg2RunC.lean ====
/-
  Region 2, the body's run at the last point: the block's sums are added and the running sums are copied out to the two statistics windows.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Reg2.lean ====
/-
  Region 2: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg2RunA
import proofs.«121608_j10213432229998_1_alg».proof.Proof.K.Reg2RunB
import proofs.«121608_j10213432229998_1_alg».proof.Proof.K.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S5000x128.Idx) :
    ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S5000x128.size (by sl_kernel_rfl) y

def out2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S5000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y

def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y

def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cover2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S5000x128.size (by sl_kernel_rfl) y

def out2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S5000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y

def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y

def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cover2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S5000x128.size (by sl_kernel_rfl) y

def out2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S5000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cover2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y

def out2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y

def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk2_4 : Vec F S1x128 .f32 := VO2_4.read (Elt F) VO2_4.junk
def junk2_5 : Vec F S1x128 .f32 := VO2_5.read (Elt F) VO2_5.junk

/-- What the three output windows' buffers and the two running sums hold after the body at position n:
    the first point's run, a middle point's, or the last point's, the running sums taken from the point before. -/
def outsAt2 (c : Dev nD) : (n : ℕ) → n < cfg2.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩), junk2_4, junk2_5, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))) (Nat.zero_mod _) (by decide)
  | n + 1, hn =>
    if h1 : (n + 1) % 10 = 9 then
      (fun (h0 : ¬ (n + 1) % 10 = 0) => (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)) (by have hN : n + 1 < 10 := lt_of_lt_of_eq hn (show cfg2.N = 10 from N_2); omega)
    else
      (fun (h0 : ¬ (n + 1) % 10 = 0) => (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, junk2_4, junk2_5, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)) (by have hN : n + 1 < 10 := lt_of_lt_of_eq hn (show cfg2.N = 10 from N_2); omega)

theorem outsAt2_A (c : Dev nD) (t : Fin cfg2.N) (h0 : t.val % 10 = 0) (h1 : ¬t.val % 10 = 9) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), junk2_4, junk2_5, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; (try dsimp only at h0); have hN : n + 1 < 10 := lt_of_lt_of_eq hn (show cfg2.N = 10 from N_2); omega)

theorem outsAt2_B (c : Dev nD) (t : Fin cfg2.N) (h0 : ¬t.val % 10 = 0) (h1 : ¬t.val % 10 = 9) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, junk2_4, junk2_5, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 10 = 0) (h1 : t.val % 10 = 9) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-- The proof data of this pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h1 : t.val % 10 = 9
  · have h0 : ¬t.val % 10 = 0 := by omega
    have hz : t.val ≠ 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4_C t ((hcond2_1 t).mpr h1)], after2_4]
    rw [show (dat2 V c).leavesExact 5 t = owns (c : Thread nD τ) (ms2_5 t) fullShare ((dat2 V c).after 5 t) from by
      unfold Dat.leavesExact; rw [liveAt2_5_C t ((hcond2_1 t).mpr h1)], after2_5]
    rw [outsAt2_C V c t h0 h1]
    unfold out2_C_3 out2_C_4 out2_C_5 sout2_C_0 sout2_C_1; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _)
          · unfold owns; iexists _; isplitr
            swap; · iexact HS1
            ipureintro; exact View.read_writes_of_cover _ _ _ _ _ (scover2_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover2_C_4 c _ _ _ _ _ _ _ _ _ _ _ _ _ _ _ _ _ _ _ _ _ _ _ _)
    unfold owns; iexists _; isplitr
    swap; · iexact H5
    ipureintro; exact View.read_writes_of_cover _ _ _ _ _ (cover2_C_5 c _ _ _ _ _ _ _ _ _ _ _ _ _ _ _ _ _ _ _ _ _ _ _ _)
  · by_cases h0 : t.val % 10 = 0
    · have hz : t.val = 0 := by omega
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold out2_A_3 sout2_A_0 sout2_A_1; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_A_3 c _ _ _ _ _ _ _ _ _ _ _ _ _ _ _ _ _ _ _ _ _ _)
      isplitl [H4]; · iexists _; iexact H4
      iexists _; iexact H5
    · have hz : t.val ≠ 0 := by omega
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_3 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _ _ _ _)
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the entry invariant. -/
theorem hPhi0_2 (c : Dev nD) : (dat2 V c).Φ 0 = Pipeline.ΦA spec2 c := by
  rw [show (dat2 V c).Φ 0 = PhiS2 V c 0 (Nat.zero_le _) from rfl, PhiS2_zero V c 0 _ rfl]

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the running sums' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.Kernel.Hand

end
-- ==== Proof.K.Reg3.lean ====
/-
  Region 3: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S5000x128 := Rect.unit (s := S5000x128) ![0, 0] S5000x128.size inb_S5000x128_S5000x128_0_0
abbrev rR3 : Rect S1x128 := Rect.unit (s := S1x128) ![0, 0] S1x128.size inb_S1x128_S1x128_0_0
abbrev rW3 : Rect S128x128 := Rect.unit (s := S128x128) ![0, 0] S128x128.size inb_S128x128_S128x128_0_0
abbrev rB3 : Rect S128 := Rect.unit (s := S128) ![0] S128.size inb_S128_S128_0

/-- The output block after the body: one store over the whole block. -/
def out3_5 (x0 : Vec F S5000x128 .f32) (x1 : Vec F S1x128 .f32) (x2 : Vec F S1x128 .f32) (x3 : Vec F S128x128 .f32) (x4 : Vec F S128 .f32) : Vec F S5000x128 .f32 :=
  View.canon [⟨rA3, k3_pay1 (View.ld x0 rA3) (View.ld x1 rR3) (View.ld x2 rR3) (View.ld x3 rW3) (View.ld x4 rB3)⟩]

theorem cover3_5 (p0 : Vec F S5000x128 .f32) (y : S5000x128.Idx) :
    ∃ pc ∈ ([⟨rA3, p0⟩] : List (View.Piece (Elt F) S5000x128 .f32)), y ∈ pc.1.set :=
  View.cover_of_tiled [⟨rA3, p0⟩] S5000x128.size (by rfl) y

set_option maxHeartbeats 2000000 in
/-- The body on whole staging memrefs: the inputs keep their contents, the output ends at out3_5 of them. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__matmul2_relu_kernel i arg1 harg1 arg2 harg2 arg3 harg3 arg4 harg4 arg5 harg5 arg6 harg6) K := by
  simp only [cc3__matmul2_relu_kernel_eq_skeleton]; unfold cc3__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core c: the arrays as the region finds them; after the body each
    input's buffer at its block and the output's at out3_5 of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4S.lean ====
/-
  Region 4: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's first condition: the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The body's second condition: the grid coordinate is 9, the last. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4_C : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5_C : ∀ t : Fin cfg4.N, cond4_1 (grid4.coords t) → cfg4.idle 5 (grid4.coords t) = false := by decide +kernel

/-- One staging buffer of each output window, through which its contents are stated. -/
abbrev VO4_3 : View sig .tc .vmem S5000x128 .f32 := (Memref.whole cc4_stg3_0 : Memref sig .tc .vmem S5000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two running sums the body keeps between points: whole scoped buffers of its own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The rest of the scoped buffers, beside the two running sums. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The region's entry invariant with the two running sums as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

end Cert.Kernel.Hand

end
-- ==== Proof.K.Reg4RunA.lean ====
/-
  Region 4, the body's run at the first point: the running sums are set to zero before the block's sums are added.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg4RunB.lean ====
/-
  Region 4, the body's run at a middle point: the block's sums are added to the running sums.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg4RunC.lean ====
/-
  Region 4, the body's run at the last point: the block's sums are added and the running sums are copied out to the two statistics windows.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Reg4.lean ====
/-
  Region 4: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg4RunA
import proofs.«121608_j10213432229998_1_alg».proof.Proof.K.Reg4RunB
import proofs.«121608_j10213432229998_1_alg».proof.Proof.K.Reg4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover4_A_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S5000x128.Idx) :
    ∃ pc ∈ (kernelRun4_A c i arg1 harg1 arg2 harg2 arg3 harg3 arg4 harg4 arg5 harg5 arg6 harg6 arg7 harg7 arg8 harg8 hc0 hc1 x0 x1 x2).1, y ∈ pc.1.set :=
  View.cover_of_tiledL (kernelRun4_A c i arg1 harg1 arg2 harg2 arg3 harg3 arg4 harg4 arg5 harg5 arg6 harg6 arg7 harg7 arg8 harg8 hc0 hc1 x0 x1 x2).1 S5000x128.size (by sl_kernel_rfl) y

def out4_A_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S5000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 x0 x1 x2).1)

theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.1, y ∈ pc.1.set :=
  View.cover_of_tiledL (kernelRun4_A c i arg1 harg1 arg2 harg2 arg3 harg3 arg4 harg4 arg5 harg5 arg6 harg6 arg7 harg7 arg8 harg8 hc0 hc1 x0 x1 x2).2.1 S1x128.size (by sl_kernel_rfl) y

def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2).2.1)

theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.2.1, y ∈ pc.1.set :=
  View.cover_of_tiledL (kernelRun4_A c i arg1 harg1 arg2 harg2 arg3 harg3 arg4 harg4 arg5 harg5 arg6 harg6 arg7 harg7 arg8 harg8 hc0 hc1 x0 x1 x2).2.2.1 S1x128.size (by sl_kernel_rfl) y

def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2).2.2.1)

theorem cover4_B_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).1 S5000x128.size (by sl_kernel_rfl) y

def out4_B_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S5000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 x0 x1 x2 xs0 xs1).1)

theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.1 S1x128.size (by sl_kernel_rfl) y

def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 xs0 xs1).2.1)

theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.2.1 S1x128.size (by sl_kernel_rfl) y

def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 xs0 xs1).2.2.1)

theorem cover4_C_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).1 S5000x128.size (by sl_kernel_rfl) y

def out4_C_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S5000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 x0 x1 x2 xs0 xs1).1)

theorem cover4_C_4 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.1 S1x128.size (by sl_kernel_rfl) y

def out4_C_4 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 xs0 xs1).2.1)

theorem cover4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.1 S1x128.size (by sl_kernel_rfl) y

def out4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 xs0 xs1).2.2.1)

theorem scover4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 xs0 xs1).2.2.2.1)

theorem scover4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk4_4 : Vec F S1x128 .f32 := VO4_4.read (Elt F) VO4_4.junk
def junk4_5 : Vec F S1x128 .f32 := VO4_5.read (Elt F) VO4_5.junk

/-- What the three output windows' buffers and the two running sums hold after the body at position n:
    the first point's run, a middle point's, or the last point's, the running sums taken from the point before. -/
def outsAt4 (c : Dev nD) : (n : ℕ) → n < cfg4.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩), junk4_4, junk4_5, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩))) (Nat.zero_mod _) (by decide)
  | n + 1, hn =>
    if h1 : (n + 1) % 10 = 9 then
      (fun (h0 : ¬ (n + 1) % 10 = 0) => (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)) (by have hN : n + 1 < 10 := lt_of_lt_of_eq hn (show cfg4.N = 10 from N_4); omega)
    else
      (fun (h0 : ¬ (n + 1) % 10 = 0) => (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, junk4_4, junk4_5, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)) (by have hN : n + 1 < 10 := lt_of_lt_of_eq hn (show cfg4.N = 10 from N_4); omega)

theorem outsAt4_A (c : Dev nD) (t : Fin cfg4.N) (h0 : t.val % 10 = 0) (h1 : ¬t.val % 10 = 9) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), junk4_4, junk4_5, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (by exfalso; (try dsimp only at h0); have hN : n + 1 < 10 := lt_of_lt_of_eq hn (show cfg4.N = 10 from N_4); omega)

theorem outsAt4_B (c : Dev nD) (t : Fin cfg4.N) (h0 : ¬t.val % 10 = 0) (h1 : ¬t.val % 10 = 9) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, junk4_4, junk4_5, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 10 = 0) (h1 : t.val % 10 = 9) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 c) ∗ (∃ r, prngReg c r)) := by
  cases n with
  | zero => exact absurd rfl hz
  | succ n => rfl

/-- The proof data of this pipeline on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h1 : t.val % 10 = 9
  · have h0 : ¬t.val % 10 = 0 := by omega
    have hz : t.val ≠ 0 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4_C t ((hcond4_1 t).mpr h1)], after4_4]
    rw [show (dat4 V c).leavesExact 5 t = owns (c : Thread nD τ) (ms4_5 t) fullShare ((dat4 V c).after 5 t) from by
      unfold Dat.leavesExact; rw [liveAt4_5_C t ((hcond4_1 t).mpr h1)], after4_5]
    rw [outsAt4_C V c t h0 h1]
    unfold out4_C_3 out4_C_4 out4_C_5 sout4_C_0 sout4_C_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover4_C_4 c _ _ _ _ _ _ _ _ _ _ _ _ _ _ _ _ _ _ _ _ _ _ _ _)
    unfold owns; iexists _; isplitr
    swap; · iexact H5
    ipureintro; exact View.read_writes_of_cover _ _ _ _ _ (cover4_C_5 c _ _ _ _ _ _ _ _ _ _ _ _ _ _ _ _ _ _ _ _ _ _ _ _)
  · by_cases h0 : t.val % 10 = 0
    · have hz : t.val = 0 := by omega
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 sout4_A_0 sout4_A_1; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_A_3 c _ _ _ _ _ _ _ _ _ _ _ _ _ _ _ _ _ _ _ _ _ _)
      isplitl [H4]; · iexists _; iexact H4
      iexists _; iexact H5
    · have hz : t.val ≠ 0 := by omega
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_B_3 c _ _ _ _ _ _ _ _ _ _ _ _ _ _ _ _ _ _ _ _ _ _ _ _)
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Before the first point the invariant is the entry invariant. -/
theorem hPhi0_4 (c : Dev nD) : (dat4 V c).Φ 0 = Pipeline.ΦA spec4 c := by
  rw [show (dat4 V c).Φ 0 = PhiS4 V c 0 (Nat.zero_le _) from rfl, PhiS4_zero V c 0 _ rfl]

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the running sums' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.K.Reg5.lean ====
/-
  Region 5: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rA5 : Rect S5000x128 := Rect.unit (s := S5000x128) ![0, 0] S5000x128.size inb_S5000x128_S5000x128_0_0
abbrev rR5 : Rect S1x128 := Rect.unit (s := S1x128) ![0, 0] S1x128.size inb_S1x128_S1x128_0_0
abbrev rW5 : Rect S128x128 := Rect.unit (s := S128x128) ![0, 0] S128x128.size inb_S128x128_S128x128_0_0
abbrev rB5 : Rect S128 := Rect.unit (s := S128) ![0] S128.size inb_S128_S128_0

/-- The output block after the body: one store over the whole block. -/
def out5_5 (x0 : Vec F S5000x128 .f32) (x1 : Vec F S1x128 .f32) (x2 : Vec F S1x128 .f32) (x3 : Vec F S128x128 .f32) (x4 : Vec F S128 .f32) : Vec F S5000x128 .f32 :=
  View.canon [⟨rA5, k5_pay1 (View.ld x0 rA5) (View.ld x1 rR5) (View.ld x2 rR5) (View.ld x3 rW5) (View.ld x4 rB5)⟩]

theorem cover5_5 (p0 : Vec F S5000x128 .f32) (y : S5000x128.Idx) :
    ∃ pc ∈ ([⟨rA5, p0⟩] : List (View.Piece (Elt F) S5000x128 .f32)), y ∈ pc.1.set :=
  View.cover_of_tiled [⟨rA5, p0⟩] S5000x128.size (by rfl) y

set_option maxHeartbeats 2000000 in
/-- The body on whole staging memrefs: the inputs keep their contents, the output ends at out5_5 of them. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__matmul2_relu_kernel i arg1 harg1 arg2 harg2 arg3 harg3 arg4 harg4 arg5 harg5 arg6 harg6) K := by
  simp only [cc5__matmul2_relu_kernel_eq_skeleton]; unfold cc5__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core c: the arrays as the region finds them; after the body each
    input's buffer at its block and the output's at out5_5 of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6S.lean ====
/-
  Region 6: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The body's first condition: the grid coordinate is 0. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
/-- The body's second condition: the grid coordinate is 9, the last. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-- One staging buffer of each output window, through which its contents are stated. -/
abbrev VO6_3 : View sig .tc .vmem S5000x128 .f32 := (Memref.whole cc6_stg3_0 : Memref sig .tc .vmem S5000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
/-- The two running sums the body keeps between points: whole scoped buffers of its own. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The rest of the scoped buffers, beside the two running sums. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- The region's entry invariant with the two running sums as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ restBut6 c) ∗ (∃ r, prngReg c r)) := by
  unfold Pipeline.ΦA; rw [scopedRest6_split]; simp only [scM6_0, scM6_1, owns_whole]; try rfl

end Cert.Kernel.Hand

end
-- ==== Proof.K.Reg6RunA.lean ====
/-
  Region 6, the body's run at the first point: the running sums are set to zero before the block's sums are added.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg6RunB.lean ====
/-
  Region 6, the body's run at a middle point: the block's sums are added to the running sums.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.Reg6RunC.lean ====
/-
  Region 6, the body's run at the last point: the block's sums are added and the running sums are copied out to the two statistics windows.
  The stores the run makes into each buffer are found by the run itself, as lists of pieces, last first.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_C (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Reg6.lean ====
/-
  Region 6: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.K.Reg6RunA
import proofs.«121608_j10213432229998_1_alg».proof.Proof.K.Reg6RunB
import proofs.«121608_j10213432229998_1_alg».proof.Proof.K.Reg6RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S5000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S5000x128.size (by sl_kernel_rfl) y

def out6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S5000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)

theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y

def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)

theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y

def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)

theorem cover6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S5000x128.size (by sl_kernel_rfl) y

def out6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S5000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)

theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y

def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)

theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y

def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)

theorem cover6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S5000x128.size (by sl_kernel_rfl) y

def out6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S5000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)

theorem cover6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y

def out6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)

theorem cover6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y

def out6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)

theorem scover6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)

theorem scover6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk6_4 : Vec F S1x128 .f32 := VO6_4.read (Elt F) VO6_4.junk
def junk6_5 : Vec F S1x128 .f32 := VO6_5.read (Elt F) VO6_5.junk

/-- What the three output windows' buffers and the two running sums hold after the body at position n:
    the first point's run, a middle point's, or the last point's, the running sums taken from the point before. -/
def outsAt6 (c : Dev nD) : (n : ℕ) → n < cfg6.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), junk6_4, junk6_5, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩))) (Nat.zero_mod _) (by decide)
  | n + 1, hn =>
    if h1 : (n + 1) % 10 = 9 then
      (fun (h0 : ¬ (n + 1) % 10 = 0) => (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)) (by have hN : n + 1 < 10 := lt_of_lt_of_eq hn (show cfg6.N = 10 from N_6); omega)
    else
      (fun (h0 : ¬ (n + 1) % 10 = 0) => (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, junk6_4, junk6_5, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)) (by have hN : n + 1 < 10 := lt_of_lt_of_eq hn (show cfg6.N = 10 from N_6); omega)

theorem outsAt6_A (c : Dev nD) (t : Fin cfg6.N) (h0 : t.val % 10 = 0) (h1 : ¬t.val % 10 = 9) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), junk6_4, junk6_5, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (by exfalso; (try dsimp only at h0); have hN : n + 1 < 10 := lt_of_lt_of_eq hn (show cfg6.N = 10 from N_6); omega)

theorem outsAt6_B (c : Dev nD) (t : Fin cfg6.N) (h0 : ¬t.val % 10 = 0) (h1 : ¬t.val % 10 = 9) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, junk6_4, junk6_5, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt6_C (c : Dev nD) (t : Fin cfg6.N) (h0 : ¬t.val % 10 = 0) (h1 : t.val % 10 = 9) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2)) ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2)) ∗ restBut6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2)) ∗ restBut6 c) ∗ (∃ r, prngReg c r)) := by
  cases n with
  | zero => exact absurd rfl hz
  | succ n => rfl

/-- The proof data of this pipeline on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h1 : t.val % 10 = 9
  · have h0 : ¬t.val % 10 = 0 := by omega
    have hz : t.val ≠ 0 := by omega
    rw [show (dat6 V c).leavesExact 0 t = owns (c : Thread nD τ) (ms6_0 t) fullShare ((dat6 V c).after 0 t) from by
      unfold Dat.leavesExact; rw [liveAt6_0 t], after6_0]
    rw [show (dat6 V c).leavesExact 1 t = owns (c : Thread nD τ) (ms6_1 t) fullShare ((dat6 V c).after 1 t) from by
      unfold Dat.leavesExact; rw [liveAt6_1 t], after6_1]
    rw [show (dat6 V c).leavesExact 2 t = owns (c : Thread nD τ) (ms6_2 t) fullShare ((dat6 V c).after 2 t) from by
      unfold Dat.leavesExact; rw [liveAt6_2 t], after6_2]
    rw [show (dat6 V c).leavesExact 3 t = owns (c : Thread nD τ) (ms6_3 t) fullShare ((dat6 V c).after 3 t) from by
      unfold Dat.leavesExact; rw [liveAt6_3 t], after6_3]
    rw [show (dat6 V c).leavesExact 4 t = owns (c : Thread nD τ) (ms6_4 t) fullShare ((dat6 V c).after 4 t) from by
      unfold Dat.leavesExact; rw [liveAt6_4_C t ((hcond6_1 t).mpr h1)], after6_4]
    rw [show (dat6 V c).leavesExact 5 t = owns (c : Thread nD τ) (ms6_5 t) fullShare ((dat6 V c).after 5 t) from by
      unfold Dat.leavesExact; rw [liveAt6_5_C t ((hcond6_1 t).mpr h1)], after6_5]
    rw [outsAt6_C V c t h0 h1]
    unfold out6_C_3 out6_C_4 out6_C_5 sout6_C_0 sout6_C_1; (try dsimp only)
    rw [PhiS6_castSucc V c t, PhiS6_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_C_0 c _ _ _ _ _ _ _ _ _ _ _ _ _ _ _ _ _ _ _ _ _ _ _ _)
          · unfold owns; iexists _; isplitr
            swap; · iexact HS1
            ipureintro; exact View.read_writes_of_cover _ _ _ _ _ (scover6_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover6_C_4 c _ _ _ _ _ _ _ _ _ _ _ _ _ _ _ _ _ _ _ _ _ _ _ _)
    unfold owns; iexists _; isplitr
    swap; · iexact H5
    ipureintro; exact View.read_writes_of_cover _ _ _ _ _ (cover6_C_5 c _ _ _ _ _ _ _ _ _ _ _ _ _ _ _ _ _ _ _ _ _ _ _ _)
  · by_cases h0 : t.val % 10 = 0
    · have hz : t.val = 0 := by omega
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold out6_A_3 sout6_A_0 sout6_A_1; (try dsimp only)
      rw [PhiS6_castSucc V c t, PhiS6_zero V c _ _ hz, PhiA6_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _)
            · unfold owns; iexists _; isplitr
              swap; · iexact HS1
              ipureintro; exact View.read_writes_of_cover _ _ _ _ _ (scover6_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_A_3 c _ _ _ _ _ _ _ _ _ _ _ _ _ _ _ _ _ _ _ _ _ _)
      isplitl [H4]; · iexists _; iexact H4
      iexists _; iexact H5
    · have hz : t.val ≠ 0 := by omega
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold out6_B_3 sout6_B_0 sout6_B_1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _ _ _ _ _ _)
      isplitl [H4]; · iexists _; iexact H4
      iexists _; iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- Before the first point the invariant is the entry invariant. -/
theorem hPhi0_6 (c : Dev nD) : (dat6 V c).Φ 0 = Pipeline.ΦA spec6 c := by
  rw [show (dat6 V c).Φ 0 = PhiS6 V c 0 (Nat.zero_le _) from rfl, PhiS6_zero V c 0 _ rfl]

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the entry invariant back: the running sums' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.Kernel.Hand

end
-- ==== Proof.K.Reg7.lean ====
/-
  Region 7: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev rA7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rB7 : Rect S128 := Rect.unit (s := S128) ![0] S128.size inb_S128_S128_0

/-- The output block after the body: one store over the whole block. -/
def out7_5 (x0 : Vec F S5000x128 .f32) (x1 : Vec F S1x128 .f32) (x2 : Vec F S1x128 .f32) (x3 : Vec F S128x128 .f32) (x4 : Vec F S128 .f32) : Vec F S5000x128 .f32 :=
  View.canon [⟨rA7, k7_pay1 (View.ld x0 rA7) (View.ld x1 rR7) (View.ld x2 rR7) (View.ld x3 rW7) (View.ld x4 rB7)⟩]

theorem cover7_5 (p0 : Vec F S5000x128 .f32) (y : S5000x128.Idx) :
    ∃ pc ∈ ([⟨rA7, p0⟩] : List (View.Piece (Elt F) S5000x128 .f32)), y ∈ pc.1.set :=
  View.cover_of_tiled [⟨rA7, p0⟩] S5000x128.size (by rfl) y

set_option maxHeartbeats 2000000 in
/-- The body on whole staging memrefs: the inputs keep their contents, the output ends at out7_5 of them. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__matmul2_relu_kernel i arg1 harg1 arg2 harg2 arg3 harg3 arg4 harg4 arg5 harg5 arg6 harg6) K := by
  simp only [cc7__matmul2_relu_kernel_eq_skeleton]; unfold cc7__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of this pipeline on core c: the arrays as the region finds them; after the body each
    input's buffer at its block and the output's at out7_5 of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/-
  Region 8: the read-out, one block of 5000 rows at a grid point. The body reads the 5000 x 128
  rows, the first weights and bias, the 128 x 1 second weights and its one bias, and stores
  max(rows · W1 + b1, 0) · W2 + b2 over the whole 5000 x 1 output block.
  Stated at any contents V of the TensorCore's buffers at the region's entry.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev rI8_0 : Rect S5000x128 := Rect.unit (s := S5000x128) ![0, 0] S5000x128.size inb_S5000x128_S5000x128_0_0
abbrev rI8_1 : Rect S128x128 := Rect.unit (s := S128x128) ![0, 0] S128x128.size inb_S128x128_S128x128_0_0
abbrev rI8_2 : Rect S128 := Rect.unit (s := S128) ![0] S128.size inb_S128_S128_0
abbrev rI8_3 : Rect S128x1 := Rect.unit (s := S128x1) ![0, 0] S128x1.size inb_S128x1_S128x1_0_0
abbrev rI8_4 : Rect S1 := Rect.unit (s := S1) ![0] S1.size inb_S1_S1_0
abbrev rO8 : Rect S5000x1 := Rect.unit (s := S5000x1) ![0, 0] S5000x1.size inb_S5000x1_S5000x1_0_0

/-- The output block after the body: one store over the whole block. -/
def out8_5 (x0 : Vec F S5000x128 .f32) (x1 : Vec F S128x128 .f32) (x2 : Vec F S128 .f32) (x3 : Vec F S128x1 .f32) (x4 : Vec F S1 .f32) : Vec F S5000x1 .f32 :=
  View.canon [⟨rO8, k8_pay1 (View.ld x0 rI8_0) (View.ld x1 rI8_1) (View.ld x2 rI8_2) (View.ld x3 rI8_3) (View.ld x4 rI8_4)⟩]

theorem cover8_5 (p0 : Vec F S5000x1 .f32) (y : S5000x1.Idx) :
    ∃ pc ∈ ([⟨rO8, p0⟩] : List (View.Piece (Elt F) S5000x1 .f32)), y ∈ pc.1.set :=
  View.cover_of_tiled [⟨rO8, p0⟩] S5000x1.size (by rfl) y

set_option maxHeartbeats 2000000 in
/-- The body on whole staging memrefs: the inputs keep their contents, the output ends at out8_5 of them. -/
theorem sound_kernel8 (c : Dev nD) (E : Set ℕ) (i : grid8.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S5000x1 .f32) (harg6 : arg6.IsWhole)
    (x0 : Vec F S5000x128 .f32) (x1 : Vec F S128x128 .f32) (x2 : Vec F S128 .f32) (x3 : Vec F S128x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__fc_kernel i arg1 harg1 arg2 harg2 arg3 harg3 arg4 harg4 arg5 harg5 arg6 harg6) K := by
  simp only [cc8__fc_kernel_eq_skeleton]; unfold cc8__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of this pipeline on core c: the arrays as the region finds them; after the body each
    input's buffer at its block and the output's at out8_5 of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Run.lean ====
/-
  The whole program as a run: the contents of the TensorCore's buffers at each boundary between a
  stretch of host operations and a kernel region, from the launch memory to the return; each region
  as a segment entered from the boundary before it and left at the one after it; and the run itself:
  every weakly fair execution terminates, and at the end every unscoped buffer holds the last boundary's contents.
-/
import proofs.«121608_j10213432229998_1_alg».proof.Proof.Gen.Kernel.Launch
import proofs.«121608_j10213432229998_1_alg».proof.Proof.Gen.Kernel.Skeleton
import proofs.«121608_j10213432229998_1_alg».proof.Proof.Gen.Kernel.Points
import proofs.«121608_j10213432229998_1_alg».proof.Proof.Gen.Kernel.Regions
import proofs.«121608_j10213432229998_1_alg».proof.Proof.K.Reg0
import proofs.«121608_j10213432229998_1_alg».proof.Proof.K.Reg1
import proofs.«121608_j10213432229998_1_alg».proof.Proof.K.Reg2
import proofs.«121608_j10213432229998_1_alg».proof.Proof.K.Reg3
import proofs.«121608_j10213432229998_1_alg».proof.Proof.K.Reg4
import proofs.«121608_j10213432229998_1_alg».proof.Proof.K.Reg5
import proofs.«121608_j10213432229998_1_alg».proof.Proof.K.Reg6
import proofs.«121608_j10213432229998_1_alg».proof.Proof.K.Reg7
import proofs.«121608_j10213432229998_1_alg».proof.Proof.K.Reg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev X1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev X3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (X3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = X3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev X5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (X5 m ρ) c).arrAt w cfg2.N
theorem W6_arr (c : Dev nD) (w : Fin cfg2.W) :
    W6 m ρ c (Proc.devRef .tc (Pipeline.arrRef spec2 w)) = (dat2 (X5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (X5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = X5 m ρ c b :=
  fun b hb => W6_of_ne m ρ c b fun w e => hb (Finset.mem_image.mpr ⟨w, Finset.mem_univ _, e⟩)

/-- After the host stretch before region 3. -/
abbrev W7 : Dev nD → Valuation τ sig (Elt F) := fun c => StableHlo.after hostOps3 (W6 m ρ c)
abbrev X7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (X7 m ρ) c).arrAt w cfg3.N
theorem W8_arr (c : Dev nD) (w : Fin cfg3.W) :
    W8 m ρ c (Proc.devRef .tc (Pipeline.arrRef spec3 w)) = (dat3 (X7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev X8 : (c : Dev nD) → (b : Ref sig .tc) → Buf (Elt F) ((c : Thread nD τ).loc b) := fun c b => W8 m ρ c b
theorem hF3 (c : Dev nD) (w : Fin cfg3.W) : (dat3 (X7 m ρ) c).arrAt w cfg3.N = X8 m ρ c (Pipeline.arrRef spec3 w) :=
  (W8_arr m ρ c w).symm
theorem hrest3 (c : Dev nD) : ∀ b, b ∉ Finset.univ.image (Pipeline.arrRef spec3) → X8 m ρ c b = X7 m ρ c b :=
  fun b hb => W8_of_ne m ρ c b fun w e => hb (Finset.mem_image.mpr ⟨w, Finset.mem_univ _, e⟩)

/-- After the host stretch before region 4. -/
abbrev W9 : Dev nD → Valuation τ sig (Elt F) := fun c => StableHlo.after hostOps4 (W8 m ρ c)
abbrev X9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (X9 m ρ) c).arrAt w cfg4.N
theorem W10_arr (c : Dev nD) (w : Fin cfg4.W) :
    W10 m ρ c (Proc.devRef .tc (Pipeline.arrRef spec4 w)) = (dat4 (X9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev X10 : (c : Dev nD) → (b : Ref sig .tc) → Buf (Elt F) ((c : Thread nD τ).loc b) := fun c b => W10 m ρ c b
theorem hF4 (c : Dev nD) (w : Fin cfg4.W) : (dat4 (X9 m ρ) c).arrAt w cfg4.N = X10 m ρ c (Pipeline.arrRef spec4 w) :=
  (W10_arr m ρ c w).symm
theorem hrest4 (c : Dev nD) : ∀ b, b ∉ Finset.univ.image (Pipeline.arrRef spec4) → X10 m ρ c b = X9 m ρ c b :=
  fun b hb => W10_of_ne m ρ c b fun w e => hb (Finset.mem_image.mpr ⟨w, Finset.mem_univ _, e⟩)

/-- After the host stretch before region 5. -/
abbrev W11 : Dev nD → Valuation τ sig (Elt F) := fun c => StableHlo.after hostOps5 (W10 m ρ c)
abbrev X11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (X11 m ρ) c).arrAt w cfg5.N
theorem W12_arr (c : Dev nD) (w : Fin cfg5.W) :
    W12 m ρ c (Proc.devRef .tc (Pipeline.arrRef spec5 w)) = (dat5 (X11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev X12 : (c : Dev nD) → (b : Ref sig .tc) → Buf (Elt F) ((c : Thread nD τ).loc b) := fun c b => W12 m ρ c b
theorem hF5 (c : Dev nD) (w : Fin cfg5.W) : (dat5 (X11 m ρ) c).arrAt w cfg5.N = X12 m ρ c (Pipeline.arrRef spec5 w) :=
  (W12_arr m ρ c w).symm
theorem hrest5 (c : Dev nD) : ∀ b, b ∉ Finset.univ.image (Pipeline.arrRef spec5) → X12 m ρ c b = X11 m ρ c b :=
  fun b hb => W12_of_ne m ρ c b fun w e => hb (Finset.mem_image.mpr ⟨w, Finset.mem_univ _, e⟩)

/-- After the host stretch before region 6. -/
abbrev W13 : Dev nD → Valuation τ sig (Elt F) := fun c => StableHlo.after hostOps6 (W12 m ρ c)
abbrev X13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (X13 m ρ) c).arrAt w cfg6.N
theorem W14_arr (c : Dev nD) (w : Fin cfg6.W) :
    W14 m ρ c (Proc.devRef .tc (Pipeline.arrRef spec6 w)) = (dat6 (X13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev X14 : (c : Dev nD) → (b : Ref sig .tc) → Buf (Elt F) ((c : Thread nD τ).loc b) := fun c b => W14 m ρ c b
theorem hF6 (c : Dev nD) (w : Fin cfg6.W) : (dat6 (X13 m ρ) c).arrAt w cfg6.N = X14 m ρ c (Pipeline.arrRef spec6 w) :=
  (W14_arr m ρ c w).symm
theorem hrest6 (c : Dev nD) : ∀ b, b ∉ Finset.univ.image (Pipeline.arrRef spec6) → X14 m ρ c b = X13 m ρ c b :=
  fun b hb => W14_of_ne m ρ c b fun w e => hb (Finset.mem_image.mpr ⟨w, Finset.mem_univ _, e⟩)

/-- After the host stretch before region 7. -/
abbrev W15 : Dev nD → Valuation τ sig (Elt F) := fun c => StableHlo.after hostOps7 (W14 m ρ c)
abbrev X15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (X15 m ρ) c).arrAt w cfg7.N
theorem W16_arr (c : Dev nD) (w : Fin cfg7.W) :
    W16 m ρ c (Proc.devRef .tc (Pipeline.arrRef spec7 w)) = (dat7 (X15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev X16 : (c : Dev nD) → (b : Ref sig .tc) → Buf (Elt F) ((c : Thread nD τ).loc b) := fun c b => W16 m ρ c b
theorem hF7 (c : Dev nD) (w : Fin cfg7.W) : (dat7 (X15 m ρ) c).arrAt w cfg7.N = X16 m ρ c (Pipeline.arrRef spec7 w) :=
  (W16_arr m ρ c w).symm
theorem hrest7 (c : Dev nD) : ∀ b, b ∉ Finset.univ.image (Pipeline.arrRef spec7) → X16 m ρ c b = X15 m ρ c b :=
  fun b hb => W16_of_ne m ρ c b fun w e => hb (Finset.mem_image.mpr ⟨w, Finset.mem_univ _, e⟩)

/-- At region 8's exit: its arrays at what the pipeline leaves, every other buffer as entered. -/
def W17 (c : Dev nD) : Valuation τ sig (Elt F) :=
  Pipeline.withArrays spec8 c (W16 m ρ c) fun w => (dat8 (X16 m ρ) c).arrAt w cfg8.N
theorem W17_arr (c : Dev nD) (w : Fin cfg8.W) :
    W17 m ρ c (Proc.devRef .tc (Pipeline.arrRef spec8 w)) = (dat8 (X16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
abbrev X17 : (c : Dev nD) → (b : Ref sig .tc) → Buf (Elt F) ((c : Thread nD τ).loc b) := fun c b => W17 m ρ c b
theorem hF8 (c : Dev nD) (w : Fin cfg8.W) : (dat8 (X16 m ρ) c).arrAt w cfg8.N = X17 m ρ c (Pipeline.arrRef spec8 w) :=
  (W17_arr m ρ c w).symm
theorem hrest8 (c : Dev nD) : ∀ b, b ∉ Finset.univ.image (Pipeline.arrRef spec8) → X17 m ρ c b = X16 m ρ c b :=
  fun b hb => W17_of_ne m ρ c b fun w e => hb (Finset.mem_image.mpr ⟨w, Finset.mem_univ _, e⟩)

/-! ## The proof data family and the thread state -/

abbrev admH : (p : Fin 9) → (pcfgs (F := F) p).Adm := fun p => (cfgs p).toPCfg_adm
/-- Every pipeline's proof data, each at its region's entry contents. -/
def pdatsH : (p : Fin 9) → (c : Dev nD) → Dat τ (Elt F) Unit ℕ (UR sig nD τ) ℕ (Pipeline.pin (pcfgs (F := F)) admH p) c
  | ⟨0, _⟩ => fun c => dat0 (X1 m ρ) c
  | ⟨1, _⟩ => fun c => dat1 (X3 m ρ) c
  | ⟨2, _⟩ => fun c => dat2 (X5 m ρ) c
  | ⟨3, _⟩ => fun c => dat3 (X7 m ρ) c
  | ⟨4, _⟩ => fun c => dat4 (X9 m ρ) c
  | ⟨5, _⟩ => fun c => dat5 (X11 m ρ) c
  | ⟨6, _⟩ => fun c => dat6 (X13 m ρ) c
  | ⟨7, _⟩ => fun c => dat7 (X15 m ρ) c
  | ⟨8, _⟩ => fun c => dat8 (X16 m ρ) c
abbrev VV : Variants := Variants.none
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VV LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TT (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at the boundary before it, left at the one after. -/
def reg0 : Pipeline.RegionSeg (pcfgs (F := F)) admH (pdatsH m ρ) () defs₀ VV LL lvv 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ LL lvv 0 fun _ _ => rfl
  pre c := iprop(StableHlo.held (c : Thread nD τ) (Pipeline.ucRefs τ sig) (W1 m ρ c) ∗ RR c)
  post c := iprop(StableHlo.held (c : Thread nD τ) (Pipeline.ucRefs τ sig) (W2 m ρ c) ∗ RR c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from (hPhi0_0 (X1 m ρ) c)]; unfold Pipeline.ΦA
    iintro ⟨Hp, -, Hr⟩
    isplitl [Hr]; · iexact Hr
    iexact Hp
  hout c := by
    rw [Pipeline.ownSems0_none]
    refine (hout0 (X1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (X1 m ρ c) (X2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def reg1 : Pipeline.RegionSeg (pcfgs (F := F)) admH (pdatsH m ρ) () defs₀ VV LL lvv 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ LL lvv 1 fun _ _ => rfl
  pre c := iprop(StableHlo.held (c : Thread nD τ) (Pipeline.ucRefs τ sig) (W3 m ρ c) ∗ RR c)
  post c := iprop(StableHlo.held (c : Thread nD τ) (Pipeline.ucRefs τ sig) (W4 m ρ c) ∗ RR c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (X3 m ρ c) (X4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def reg2 : Pipeline.RegionSeg (pcfgs (F := F)) admH (pdatsH m ρ) () defs₀ VV LL lvv 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ LL lvv 2 fun _ _ => rfl
  pre c := iprop(StableHlo.held (c : Thread nD τ) (Pipeline.ucRefs τ sig) (W5 m ρ c) ∗ RR c)
  post c := iprop(StableHlo.held (c : Thread nD τ) (Pipeline.ucRefs τ sig) (W6 m ρ c) ∗ RR c)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from (hPhi0_2 (X5 m ρ) c)]; unfold Pipeline.ΦA
    iintro ⟨Hp, -, Hr⟩
    isplitl [Hr]; · iexact Hr
    iexact Hp
  hout c := by
    rw [Pipeline.ownSems0_none]
    refine (hout2 (X5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (X5 m ρ c) (X6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def reg3 : Pipeline.RegionSeg (pcfgs (F := F)) admH (pdatsH m ρ) () defs₀ VV LL lvv 3 where
  win := launch3.win.to₀
  block_pos := launch3.block_pos
  stage_whole := launch3.stage_whole
  K := PEmpty
  osem k := k.elim
  ho := Pipeline.OwnSemFacts.none _
  hbody c := (body_obligation3 (X7 m ρ) c).loose
  hwaits := Pipeline.hwaits_of_owed_zero _ _ _ _ LL lvv 3 fun _ _ => rfl
  pre c := iprop(StableHlo.held (c : Thread nD τ) (Pipeline.ucRefs τ sig) (W7 m ρ c) ∗ RR c)
  post c := iprop(StableHlo.held (c : Thread nD τ) (Pipeline.ucRefs τ sig) (W8 m ρ c) ∗ RR c)
  X c := iprop(∃ r, prngReg c r)
  Y c := iprop(∃ r, prngReg c r)
  Z c := Pipeline.unscopedRest (Ix := Unit) (Name := ℕ) (U := UR sig nD τ) (Lvl := ℕ) spec3 c (X7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (X7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdatsH m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (X7 m ρ c) (X8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def reg4 : Pipeline.RegionSeg (pcfgs (F := F)) admH (pdatsH m ρ) () defs₀ VV LL lvv 4 where
  win := launch4.win.to₀
  block_pos := launch4.block_pos
  stage_whole := launch4.stage_whole
  K := PEmpty
  osem k := k.elim
  ho := Pipeline.OwnSemFacts.none _
  hbody c := (body_obligation4 (X9 m ρ) c).loose
  hwaits := Pipeline.hwaits_of_owed_zero _ _ _ _ LL lvv 4 fun _ _ => rfl
  pre c := iprop(StableHlo.held (c : Thread nD τ) (Pipeline.ucRefs τ sig) (W9 m ρ c) ∗ RR c)
  post c := iprop(StableHlo.held (c : Thread nD τ) (Pipeline.ucRefs τ sig) (W10 m ρ c) ∗ RR c)
  X c := iprop(∃ r, prngReg c r)
  Y c := iprop(∃ r, prngReg c r)
  Z c := Pipeline.unscopedRest (Ix := Unit) (Name := ℕ) (U := UR sig nD τ) (Lvl := ℕ) spec4 c (X9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (X9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from (hPhi0_4 (X9 m ρ) c)]; unfold Pipeline.ΦA
    iintro ⟨Hp, -, Hr⟩
    isplitl [Hr]; · iexact Hr
    iexact Hp
  hout c := by
    rw [Pipeline.ownSems0_none]
    refine (hout4 (X9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (X9 m ρ c) (X10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the one after. -/
def reg5 : Pipeline.RegionSeg (pcfgs (F := F)) admH (pdatsH m ρ) () defs₀ VV LL lvv 5 where
  win := launch5.win.to₀
  block_pos := launch5.block_pos
  stage_whole := launch5.stage_whole
  K := PEmpty
  osem k := k.elim
  ho := Pipeline.OwnSemFacts.none _
  hbody c := (body_obligation5 (X11 m ρ) c).loose
  hwaits := Pipeline.hwaits_of_owed_zero _ _ _ _ LL lvv 5 fun _ _ => rfl
  pre c := iprop(StableHlo.held (c : Thread nD τ) (Pipeline.ucRefs τ sig) (W11 m ρ c) ∗ RR c)
  post c := iprop(StableHlo.held (c : Thread nD τ) (Pipeline.ucRefs τ sig) (W12 m ρ c) ∗ RR c)
  X c := iprop(∃ r, prngReg c r)
  Y c := iprop(∃ r, prngReg c r)
  Z c := Pipeline.unscopedRest (Ix := Unit) (Name := ℕ) (U := UR sig nD τ) (Lvl := ℕ) spec5 c (X11 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (X11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdatsH m ρ 5 c).Φ (Fin.last _) = Pipeline.ΦA spec5 c from rfl]
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (X11 m ρ c) (X12 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the one after. -/
def reg6 : Pipeline.RegionSeg (pcfgs (F := F)) admH (pdatsH m ρ) () defs₀ VV LL lvv 6 where
  win := launch6.win.to₀
  block_pos := launch6.block_pos
  stage_whole := launch6.stage_whole
  K := PEmpty
  osem k := k.elim
  ho := Pipeline.OwnSemFacts.none _
  hbody c := (body_obligation6 (X13 m ρ) c).loose
  hwaits := Pipeline.hwaits_of_owed_zero _ _ _ _ LL lvv 6 fun _ _ => rfl
  pre c := iprop(StableHlo.held (c : Thread nD τ) (Pipeline.ucRefs τ sig) (W13 m ρ c) ∗ RR c)
  post c := iprop(StableHlo.held (c : Thread nD τ) (Pipeline.ucRefs τ sig) (W14 m ρ c) ∗ RR c)
  X c := iprop(∃ r, prngReg c r)
  Y c := iprop(∃ r, prngReg c r)
  Z c := Pipeline.unscopedRest (Ix := Unit) (Name := ℕ) (U := UR sig nD τ) (Lvl := ℕ) spec6 c (X13 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (X13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 6 c).Φ 0 = Pipeline.ΦA spec6 c from (hPhi0_6 (X13 m ρ) c)]; unfold Pipeline.ΦA
    iintro ⟨Hp, -, Hr⟩
    isplitl [Hr]; · iexact Hr
    iexact Hp
  hout c := by
    rw [Pipeline.ownSems0_none]
    refine (hout6 (X13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (X13 m ρ c) (X14 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the boundary before it, left at the one after. -/
def reg7 : Pipeline.RegionSeg (pcfgs (F := F)) admH (pdatsH m ρ) () defs₀ VV LL lvv 7 where
  win := launch7.win.to₀
  block_pos := launch7.block_pos
  stage_whole := launch7.stage_whole
  K := PEmpty
  osem k := k.elim
  ho := Pipeline.OwnSemFacts.none _
  hbody c := (body_obligation7 (X15 m ρ) c).loose
  hwaits := Pipeline.hwaits_of_owed_zero _ _ _ _ LL lvv 7 fun _ _ => rfl
  pre c := iprop(StableHlo.held (c : Thread nD τ) (Pipeline.ucRefs τ sig) (W15 m ρ c) ∗ RR c)
  post c := iprop(StableHlo.held (c : Thread nD τ) (Pipeline.ucRefs τ sig) (W16 m ρ c) ∗ RR c)
  X c := iprop(∃ r, prngReg c r)
  Y c := iprop(∃ r, prngReg c r)
  Z c := Pipeline.unscopedRest (Ix := Unit) (Name := ℕ) (U := UR sig nD τ) (Lvl := ℕ) spec7 c (X15 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (X15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none]
    rw [show (pdatsH m ρ 7 c).Φ (Fin.last _) = Pipeline.ΦA spec7 c from rfl]
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (X15 m ρ c) (X16 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the boundary before it, left at the one after. -/
def reg8 : Pipeline.RegionSeg (pcfgs (F := F)) admH (pdatsH m ρ) () defs₀ VV LL lvv 8 where
  win := launch8.win.to₀
  block_pos := launch8.block_pos
  stage_whole := launch8.stage_whole
  K := PEmpty
  osem k := k.elim
  ho := Pipeline.OwnSemFacts.none _
  hbody c := (body_obligation8 (X16 m ρ) c).loose
  hwaits := Pipeline.hwaits_of_owed_zero _ _ _ _ LL lvv 8 fun _ _ => rfl
  pre c := iprop(StableHlo.held (c : Thread nD τ) (Pipeline.ucRefs τ sig) (W16 m ρ c) ∗ RR c)
  post c := iprop(StableHlo.held (c : Thread nD τ) (Pipeline.ucRefs τ sig) (W17 m ρ c) ∗ RR c)
  X c := iprop(∃ r, prngReg c r)
  Y c := iprop(∃ r, prngReg c r)
  Z c := Pipeline.unscopedRest (Ix := Unit) (Name := ℕ) (U := UR sig nD τ) (Lvl := ℕ) spec8 c (X16 m ρ c)
  hentry c := by
    rw [Pipeline.ownSems0_none]
    have hsplit := Pipeline.arrays_of_unscopedBufs (p := 8) (pcfgs (F := F)) admH (pdatsH m ρ) launch8.win launch8.arr_whole c
      ((pdatsH m ρ 8 c).share_full fun _ => rfl) (X16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 8 c).Φ 0 = Pipeline.ΦA spec8 c from rfl]; unfold Pipeline.ΦA
    iintro ⟨Hp, -, Hr⟩
    isplitl [Hr]; · iexact Hr
    iexact Hp
  hout c := by
    rw [Pipeline.ownSems0_none]
    rw [show (pdatsH m ρ 8 c).Φ (Fin.last _) = Pipeline.ΦA spec8 c from rfl]
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m ρ) ((pdatsH m ρ 8 c).share_full fun _ => rfl)
      (X16 m ρ c) (X17 m ρ c) ((pdatsH m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ VV LL lvv) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ),
    .host (hsegH hostOps5 hostOps5_sub hostOps5_fresh (W10 m ρ)),
    .region (reg5 m ρ),
    .host (hsegH hostOps6 hostOps6_sub hostOps6_fresh (W12 m ρ)),
    .region (reg6 m ρ),
    .host (hsegH hostOps7 hostOps7_sub hostOps7_fresh (W14 m ρ)),
    .region (reg7 m ρ),
    .region (reg8 m ρ) ]

set_option backward.isDefEq.respectTransparency.types false in
set_option maxHeartbeats 4000000 in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit_dev (pcfgs (F := F)) admH (pdatsH m ρ) () cellOf_inj emb₁ defs₀ VV LL lvv m ρ main (fun _ => segsH m ρ)
    (fun c Q => by
      rewrite [main_chain c, Seg.run_eq_chain,
        show (segsH m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()) ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := TT m ρ)
    (hch := fun c => ⟨.rfl, .rfl, .rfl, .rfl, .rfl, .rfl, .rfl, .rfl, .rfl, .rfl, .rfl, .rfl, .rfl, .rfl, .rfl, .rfl, .rfl, by
      show iprop(StableHlo.held (c : Thread nD τ) (Pipeline.ucRefs τ sig) (W17 m ρ c) ∗ RR c)
        ⊢ iprop(TT m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LL lvv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

end Cert.Kernel.Hand

end
-- ==== Proof.K.Args.lean ====
/-
  No stretch of host operations and no region writes an argument array: at every boundary of the run each
  argument holds its launch contents (the last region reads four of them through input windows, which the
  pipeline leaves as it found them). Hence the program's frame: it terminates, and its arguments end unchanged.
-/
import proofs.«121608_j10213432229998_1_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem W4_arg0 : W4 m ρ c (Proc.devRef .tc main_arg0) = (m ((c : Thread nD τ).loc main_arg0)) :=
  ((W4_of_ne m ρ c main_arg0 (by decide)).trans ((StableHlo.after_of_writes_sub hostOps1 (W2 m ρ c) hostOps1_writes (by decide : main_arg0 ∉ hostOps1_W)).trans ((W2_of_ne m ρ c main_arg0 (by decide)).trans (StableHlo.after_of_writes_sub hostOps0 (W0 m ρ c) hostOps0_writes (by decide : main_arg0 ∉ hostOps0_W)))))
theorem W8_arg0 : W8 m ρ c (Proc.devRef .tc main_arg0) = (m ((c : Thread nD τ).loc main_arg0)) :=
  (((W8_of_ne m ρ c main_arg0 (by decide)).trans ((StableHlo.after_of_writes_sub hostOps3 (W6 m ρ c) hostOps3_writes (by decide : main_arg0 ∉ hostOps3_W)).trans ((W6_of_ne m ρ c main_arg0 (by decide)).trans (StableHlo.after_of_writes_sub hostOps2 (W4 m ρ c) hostOps2_writes (by decide : main_arg0 ∉ hostOps2_W)))))).trans (W4_arg0 m ρ c)
theorem W12_arg0 : W12 m ρ c (Proc.devRef .tc main_arg0) = (m ((c : Thread nD τ).loc main_arg0)) :=
  (((W12_of_ne m ρ c main_arg0 (by decide)).trans ((StableHlo.after_of_writes_sub hostOps5 (W10 m ρ c) hostOps5_writes (by decide : main_arg0 ∉ hostOps5_W)).trans ((W10_of_ne m ρ c main_arg0 (by decide)).trans (StableHlo.after_of_writes_sub hostOps4 (W8 m ρ c) hostOps4_writes (by decide : main_arg0 ∉ hostOps4_W)))))).trans (W8_arg0 m ρ c)
theorem W16_arg0 : W16 m ρ c (Proc.devRef .tc main_arg0) = (m ((c : Thread nD τ).loc main_arg0)) :=
  (((W16_of_ne m ρ c main_arg0 (by decide)).trans ((StableHlo.after_of_writes_sub hostOps7 (W14 m ρ c) hostOps7_writes (by decide : main_arg0 ∉ hostOps7_W)).trans ((W14_of_ne m ρ c main_arg0 (by decide)).trans (StableHlo.after_of_writes_sub hostOps6 (W12 m ρ c) hostOps6_writes (by decide : main_arg0 ∉ hostOps6_W)))))).trans (W12_arg0 m ρ c)
theorem W17_arg0 : W17 m ρ c (Proc.devRef .tc main_arg0) = (m ((c : Thread nD τ).loc main_arg0)) :=
  ((W17_of_ne m ρ c main_arg0 (by decide))).trans (W16_arg0 m ρ c)
theorem W4_arg1 : W4 m ρ c (Proc.devRef .tc main_arg1) = (m ((c : Thread nD τ).loc main_arg1)) :=
  ((W4_of_ne m ρ c main_arg1 (by decide)).trans ((StableHlo.after_of_writes_sub hostOps1 (W2 m ρ c) hostOps1_writes (by decide : main_arg1 ∉ hostOps1_W)).trans ((W2_of_ne m ρ c main_arg1 (by decide)).trans (StableHlo.after_of_writes_sub hostOps0 (W0 m ρ c) hostOps0_writes (by decide : main_arg1 ∉ hostOps0_W)))))
theorem W8_arg1 : W8 m ρ c (Proc.devRef .tc main_arg1) = (m ((c : Thread nD τ).loc main_arg1)) :=
  (((W8_of_ne m ρ c main_arg1 (by decide)).trans ((StableHlo.after_of_writes_sub hostOps3 (W6 m ρ c) hostOps3_writes (by decide : main_arg1 ∉ hostOps3_W)).trans ((W6_of_ne m ρ c main_arg1 (by decide)).trans (StableHlo.after_of_writes_sub hostOps2 (W4 m ρ c) hostOps2_writes (by decide : main_arg1 ∉ hostOps2_W)))))).trans (W4_arg1 m ρ c)
theorem W12_arg1 : W12 m ρ c (Proc.devRef .tc main_arg1) = (m ((c : Thread nD τ).loc main_arg1)) :=
  (((W12_of_ne m ρ c main_arg1 (by decide)).trans ((StableHlo.after_of_writes_sub hostOps5 (W10 m ρ c) hostOps5_writes (by decide : main_arg1 ∉ hostOps5_W)).trans ((W10_of_ne m ρ c main_arg1 (by decide)).trans (StableHlo.after_of_writes_sub hostOps4 (W8 m ρ c) hostOps4_writes (by decide : main_arg1 ∉ hostOps4_W)))))).trans (W8_arg1 m ρ c)
theorem W16_arg1 : W16 m ρ c (Proc.devRef .tc main_arg1) = (m ((c : Thread nD τ).loc main_arg1)) :=
  (((W16_of_ne m ρ c main_arg1 (by decide)).trans ((StableHlo.after_of_writes_sub hostOps7 (W14 m ρ c) hostOps7_writes (by decide : main_arg1 ∉ hostOps7_W)).trans ((W14_of_ne m ρ c main_arg1 (by decide)).trans (StableHlo.after_of_writes_sub hostOps6 (W12 m ρ c) hostOps6_writes (by decide : main_arg1 ∉ hostOps6_W)))))).trans (W12_arg1 m ρ c)
theorem W17_arg1 : W17 m ρ c (Proc.devRef .tc main_arg1) = (m ((c : Thread nD τ).loc main_arg1)) :=
  ((W17_of_ne m ρ c main_arg1 (by decide))).trans (W16_arg1 m ρ c)
theorem W4_arg2 : W4 m ρ c (Proc.devRef .tc main_arg2) = (m ((c : Thread nD τ).loc main_arg2)) :=
  ((W4_of_ne m ρ c main_arg2 (by decide)).trans ((StableHlo.after_of_writes_sub hostOps1 (W2 m ρ c) hostOps1_writes (by decide : main_arg2 ∉ hostOps1_W)).trans ((W2_of_ne m ρ c main_arg2 (by decide)).trans (StableHlo.after_of_writes_sub hostOps0 (W0 m ρ c) hostOps0_writes (by decide : main_arg2 ∉ hostOps0_W)))))
theorem W8_arg2 : W8 m ρ c (Proc.devRef .tc main_arg2) = (m ((c : Thread nD τ).loc main_arg2)) :=
  (((W8_of_ne m ρ c main_arg2 (by decide)).trans ((StableHlo.after_of_writes_sub hostOps3 (W6 m ρ c) hostOps3_writes (by decide : main_arg2 ∉ hostOps3_W)).trans ((W6_of_ne m ρ c main_arg2 (by decide)).trans (StableHlo.after_of_writes_sub hostOps2 (W4 m ρ c) hostOps2_writes (by decide : main_arg2 ∉ hostOps2_W)))))).trans (W4_arg2 m ρ c)
theorem W12_arg2 : W12 m ρ c (Proc.devRef .tc main_arg2) = (m ((c : Thread nD τ).loc main_arg2)) :=
  (((W12_of_ne m ρ c main_arg2 (by decide)).trans ((StableHlo.after_of_writes_sub hostOps5 (W10 m ρ c) hostOps5_writes (by decide : main_arg2 ∉ hostOps5_W)).trans ((W10_of_ne m ρ c main_arg2 (by decide)).trans (StableHlo.after_of_writes_sub hostOps4 (W8 m ρ c) hostOps4_writes (by decide : main_arg2 ∉ hostOps4_W)))))).trans (W8_arg2 m ρ c)
theorem W16_arg2 : W16 m ρ c (Proc.devRef .tc main_arg2) = (m ((c : Thread nD τ).loc main_arg2)) :=
  (((W16_of_ne m ρ c main_arg2 (by decide)).trans ((StableHlo.after_of_writes_sub hostOps7 (W14 m ρ c) hostOps7_writes (by decide : main_arg2 ∉ hostOps7_W)).trans ((W14_of_ne m ρ c main_arg2 (by decide)).trans (StableHlo.after_of_writes_sub hostOps6 (W12 m ρ c) hostOps6_writes (by decide : main_arg2 ∉ hostOps6_W)))))).trans (W12_arg2 m ρ c)
theorem W17_arg2 : W17 m ρ c (Proc.devRef .tc main_arg2) = (m ((c : Thread nD τ).loc main_arg2)) :=
  ((W17_of_ne m ρ c main_arg2 (by decide))).trans (W16_arg2 m ρ c)
theorem W4_arg3 : W4 m ρ c (Proc.devRef .tc main_arg3) = (m ((c : Thread nD τ).loc main_arg3)) :=
  ((W4_of_ne m ρ c main_arg3 (by decide)).trans ((StableHlo.after_of_writes_sub hostOps1 (W2 m ρ c) hostOps1_writes (by decide : main_arg3 ∉ hostOps1_W)).trans ((W2_of_ne m ρ c main_arg3 (by decide)).trans (StableHlo.after_of_writes_sub hostOps0 (W0 m ρ c) hostOps0_writes (by decide : main_arg3 ∉ hostOps0_W)))))
theorem W8_arg3 : W8 m ρ c (Proc.devRef .tc main_arg3) = (m ((c : Thread nD τ).loc main_arg3)) :=
  (((W8_of_ne m ρ c main_arg3 (by decide)).trans ((StableHlo.after_of_writes_sub hostOps3 (W6 m ρ c) hostOps3_writes (by decide : main_arg3 ∉ hostOps3_W)).trans ((W6_of_ne m ρ c main_arg3 (by decide)).trans (StableHlo.after_of_writes_sub hostOps2 (W4 m ρ c) hostOps2_writes (by decide : main_arg3 ∉ hostOps2_W)))))).trans (W4_arg3 m ρ c)
theorem W12_arg3 : W12 m ρ c (Proc.devRef .tc main_arg3) = (m ((c : Thread nD τ).loc main_arg3)) :=
  (((W12_of_ne m ρ c main_arg3 (by decide)).trans ((StableHlo.after_of_writes_sub hostOps5 (W10 m ρ c) hostOps5_writes (by decide : main_arg3 ∉ hostOps5_W)).trans ((W10_of_ne m ρ c main_arg3 (by decide)).trans (StableHlo.after_of_writes_sub hostOps4 (W8 m ρ c) hostOps4_writes (by decide : main_arg3 ∉ hostOps4_W)))))).trans (W8_arg3 m ρ c)
theorem W16_arg3 : W16 m ρ c (Proc.devRef .tc main_arg3) = (m ((c : Thread nD τ).loc main_arg3)) :=
  (((W16_of_ne m ρ c main_arg3 (by decide)).trans ((StableHlo.after_of_writes_sub hostOps7 (W14 m ρ c) hostOps7_writes (by decide : main_arg3 ∉ hostOps7_W)).trans ((W14_of_ne m ρ c main_arg3 (by decide)).trans (StableHlo.after_of_writes_sub hostOps6 (W12 m ρ c) hostOps6_writes (by decide : main_arg3 ∉ hostOps6_W)))))).trans (W12_arg3 m ρ c)
theorem W17_arg3 : W17 m ρ c (Proc.devRef .tc main_arg3) = (m ((c : Thread nD τ).loc main_arg3)) :=
  ((W17_of_ne m ρ c main_arg3 (by decide))).trans (W16_arg3 m ρ c)
theorem W4_arg4 : W4 m ρ c (Proc.devRef .tc main_arg4) = (m ((c : Thread nD τ).loc main_arg4)) :=
  ((W4_of_ne m ρ c main_arg4 (by decide)).trans ((StableHlo.after_of_writes_sub hostOps1 (W2 m ρ c) hostOps1_writes (by decide : main_arg4 ∉ hostOps1_W)).trans ((W2_of_ne m ρ c main_arg4 (by decide)).trans (StableHlo.after_of_writes_sub hostOps0 (W0 m ρ c) hostOps0_writes (by decide : main_arg4 ∉ hostOps0_W)))))
theorem W8_arg4 : W8 m ρ c (Proc.devRef .tc main_arg4) = (m ((c : Thread nD τ).loc main_arg4)) :=
  (((W8_of_ne m ρ c main_arg4 (by decide)).trans ((StableHlo.after_of_writes_sub hostOps3 (W6 m ρ c) hostOps3_writes (by decide : main_arg4 ∉ hostOps3_W)).trans ((W6_of_ne m ρ c main_arg4 (by decide)).trans (StableHlo.after_of_writes_sub hostOps2 (W4 m ρ c) hostOps2_writes (by decide : main_arg4 ∉ hostOps2_W)))))).trans (W4_arg4 m ρ c)
theorem W12_arg4 : W12 m ρ c (Proc.devRef .tc main_arg4) = (m ((c : Thread nD τ).loc main_arg4)) :=
  (((W12_of_ne m ρ c main_arg4 (by decide)).trans ((StableHlo.after_of_writes_sub hostOps5 (W10 m ρ c) hostOps5_writes (by decide : main_arg4 ∉ hostOps5_W)).trans ((W10_of_ne m ρ c main_arg4 (by decide)).trans (StableHlo.after_of_writes_sub hostOps4 (W8 m ρ c) hostOps4_writes (by decide : main_arg4 ∉ hostOps4_W)))))).trans (W8_arg4 m ρ c)
theorem W16_arg4 : W16 m ρ c (Proc.devRef .tc main_arg4) = (m ((c : Thread nD τ).loc main_arg4)) :=
  (((W16_of_ne m ρ c main_arg4 (by decide)).trans ((StableHlo.after_of_writes_sub hostOps7 (W14 m ρ c) hostOps7_writes (by decide : main_arg4 ∉ hostOps7_W)).trans ((W14_of_ne m ρ c main_arg4 (by decide)).trans (StableHlo.after_of_writes_sub hostOps6 (W12 m ρ c) hostOps6_writes (by decide : main_arg4 ∉ hostOps6_W)))))).trans (W12_arg4 m ρ c)
theorem W17_arg4 : W17 m ρ c (Proc.devRef .tc main_arg4) = (m ((c : Thread nD τ).loc main_arg4)) :=
  ((W17_of_ne m ρ c main_arg4 (by decide))).trans (W16_arg4 m ρ c)
theorem W4_arg5 : W4 m ρ c (Proc.devRef .tc main_arg5) = (m ((c : Thread nD τ).loc main_arg5)) :=
  ((W4_of_ne m ρ c main_arg5 (by decide)).trans ((StableHlo.after_of_writes_sub hostOps1 (W2 m ρ c) hostOps1_writes (by decide : main_arg5 ∉ hostOps1_W)).trans ((W2_of_ne m ρ c main_arg5 (by decide)).trans (StableHlo.after_of_writes_sub hostOps0 (W0 m ρ c) hostOps0_writes (by decide : main_arg5 ∉ hostOps0_W)))))
theorem W8_arg5 : W8 m ρ c (Proc.devRef .tc main_arg5) = (m ((c : Thread nD τ).loc main_arg5)) :=
  (((W8_of_ne m ρ c main_arg5 (by decide)).trans ((StableHlo.after_of_writes_sub hostOps3 (W6 m ρ c) hostOps3_writes (by decide : main_arg5 ∉ hostOps3_W)).trans ((W6_of_ne m ρ c main_arg5 (by decide)).trans (StableHlo.after_of_writes_sub hostOps2 (W4 m ρ c) hostOps2_writes (by decide : main_arg5 ∉ hostOps2_W)))))).trans (W4_arg5 m ρ c)
theorem W12_arg5 : W12 m ρ c (Proc.devRef .tc main_arg5) = (m ((c : Thread nD τ).loc main_arg5)) :=
  (((W12_of_ne m ρ c main_arg5 (by decide)).trans ((StableHlo.after_of_writes_sub hostOps5 (W10 m ρ c) hostOps5_writes (by decide : main_arg5 ∉ hostOps5_W)).trans ((W10_of_ne m ρ c main_arg5 (by decide)).trans (StableHlo.after_of_writes_sub hostOps4 (W8 m ρ c) hostOps4_writes (by decide : main_arg5 ∉ hostOps4_W)))))).trans (W8_arg5 m ρ c)
theorem W16_arg5 : W16 m ρ c (Proc.devRef .tc main_arg5) = (m ((c : Thread nD τ).loc main_arg5)) :=
  (((W16_of_ne m ρ c main_arg5 (by decide)).trans ((StableHlo.after_of_writes_sub hostOps7 (W14 m ρ c) hostOps7_writes (by decide : main_arg5 ∉ hostOps7_W)).trans ((W14_of_ne m ρ c main_arg5 (by decide)).trans (StableHlo.after_of_writes_sub hostOps6 (W12 m ρ c) hostOps6_writes (by decide : main_arg5 ∉ hostOps6_W)))))).trans (W12_arg5 m ρ c)
theorem W17_arg5 : W17 m ρ c (Proc.devRef .tc main_arg5) = (m ((c : Thread nD τ).loc main_arg5)) :=
  ((W17_of_ne m ρ c main_arg5 (by decide))).trans (W16_arg5 m ρ c)
theorem W4_arg6 : W4 m ρ c (Proc.devRef .tc main_arg6) = (m ((c : Thread nD τ).loc main_arg6)) :=
  ((W4_of_ne m ρ c main_arg6 (by decide)).trans ((StableHlo.after_of_writes_sub hostOps1 (W2 m ρ c) hostOps1_writes (by decide : main_arg6 ∉ hostOps1_W)).trans ((W2_of_ne m ρ c main_arg6 (by decide)).trans (StableHlo.after_of_writes_sub hostOps0 (W0 m ρ c) hostOps0_writes (by decide : main_arg6 ∉ hostOps0_W)))))
theorem W8_arg6 : W8 m ρ c (Proc.devRef .tc main_arg6) = (m ((c : Thread nD τ).loc main_arg6)) :=
  (((W8_of_ne m ρ c main_arg6 (by decide)).trans ((StableHlo.after_of_writes_sub hostOps3 (W6 m ρ c) hostOps3_writes (by decide : main_arg6 ∉ hostOps3_W)).trans ((W6_of_ne m ρ c main_arg6 (by decide)).trans (StableHlo.after_of_writes_sub hostOps2 (W4 m ρ c) hostOps2_writes (by decide : main_arg6 ∉ hostOps2_W)))))).trans (W4_arg6 m ρ c)
theorem W12_arg6 : W12 m ρ c (Proc.devRef .tc main_arg6) = (m ((c : Thread nD τ).loc main_arg6)) :=
  (((W12_of_ne m ρ c main_arg6 (by decide)).trans ((StableHlo.after_of_writes_sub hostOps5 (W10 m ρ c) hostOps5_writes (by decide : main_arg6 ∉ hostOps5_W)).trans ((W10_of_ne m ρ c main_arg6 (by decide)).trans (StableHlo.after_of_writes_sub hostOps4 (W8 m ρ c) hostOps4_writes (by decide : main_arg6 ∉ hostOps4_W)))))).trans (W8_arg6 m ρ c)
theorem W16_arg6 : W16 m ρ c (Proc.devRef .tc main_arg6) = (m ((c : Thread nD τ).loc main_arg6)) :=
  (((W16_of_ne m ρ c main_arg6 (by decide)).trans ((StableHlo.after_of_writes_sub hostOps7 (W14 m ρ c) hostOps7_writes (by decide : main_arg6 ∉ hostOps7_W)).trans ((W14_of_ne m ρ c main_arg6 (by decide)).trans (StableHlo.after_of_writes_sub hostOps6 (W12 m ρ c) hostOps6_writes (by decide : main_arg6 ∉ hostOps6_W)))))).trans (W12_arg6 m ρ c)
theorem W17_arg6 : W17 m ρ c (Proc.devRef .tc main_arg6) = (m ((c : Thread nD τ).loc main_arg6)) :=
  ((W17_of_ne m ρ c main_arg6 (by decide))).trans (W16_arg6 m ρ c)
theorem W4_arg7 : W4 m ρ c (Proc.devRef .tc main_arg7) = (m ((c : Thread nD τ).loc main_arg7)) :=
  ((W4_of_ne m ρ c main_arg7 (by decide)).trans ((StableHlo.after_of_writes_sub hostOps1 (W2 m ρ c) hostOps1_writes (by decide : main_arg7 ∉ hostOps1_W)).trans ((W2_of_ne m ρ c main_arg7 (by decide)).trans (StableHlo.after_of_writes_sub hostOps0 (W0 m ρ c) hostOps0_writes (by decide : main_arg7 ∉ hostOps0_W)))))
theorem W8_arg7 : W8 m ρ c (Proc.devRef .tc main_arg7) = (m ((c : Thread nD τ).loc main_arg7)) :=
  (((W8_of_ne m ρ c main_arg7 (by decide)).trans ((StableHlo.after_of_writes_sub hostOps3 (W6 m ρ c) hostOps3_writes (by decide : main_arg7 ∉ hostOps3_W)).trans ((W6_of_ne m ρ c main_arg7 (by decide)).trans (StableHlo.after_of_writes_sub hostOps2 (W4 m ρ c) hostOps2_writes (by decide : main_arg7 ∉ hostOps2_W)))))).trans (W4_arg7 m ρ c)
theorem W12_arg7 : W12 m ρ c (Proc.devRef .tc main_arg7) = (m ((c : Thread nD τ).loc main_arg7)) :=
  (((W12_of_ne m ρ c main_arg7 (by decide)).trans ((StableHlo.after_of_writes_sub hostOps5 (W10 m ρ c) hostOps5_writes (by decide : main_arg7 ∉ hostOps5_W)).trans ((W10_of_ne m ρ c main_arg7 (by decide)).trans (StableHlo.after_of_writes_sub hostOps4 (W8 m ρ c) hostOps4_writes (by decide : main_arg7 ∉ hostOps4_W)))))).trans (W8_arg7 m ρ c)
theorem W16_arg7 : W16 m ρ c (Proc.devRef .tc main_arg7) = (m ((c : Thread nD τ).loc main_arg7)) :=
  (((W16_of_ne m ρ c main_arg7 (by decide)).trans ((StableHlo.after_of_writes_sub hostOps7 (W14 m ρ c) hostOps7_writes (by decide : main_arg7 ∉ hostOps7_W)).trans ((W14_of_ne m ρ c main_arg7 (by decide)).trans (StableHlo.after_of_writes_sub hostOps6 (W12 m ρ c) hostOps6_writes (by decide : main_arg7 ∉ hostOps6_W)))))).trans (W12_arg7 m ρ c)
theorem W17_arg7 : W17 m ρ c (Proc.devRef .tc main_arg7) = (m ((c : Thread nD τ).loc main_arg7)) :=
  ((W17_of_ne m ρ c main_arg7 (by decide))).trans (W16_arg7 m ρ c)
theorem W4_arg8 : W4 m ρ c (Proc.devRef .tc main_arg8) = (m ((c : Thread nD τ).loc main_arg8)) :=
  ((W4_of_ne m ρ c main_arg8 (by decide)).trans ((StableHlo.after_of_writes_sub hostOps1 (W2 m ρ c) hostOps1_writes (by decide : main_arg8 ∉ hostOps1_W)).trans ((W2_of_ne m ρ c main_arg8 (by decide)).trans (StableHlo.after_of_writes_sub hostOps0 (W0 m ρ c) hostOps0_writes (by decide : main_arg8 ∉ hostOps0_W)))))
theorem W8_arg8 : W8 m ρ c (Proc.devRef .tc main_arg8) = (m ((c : Thread nD τ).loc main_arg8)) :=
  (((W8_of_ne m ρ c main_arg8 (by decide)).trans ((StableHlo.after_of_writes_sub hostOps3 (W6 m ρ c) hostOps3_writes (by decide : main_arg8 ∉ hostOps3_W)).trans ((W6_of_ne m ρ c main_arg8 (by decide)).trans (StableHlo.after_of_writes_sub hostOps2 (W4 m ρ c) hostOps2_writes (by decide : main_arg8 ∉ hostOps2_W)))))).trans (W4_arg8 m ρ c)
theorem W12_arg8 : W12 m ρ c (Proc.devRef .tc main_arg8) = (m ((c : Thread nD τ).loc main_arg8)) :=
  (((W12_of_ne m ρ c main_arg8 (by decide)).trans ((StableHlo.after_of_writes_sub hostOps5 (W10 m ρ c) hostOps5_writes (by decide : main_arg8 ∉ hostOps5_W)).trans ((W10_of_ne m ρ c main_arg8 (by decide)).trans (StableHlo.after_of_writes_sub hostOps4 (W8 m ρ c) hostOps4_writes (by decide : main_arg8 ∉ hostOps4_W)))))).trans (W8_arg8 m ρ c)
theorem W16_arg8 : W16 m ρ c (Proc.devRef .tc main_arg8) = (m ((c : Thread nD τ).loc main_arg8)) :=
  (((W16_of_ne m ρ c main_arg8 (by decide)).trans ((StableHlo.after_of_writes_sub hostOps7 (W14 m ρ c) hostOps7_writes (by decide : main_arg8 ∉ hostOps7_W)).trans ((W14_of_ne m ρ c main_arg8 (by decide)).trans (StableHlo.after_of_writes_sub hostOps6 (W12 m ρ c) hostOps6_writes (by decide : main_arg8 ∉ hostOps6_W)))))).trans (W12_arg8 m ρ c)
theorem W17_arg8 : W17 m ρ c (Proc.devRef .tc main_arg8) = (m ((c : Thread nD τ).loc main_arg8)) :=
  ((W17_arr m ρ c 1).trans (((dat8 (X16 m ρ) c).arrAt_in 1 rfl _).trans (A_eq8 (X16 m ρ) c 1))).trans (W16_arg8 m ρ c)
theorem W4_arg9 : W4 m ρ c (Proc.devRef .tc main_arg9) = (m ((c : Thread nD τ).loc main_arg9)) :=
  ((W4_of_ne m ρ c main_arg9 (by decide)).trans ((StableHlo.after_of_writes_sub hostOps1 (W2 m ρ c) hostOps1_writes (by decide : main_arg9 ∉ hostOps1_W)).trans ((W2_of_ne m ρ c main_arg9 (by decide)).trans (StableHlo.after_of_writes_sub hostOps0 (W0 m ρ c) hostOps0_writes (by decide : main_arg9 ∉ hostOps0_W)))))
theorem W8_arg9 : W8 m ρ c (Proc.devRef .tc main_arg9) = (m ((c : Thread nD τ).loc main_arg9)) :=
  (((W8_of_ne m ρ c main_arg9 (by decide)).trans ((StableHlo.after_of_writes_sub hostOps3 (W6 m ρ c) hostOps3_writes (by decide : main_arg9 ∉ hostOps3_W)).trans ((W6_of_ne m ρ c main_arg9 (by decide)).trans (StableHlo.after_of_writes_sub hostOps2 (W4 m ρ c) hostOps2_writes (by decide : main_arg9 ∉ hostOps2_W)))))).trans (W4_arg9 m ρ c)
theorem W12_arg9 : W12 m ρ c (Proc.devRef .tc main_arg9) = (m ((c : Thread nD τ).loc main_arg9)) :=
  (((W12_of_ne m ρ c main_arg9 (by decide)).trans ((StableHlo.after_of_writes_sub hostOps5 (W10 m ρ c) hostOps5_writes (by decide : main_arg9 ∉ hostOps5_W)).trans ((W10_of_ne m ρ c main_arg9 (by decide)).trans (StableHlo.after_of_writes_sub hostOps4 (W8 m ρ c) hostOps4_writes (by decide : main_arg9 ∉ hostOps4_W)))))).trans (W8_arg9 m ρ c)
theorem W16_arg9 : W16 m ρ c (Proc.devRef .tc main_arg9) = (m ((c : Thread nD τ).loc main_arg9)) :=
  (((W16_of_ne m ρ c main_arg9 (by decide)).trans ((StableHlo.after_of_writes_sub hostOps7 (W14 m ρ c) hostOps7_writes (by decide : main_arg9 ∉ hostOps7_W)).trans ((W14_of_ne m ρ c main_arg9 (by decide)).trans (StableHlo.after_of_writes_sub hostOps6 (W12 m ρ c) hostOps6_writes (by decide : main_arg9 ∉ hostOps6_W)))))).trans (W12_arg9 m ρ c)
theorem W17_arg9 : W17 m ρ c (Proc.devRef .tc main_arg9) = (m ((c : Thread nD τ).loc main_arg9)) :=
  ((W17_arr m ρ c 2).trans (((dat8 (X16 m ρ) c).arrAt_in 2 rfl _).trans (A_eq8 (X16 m ρ) c 2))).trans (W16_arg9 m ρ c)
theorem W4_arg10 : W4 m ρ c (Proc.devRef .tc main_arg10) = (m ((c : Thread nD τ).loc main_arg10)) :=
  ((W4_of_ne m ρ c main_arg10 (by decide)).trans ((StableHlo.after_of_writes_sub hostOps1 (W2 m ρ c) hostOps1_writes (by decide : main_arg10 ∉ hostOps1_W)).trans ((W2_of_ne m ρ c main_arg10 (by decide)).trans (StableHlo.after_of_writes_sub hostOps0 (W0 m ρ c) hostOps0_writes (by decide : main_arg10 ∉ hostOps0_W)))))
theorem W8_arg10 : W8 m ρ c (Proc.devRef .tc main_arg10) = (m ((c : Thread nD τ).loc main_arg10)) :=
  (((W8_of_ne m ρ c main_arg10 (by decide)).trans ((StableHlo.after_of_writes_sub hostOps3 (W6 m ρ c) hostOps3_writes (by decide : main_arg10 ∉ hostOps3_W)).trans ((W6_of_ne m ρ c main_arg10 (by decide)).trans (StableHlo.after_of_writes_sub hostOps2 (W4 m ρ c) hostOps2_writes (by decide : main_arg10 ∉ hostOps2_W)))))).trans (W4_arg10 m ρ c)
theorem W12_arg10 : W12 m ρ c (Proc.devRef .tc main_arg10) = (m ((c : Thread nD τ).loc main_arg10)) :=
  (((W12_of_ne m ρ c main_arg10 (by decide)).trans ((StableHlo.after_of_writes_sub hostOps5 (W10 m ρ c) hostOps5_writes (by decide : main_arg10 ∉ hostOps5_W)).trans ((W10_of_ne m ρ c main_arg10 (by decide)).trans (StableHlo.after_of_writes_sub hostOps4 (W8 m ρ c) hostOps4_writes (by decide : main_arg10 ∉ hostOps4_W)))))).trans (W8_arg10 m ρ c)
theorem W16_arg10 : W16 m ρ c (Proc.devRef .tc main_arg10) = (m ((c : Thread nD τ).loc main_arg10)) :=
  (((W16_of_ne m ρ c main_arg10 (by decide)).trans ((StableHlo.after_of_writes_sub hostOps7 (W14 m ρ c) hostOps7_writes (by decide : main_arg10 ∉ hostOps7_W)).trans ((W14_of_ne m ρ c main_arg10 (by decide)).trans (StableHlo.after_of_writes_sub hostOps6 (W12 m ρ c) hostOps6_writes (by decide : main_arg10 ∉ hostOps6_W)))))).trans (W12_arg10 m ρ c)
theorem W17_arg10 : W17 m ρ c (Proc.devRef .tc main_arg10) = (m ((c : Thread nD τ).loc main_arg10)) :=
  ((W17_arr m ρ c 3).trans (((dat8 (X16 m ρ) c).arrAt_in 3 rfl _).trans (A_eq8 (X16 m ρ) c 3))).trans (W16_arg10 m ρ c)
theorem W4_arg11 : W4 m ρ c (Proc.devRef .tc main_arg11) = (m ((c : Thread nD τ).loc main_arg11)) :=
  ((W4_of_ne m ρ c main_arg11 (by decide)).trans ((StableHlo.after_of_writes_sub hostOps1 (W2 m ρ c) hostOps1_writes (by decide : main_arg11 ∉ hostOps1_W)).trans ((W2_of_ne m ρ c main_arg11 (by decide)).trans (StableHlo.after_of_writes_sub hostOps0 (W0 m ρ c) hostOps0_writes (by decide : main_arg11 ∉ hostOps0_W)))))
theorem W8_arg11 : W8 m ρ c (Proc.devRef .tc main_arg11) = (m ((c : Thread nD τ).loc main_arg11)) :=
  (((W8_of_ne m ρ c main_arg11 (by decide)).trans ((StableHlo.after_of_writes_sub hostOps3 (W6 m ρ c) hostOps3_writes (by decide : main_arg11 ∉ hostOps3_W)).trans ((W6_of_ne m ρ c main_arg11 (by decide)).trans (StableHlo.after_of_writes_sub hostOps2 (W4 m ρ c) hostOps2_writes (by decide : main_arg11 ∉ hostOps2_W)))))).trans (W4_arg11 m ρ c)
theorem W12_arg11 : W12 m ρ c (Proc.devRef .tc main_arg11) = (m ((c : Thread nD τ).loc main_arg11)) :=
  (((W12_of_ne m ρ c main_arg11 (by decide)).trans ((StableHlo.after_of_writes_sub hostOps5 (W10 m ρ c) hostOps5_writes (by decide : main_arg11 ∉ hostOps5_W)).trans ((W10_of_ne m ρ c main_arg11 (by decide)).trans (StableHlo.after_of_writes_sub hostOps4 (W8 m ρ c) hostOps4_writes (by decide : main_arg11 ∉ hostOps4_W)))))).trans (W8_arg11 m ρ c)
theorem W16_arg11 : W16 m ρ c (Proc.devRef .tc main_arg11) = (m ((c : Thread nD τ).loc main_arg11)) :=
  (((W16_of_ne m ρ c main_arg11 (by decide)).trans ((StableHlo.after_of_writes_sub hostOps7 (W14 m ρ c) hostOps7_writes (by decide : main_arg11 ∉ hostOps7_W)).trans ((W14_of_ne m ρ c main_arg11 (by decide)).trans (StableHlo.after_of_writes_sub hostOps6 (W12 m ρ c) hostOps6_writes (by decide : main_arg11 ∉ hostOps6_W)))))).trans (W12_arg11 m ρ c)
theorem W17_arg11 : W17 m ρ c (Proc.devRef .tc main_arg11) = (m ((c : Thread nD τ).loc main_arg11)) :=
  ((W17_arr m ρ c 4).trans (((dat8 (X16 m ρ) c).arrAt_in 4 rfl _).trans (A_eq8 (X16 m ρ) c 4))).trans (W16_arg11 m ρ c)

/-- THE FRAME: every weakly fair execution terminates, nothing faulting, and the twelve arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W17_arg0 m ρ c),
      (h c _ (mem_uc main_arg1 (by decide))).trans (W17_arg1 m ρ c),
      (h c _ (mem_uc main_arg2 (by decide))).trans (W17_arg2 m ρ c),
      (h c _ (mem_uc main_arg3 (by decide))).trans (W17_arg3 m ρ c),
      (h c _ (mem_uc main_arg4 (by decide))).trans (W17_arg4 m ρ c),
      (h c _ (mem_uc main_arg5 (by decide))).trans (W17_arg5 m ρ c),
      (h c _ (mem_uc main_arg6 (by decide))).trans (W17_arg6 m ρ c),
      (h c _ (mem_uc main_arg7 (by decide))).trans (W17_arg7 m ρ c),
      (h c _ (mem_uc main_arg8 (by decide))).trans (W17_arg8 m ρ c),
      (h c _ (mem_uc main_arg9 (by decide))).trans (W17_arg9 m ρ c),
      (h c _ (mem_uc main_arg10 (by decide))).trans (W17_arg10 m ρ c),
      (h c _ (mem_uc main_arg11 (by decide))).trans (W17_arg11 m ρ c)⟩) (run_all m ρ)

end Cert.Kernel.Hand

end
-- ==== Proof.KI.Reg0S.lean ====
/-
  Region 0: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's first condition: the grid coordinate is 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- The body's second condition: the grid coordinate is 9, the last. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel

/-- One staging buffer of each output window, through which its contents are stated. -/
abbrev VO0_3 : View sig .tc .vmem S5000x128 .f32 := (Memref.whole cc0_stg3_0 : Memref sig .tc .vmem S5000x128 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two running sums the body keeps between points: whole scoped buffers of its own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The rest of the scoped buffers, beside the two running sums. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The region's entry invariant with the two running sums as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl

end Cert.KernelIdeal.Hand

end
-- ==== Proof.KI.Reg0RunA.lean ====
/-
  Region 0, the body's run at the first point: the running sums are set to zero before the block's sums are added.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg0RunB.lean ====
/-
  Region 0, the body's run at a middle point: the block's sums are added to the running sums.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg0RunC.lean ====
/-
  Region 0, the body's run at the last point: the block's sums are added and the running sums are copied out to the two statistics windows.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg0S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__matmul1_relu_stats_kernel_eq_skeleton]; unfold cc0__matmul1_relu_stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Reg0.lean ====
/-
  Region 0: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg0RunA
import proofs.«121608_j10213432229998_1_alg».proof.Proof.KI.Reg0RunB
import proofs.«121608_j10213432229998_1_alg».proof.Proof.KI.Reg0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S5000x128.Idx) :
    ∃ pc ∈ (kernelRun0_A c i arg1 harg1 arg2 harg2 arg3 harg3 arg4 harg4 arg5 harg5 arg6 harg6 arg7 harg7 arg8 harg8 hc0 hc1 x0 x1 x2).1, y ∈ pc.1.set :=
  View.cover_of_tiledL (kernelRun0_A c i arg1 harg1 arg2 harg2 arg3 harg3 arg4 harg4 arg5 harg5 arg6 harg6 arg7 harg7 arg8 harg8 hc0 hc1 x0 x1 x2).1 S5000x128.size (by sl_kernel_rfl) y

def out0_A_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S5000x128 .f32 :=
  VO0_3.read (Elt F) (VO0_3.writes (Elt F) VO0_3.junk (kernelRun0_A c i arg1 harg1 arg2 harg2 arg3 harg3 arg4 harg4 arg5 harg5 arg6 harg6 arg7 harg7 arg8 harg8 hc0 hc1 x0 x1 x2).1)

theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S1x128.Idx) :
    ∃ pc ∈ (kernelRun0_A c i arg1 harg1 arg2 harg2 arg3 harg3 arg4 harg4 arg5 harg5 arg6 harg6 arg7 harg7 arg8 harg8 hc0 hc1 x0 x1 x2).2.1, y ∈ pc.1.set :=
  View.cover_of_tiledL (kernelRun0_A c i arg1 harg1 arg2 harg2 arg3 harg3 arg4 harg4 arg5 harg5 arg6 harg6 arg7 harg7 arg8 harg8 hc0 hc1 x0 x1 x2).2.1 S1x128.size (by sl_kernel_rfl) y

def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2).2.1)

theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) (y : S1x128.Idx) :
    ∃ pc ∈ (kernelRun0_A c i arg1 harg1 arg2 harg2 arg3 harg3 arg4 harg4 arg5 harg5 arg6 harg6 arg7 harg7 arg8 harg8 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 hc0 hc1 x0 x1 x2).2.2.1 S1x128.size (by sl_kernel_rfl) y

def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2).2.2.1)

theorem cover0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).1 S5000x128.size (by sl_kernel_rfl) y

def out0_B_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S5000x128 .f32 :=
  VO0_3.read (Elt F) (VO0_3.writes (Elt F) VO0_3.junk (kernelRun0_B c i arg1 harg1 arg2 harg2 arg3 harg3 arg4 harg4 arg5 harg5 arg6 harg6 arg7 harg7 arg8 harg8 hc0 hc1 x0 x1 x2 xs0 xs1).1)

theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.1 S1x128.size (by sl_kernel_rfl) y

def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 xs0 xs1).2.1)

theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 xs0 xs1).2.2.1 S1x128.size (by sl_kernel_rfl) y

def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 xs0 xs1).2.2.1)

theorem cover0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).1 S5000x128.size (by sl_kernel_rfl) y

def out0_C_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S5000x128 .f32 :=
  VO0_3.read (Elt F) (VO0_3.writes (Elt F) VO0_3.junk (kernelRun0_C c i arg1 harg1 arg2 harg2 arg3 harg3 arg4 harg4 arg5 harg5 arg6 harg6 arg7 harg7 arg8 harg8 hc0 hc1 x0 x1 x2 xs0 xs1).1)

theorem cover0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.1 S1x128.size (by sl_kernel_rfl) y

def out0_C_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 xs0 xs1).2.1)

theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.1 S1x128.size (by sl_kernel_rfl) y

def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 xs0 xs1).2.2.1)

theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 xs0 xs1).2.2.2.1)

theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk0_4 : Vec F S1x128 .f32 := VO0_4.read (Elt F) VO0_4.junk
def junk0_5 : Vec F S1x128 .f32 := VO0_5.read (Elt F) VO0_5.junk

/-- What the three output windows' buffers and the two running sums hold after the body at position n:
    the first point's run, a middle point's, or the last point's, the running sums taken from the point before. -/
def outsAt0 (c : Dev nD) : (n : ℕ) → n < cfg0.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩), junk0_4, junk0_5, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩))) (Nat.zero_mod _) (by decide)
  | n + 1, hn =>
    if h1 : (n + 1) % 10 = 9 then
      (fun (h0 : ¬ (n + 1) % 10 = 0) => (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)) (by have hN : n + 1 < 10 := lt_of_lt_of_eq hn (show cfg0.N = 10 from N_0); omega)
    else
      (fun (h0 : ¬ (n + 1) % 10 = 0) => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, junk0_4, junk0_5, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)) (by have hN : n + 1 < 10 := lt_of_lt_of_eq hn (show cfg0.N = 10 from N_0); omega)

theorem outsAt0_A (c : Dev nD) (t : Fin cfg0.N) (h0 : t.val % 10 = 0) (h1 : ¬t.val % 10 = 9) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), junk0_4, junk0_5, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (by exfalso; (try dsimp only at h0); have hN : n + 1 < 10 := lt_of_lt_of_eq hn (show cfg0.N = 10 from N_0); omega)

theorem outsAt0_B (c : Dev nD) (t : Fin cfg0.N) (h0 : ¬t.val % 10 = 0) (h1 : ¬t.val % 10 = 9) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, junk0_4, junk0_5, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 10 = 0) (h1 : t.val % 10 = 9) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ restBut0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ restBut0 c) ∗ (∃ r, prngReg c r)) := by
  cases n with
  | zero => exact absurd rfl hz
  | succ n => rfl

/-- The proof data of this pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h1 : t.val % 10 = 9
  · have h0 : ¬t.val % 10 = 0 := by omega
    have hz : t.val ≠ 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4_C t ((hcond0_1 t).mpr h1)], after0_4]
    rw [show (dat0 V c).leavesExact 5 t = owns (c : Thread nD τ) (ms0_5 t) fullShare ((dat0 V c).after 5 t) from by
      unfold Dat.leavesExact; rw [liveAt0_5_C t ((hcond0_1 t).mpr h1)], after0_5]
    rw [outsAt0_C V c t h0 h1]
    unfold out0_C_3 out0_C_4 out0_C_5 sout0_C_0 sout0_C_1; (try dsimp only)
    rw [PhiS0_castSucc V c t, PhiS0_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _)
  · by_cases h0 : t.val % 10 = 0
    · have hz : t.val = 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold out0_A_3 sout0_A_0 sout0_A_1; (try dsimp only)
      rw [PhiS0_castSucc V c t, PhiS0_zero V c _ _ hz, PhiA0_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _)
      isplitl [H4]; · iexists _; iexact H4
      iexists _; iexact H5
    · have hz : t.val ≠ 0 := by omega
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold out0_B_3 sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _)
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the entry invariant. -/
theorem hPhi0_0 (c : Dev nD) : (dat0 V c).Φ 0 = Pipeline.ΦA spec0 c := by
  rw [show (dat0 V c).Φ 0 = PhiS0 V c 0 (Nat.zero_le _) from rfl, PhiS0_zero V c 0 _ rfl]

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the running sums' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KI.Reg1.lean ====
/-
  Region 1: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S5000x128 := Rect.unit (s := S5000x128) ![0, 0] S5000x128.size inb_S5000x128_S5000x128_0_0
abbrev rR1 : Rect S1x128 := Rect.unit (s := S1x128) ![0, 0] S1x128.size inb_S1x128_S1x128_0_0
abbrev rW1 : Rect S128x128 := Rect.unit (s := S128x128) ![0, 0] S128x128.size inb_S128x128_S128x128_0_0
abbrev rB1 : Rect S128 := Rect.unit (s := S128) ![0] S128.size inb_S128_S128_0

/-- The output block after the body: one store over the whole block. -/
def out1_5 (x0 : Vec F S5000x128 .f32) (x1 : Vec F S1x128 .f32) (x2 : Vec F S1x128 .f32) (x3 : Vec F S128x128 .f32) (x4 : Vec F S128 .f32) : Vec F S5000x128 .f32 :=
  View.canon [⟨rA1, k1_pay1 (View.ld x0 rA1) (View.ld x1 rR1) (View.ld x2 rR1) (View.ld x3 rW1) (View.ld x4 rB1)⟩]

theorem cover1_5 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 2000000 in
/-- The body on whole staging memrefs: the inputs keep their contents, the output ends at out1_5 of them. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__matmul2_relu_kernel i arg1 harg1 arg2 harg2 arg3 harg3 arg4 harg4 arg5 harg5 arg6 harg6) K := by
  simp only [cc1__matmul2_relu_kernel_eq_skeleton]; unfold cc1__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this pipeline on core c: the arrays as the region finds them; after the body each
    input's buffer at its block and the output's at out1_5 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2S.lean ====
/-
  Region 2: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first condition: the grid coordinate is 0. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)
/-- The body's second condition: the grid coordinate is 9, the last. -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4_C : ∀ t : Fin cfg2.N, cond2_1 (grid2.coords t) → cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5_C : ∀ t : Fin cfg2.N, cond2_1 (grid2.coords t) → cfg2.idle 5 (grid2.coords t) = false := by decide +kernel

/-- One staging buffer of each output window, through which its contents are stated. -/
abbrev VO2_3 : View sig .tc .vmem S5000x128 .f32 := (Memref.whole cc2_stg3_0 : Memref sig .tc .vmem S5000x128 .f32).view
abbrev VO2_4 : View sig .tc .vmem S1x128 .f32 := (Memref.whole cc2_stg4_0 : Memref sig .tc .vmem S1x128 .f32).view
abbrev VO2_5 : View sig .tc .vmem S1x128 .f32 := (Memref.whole cc2_stg5_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
/-- The two running sums the body keeps between points: whole scoped buffers of its own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The rest of the scoped buffers, beside the two running sums. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two running sums as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA; rw [scopedRest2_split]; simp only [scM2_0, scM2_1, owns_whole]; try rfl

end Cert.KernelIdeal.Hand

end
-- ==== Proof.KI.Reg2RunA.lean ====
/-
  Region 2, the body's run at the first point: the running sums are set to zero before the block's sums are added.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg2RunB.lean ====
/-
  Region 2, the body's run at a middle point: the block's sums are added to the running sums.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg2RunC.lean ====
/-
  Region 2, the body's run at the last point: the block's sums are added and the running sums are copied out to the two statistics windows.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg2S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__matmul1_relu_stats_kernel_eq_skeleton]; unfold cc2__matmul1_relu_stats_kernel_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Reg2.lean ====
/-
  Region 2: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg2RunA
import proofs.«121608_j10213432229998_1_alg».proof.Proof.KI.Reg2RunB
import proofs.«121608_j10213432229998_1_alg».proof.Proof.KI.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S5000x128.Idx) :
    ∃ pc ∈ (kernelRun2_A c i arg1 harg1 arg2 harg2 arg3 harg3 arg4 harg4 arg5 harg5 arg6 harg6 arg7 harg7 arg8 harg8 hc0 hc1 x0 x1 x2).1, y ∈ pc.1.set :=
  View.cover_of_tiledL (kernelRun2_A c i arg1 harg1 arg2 harg2 arg3 harg3 arg4 harg4 arg5 harg5 arg6 harg6 arg7 harg7 arg8 harg8 hc0 hc1 x0 x1 x2).1 S5000x128.size (by sl_kernel_rfl) y

def out2_A_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S5000x128 .f32 :=
  VO2_3.read (Elt F) (VO2_3.writes (Elt F) VO2_3.junk (kernelRun2_A c i arg1 harg1 arg2 harg2 arg3 harg3 arg4 harg4 arg5 harg5 arg6 harg6 arg7 harg7 arg8 harg8 hc0 hc1 x0 x1 x2).1)

theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.1, y ∈ pc.1.set :=
  View.cover_of_tiledL (kernelRun2_A c i arg1 harg1 arg2 harg2 arg3 harg3 arg4 harg4 arg5 harg5 arg6 harg6 arg7 harg7 arg8 harg8 hc0 hc1 x0 x1 x2).2.1 S1x128.size (by sl_kernel_rfl) y

def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2).2.1)

theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) (y : S1x128.Idx) :
    ∃ pc ∈ (kernelRun2_A c i arg1 harg1 arg2 harg2 arg3 harg3 arg4 harg4 arg5 harg5 arg6 harg6 arg7 harg7 arg8 harg8 hc0 hc1 x0 x1 x2).2.2.1, y ∈ pc.1.set :=
  View.cover_of_tiledL (kernelRun2_A c i arg1 harg1 arg2 harg2 arg3 harg3 arg4 harg4 arg5 harg5 arg6 harg6 arg7 harg7 arg8 harg8 hc0 hc1 x0 x1 x2).2.2.1 S1x128.size (by sl_kernel_rfl) y

def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2).2.2.1)

theorem cover2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).1 S5000x128.size (by sl_kernel_rfl) y

def out2_B_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S5000x128 .f32 :=
  VO2_3.read (Elt F) (VO2_3.writes (Elt F) VO2_3.junk (kernelRun2_B c i arg1 harg1 arg2 harg2 arg3 harg3 arg4 harg4 arg5 harg5 arg6 harg6 arg7 harg7 arg8 harg8 hc0 hc1 x0 x1 x2 xs0 xs1).1)

theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.1 S1x128.size (by sl_kernel_rfl) y

def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 xs0 xs1).2.1)

theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_B c i arg1 harg1 arg2 harg2 arg3 harg3 arg4 harg4 arg5 harg5 arg6 harg6 arg7 harg7 arg8 harg8 hc0 hc1 x0 x1 x2 xs0 xs1).2.2.1 S1x128.size (by sl_kernel_rfl) y

def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 xs0 xs1).2.2.1)

theorem cover2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).1 S5000x128.size (by sl_kernel_rfl) y

def out2_C_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S5000x128 .f32 :=
  VO2_3.read (Elt F) (VO2_3.writes (Elt F) VO2_3.junk (kernelRun2_C c i arg1 harg1 arg2 harg2 arg3 harg3 arg4 harg4 arg5 harg5 arg6 harg6 arg7 harg7 arg8 harg8 hc0 hc1 x0 x1 x2 xs0 xs1).1)

theorem cover2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.1 S1x128.size (by sl_kernel_rfl) y

def out2_C_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 xs0 xs1).2.1)

theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.1 S1x128.size (by sl_kernel_rfl) y

def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 xs0 xs1).2.2.1)

theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 xs0 xs1).2.2.2.1)

theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk2_4 : Vec F S1x128 .f32 := VO2_4.read (Elt F) VO2_4.junk
def junk2_5 : Vec F S1x128 .f32 := VO2_5.read (Elt F) VO2_5.junk

/-- What the three output windows' buffers and the two running sums hold after the body at position n:
    the first point's run, a middle point's, or the last point's, the running sums taken from the point before. -/
def outsAt2 (c : Dev nD) : (n : ℕ) → n < cfg2.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩), junk2_4, junk2_5, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))) (Nat.zero_mod _) (by decide)
  | n + 1, hn =>
    if h1 : (n + 1) % 10 = 9 then
      (fun (h0 : ¬ (n + 1) % 10 = 0) => (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)) (by have hN : n + 1 < 10 := lt_of_lt_of_eq hn (show cfg2.N = 10 from N_2); omega)
    else
      (fun (h0 : ¬ (n + 1) % 10 = 0) => (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, junk2_4, junk2_5, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2.2.1 (outsAt2 c n (Nat.lt_of_succ_lt hn)).2.2.2.2)) (by have hN : n + 1 < 10 := lt_of_lt_of_eq hn (show cfg2.N = 10 from N_2); omega)

theorem outsAt2_A (c : Dev nD) (t : Fin cfg2.N) (h0 : t.val % 10 = 0) (h1 : ¬t.val % 10 = 9) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), junk2_4, junk2_5, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; (try dsimp only at h0); have hN : n + 1 < 10 := lt_of_lt_of_eq hn (show cfg2.N = 10 from N_2); omega)

theorem outsAt2_B (c : Dev nD) (t : Fin cfg2.N) (h0 : ¬t.val % 10 = 0) (h1 : ¬t.val % 10 = 9) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, junk2_4, junk2_5, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 10 = 0) (h1 : t.val % 10 = 9) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2)) ∗ restBut2 c) ∗ (∃ r, prngReg c r)) := by
  cases n with
  | zero => exact absurd rfl hz
  | succ n => rfl

/-- The proof data of this pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
    | ⟨5, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]
theorem after2_5 (c : Dev nD) (t : Fin cfg2.N) : (dat2 V c).after 5 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h1 : t.val % 10 = 9
  · have h0 : ¬t.val % 10 = 0 := by omega
    have hz : t.val ≠ 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4_C t ((hcond2_1 t).mpr h1)], after2_4]
    rw [show (dat2 V c).leavesExact 5 t = owns (c : Thread nD τ) (ms2_5 t) fullShare ((dat2 V c).after 5 t) from by
      unfold Dat.leavesExact; rw [liveAt2_5_C t ((hcond2_1 t).mpr h1)], after2_5]
    rw [outsAt2_C V c t h0 h1]
    unfold out2_C_3 out2_C_4 out2_C_5 sout2_C_0 sout2_C_1; (try dsimp only)
    rw [PhiS2_castSucc V c t, PhiS2_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _)
          · unfold owns; iexists _; isplitr
            swap; · iexact HS1
            ipureintro; exact View.read_writes_of_cover _ _ _ _ _ (scover2_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover2_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover2_C_4 c _ _ _ _ _ _ _ _ _ _ _ _ _ _ _ _ _ _ _ _ _ _ _ _)
    unfold owns; iexists _; isplitr
    swap; · iexact H5
    ipureintro; exact View.read_writes_of_cover _ _ _ _ _ (cover2_C_5 c _ _ _ _ _ _ _ _ _ _ _ _ _ _ _ _ _ _ _ _ _ _ _ _)
  · by_cases h0 : t.val % 10 = 0
    · have hz : t.val = 0 := by omega
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_A V c t h0 h1]
      unfold out2_A_3 sout2_A_0 sout2_A_1; (try dsimp only)
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_A_3 c _ _ _ _ _ _ _ _ _ _ _ _ _ _ _ _ _ _ _ _ _ _)
      isplitl [H4]; · iexists _; iexact H4
      iexists _; iexact H5
    · have hz : t.val ≠ 0 := by omega
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      unfold out2_B_3 sout2_B_0 sout2_B_1; (try dsimp only)
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _ _ _ _)
      isplitl [H4]; · iexists _; iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the entry invariant. -/
theorem hPhi0_2 (c : Dev nD) : (dat2 V c).Φ 0 = Pipeline.ΦA spec2 c := by
  rw [show (dat2 V c).Φ 0 = PhiS2 V c 0 (Nat.zero_le _) from rfl, PhiS2_zero V c 0 _ rfl]

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the entry invariant back: the running sums' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout2 (c : Dev nD) : (dat2 V c).Φ (Fin.last cfg2.N) ⊢ Pipeline.ΦA spec2 c :=
  Phi_out2 V c _ (by rw [Fin.val_last]; have : cfg2.N = 10 := N_2; omega)

end Cert.KernelIdeal.Hand

end
-- ==== Proof.KI.Reg3.lean ====
/-
  Region 3: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S5000x128 := Rect.unit (s := S5000x128) ![0, 0] S5000x128.size inb_S5000x128_S5000x128_0_0
abbrev rR3 : Rect S1x128 := Rect.unit (s := S1x128) ![0, 0] S1x128.size inb_S1x128_S1x128_0_0
abbrev rW3 : Rect S128x128 := Rect.unit (s := S128x128) ![0, 0] S128x128.size inb_S128x128_S128x128_0_0
abbrev rB3 : Rect S128 := Rect.unit (s := S128) ![0] S128.size inb_S128_S128_0

/-- The output block after the body: one store over the whole block. -/
def out3_5 (x0 : Vec F S5000x128 .f32) (x1 : Vec F S1x128 .f32) (x2 : Vec F S1x128 .f32) (x3 : Vec F S128x128 .f32) (x4 : Vec F S128 .f32) : Vec F S5000x128 .f32 :=
  View.canon [⟨rA3, k3_pay1 (View.ld x0 rA3) (View.ld x1 rR3) (View.ld x2 rR3) (View.ld x3 rW3) (View.ld x4 rB3)⟩]

theorem cover3_5 (p0 : Vec F S5000x128 .f32) (y : S5000x128.Idx) :
    ∃ pc ∈ ([⟨rA3, p0⟩] : List (View.Piece (Elt F) S5000x128 .f32)), y ∈ pc.1.set :=
  View.cover_of_tiled [⟨rA3, p0⟩] S5000x128.size (by rfl) y

set_option maxHeartbeats 2000000 in
/-- The body on whole staging memrefs: the inputs keep their contents, the output ends at out3_5 of them. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__matmul2_relu_kernel i arg1 harg1 arg2 harg2 arg3 harg3 arg4 harg4 arg5 harg5 arg6 harg6) K := by
  simp only [cc3__matmul2_relu_kernel_eq_skeleton]; unfold cc3__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this pipeline on core c: the arrays as the region finds them; after the body each
    input's buffer at its block and the output's at out3_5 of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4S.lean ====
/-
  Region 4: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's first condition: the grid coordinate is 0. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- The body's second condition: the grid coordinate is 9, the last. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem liveAt4_4_C : ∀ t : Fin cfg4.N, cond4_1 (grid4.coords t) → cfg4.idle 4 (grid4.coords t) = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_5_C : ∀ t : Fin cfg4.N, cond4_1 (grid4.coords t) → cfg4.idle 5 (grid4.coords t) = false := by decide +kernel

/-- One staging buffer of each output window, through which its contents are stated. -/
abbrev VO4_3 : View sig .tc .vmem S5000x128 .f32 := (Memref.whole cc4_stg3_0 : Memref sig .tc .vmem S5000x128 .f32).view
abbrev VO4_4 : View sig .tc .vmem S1x128 .f32 := (Memref.whole cc4_stg4_0 : Memref sig .tc .vmem S1x128 .f32).view
abbrev VO4_5 : View sig .tc .vmem S1x128 .f32 := (Memref.whole cc4_stg5_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S5000x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
/-- The two running sums the body keeps between points: whole scoped buffers of its own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The rest of the scoped buffers, beside the two running sums. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- The region's entry invariant with the two running sums as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ restBut4 c) ∗ (∃ r, prngReg c r)) := by
  unfold Pipeline.ΦA; rw [scopedRest4_split]; simp only [scM4_0, scM4_1, owns_whole]; try rfl

end Cert.KernelIdeal.Hand

end
-- ==== Proof.KI.Reg4RunA.lean ====
/-
  Region 4, the body's run at the first point: the running sums are set to zero before the block's sums are added.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg4RunB.lean ====
/-
  Region 4, the body's run at a middle point: the block's sums are added to the running sums.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg4RunC.lean ====
/-
  Region 4, the body's run at the last point: the block's sums are added and the running sums are copied out to the two statistics windows.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg4S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__matmul1_relu_stats_kernel_eq_skeleton]; unfold cc4__matmul1_relu_stats_kernel_skel
    simp only [k4_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Reg4.lean ====
/-
  Region 4: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg4RunA
import proofs.«121608_j10213432229998_1_alg».proof.Proof.KI.Reg4RunB
import proofs.«121608_j10213432229998_1_alg».proof.Proof.KI.Reg4RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover4_A_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S5000x128.Idx) :
    ∃ pc ∈ (kernelRun4_A c i arg1 harg1 arg2 harg2 arg3 harg3 arg4 harg4 arg5 harg5 arg6 harg6 arg7 harg7 arg8 harg8 hc0 hc1 x0 x1 x2).1, y ∈ pc.1.set :=
  View.cover_of_tiledL (kernelRun4_A c i arg1 harg1 arg2 harg2 arg3 harg3 arg4 harg4 arg5 harg5 arg6 harg6 arg7 harg7 arg8 harg8 hc0 hc1 x0 x1 x2).1 S5000x128.size (by sl_kernel_rfl) y

def out4_A_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S5000x128 .f32 :=
  VO4_3.read (Elt F) (VO4_3.writes (Elt F) VO4_3.junk (kernelRun4_A c i arg1 harg1 arg2 harg2 arg3 harg3 arg4 harg4 arg5 harg5 arg6 harg6 arg7 harg7 arg8 harg8 hc0 hc1 x0 x1 x2).1)

theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.1, y ∈ pc.1.set :=
  View.cover_of_tiledL (kernelRun4_A c i arg1 harg1 arg2 harg2 arg3 harg3 arg4 harg4 arg5 harg5 arg6 harg6 arg7 harg7 arg8 harg8 hc0 hc1 x0 x1 x2).2.1 S1x128.size (by sl_kernel_rfl) y

def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2).2.1)

theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) (y : S1x128.Idx) :
    ∃ pc ∈ (kernelRun4_A c i arg1 harg1 arg2 harg2 arg3 harg3 arg4 harg4 arg5 harg5 arg6 harg6 arg7 harg7 arg8 harg8 hc0 hc1 x0 x1 x2).2.2.1, y ∈ pc.1.set :=
  View.cover_of_tiledL (kernelRun4_A c i arg1 harg1 arg2 harg2 arg3 harg3 arg4 harg4 arg5 harg5 arg6 harg6 arg7 harg7 arg8 harg8 hc0 hc1 x0 x1 x2).2.2.1 S1x128.size (by sl_kernel_rfl) y

def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 hc0 hc1 x0 x1 x2).2.2.1)

theorem cover4_B_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).1 S5000x128.size (by sl_kernel_rfl) y

def out4_B_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S5000x128 .f32 :=
  VO4_3.read (Elt F) (VO4_3.writes (Elt F) VO4_3.junk (kernelRun4_B c i arg1 harg1 arg2 harg2 arg3 harg3 arg4 harg4 arg5 harg5 arg6 harg6 arg7 harg7 arg8 harg8 hc0 hc1 x0 x1 x2 xs0 xs1).1)

theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.1 S1x128.size (by sl_kernel_rfl) y

def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 xs0 xs1).2.1)

theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_B c i arg1 harg1 arg2 harg2 arg3 harg3 arg4 harg4 arg5 harg5 arg6 harg6 arg7 harg7 arg8 harg8 hc0 hc1 x0 x1 x2 xs0 xs1).2.2.1 S1x128.size (by sl_kernel_rfl) y

def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 hc0 hc1 x0 x1 x2 xs0 xs1).2.2.1)

theorem cover4_C_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).1 S5000x128.size (by sl_kernel_rfl) y

def out4_C_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S5000x128 .f32 :=
  VO4_3.read (Elt F) (VO4_3.writes (Elt F) VO4_3.junk (kernelRun4_C c i arg1 harg1 arg2 harg2 arg3 harg3 arg4 harg4 arg5 harg5 arg6 harg6 arg7 harg7 arg8 harg8 hc0 hc1 x0 x1 x2 xs0 xs1).1)

theorem cover4_C_4 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.1 S1x128.size (by sl_kernel_rfl) y

def out4_C_4 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VO4_4.read (Elt F) (VO4_4.writes (Elt F) VO4_4.junk (kernelRun4_C c i arg1 harg1 arg2 harg2 arg3 harg3 arg4 harg4 arg5 harg5 arg6 harg6 arg7 harg7 arg8 harg8 hc0 hc1 x0 x1 x2 xs0 xs1).2.1)

theorem cover4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.1 S1x128.size (by sl_kernel_rfl) y

def out4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VO4_5.read (Elt F) (VO4_5.writes (Elt F) VO4_5.junk (kernelRun4_C c i arg1 harg1 arg2 harg2 arg3 harg3 arg4 harg4 arg5 harg5 arg6 harg6 arg7 harg7 arg8 harg8 hc0 hc1 x0 x1 x2 xs0 xs1).2.2.1)

theorem scover4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 xs0 xs1).2.2.2.1)

theorem scover4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun4_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk4_4 : Vec F S1x128 .f32 := VO4_4.read (Elt F) VO4_4.junk
def junk4_5 : Vec F S1x128 .f32 := VO4_5.read (Elt F) VO4_5.junk

/-- What the three output windows' buffers and the two running sums hold after the body at position n:
    the first point's run, a middle point's, or the last point's, the running sums taken from the point before. -/
def outsAt4 (c : Dev nD) : (n : ℕ) → n < cfg4.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩), junk4_4, junk4_5, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩))) (Nat.zero_mod _) (by decide)
  | n + 1, hn =>
    if h1 : (n + 1) % 10 = 9 then
      (fun (h0 : ¬ (n + 1) % 10 = 0) => (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)) (by have hN : n + 1 < 10 := lt_of_lt_of_eq hn (show cfg4.N = 10 from N_4); omega)
    else
      (fun (h0 : ¬ (n + 1) % 10 = 0) => (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, junk4_4, junk4_5, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2.2.2.1 (outsAt4 c n (Nat.lt_of_succ_lt hn)).2.2.2.2)) (by have hN : n + 1 < 10 := lt_of_lt_of_eq hn (show cfg4.N = 10 from N_4); omega)

theorem outsAt4_A (c : Dev nD) (t : Fin cfg4.N) (h0 : t.val % 10 = 0) (h1 : ¬t.val % 10 = 9) :
    outsAt4 V c t.val t.isLt = (out4_A_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), junk4_4, junk4_5, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (by exfalso; (try dsimp only at h0); have hN : n + 1 < 10 := lt_of_lt_of_eq hn (show cfg4.N = 10 from N_4); omega)

theorem outsAt4_B (c : Dev nD) (t : Fin cfg4.N) (h0 : ¬t.val % 10 = 0) (h1 : ¬t.val % 10 = 9) :
    outsAt4 V c t.val t.isLt = (out4_B_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, junk4_4, junk4_5, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 10 = 0) (h1 : t.val % 10 = 9) :
    outsAt4 V c t.val t.isLt = (out4_C_3 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ restBut4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ restBut4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ restBut4 c) ∗ (∃ r, prngReg c r)) := by
  cases n with
  | zero => exact absurd rfl hz
  | succ n => rfl

/-- The proof data of this pipeline on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h1 : t.val % 10 = 9
  · have h0 : ¬t.val % 10 = 0 := by omega
    have hz : t.val ≠ 0 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4_C t ((hcond4_1 t).mpr h1)], after4_4]
    rw [show (dat4 V c).leavesExact 5 t = owns (c : Thread nD τ) (ms4_5 t) fullShare ((dat4 V c).after 5 t) from by
      unfold Dat.leavesExact; rw [liveAt4_5_C t ((hcond4_1 t).mpr h1)], after4_5]
    rw [outsAt4_C V c t h0 h1]
    unfold out4_C_3 out4_C_4 out4_C_5 sout4_C_0 sout4_C_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover4_C_4 c _ _ _ _ _ _ _ _ _ _ _ _ _ _ _ _ _ _ _ _ _ _ _ _)
    unfold owns; iexists _; isplitr
    swap; · iexact H5
    ipureintro; exact View.read_writes_of_cover _ _ _ _ _ (cover4_C_5 c _ _ _ _ _ _ _ _ _ _ _ _ _ _ _ _ _ _ _ _ _ _ _ _)
  · by_cases h0 : t.val % 10 = 0
    · have hz : t.val = 0 := by omega
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_A V c t h0 h1]
      unfold out4_A_3 sout4_A_0 sout4_A_1; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_A_3 c _ _ _ _ _ _ _ _ _ _ _ _ _ _ _ _ _ _ _ _ _ _)
      isplitl [H4]; · iexists _; iexact H4
      iexists _; iexact H5
    · have hz : t.val ≠ 0 := by omega
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [outsAt4_B V c t h0 h1]
      unfold out4_B_3 sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover4_B_3 c _ _ _ _ _ _ _ _ _ _ _ _ _ _ _ _ _ _ _ _ _ _ _ _)
      isplitl [H4]; · iexists _; iexact H4
      iexists _; iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- Before the first point the invariant is the entry invariant. -/
theorem hPhi0_4 (c : Dev nD) : (dat4 V c).Φ 0 = Pipeline.ΦA spec4 c := by
  rw [show (dat4 V c).Φ 0 = PhiS4 V c 0 (Nat.zero_le _) from rfl, PhiS4_zero V c 0 _ rfl]

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the running sums' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.Reg5.lean ====
/-
  Region 5: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev rA5 : Rect S5000x128 := Rect.unit (s := S5000x128) ![0, 0] S5000x128.size inb_S5000x128_S5000x128_0_0
abbrev rR5 : Rect S1x128 := Rect.unit (s := S1x128) ![0, 0] S1x128.size inb_S1x128_S1x128_0_0
abbrev rW5 : Rect S128x128 := Rect.unit (s := S128x128) ![0, 0] S128x128.size inb_S128x128_S128x128_0_0
abbrev rB5 : Rect S128 := Rect.unit (s := S128) ![0] S128.size inb_S128_S128_0

/-- The output block after the body: one store over the whole block. -/
def out5_5 (x0 : Vec F S5000x128 .f32) (x1 : Vec F S1x128 .f32) (x2 : Vec F S1x128 .f32) (x3 : Vec F S128x128 .f32) (x4 : Vec F S128 .f32) : Vec F S5000x128 .f32 :=
  View.canon [⟨rA5, k5_pay1 (View.ld x0 rA5) (View.ld x1 rR5) (View.ld x2 rR5) (View.ld x3 rW5) (View.ld x4 rB5)⟩]

theorem cover5_5 (p0 : Vec F S5000x128 .f32) (y : S5000x128.Idx) :
    ∃ pc ∈ ([⟨rA5, p0⟩] : List (View.Piece (Elt F) S5000x128 .f32)), y ∈ pc.1.set :=
  View.cover_of_tiled [⟨rA5, p0⟩] S5000x128.size (by rfl) y

set_option maxHeartbeats 2000000 in
/-- The body on whole staging memrefs: the inputs keep their contents, the output ends at out5_5 of them. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__matmul2_relu_kernel i arg1 harg1 arg2 harg2 arg3 harg3 arg4 harg4 arg5 harg5 arg6 harg6) K := by
  simp only [cc5__matmul2_relu_kernel_eq_skeleton]; unfold cc5__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core c: the arrays as the region finds them; after the body each
    input's buffer at its block and the output's at out5_5 of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6S.lean ====
/-
  Region 6: the first dense step of a layer with its column statistics, one block of 5000 rows at
  a grid point. What the three runs of its body (first point, a middle point, the last point) share:
  the blocks the windows stage, the two conditions of the body decided over the grid (the point is
  the first; the point is the last), where the two statistics windows are idle, and the region's
  invariant with the two running sums the body keeps between points named.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The body's first condition: the grid coordinate is 0. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)
/-- The body's second condition: the grid coordinate is 9, the last. -/
abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-- One staging buffer of each output window, through which its contents are stated. -/
abbrev VO6_3 : View sig .tc .vmem S5000x128 .f32 := (Memref.whole cc6_stg3_0 : Memref sig .tc .vmem S5000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
/-- The two running sums the body keeps between points: whole scoped buffers of its own. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-- The rest of the scoped buffers, beside the two running sums. -/
abbrev restBut6 (c : Dev nD) : sProp 𝕄 :=
  Pipeline.scopedRestBut (Ix := Unit) (Name := ℕ) (U := UR sig nD τ) (Lvl := ℕ) (Val := Elt F) spec6 c [cc6_scratch0, cc6_scratch1]

/-- The region's entry invariant with the two running sums as memrefs owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ restBut6 c) ∗ (∃ r, prngReg c r)) := by
  unfold Pipeline.ΦA; rw [scopedRest6_split]; simp only [scM6_0, scM6_1, owns_whole]; try rfl

end Cert.KernelIdeal.Hand

end
-- ==== Proof.KI.Reg6RunA.lean ====
/-
  Region 6, the body's run at the first point: the running sums are set to zero before the block's sums are added.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg6RunB.lean ====
/-
  Region 6, the body's run at a middle point: the block's sums are added to the running sums.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.Reg6RunC.lean ====
/-
  Region 6, the body's run at the last point: the block's sums are added and the running sums are copied out to the two statistics windows.
  The stores the run makes into each buffer are found by the run itself, as lists of pieces, last first.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg6S
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun6_C (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) :
    Σ' (L3 : List (View.Piece (Elt F) S5000x128 .f32)), Σ' (L4 : List (View.Piece (Elt F) S1x128 .f32)), Σ' (L5 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__matmul1_relu_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__matmul1_relu_stats_kernel_eq_skeleton]; unfold cc6__matmul1_relu_stats_kernel_skel
    simp only [k6_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Reg6.lean ====
/-
  Region 6: the first dense step of a layer with its column statistics. What each buffer holds after
  each grid point — the 5000-row block of max(rows · weights + bias, 0) in the first output window, the
  two running sums (of the block's columns, and of their squares) carried from point to point, and at
  the last point the two statistics windows holding the running sums —, the pipeline's proof data over
  these contents, and the body's obligation at every point.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.KI.Reg6RunA
import proofs.«121608_j10213432229998_1_alg».proof.Proof.KI.Reg6RunB
import proofs.«121608_j10213432229998_1_alg».proof.Proof.KI.Reg6RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S5000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S5000x128.size (by sl_kernel_rfl) y

def out6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S5000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)

theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y

def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)

theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y

def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)

theorem cover6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S5000x128.size (by sl_kernel_rfl) y

def out6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S5000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)

theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y

def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)

theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y

def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 : Vec F S1x128 .f32) (xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)

theorem cover6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S5000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S5000x128.size (by sl_kernel_rfl) y

def out6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S5000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)

theorem cover6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y

def out6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)

theorem cover6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y

def out6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)

theorem scover6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y

def sout6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)

theorem scover6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y

def sout6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 : Vec F S1x128 .f32) (xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-- A placeholder for a statistics window at a point where the body stores nothing into it and the pipeline does not write it back. -/
def junk6_4 : Vec F S1x128 .f32 := VO6_4.read (Elt F) VO6_4.junk
def junk6_5 : Vec F S1x128 .f32 := VO6_5.read (Elt F) VO6_5.junk

/-- What the three output windows' buffers and the two running sums hold after the body at position n:
    the first point's run, a middle point's, or the last point's, the running sums taken from the point before. -/
def outsAt6 (c : Dev nD) : (n : ℕ) → n < cfg6.N → Vec F S5000x128 .f32 × Vec F S1x128 .f32 × Vec F S1x128 .f32 × Vec F S1x128 .f32 × Vec F S1x128 .f32
  | 0, hn => (fun (h0 : (0 : ℕ) % 10 = 0) (h1 : ¬ (0 : ℕ) % 10 = 9) => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), junk6_4, junk6_5, sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩))) (Nat.zero_mod _) (by decide)
  | n + 1, hn =>
    if h1 : (n + 1) % 10 = 9 then
      (fun (h0 : ¬ (n + 1) % 10 = 0) => (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, out6_C_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)) (by have hN : n + 1 < 10 := lt_of_lt_of_eq hn (show cfg6.N = 10 from N_6); omega)
    else
      (fun (h0 : ¬ (n + 1) % 10 = 0) => (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, junk6_4, junk6_5, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)) (by have hN : n + 1 < 10 := lt_of_lt_of_eq hn (show cfg6.N = 10 from N_6); omega)

theorem outsAt6_A (c : Dev nD) (t : Fin cfg6.N) (h0 : t.val % 10 = 0) (h1 : ¬t.val % 10 = 9) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), junk6_4, junk6_5, sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (by exfalso; (try dsimp only at h0); have hN : n + 1 < 10 := lt_of_lt_of_eq hn (show cfg6.N = 10 from N_6); omega)

theorem outsAt6_B (c : Dev nD) (t : Fin cfg6.N) (h0 : ¬t.val % 10 = 0) (h1 : ¬t.val % 10 = 9) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, junk6_4, junk6_5, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

theorem outsAt6_C (c : Dev nD) (t : Fin cfg6.N) (h0 : ¬t.val % 10 = 0) (h1 : t.val % 10 = 9) :
    outsAt6 V c t.val t.isLt = (out6_C_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region's invariant before position n: at the first point the entry invariant; afterwards the two running
    sums at what the point before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2)) ∗ restBut6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2)) ∗ restBut6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2)) ∗ restBut6 c) ∗ (∃ r, prngReg c r)) := by
  cases n with
  | zero => exact absurd rfl hz
  | succ n => rfl

/-- The proof data of this pipeline on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h1 : t.val % 10 = 9
  · have h0 : ¬t.val % 10 = 0 := by omega
    have hz : t.val ≠ 0 := by omega
    rw [show (dat6 V c).leavesExact 0 t = owns (c : Thread nD τ) (ms6_0 t) fullShare ((dat6 V c).after 0 t) from by
      unfold Dat.leavesExact; rw [liveAt6_0 t], after6_0]
    rw [show (dat6 V c).leavesExact 1 t = owns (c : Thread nD τ) (ms6_1 t) fullShare ((dat6 V c).after 1 t) from by
      unfold Dat.leavesExact; rw [liveAt6_1 t], after6_1]
    rw [show (dat6 V c).leavesExact 2 t = owns (c : Thread nD τ) (ms6_2 t) fullShare ((dat6 V c).after 2 t) from by
      unfold Dat.leavesExact; rw [liveAt6_2 t], after6_2]
    rw [show (dat6 V c).leavesExact 3 t = owns (c : Thread nD τ) (ms6_3 t) fullShare ((dat6 V c).after 3 t) from by
      unfold Dat.leavesExact; rw [liveAt6_3 t], after6_3]
    rw [show (dat6 V c).leavesExact 4 t = owns (c : Thread nD τ) (ms6_4 t) fullShare ((dat6 V c).after 4 t) from by
      unfold Dat.leavesExact; rw [liveAt6_4_C t ((hcond6_1 t).mpr h1)], after6_4]
    rw [show (dat6 V c).leavesExact 5 t = owns (c : Thread nD τ) (ms6_5 t) fullShare ((dat6 V c).after 5 t) from by
      unfold Dat.leavesExact; rw [liveAt6_5_C t ((hcond6_1 t).mpr h1)], after6_5]
    rw [outsAt6_C V c t h0 h1]
    unfold out6_C_3 out6_C_4 out6_C_5 sout6_C_0 sout6_C_1; (try dsimp only)
    rw [PhiS6_castSucc V c t, PhiS6_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_C_0 c _ _ _ _ _ _ _ _ _ _ _ _ _ _ _ _ _ _ _ _ _ _ _ _)
          · unfold owns; iexists _; isplitr
            swap; · iexact HS1
            ipureintro; exact View.read_writes_of_cover _ _ _ _ _ (scover6_C_1 c _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_C_3 c _ _ _ _ _ _ _ _ _ _ _ _ _ _ _ _ _ _ _ _ _ _ _ _)
    isplitl [H4]
    · unfold owns; iexists _; isplitr
      swap; · iexact H4
      ipureintro; exact View.read_writes_of_cover _ _ _ _ _ (cover6_C_4 c _ _ _ _ _ _ _ _ _ _ _ _ _ _ _ _ _ _ _ _ _ _ _ _)
    unfold owns; iexists _; isplitr
    swap; · iexact H5
    ipureintro; exact View.read_writes_of_cover _ _ _ _ _ (cover6_C_5 c _ _ _ _ _ _ _ _ _ _ _ _ _ _ _ _ _ _ _ _ _ _ _ _)
  · by_cases h0 : t.val % 10 = 0
    · have hz : t.val = 0 := by omega
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold out6_A_3 sout6_A_0 sout6_A_1; (try dsimp only)
      rw [PhiS6_castSucc V c t, PhiS6_zero V c _ _ hz, PhiA6_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _)
            · unfold owns; iexists _; isplitr
              swap; · iexact HS1
              ipureintro; exact View.read_writes_of_cover _ _ _ _ _ (scover6_A_1 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_A_3 c _ _ _ _ _ _ _ _ _ _ _ _ _ _ _ _ _ _ _ _ _ _)
      isplitl [H4]; · iexists _; iexact H4
      iexists _; iexact H5
    · have hz : t.val ≠ 0 := by omega
      rw [show (dat6 V c).leavesExact 0 t = owns (c : Thread nD τ) (ms6_0 t) fullShare ((dat6 V c).after 0 t) from by
        unfold Dat.leavesExact; rw [liveAt6_0 t], after6_0]
      rw [show (dat6 V c).leavesExact 1 t = owns (c : Thread nD τ) (ms6_1 t) fullShare ((dat6 V c).after 1 t) from by
        unfold Dat.leavesExact; rw [liveAt6_1 t], after6_1]
      rw [show (dat6 V c).leavesExact 2 t = owns (c : Thread nD τ) (ms6_2 t) fullShare ((dat6 V c).after 2 t) from by
        unfold Dat.leavesExact; rw [liveAt6_2 t], after6_2]
      rw [show (dat6 V c).leavesExact 3 t = owns (c : Thread nD τ) (ms6_3 t) fullShare ((dat6 V c).after 3 t) from by
        unfold Dat.leavesExact; rw [liveAt6_3 t], after6_3]
      rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold out6_B_3 sout6_B_0 sout6_B_1; (try dsimp only)
      rw [PhiS6_castSucc V c t, PhiS6_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _ _ _ _ _ _)
      isplitl [H4]; · iexists _; iexact H4
      iexists _; iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- Before the first point the invariant is the entry invariant. -/
theorem hPhi0_6 (c : Dev nD) : (dat6 V c).Φ 0 = Pipeline.ΦA spec6 c := by
  rw [show (dat6 V c).Φ 0 = PhiS6 V c 0 (Nat.zero_le _) from rfl, PhiS6_zero V c 0 _ rfl]

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the entry invariant back: the running sums' named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hout6 (c : Dev nD) : (dat6 V c).Φ (Fin.last cfg6.N) ⊢ Pipeline.ΦA spec6 c :=
  Phi_out6 V c _ (by rw [Fin.val_last]; have : cfg6.N = 10 := N_6; omega)

end Cert.KernelIdeal.Hand

end
-- ==== Proof.KI.Reg7.lean ====
/-
  Region 7: the second dense step of a layer, one block of 5000 rows at a grid point.
  The body reads five staged blocks — the 5000 x 128 rows, the scale row, the shift row, the
  128 x 128 weights, the bias — and stores max((rows * scale + shift) · weights + bias, 0) over
  the whole output block. Stated at any contents V of the TensorCore's buffers at the region's entry.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- An input's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev rA7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rB7 : Rect S128 := Rect.unit (s := S128) ![0] S128.size inb_S128_S128_0

/-- The output block after the body: one store over the whole block. -/
def out7_5 (x0 : Vec F S5000x128 .f32) (x1 : Vec F S1x128 .f32) (x2 : Vec F S1x128 .f32) (x3 : Vec F S128x128 .f32) (x4 : Vec F S128 .f32) : Vec F S5000x128 .f32 :=
  View.canon [⟨rA7, k7_pay1 (View.ld x0 rA7) (View.ld x1 rR7) (View.ld x2 rR7) (View.ld x3 rW7) (View.ld x4 rB7)⟩]

theorem cover7_5 (p0 : Vec F S5000x128 .f32) (y : S5000x128.Idx) :
    ∃ pc ∈ ([⟨rA7, p0⟩] : List (View.Piece (Elt F) S5000x128 .f32)), y ∈ pc.1.set :=
  View.cover_of_tiled [⟨rA7, p0⟩] S5000x128.size (by rfl) y

set_option maxHeartbeats 2000000 in
/-- The body on whole staging memrefs: the inputs keep their contents, the output ends at out7_5 of them. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__matmul2_relu_kernel i arg1 harg1 arg2 harg2 arg3 harg3 arg4 harg4 arg5 harg5 arg6 harg6) K := by
  simp only [cc7__matmul2_relu_kernel_eq_skeleton]; unfold cc7__matmul2_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-- The proof data of this pipeline on core c: the arrays as the region finds them; after the body each
    input's buffer at its block and the output's at out7_5 of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/-
  Region 8: the read-out, one block of 5000 rows at a grid point. The body reads the 5000 x 128
  rows, the first weights and bias, the 128 x 1 second weights and its one bias, and stores
  max(rows · W1 + b1, 0) · W2 + b2 over the whole 5000 x 1 output block.
  Stated at any contents V of the TensorCore's buffers at the region's entry.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev rI8_0 : Rect S5000x128 := Rect.unit (s := S5000x128) ![0, 0] S5000x128.size inb_S5000x128_S5000x128_0_0
abbrev rI8_1 : Rect S128x128 := Rect.unit (s := S128x128) ![0, 0] S128x128.size inb_S128x128_S128x128_0_0
abbrev rI8_2 : Rect S128 := Rect.unit (s := S128) ![0] S128.size inb_S128_S128_0
abbrev rI8_3 : Rect S128x1 := Rect.unit (s := S128x1) ![0, 0] S128x1.size inb_S128x1_S128x1_0_0
abbrev rI8_4 : Rect S1 := Rect.unit (s := S1) ![0] S1.size inb_S1_S1_0
abbrev rO8 : Rect S5000x1 := Rect.unit (s := S5000x1) ![0, 0] S5000x1.size inb_S5000x1_S5000x1_0_0

/-- The output block after the body: one store over the whole block. -/
def out8_5 (x0 : Vec F S5000x128 .f32) (x1 : Vec F S128x128 .f32) (x2 : Vec F S128 .f32) (x3 : Vec F S128x1 .f32) (x4 : Vec F S1 .f32) : Vec F S5000x1 .f32 :=
  View.canon [⟨rO8, k8_pay1 (View.ld x0 rI8_0) (View.ld x1 rI8_1) (View.ld x2 rI8_2) (View.ld x3 rI8_3) (View.ld x4 rI8_4)⟩]

theorem cover8_5 (p0 : Vec F S5000x1 .f32) (y : S5000x1.Idx) :
    ∃ pc ∈ ([⟨rO8, p0⟩] : List (View.Piece (Elt F) S5000x1 .f32)), y ∈ pc.1.set :=
  View.cover_of_tiled [⟨rO8, p0⟩] S5000x1.size (by rfl) y

set_option maxHeartbeats 2000000 in
/-- The body on whole staging memrefs: the inputs keep their contents, the output ends at out8_5 of them. -/
theorem sound_kernel8 (c : Dev nD) (E : Set ℕ) (i : grid8.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x1 .f32) (harg4 : arg4.IsWhole) (arg5 : Memref sig .tc .vmem S1 .f32) (harg5 : arg5.IsWhole) (arg6 : Memref sig .tc .vmem S5000x1 .f32) (harg6 : arg6.IsWhole)
    (x0 : Vec F S5000x128 .f32) (x1 : Vec F S128x128 .f32) (x2 : Vec F S128 .f32) (x3 : Vec F S128x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__fc_kernel i arg1 harg1 arg2 harg2 arg3 harg3 arg4 harg4 arg5 harg5 arg6 harg6) K := by
  simp only [cc8__fc_kernel_eq_skeleton]; unfold cc8__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of this pipeline on core c: the arrays as the region finds them; after the body each
    input's buffer at its block and the output's at out8_5 of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Run.lean ====
/-
  The whole program as a run: the contents of the TensorCore's buffers at each boundary between a
  stretch of host operations and a kernel region, from the launch memory to the return; each region
  as a segment entered from the boundary before it and left at the one after it; and the run itself:
  every weakly fair execution terminates, and at the end every unscoped buffer holds the last boundary's contents.
-/
import proofs.«121608_j10213432229998_1_alg».proof.Proof.Gen.KernelIdeal.Launch
import proofs.«121608_j10213432229998_1_alg».proof.Proof.Gen.KernelIdeal.Skeleton
import proofs.«121608_j10213432229998_1_alg».proof.Proof.Gen.KernelIdeal.Points
import proofs.«121608_j10213432229998_1_alg».proof.Proof.Gen.KernelIdeal.Regions
import proofs.«121608_j10213432229998_1_alg».proof.Proof.KI.Reg0
import proofs.«121608_j10213432229998_1_alg».proof.Proof.KI.Reg1
import proofs.«121608_j10213432229998_1_alg».proof.Proof.KI.Reg2
import proofs.«121608_j10213432229998_1_alg».proof.Proof.KI.Reg3
import proofs.«121608_j10213432229998_1_alg».proof.Proof.KI.Reg4
import proofs.«121608_j10213432229998_1_alg».proof.Proof.KI.Reg5
import proofs.«121608_j10213432229998_1_alg».proof.Proof.KI.Reg6
import proofs.«121608_j10213432229998_1_alg».proof.Proof.KI.Reg7
import proofs.«121608_j10213432229998_1_alg».proof.Proof.KI.Reg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
abbrev X1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
abbrev X3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (X3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = X3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
abbrev X5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (X5 m ρ) c).arrAt w cfg2.N
theorem W6_arr (c : Dev nD) (w : Fin cfg2.W) :
    W6 m ρ c (Proc.devRef .tc (Pipeline.arrRef spec2 w)) = (dat2 (X5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev X6 : (c : Dev nD) → (b : Ref sig .tc) → Buf (Elt F) ((c : Thread nD τ).loc b) := fun c b => W6 m ρ c b
theorem hF2 (c : Dev nD) (w : Fin cfg2.W) : (dat2 (X5 m ρ) c).arrAt w cfg2.N = X6 m ρ c (Pipeline.arrRef spec2 w) :=
  (W6_arr m ρ c w).symm
theorem hrest2 (c : Dev nD) : ∀ b, b ∉ Finset.univ.image (Pipeline.arrRef spec2) → X6 m ρ c b = X5 m ρ c b :=
  fun b hb => W6_of_ne m ρ c b fun w e => hb (Finset.mem_image.mpr ⟨w, Finset.mem_univ _, e⟩)

/-- After the host stretch before region 3. -/
abbrev W7 : Dev nD → Valuation τ sig (Elt F) := fun c => StableHlo.after hostOps3 (W6 m ρ c)
abbrev X7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (X7 m ρ) c).arrAt w cfg3.N
theorem W8_arr (c : Dev nD) (w : Fin cfg3.W) :
    W8 m ρ c (Proc.devRef .tc (Pipeline.arrRef spec3 w)) = (dat3 (X7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev X8 : (c : Dev nD) → (b : Ref sig .tc) → Buf (Elt F) ((c : Thread nD τ).loc b) := fun c b => W8 m ρ c b
theorem hF3 (c : Dev nD) (w : Fin cfg3.W) : (dat3 (X7 m ρ) c).arrAt w cfg3.N = X8 m ρ c (Pipeline.arrRef spec3 w) :=
  (W8_arr m ρ c w).symm
theorem hrest3 (c : Dev nD) : ∀ b, b ∉ Finset.univ.image (Pipeline.arrRef spec3) → X8 m ρ c b = X7 m ρ c b :=
  fun b hb => W8_of_ne m ρ c b fun w e => hb (Finset.mem_image.mpr ⟨w, Finset.mem_univ _, e⟩)

/-- After the host stretch before region 4. -/
abbrev W9 : Dev nD → Valuation τ sig (Elt F) := fun c => StableHlo.after hostOps4 (W8 m ρ c)
abbrev X9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (X9 m ρ) c).arrAt w cfg4.N
theorem W10_arr (c : Dev nD) (w : Fin cfg4.W) :
    W10 m ρ c (Proc.devRef .tc (Pipeline.arrRef spec4 w)) = (dat4 (X9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev X10 : (c : Dev nD) → (b : Ref sig .tc) → Buf (Elt F) ((c : Thread nD τ).loc b) := fun c b => W10 m ρ c b
theorem hF4 (c : Dev nD) (w : Fin cfg4.W) : (dat4 (X9 m ρ) c).arrAt w cfg4.N = X10 m ρ c (Pipeline.arrRef spec4 w) :=
  (W10_arr m ρ c w).symm
theorem hrest4 (c : Dev nD) : ∀ b, b ∉ Finset.univ.image (Pipeline.arrRef spec4) → X10 m ρ c b = X9 m ρ c b :=
  fun b hb => W10_of_ne m ρ c b fun w e => hb (Finset.mem_image.mpr ⟨w, Finset.mem_univ _, e⟩)

/-- After the host stretch before region 5. -/
abbrev W11 : Dev nD → Valuation τ sig (Elt F) := fun c => StableHlo.after hostOps5 (W10 m ρ c)
abbrev X11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (X11 m ρ) c).arrAt w cfg5.N
theorem W12_arr (c : Dev nD) (w : Fin cfg5.W) :
    W12 m ρ c (Proc.devRef .tc (Pipeline.arrRef spec5 w)) = (dat5 (X11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev X12 : (c : Dev nD) → (b : Ref sig .tc) → Buf (Elt F) ((c : Thread nD τ).loc b) := fun c b => W12 m ρ c b
theorem hF5 (c : Dev nD) (w : Fin cfg5.W) : (dat5 (X11 m ρ) c).arrAt w cfg5.N = X12 m ρ c (Pipeline.arrRef spec5 w) :=
  (W12_arr m ρ c w).symm
theorem hrest5 (c : Dev nD) : ∀ b, b ∉ Finset.univ.image (Pipeline.arrRef spec5) → X12 m ρ c b = X11 m ρ c b :=
  fun b hb => W12_of_ne m ρ c b fun w e => hb (Finset.mem_image.mpr ⟨w, Finset.mem_univ _, e⟩)

/-- After the host stretch before region 6. -/
abbrev W13 : Dev nD → Valuation τ sig (Elt F) := fun c => StableHlo.after hostOps6 (W12 m ρ c)
abbrev X13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (X13 m ρ) c).arrAt w cfg6.N
theorem W14_arr (c : Dev nD) (w : Fin cfg6.W) :
    W14 m ρ c (Proc.devRef .tc (Pipeline.arrRef spec6 w)) = (dat6 (X13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev X14 : (c : Dev nD) → (b : Ref sig .tc) → Buf (Elt F) ((c : Thread nD τ).loc b) := fun c b => W14 m ρ c b
theorem hF6 (c : Dev nD) (w : Fin cfg6.W) : (dat6 (X13 m ρ) c).arrAt w cfg6.N = X14 m ρ c (Pipeline.arrRef spec6 w) :=
  (W14_arr m ρ c w).symm
theorem hrest6 (c : Dev nD) : ∀ b, b ∉ Finset.univ.image (Pipeline.arrRef spec6) → X14 m ρ c b = X13 m ρ c b :=
  fun b hb => W14_of_ne m ρ c b fun w e => hb (Finset.mem_image.mpr ⟨w, Finset.mem_univ _, e⟩)

/-- After the host stretch before region 7. -/
abbrev W15 : Dev nD → Valuation τ sig (Elt F) := fun c => StableHlo.after hostOps7 (W14 m ρ c)
abbrev X15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (X15 m ρ) c).arrAt w cfg7.N
theorem W16_arr (c : Dev nD) (w : Fin cfg7.W) :
    W16 m ρ c (Proc.devRef .tc (Pipeline.arrRef spec7 w)) = (dat7 (X15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev X16 : (c : Dev nD) → (b : Ref sig .tc) → Buf (Elt F) ((c : Thread nD τ).loc b) := fun c b => W16 m ρ c b
theorem hF7 (c : Dev nD) (w : Fin cfg7.W) : (dat7 (X15 m ρ) c).arrAt w cfg7.N = X16 m ρ c (Pipeline.arrRef spec7 w) :=
  (W16_arr m ρ c w).symm
theorem hrest7 (c : Dev nD) : ∀ b, b ∉ Finset.univ.image (Pipeline.arrRef spec7) → X16 m ρ c b = X15 m ρ c b :=
  fun b hb => W16_of_ne m ρ c b fun w e => hb (Finset.mem_image.mpr ⟨w, Finset.mem_univ _, e⟩)

/-- At region 8's exit: its arrays at what the pipeline leaves, every other buffer as entered. -/
def W17 (c : Dev nD) : Valuation τ sig (Elt F) :=
  Pipeline.withArrays spec8 c (W16 m ρ c) fun w => (dat8 (X16 m ρ) c).arrAt w cfg8.N
theorem W17_arr (c : Dev nD) (w : Fin cfg8.W) :
    W17 m ρ c (Proc.devRef .tc (Pipeline.arrRef spec8 w)) = (dat8 (X16 m ρ) c).arrAt w cfg8.N := by
  unfold W17; exact Pipeline.withArrays_arr spec8 launch8.win.arr_inj c _ _ w
theorem W17_of_ne (c : Dev nD) (b : Ref sig .tc) (hb : ∀ w, Pipeline.arrRef spec8 w ≠ b) :
    W17 m ρ c (Proc.devRef .tc b) = W16 m ρ c (Proc.devRef .tc b) := by
  unfold W17; exact Pipeline.withArrays_of_ne spec8 c _ _ b hb
abbrev X17 : (c : Dev nD) → (b : Ref sig .tc) → Buf (Elt F) ((c : Thread nD τ).loc b) := fun c b => W17 m ρ c b
theorem hF8 (c : Dev nD) (w : Fin cfg8.W) : (dat8 (X16 m ρ) c).arrAt w cfg8.N = X17 m ρ c (Pipeline.arrRef spec8 w) :=
  (W17_arr m ρ c w).symm
theorem hrest8 (c : Dev nD) : ∀ b, b ∉ Finset.univ.image (Pipeline.arrRef spec8) → X17 m ρ c b = X16 m ρ c b :=
  fun b hb => W17_of_ne m ρ c b fun w e => hb (Finset.mem_image.mpr ⟨w, Finset.mem_univ _, e⟩)

/-! ## The proof data family and the thread state -/

abbrev admH : (p : Fin 9) → (pcfgs (F := F) p).Adm := fun p => (cfgs p).toPCfg_adm
/-- Every pipeline's proof data, each at its region's entry contents. -/
def pdatsH : (p : Fin 9) → (c : Dev nD) → Dat τ (Elt F) Unit ℕ (UR sig nD τ) ℕ (Pipeline.pin (pcfgs (F := F)) admH p) c
  | ⟨0, _⟩ => fun c => dat0 (X1 m ρ) c
  | ⟨1, _⟩ => fun c => dat1 (X3 m ρ) c
  | ⟨2, _⟩ => fun c => dat2 (X5 m ρ) c
  | ⟨3, _⟩ => fun c => dat3 (X7 m ρ) c
  | ⟨4, _⟩ => fun c => dat4 (X9 m ρ) c
  | ⟨5, _⟩ => fun c => dat5 (X11 m ρ) c
  | ⟨6, _⟩ => fun c => dat6 (X13 m ρ) c
  | ⟨7, _⟩ => fun c => dat7 (X15 m ρ) c
  | ⟨8, _⟩ => fun c => dat8 (X16 m ρ) c
abbrev VV : Variants := Variants.none
abbrev LL : GSem nD τ sig → Finset Unit := fun _ => ∅
abbrev lvv : GSem nD τ sig → Unit → ℕ := fun _ _ => 0
/-- What rides beside the buffers through every segment: the generator register at some state, and nothing owed. -/
abbrev RR (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VV LL lvv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TT (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at the boundary before it, left at the one after. -/
def reg0 : Pipeline.RegionSeg (pcfgs (F := F)) admH (pdatsH m ρ) () defs₀ VV LL lvv 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ LL lvv 0 fun _ _ => rfl
  pre c := iprop(StableHlo.held (c : Thread nD τ) (Pipeline.ucRefs τ sig) (W1 m ρ c) ∗ RR c)
  post c := iprop(StableHlo.held (c : Thread nD τ) (Pipeline.ucRefs τ sig) (W2 m ρ c) ∗ RR c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from (hPhi0_0 (X1 m ρ) c)]; unfold Pipeline.ΦA
    iintro ⟨Hp, -, Hr⟩
    isplitl [Hr]; · iexact Hr
    iexact Hp
  hout c := by
    rw [Pipeline.ownSems0_none]
    refine (hout0 (X1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (X1 m ρ c) (X2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def reg1 : Pipeline.RegionSeg (pcfgs (F := F)) admH (pdatsH m ρ) () defs₀ VV LL lvv 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ LL lvv 1 fun _ _ => rfl
  pre c := iprop(StableHlo.held (c : Thread nD τ) (Pipeline.ucRefs τ sig) (W3 m ρ c) ∗ RR c)
  post c := iprop(StableHlo.held (c : Thread nD τ) (Pipeline.ucRefs τ sig) (W4 m ρ c) ∗ RR c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdatsH m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (X3 m ρ c) (X4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def reg2 : Pipeline.RegionSeg (pcfgs (F := F)) admH (pdatsH m ρ) () defs₀ VV LL lvv 2 where
  win := launch2.win.to₀
  block_pos := launch2.block_pos
  stage_whole := launch2.stage_whole
  K := PEmpty
  osem k := k.elim
  ho := Pipeline.OwnSemFacts.none _
  hbody c := (body_obligation2 (X5 m ρ) c).loose
  hwaits := Pipeline.hwaits_of_owed_zero _ _ _ _ LL lvv 2 fun _ _ => rfl
  pre c := iprop(StableHlo.held (c : Thread nD τ) (Pipeline.ucRefs τ sig) (W5 m ρ c) ∗ RR c)
  post c := iprop(StableHlo.held (c : Thread nD τ) (Pipeline.ucRefs τ sig) (W6 m ρ c) ∗ RR c)
  X c := iprop(∃ r, prngReg c r)
  Y c := iprop(∃ r, prngReg c r)
  Z c := Pipeline.unscopedRest (Ix := Unit) (Name := ℕ) (U := UR sig nD τ) (Lvl := ℕ) spec2 c (X5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (X5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from (hPhi0_2 (X5 m ρ) c)]; unfold Pipeline.ΦA
    iintro ⟨Hp, -, Hr⟩
    isplitl [Hr]; · iexact Hr
    iexact Hp
  hout c := by
    rw [Pipeline.ownSems0_none]
    refine (hout2 (X5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (X5 m ρ c) (X6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def reg3 : Pipeline.RegionSeg (pcfgs (F := F)) admH (pdatsH m ρ) () defs₀ VV LL lvv 3 where
  win := launch3.win.to₀
  block_pos := launch3.block_pos
  stage_whole := launch3.stage_whole
  K := PEmpty
  osem k := k.elim
  ho := Pipeline.OwnSemFacts.none _
  hbody c := (body_obligation3 (X7 m ρ) c).loose
  hwaits := Pipeline.hwaits_of_owed_zero _ _ _ _ LL lvv 3 fun _ _ => rfl
  pre c := iprop(StableHlo.held (c : Thread nD τ) (Pipeline.ucRefs τ sig) (W7 m ρ c) ∗ RR c)
  post c := iprop(StableHlo.held (c : Thread nD τ) (Pipeline.ucRefs τ sig) (W8 m ρ c) ∗ RR c)
  X c := iprop(∃ r, prngReg c r)
  Y c := iprop(∃ r, prngReg c r)
  Z c := Pipeline.unscopedRest (Ix := Unit) (Name := ℕ) (U := UR sig nD τ) (Lvl := ℕ) spec3 c (X7 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (X7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdatsH m ρ 3 c).Φ (Fin.last _) = Pipeline.ΦA spec3 c from rfl]
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (X7 m ρ c) (X8 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def reg4 : Pipeline.RegionSeg (pcfgs (F := F)) admH (pdatsH m ρ) () defs₀ VV LL lvv 4 where
  win := launch4.win.to₀
  block_pos := launch4.block_pos
  stage_whole := launch4.stage_whole
  K := PEmpty
  osem k := k.elim
  ho := Pipeline.OwnSemFacts.none _
  hbody c := (body_obligation4 (X9 m ρ) c).loose
  hwaits := Pipeline.hwaits_of_owed_zero _ _ _ _ LL lvv 4 fun _ _ => rfl
  pre c := iprop(StableHlo.held (c : Thread nD τ) (Pipeline.ucRefs τ sig) (W9 m ρ c) ∗ RR c)
  post c := iprop(StableHlo.held (c : Thread nD τ) (Pipeline.ucRefs τ sig) (W10 m ρ c) ∗ RR c)
  X c := iprop(∃ r, prngReg c r)
  Y c := iprop(∃ r, prngReg c r)
  Z c := Pipeline.unscopedRest (Ix := Unit) (Name := ℕ) (U := UR sig nD τ) (Lvl := ℕ) spec4 c (X9 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (X9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from (hPhi0_4 (X9 m ρ) c)]; unfold Pipeline.ΦA
    iintro ⟨Hp, -, Hr⟩
    isplitl [Hr]; · iexact Hr
    iexact Hp
  hout c := by
    rw [Pipeline.ownSems0_none]
    refine (hout4 (X9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (X9 m ρ c) (X10 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the one after. -/
def reg5 : Pipeline.RegionSeg (pcfgs (F := F)) admH (pdatsH m ρ) () defs₀ VV LL lvv 5 where
  win := launch5.win.to₀
  block_pos := launch5.block_pos
  stage_whole := launch5.stage_whole
  K := PEmpty
  osem k := k.elim
  ho := Pipeline.OwnSemFacts.none _
  hbody c := (body_obligation5 (X11 m ρ) c).loose
  hwaits := Pipeline.hwaits_of_owed_zero _ _ _ _ LL lvv 5 fun _ _ => rfl
  pre c := iprop(StableHlo.held (c : Thread nD τ) (Pipeline.ucRefs τ sig) (W11 m ρ c) ∗ RR c)
  post c := iprop(StableHlo.held (c : Thread nD τ) (Pipeline.ucRefs τ sig) (W12 m ρ c) ∗ RR c)
  X c := iprop(∃ r, prngReg c r)
  Y c := iprop(∃ r, prngReg c r)
  Z c := Pipeline.unscopedRest (Ix := Unit) (Name := ℕ) (U := UR sig nD τ) (Lvl := ℕ) spec5 c (X11 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (X11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none]
    rw [show (pdatsH m ρ 5 c).Φ (Fin.last _) = Pipeline.ΦA spec5 c from rfl]
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (X11 m ρ c) (X12 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the one after. -/
def reg6 : Pipeline.RegionSeg (pcfgs (F := F)) admH (pdatsH m ρ) () defs₀ VV LL lvv 6 where
  win := launch6.win.to₀
  block_pos := launch6.block_pos
  stage_whole := launch6.stage_whole
  K := PEmpty
  osem k := k.elim
  ho := Pipeline.OwnSemFacts.none _
  hbody c := (body_obligation6 (X13 m ρ) c).loose
  hwaits := Pipeline.hwaits_of_owed_zero _ _ _ _ LL lvv 6 fun _ _ => rfl
  pre c := iprop(StableHlo.held (c : Thread nD τ) (Pipeline.ucRefs τ sig) (W13 m ρ c) ∗ RR c)
  post c := iprop(StableHlo.held (c : Thread nD τ) (Pipeline.ucRefs τ sig) (W14 m ρ c) ∗ RR c)
  X c := iprop(∃ r, prngReg c r)
  Y c := iprop(∃ r, prngReg c r)
  Z c := Pipeline.unscopedRest (Ix := Unit) (Name := ℕ) (U := UR sig nD τ) (Lvl := ℕ) spec6 c (X13 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (X13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 6 c).Φ 0 = Pipeline.ΦA spec6 c from (hPhi0_6 (X13 m ρ) c)]; unfold Pipeline.ΦA
    iintro ⟨Hp, -, Hr⟩
    isplitl [Hr]; · iexact Hr
    iexact Hp
  hout c := by
    rw [Pipeline.ownSems0_none]
    refine (hout6 (X13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (X13 m ρ c) (X14 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the boundary before it, left at the one after. -/
def reg7 : Pipeline.RegionSeg (pcfgs (F := F)) admH (pdatsH m ρ) () defs₀ VV LL lvv 7 where
  win := launch7.win.to₀
  block_pos := launch7.block_pos
  stage_whole := launch7.stage_whole
  K := PEmpty
  osem k := k.elim
  ho := Pipeline.OwnSemFacts.none _
  hbody c := (body_obligation7 (X15 m ρ) c).loose
  hwaits := Pipeline.hwaits_of_owed_zero _ _ _ _ LL lvv 7 fun _ _ => rfl
  pre c := iprop(StableHlo.held (c : Thread nD τ) (Pipeline.ucRefs τ sig) (W15 m ρ c) ∗ RR c)
  post c := iprop(StableHlo.held (c : Thread nD τ) (Pipeline.ucRefs τ sig) (W16 m ρ c) ∗ RR c)
  X c := iprop(∃ r, prngReg c r)
  Y c := iprop(∃ r, prngReg c r)
  Z c := Pipeline.unscopedRest (Ix := Unit) (Name := ℕ) (U := UR sig nD τ) (Lvl := ℕ) spec7 c (X15 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (X15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none]
    rw [show (pdatsH m ρ 7 c).Φ (Fin.last _) = Pipeline.ΦA spec7 c from rfl]
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (X15 m ρ c) (X16 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at the boundary before it, left at the one after. -/
def reg8 : Pipeline.RegionSeg (pcfgs (F := F)) admH (pdatsH m ρ) () defs₀ VV LL lvv 8 where
  win := launch8.win.to₀
  block_pos := launch8.block_pos
  stage_whole := launch8.stage_whole
  K := PEmpty
  osem k := k.elim
  ho := Pipeline.OwnSemFacts.none _
  hbody c := (body_obligation8 (X16 m ρ) c).loose
  hwaits := Pipeline.hwaits_of_owed_zero _ _ _ _ LL lvv 8 fun _ _ => rfl
  pre c := iprop(StableHlo.held (c : Thread nD τ) (Pipeline.ucRefs τ sig) (W16 m ρ c) ∗ RR c)
  post c := iprop(StableHlo.held (c : Thread nD τ) (Pipeline.ucRefs τ sig) (W17 m ρ c) ∗ RR c)
  X c := iprop(∃ r, prngReg c r)
  Y c := iprop(∃ r, prngReg c r)
  Z c := Pipeline.unscopedRest (Ix := Unit) (Name := ℕ) (U := UR sig nD τ) (Lvl := ℕ) spec8 c (X16 m ρ c)
  hentry c := by
    rw [Pipeline.ownSems0_none]
    have hsplit := Pipeline.arrays_of_unscopedBufs (p := 8) (pcfgs (F := F)) admH (pdatsH m ρ) launch8.win launch8.arr_whole c
      ((pdatsH m ρ 8 c).share_full fun _ => rfl) (X16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 8 c).Φ 0 = Pipeline.ΦA spec8 c from rfl]; unfold Pipeline.ΦA
    iintro ⟨Hp, -, Hr⟩
    isplitl [Hr]; · iexact Hr
    iexact Hp
  hout c := by
    rw [Pipeline.ownSems0_none]
    rw [show (pdatsH m ρ 8 c).Φ (Fin.last _) = Pipeline.ΦA spec8 c from rfl]
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m ρ) ((pdatsH m ρ 8 c).share_full fun _ => rfl)
      (X16 m ρ c) (X17 m ρ c) ((pdatsH m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segsH : List (Pipeline.Seg (pcfgs (F := F)) admH (pdatsH m ρ) () defs₀ VV LL lvv) :=
  [ .host (hsegH hostOps0 hostOps0_sub hostOps0_fresh (W0 m ρ)),
    .region (reg0 m ρ),
    .host (hsegH hostOps1 hostOps1_sub hostOps1_fresh (W2 m ρ)),
    .region (reg1 m ρ),
    .host (hsegH hostOps2 hostOps2_sub hostOps2_fresh (W4 m ρ)),
    .region (reg2 m ρ),
    .host (hsegH hostOps3 hostOps3_sub hostOps3_fresh (W6 m ρ)),
    .region (reg3 m ρ),
    .host (hsegH hostOps4 hostOps4_sub hostOps4_fresh (W8 m ρ)),
    .region (reg4 m ρ),
    .host (hsegH hostOps5 hostOps5_sub hostOps5_fresh (W10 m ρ)),
    .region (reg5 m ρ),
    .host (hsegH hostOps6 hostOps6_sub hostOps6_fresh (W12 m ρ)),
    .region (reg6 m ρ),
    .host (hsegH hostOps7 hostOps7_sub hostOps7_fresh (W14 m ρ)),
    .region (reg7 m ρ),
    .region (reg8 m ρ) ]

set_option backward.isDefEq.respectTransparency.types false in
set_option maxHeartbeats 4000000 in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit_dev (pcfgs (F := F)) admH (pdatsH m ρ) () cellOf_inj emb₁ defs₀ VV LL lvv m ρ main (fun _ => segsH m ρ)
    (fun c Q => by
      rewrite [main_chain c, Seg.run_eq_chain,
        show (segsH m ρ).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()) ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RR c)) (Tₙ := TT m ρ)
    (hch := fun c => ⟨.rfl, .rfl, .rfl, .rfl, .rfl, .rfl, .rfl, .rfl, .rfl, .rfl, .rfl, .rfl, .rfl, .rfl, .rfl, .rfl, .rfl, by
      show iprop(StableHlo.held (c : Thread nD τ) (Pipeline.ucRefs τ sig) (W17 m ρ c) ∗ RR c)
        ⊢ iprop(TT m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LL lvv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

end Cert.KernelIdeal.Hand

end
-- ==== Proof.KI.Args.lean ====
/-
  No stretch of host operations and no region writes an argument array: at every boundary of the run each
  argument holds its launch contents (the last region reads four of them through input windows, which the
  pipeline leaves as it found them). Hence the program's frame: it terminates, and its arguments end unchanged.
-/
import proofs.«121608_j10213432229998_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem W4_arg0 : W4 m ρ c (Proc.devRef .tc main_arg0) = (m ((c : Thread nD τ).loc main_arg0)) :=
  ((W4_of_ne m ρ c main_arg0 (by decide)).trans ((StableHlo.after_of_writes_sub hostOps1 (W2 m ρ c) hostOps1_writes (by decide : main_arg0 ∉ hostOps1_W)).trans ((W2_of_ne m ρ c main_arg0 (by decide)).trans (StableHlo.after_of_writes_sub hostOps0 (W0 m ρ c) hostOps0_writes (by decide : main_arg0 ∉ hostOps0_W)))))
theorem W8_arg0 : W8 m ρ c (Proc.devRef .tc main_arg0) = (m ((c : Thread nD τ).loc main_arg0)) :=
  (((W8_of_ne m ρ c main_arg0 (by decide)).trans ((StableHlo.after_of_writes_sub hostOps3 (W6 m ρ c) hostOps3_writes (by decide : main_arg0 ∉ hostOps3_W)).trans ((W6_of_ne m ρ c main_arg0 (by decide)).trans (StableHlo.after_of_writes_sub hostOps2 (W4 m ρ c) hostOps2_writes (by decide : main_arg0 ∉ hostOps2_W)))))).trans (W4_arg0 m ρ c)
theorem W12_arg0 : W12 m ρ c (Proc.devRef .tc main_arg0) = (m ((c : Thread nD τ).loc main_arg0)) :=
  (((W12_of_ne m ρ c main_arg0 (by decide)).trans ((StableHlo.after_of_writes_sub hostOps5 (W10 m ρ c) hostOps5_writes (by decide : main_arg0 ∉ hostOps5_W)).trans ((W10_of_ne m ρ c main_arg0 (by decide)).trans (StableHlo.after_of_writes_sub hostOps4 (W8 m ρ c) hostOps4_writes (by decide : main_arg0 ∉ hostOps4_W)))))).trans (W8_arg0 m ρ c)
theorem W16_arg0 : W16 m ρ c (Proc.devRef .tc main_arg0) = (m ((c : Thread nD τ).loc main_arg0)) :=
  (((W16_of_ne m ρ c main_arg0 (by decide)).trans ((StableHlo.after_of_writes_sub hostOps7 (W14 m ρ c) hostOps7_writes (by decide : main_arg0 ∉ hostOps7_W)).trans ((W14_of_ne m ρ c main_arg0 (by decide)).trans (StableHlo.after_of_writes_sub hostOps6 (W12 m ρ c) hostOps6_writes (by decide : main_arg0 ∉ hostOps6_W)))))).trans (W12_arg0 m ρ c)
theorem W17_arg0 : W17 m ρ c (Proc.devRef .tc main_arg0) = (m ((c : Thread nD τ).loc main_arg0)) :=
  ((W17_of_ne m ρ c main_arg0 (by decide))).trans (W16_arg0 m ρ c)
theorem W4_arg1 : W4 m ρ c (Proc.devRef .tc main_arg1) = (m ((c : Thread nD τ).loc main_arg1)) :=
  ((W4_of_ne m ρ c main_arg1 (by decide)).trans ((StableHlo.after_of_writes_sub hostOps1 (W2 m ρ c) hostOps1_writes (by decide : main_arg1 ∉ hostOps1_W)).trans ((W2_of_ne m ρ c main_arg1 (by decide)).trans (StableHlo.after_of_writes_sub hostOps0 (W0 m ρ c) hostOps0_writes (by decide : main_arg1 ∉ hostOps0_W)))))
theorem W8_arg1 : W8 m ρ c (Proc.devRef .tc main_arg1) = (m ((c : Thread nD τ).loc main_arg1)) :=
  (((W8_of_ne m ρ c main_arg1 (by decide)).trans ((StableHlo.after_of_writes_sub hostOps3 (W6 m ρ c) hostOps3_writes (by decide : main_arg1 ∉ hostOps3_W)).trans ((W6_of_ne m ρ c main_arg1 (by decide)).trans (StableHlo.after_of_writes_sub hostOps2 (W4 m ρ c) hostOps2_writes (by decide : main_arg1 ∉ hostOps2_W)))))).trans (W4_arg1 m ρ c)
theorem W12_arg1 : W12 m ρ c (Proc.devRef .tc main_arg1) = (m ((c : Thread nD τ).loc main_arg1)) :=
  (((W12_of_ne m ρ c main_arg1 (by decide)).trans ((StableHlo.after_of_writes_sub hostOps5 (W10 m ρ c) hostOps5_writes (by decide : main_arg1 ∉ hostOps5_W)).trans ((W10_of_ne m ρ c main_arg1 (by decide)).trans (StableHlo.after_of_writes_sub hostOps4 (W8 m ρ c) hostOps4_writes (by decide : main_arg1 ∉ hostOps4_W)))))).trans (W8_arg1 m ρ c)
theorem W16_arg1 : W16 m ρ c (Proc.devRef .tc main_arg1) = (m ((c : Thread nD τ).loc main_arg1)) :=
  (((W16_of_ne m ρ c main_arg1 (by decide)).trans ((StableHlo.after_of_writes_sub hostOps7 (W14 m ρ c) hostOps7_writes (by decide : main_arg1 ∉ hostOps7_W)).trans ((W14_of_ne m ρ c main_arg1 (by decide)).trans (StableHlo.after_of_writes_sub hostOps6 (W12 m ρ c) hostOps6_writes (by decide : main_arg1 ∉ hostOps6_W)))))).trans (W12_arg1 m ρ c)
theorem W17_arg1 : W17 m ρ c (Proc.devRef .tc main_arg1) = (m ((c : Thread nD τ).loc main_arg1)) :=
  ((W17_of_ne m ρ c main_arg1 (by decide))).trans (W16_arg1 m ρ c)
theorem W4_arg2 : W4 m ρ c (Proc.devRef .tc main_arg2) = (m ((c : Thread nD τ).loc main_arg2)) :=
  ((W4_of_ne m ρ c main_arg2 (by decide)).trans ((StableHlo.after_of_writes_sub hostOps1 (W2 m ρ c) hostOps1_writes (by decide : main_arg2 ∉ hostOps1_W)).trans ((W2_of_ne m ρ c main_arg2 (by decide)).trans (StableHlo.after_of_writes_sub hostOps0 (W0 m ρ c) hostOps0_writes (by decide : main_arg2 ∉ hostOps0_W)))))
theorem W8_arg2 : W8 m ρ c (Proc.devRef .tc main_arg2) = (m ((c : Thread nD τ).loc main_arg2)) :=
  (((W8_of_ne m ρ c main_arg2 (by decide)).trans ((StableHlo.after_of_writes_sub hostOps3 (W6 m ρ c) hostOps3_writes (by decide : main_arg2 ∉ hostOps3_W)).trans ((W6_of_ne m ρ c main_arg2 (by decide)).trans (StableHlo.after_of_writes_sub hostOps2 (W4 m ρ c) hostOps2_writes (by decide : main_arg2 ∉ hostOps2_W)))))).trans (W4_arg2 m ρ c)
theorem W12_arg2 : W12 m ρ c (Proc.devRef .tc main_arg2) = (m ((c : Thread nD τ).loc main_arg2)) :=
  (((W12_of_ne m ρ c main_arg2 (by decide)).trans ((StableHlo.after_of_writes_sub hostOps5 (W10 m ρ c) hostOps5_writes (by decide : main_arg2 ∉ hostOps5_W)).trans ((W10_of_ne m ρ c main_arg2 (by decide)).trans (StableHlo.after_of_writes_sub hostOps4 (W8 m ρ c) hostOps4_writes (by decide : main_arg2 ∉ hostOps4_W)))))).trans (W8_arg2 m ρ c)
theorem W16_arg2 : W16 m ρ c (Proc.devRef .tc main_arg2) = (m ((c : Thread nD τ).loc main_arg2)) :=
  (((W16_of_ne m ρ c main_arg2 (by decide)).trans ((StableHlo.after_of_writes_sub hostOps7 (W14 m ρ c) hostOps7_writes (by decide : main_arg2 ∉ hostOps7_W)).trans ((W14_of_ne m ρ c main_arg2 (by decide)).trans (StableHlo.after_of_writes_sub hostOps6 (W12 m ρ c) hostOps6_writes (by decide : main_arg2 ∉ hostOps6_W)))))).trans (W12_arg2 m ρ c)
theorem W17_arg2 : W17 m ρ c (Proc.devRef .tc main_arg2) = (m ((c : Thread nD τ).loc main_arg2)) :=
  ((W17_of_ne m ρ c main_arg2 (by decide))).trans (W16_arg2 m ρ c)
theorem W4_arg3 : W4 m ρ c (Proc.devRef .tc main_arg3) = (m ((c : Thread nD τ).loc main_arg3)) :=
  ((W4_of_ne m ρ c main_arg3 (by decide)).trans ((StableHlo.after_of_writes_sub hostOps1 (W2 m ρ c) hostOps1_writes (by decide : main_arg3 ∉ hostOps1_W)).trans ((W2_of_ne m ρ c main_arg3 (by decide)).trans (StableHlo.after_of_writes_sub hostOps0 (W0 m ρ c) hostOps0_writes (by decide : main_arg3 ∉ hostOps0_W)))))
theorem W8_arg3 : W8 m ρ c (Proc.devRef .tc main_arg3) = (m ((c : Thread nD τ).loc main_arg3)) :=
  (((W8_of_ne m ρ c main_arg3 (by decide)).trans ((StableHlo.after_of_writes_sub hostOps3 (W6 m ρ c) hostOps3_writes (by decide : main_arg3 ∉ hostOps3_W)).trans ((W6_of_ne m ρ c main_arg3 (by decide)).trans (StableHlo.after_of_writes_sub hostOps2 (W4 m ρ c) hostOps2_writes (by decide : main_arg3 ∉ hostOps2_W)))))).trans (W4_arg3 m ρ c)
theorem W12_arg3 : W12 m ρ c (Proc.devRef .tc main_arg3) = (m ((c : Thread nD τ).loc main_arg3)) :=
  (((W12_of_ne m ρ c main_arg3 (by decide)).trans ((StableHlo.after_of_writes_sub hostOps5 (W10 m ρ c) hostOps5_writes (by decide : main_arg3 ∉ hostOps5_W)).trans ((W10_of_ne m ρ c main_arg3 (by decide)).trans (StableHlo.after_of_writes_sub hostOps4 (W8 m ρ c) hostOps4_writes (by decide : main_arg3 ∉ hostOps4_W)))))).trans (W8_arg3 m ρ c)
theorem W16_arg3 : W16 m ρ c (Proc.devRef .tc main_arg3) = (m ((c : Thread nD τ).loc main_arg3)) :=
  (((W16_of_ne m ρ c main_arg3 (by decide)).trans ((StableHlo.after_of_writes_sub hostOps7 (W14 m ρ c) hostOps7_writes (by decide : main_arg3 ∉ hostOps7_W)).trans ((W14_of_ne m ρ c main_arg3 (by decide)).trans (StableHlo.after_of_writes_sub hostOps6 (W12 m ρ c) hostOps6_writes (by decide : main_arg3 ∉ hostOps6_W)))))).trans (W12_arg3 m ρ c)
theorem W17_arg3 : W17 m ρ c (Proc.devRef .tc main_arg3) = (m ((c : Thread nD τ).loc main_arg3)) :=
  ((W17_of_ne m ρ c main_arg3 (by decide))).trans (W16_arg3 m ρ c)
theorem W4_arg4 : W4 m ρ c (Proc.devRef .tc main_arg4) = (m ((c : Thread nD τ).loc main_arg4)) :=
  ((W4_of_ne m ρ c main_arg4 (by decide)).trans ((StableHlo.after_of_writes_sub hostOps1 (W2 m ρ c) hostOps1_writes (by decide : main_arg4 ∉ hostOps1_W)).trans ((W2_of_ne m ρ c main_arg4 (by decide)).trans (StableHlo.after_of_writes_sub hostOps0 (W0 m ρ c) hostOps0_writes (by decide : main_arg4 ∉ hostOps0_W)))))
theorem W8_arg4 : W8 m ρ c (Proc.devRef .tc main_arg4) = (m ((c : Thread nD τ).loc main_arg4)) :=
  (((W8_of_ne m ρ c main_arg4 (by decide)).trans ((StableHlo.after_of_writes_sub hostOps3 (W6 m ρ c) hostOps3_writes (by decide : main_arg4 ∉ hostOps3_W)).trans ((W6_of_ne m ρ c main_arg4 (by decide)).trans (StableHlo.after_of_writes_sub hostOps2 (W4 m ρ c) hostOps2_writes (by decide : main_arg4 ∉ hostOps2_W)))))).trans (W4_arg4 m ρ c)
theorem W12_arg4 : W12 m ρ c (Proc.devRef .tc main_arg4) = (m ((c : Thread nD τ).loc main_arg4)) :=
  (((W12_of_ne m ρ c main_arg4 (by decide)).trans ((StableHlo.after_of_writes_sub hostOps5 (W10 m ρ c) hostOps5_writes (by decide : main_arg4 ∉ hostOps5_W)).trans ((W10_of_ne m ρ c main_arg4 (by decide)).trans (StableHlo.after_of_writes_sub hostOps4 (W8 m ρ c) hostOps4_writes (by decide : main_arg4 ∉ hostOps4_W)))))).trans (W8_arg4 m ρ c)
theorem W16_arg4 : W16 m ρ c (Proc.devRef .tc main_arg4) = (m ((c : Thread nD τ).loc main_arg4)) :=
  (((W16_of_ne m ρ c main_arg4 (by decide)).trans ((StableHlo.after_of_writes_sub hostOps7 (W14 m ρ c) hostOps7_writes (by decide : main_arg4 ∉ hostOps7_W)).trans ((W14_of_ne m ρ c main_arg4 (by decide)).trans (StableHlo.after_of_writes_sub hostOps6 (W12 m ρ c) hostOps6_writes (by decide : main_arg4 ∉ hostOps6_W)))))).trans (W12_arg4 m ρ c)
theorem W17_arg4 : W17 m ρ c (Proc.devRef .tc main_arg4) = (m ((c : Thread nD τ).loc main_arg4)) :=
  ((W17_of_ne m ρ c main_arg4 (by decide))).trans (W16_arg4 m ρ c)
theorem W4_arg5 : W4 m ρ c (Proc.devRef .tc main_arg5) = (m ((c : Thread nD τ).loc main_arg5)) :=
  ((W4_of_ne m ρ c main_arg5 (by decide)).trans ((StableHlo.after_of_writes_sub hostOps1 (W2 m ρ c) hostOps1_writes (by decide : main_arg5 ∉ hostOps1_W)).trans ((W2_of_ne m ρ c main_arg5 (by decide)).trans (StableHlo.after_of_writes_sub hostOps0 (W0 m ρ c) hostOps0_writes (by decide : main_arg5 ∉ hostOps0_W)))))
theorem W8_arg5 : W8 m ρ c (Proc.devRef .tc main_arg5) = (m ((c : Thread nD τ).loc main_arg5)) :=
  (((W8_of_ne m ρ c main_arg5 (by decide)).trans ((StableHlo.after_of_writes_sub hostOps3 (W6 m ρ c) hostOps3_writes (by decide : main_arg5 ∉ hostOps3_W)).trans ((W6_of_ne m ρ c main_arg5 (by decide)).trans (StableHlo.after_of_writes_sub hostOps2 (W4 m ρ c) hostOps2_writes (by decide : main_arg5 ∉ hostOps2_W)))))).trans (W4_arg5 m ρ c)
theorem W12_arg5 : W12 m ρ c (Proc.devRef .tc main_arg5) = (m ((c : Thread nD τ).loc main_arg5)) :=
  (((W12_of_ne m ρ c main_arg5 (by decide)).trans ((StableHlo.after_of_writes_sub hostOps5 (W10 m ρ c) hostOps5_writes (by decide : main_arg5 ∉ hostOps5_W)).trans ((W10_of_ne m ρ c main_arg5 (by decide)).trans (StableHlo.after_of_writes_sub hostOps4 (W8 m ρ c) hostOps4_writes (by decide : main_arg5 ∉ hostOps4_W)))))).trans (W8_arg5 m ρ c)
theorem W16_arg5 : W16 m ρ c (Proc.devRef .tc main_arg5) = (m ((c : Thread nD τ).loc main_arg5)) :=
  (((W16_of_ne m ρ c main_arg5 (by decide)).trans ((StableHlo.after_of_writes_sub hostOps7 (W14 m ρ c) hostOps7_writes (by decide : main_arg5 ∉ hostOps7_W)).trans ((W14_of_ne m ρ c main_arg5 (by decide)).trans (StableHlo.after_of_writes_sub hostOps6 (W12 m ρ c) hostOps6_writes (by decide : main_arg5 ∉ hostOps6_W)))))).trans (W12_arg5 m ρ c)
theorem W17_arg5 : W17 m ρ c (Proc.devRef .tc main_arg5) = (m ((c : Thread nD τ).loc main_arg5)) :=
  ((W17_of_ne m ρ c main_arg5 (by decide))).trans (W16_arg5 m ρ c)
theorem W4_arg6 : W4 m ρ c (Proc.devRef .tc main_arg6) = (m ((c : Thread nD τ).loc main_arg6)) :=
  ((W4_of_ne m ρ c main_arg6 (by decide)).trans ((StableHlo.after_of_writes_sub hostOps1 (W2 m ρ c) hostOps1_writes (by decide : main_arg6 ∉ hostOps1_W)).trans ((W2_of_ne m ρ c main_arg6 (by decide)).trans (StableHlo.after_of_writes_sub hostOps0 (W0 m ρ c) hostOps0_writes (by decide : main_arg6 ∉ hostOps0_W)))))
theorem W8_arg6 : W8 m ρ c (Proc.devRef .tc main_arg6) = (m ((c : Thread nD τ).loc main_arg6)) :=
  (((W8_of_ne m ρ c main_arg6 (by decide)).trans ((StableHlo.after_of_writes_sub hostOps3 (W6 m ρ c) hostOps3_writes (by decide : main_arg6 ∉ hostOps3_W)).trans ((W6_of_ne m ρ c main_arg6 (by decide)).trans (StableHlo.after_of_writes_sub hostOps2 (W4 m ρ c) hostOps2_writes (by decide : main_arg6 ∉ hostOps2_W)))))).trans (W4_arg6 m ρ c)
theorem W12_arg6 : W12 m ρ c (Proc.devRef .tc main_arg6) = (m ((c : Thread nD τ).loc main_arg6)) :=
  (((W12_of_ne m ρ c main_arg6 (by decide)).trans ((StableHlo.after_of_writes_sub hostOps5 (W10 m ρ c) hostOps5_writes (by decide : main_arg6 ∉ hostOps5_W)).trans ((W10_of_ne m ρ c main_arg6 (by decide)).trans (StableHlo.after_of_writes_sub hostOps4 (W8 m ρ c) hostOps4_writes (by decide : main_arg6 ∉ hostOps4_W)))))).trans (W8_arg6 m ρ c)
theorem W16_arg6 : W16 m ρ c (Proc.devRef .tc main_arg6) = (m ((c : Thread nD τ).loc main_arg6)) :=
  (((W16_of_ne m ρ c main_arg6 (by decide)).trans ((StableHlo.after_of_writes_sub hostOps7 (W14 m ρ c) hostOps7_writes (by decide : main_arg6 ∉ hostOps7_W)).trans ((W14_of_ne m ρ c main_arg6 (by decide)).trans (StableHlo.after_of_writes_sub hostOps6 (W12 m ρ c) hostOps6_writes (by decide : main_arg6 ∉ hostOps6_W)))))).trans (W12_arg6 m ρ c)
theorem W17_arg6 : W17 m ρ c (Proc.devRef .tc main_arg6) = (m ((c : Thread nD τ).loc main_arg6)) :=
  ((W17_of_ne m ρ c main_arg6 (by decide))).trans (W16_arg6 m ρ c)
theorem W4_arg7 : W4 m ρ c (Proc.devRef .tc main_arg7) = (m ((c : Thread nD τ).loc main_arg7)) :=
  ((W4_of_ne m ρ c main_arg7 (by decide)).trans ((StableHlo.after_of_writes_sub hostOps1 (W2 m ρ c) hostOps1_writes (by decide : main_arg7 ∉ hostOps1_W)).trans ((W2_of_ne m ρ c main_arg7 (by decide)).trans (StableHlo.after_of_writes_sub hostOps0 (W0 m ρ c) hostOps0_writes (by decide : main_arg7 ∉ hostOps0_W)))))
theorem W8_arg7 : W8 m ρ c (Proc.devRef .tc main_arg7) = (m ((c : Thread nD τ).loc main_arg7)) :=
  (((W8_of_ne m ρ c main_arg7 (by decide)).trans ((StableHlo.after_of_writes_sub hostOps3 (W6 m ρ c) hostOps3_writes (by decide : main_arg7 ∉ hostOps3_W)).trans ((W6_of_ne m ρ c main_arg7 (by decide)).trans (StableHlo.after_of_writes_sub hostOps2 (W4 m ρ c) hostOps2_writes (by decide : main_arg7 ∉ hostOps2_W)))))).trans (W4_arg7 m ρ c)
theorem W12_arg7 : W12 m ρ c (Proc.devRef .tc main_arg7) = (m ((c : Thread nD τ).loc main_arg7)) :=
  (((W12_of_ne m ρ c main_arg7 (by decide)).trans ((StableHlo.after_of_writes_sub hostOps5 (W10 m ρ c) hostOps5_writes (by decide : main_arg7 ∉ hostOps5_W)).trans ((W10_of_ne m ρ c main_arg7 (by decide)).trans (StableHlo.after_of_writes_sub hostOps4 (W8 m ρ c) hostOps4_writes (by decide : main_arg7 ∉ hostOps4_W)))))).trans (W8_arg7 m ρ c)
theorem W16_arg7 : W16 m ρ c (Proc.devRef .tc main_arg7) = (m ((c : Thread nD τ).loc main_arg7)) :=
  (((W16_of_ne m ρ c main_arg7 (by decide)).trans ((StableHlo.after_of_writes_sub hostOps7 (W14 m ρ c) hostOps7_writes (by decide : main_arg7 ∉ hostOps7_W)).trans ((W14_of_ne m ρ c main_arg7 (by decide)).trans (StableHlo.after_of_writes_sub hostOps6 (W12 m ρ c) hostOps6_writes (by decide : main_arg7 ∉ hostOps6_W)))))).trans (W12_arg7 m ρ c)
theorem W17_arg7 : W17 m ρ c (Proc.devRef .tc main_arg7) = (m ((c : Thread nD τ).loc main_arg7)) :=
  ((W17_of_ne m ρ c main_arg7 (by decide))).trans (W16_arg7 m ρ c)
theorem W4_arg8 : W4 m ρ c (Proc.devRef .tc main_arg8) = (m ((c : Thread nD τ).loc main_arg8)) :=
  ((W4_of_ne m ρ c main_arg8 (by decide)).trans ((StableHlo.after_of_writes_sub hostOps1 (W2 m ρ c) hostOps1_writes (by decide : main_arg8 ∉ hostOps1_W)).trans ((W2_of_ne m ρ c main_arg8 (by decide)).trans (StableHlo.after_of_writes_sub hostOps0 (W0 m ρ c) hostOps0_writes (by decide : main_arg8 ∉ hostOps0_W)))))
theorem W8_arg8 : W8 m ρ c (Proc.devRef .tc main_arg8) = (m ((c : Thread nD τ).loc main_arg8)) :=
  (((W8_of_ne m ρ c main_arg8 (by decide)).trans ((StableHlo.after_of_writes_sub hostOps3 (W6 m ρ c) hostOps3_writes (by decide : main_arg8 ∉ hostOps3_W)).trans ((W6_of_ne m ρ c main_arg8 (by decide)).trans (StableHlo.after_of_writes_sub hostOps2 (W4 m ρ c) hostOps2_writes (by decide : main_arg8 ∉ hostOps2_W)))))).trans (W4_arg8 m ρ c)
theorem W12_arg8 : W12 m ρ c (Proc.devRef .tc main_arg8) = (m ((c : Thread nD τ).loc main_arg8)) :=
  (((W12_of_ne m ρ c main_arg8 (by decide)).trans ((StableHlo.after_of_writes_sub hostOps5 (W10 m ρ c) hostOps5_writes (by decide : main_arg8 ∉ hostOps5_W)).trans ((W10_of_ne m ρ c main_arg8 (by decide)).trans (StableHlo.after_of_writes_sub hostOps4 (W8 m ρ c) hostOps4_writes (by decide : main_arg8 ∉ hostOps4_W)))))).trans (W8_arg8 m ρ c)
theorem W16_arg8 : W16 m ρ c (Proc.devRef .tc main_arg8) = (m ((c : Thread nD τ).loc main_arg8)) :=
  (((W16_of_ne m ρ c main_arg8 (by decide)).trans ((StableHlo.after_of_writes_sub hostOps7 (W14 m ρ c) hostOps7_writes (by decide : main_arg8 ∉ hostOps7_W)).trans ((W14_of_ne m ρ c main_arg8 (by decide)).trans (StableHlo.after_of_writes_sub hostOps6 (W12 m ρ c) hostOps6_writes (by decide : main_arg8 ∉ hostOps6_W)))))).trans (W12_arg8 m ρ c)
theorem W17_arg8 : W17 m ρ c (Proc.devRef .tc main_arg8) = (m ((c : Thread nD τ).loc main_arg8)) :=
  ((W17_arr m ρ c 1).trans (((dat8 (X16 m ρ) c).arrAt_in 1 rfl _).trans (A_eq8 (X16 m ρ) c 1))).trans (W16_arg8 m ρ c)
theorem W4_arg9 : W4 m ρ c (Proc.devRef .tc main_arg9) = (m ((c : Thread nD τ).loc main_arg9)) :=
  ((W4_of_ne m ρ c main_arg9 (by decide)).trans ((StableHlo.after_of_writes_sub hostOps1 (W2 m ρ c) hostOps1_writes (by decide : main_arg9 ∉ hostOps1_W)).trans ((W2_of_ne m ρ c main_arg9 (by decide)).trans (StableHlo.after_of_writes_sub hostOps0 (W0 m ρ c) hostOps0_writes (by decide : main_arg9 ∉ hostOps0_W)))))
theorem W8_arg9 : W8 m ρ c (Proc.devRef .tc main_arg9) = (m ((c : Thread nD τ).loc main_arg9)) :=
  (((W8_of_ne m ρ c main_arg9 (by decide)).trans ((StableHlo.after_of_writes_sub hostOps3 (W6 m ρ c) hostOps3_writes (by decide : main_arg9 ∉ hostOps3_W)).trans ((W6_of_ne m ρ c main_arg9 (by decide)).trans (StableHlo.after_of_writes_sub hostOps2 (W4 m ρ c) hostOps2_writes (by decide : main_arg9 ∉ hostOps2_W)))))).trans (W4_arg9 m ρ c)
theorem W12_arg9 : W12 m ρ c (Proc.devRef .tc main_arg9) = (m ((c : Thread nD τ).loc main_arg9)) :=
  (((W12_of_ne m ρ c main_arg9 (by decide)).trans ((StableHlo.after_of_writes_sub hostOps5 (W10 m ρ c) hostOps5_writes (by decide : main_arg9 ∉ hostOps5_W)).trans ((W10_of_ne m ρ c main_arg9 (by decide)).trans (StableHlo.after_of_writes_sub hostOps4 (W8 m ρ c) hostOps4_writes (by decide : main_arg9 ∉ hostOps4_W)))))).trans (W8_arg9 m ρ c)
theorem W16_arg9 : W16 m ρ c (Proc.devRef .tc main_arg9) = (m ((c : Thread nD τ).loc main_arg9)) :=
  (((W16_of_ne m ρ c main_arg9 (by decide)).trans ((StableHlo.after_of_writes_sub hostOps7 (W14 m ρ c) hostOps7_writes (by decide : main_arg9 ∉ hostOps7_W)).trans ((W14_of_ne m ρ c main_arg9 (by decide)).trans (StableHlo.after_of_writes_sub hostOps6 (W12 m ρ c) hostOps6_writes (by decide : main_arg9 ∉ hostOps6_W)))))).trans (W12_arg9 m ρ c)
theorem W17_arg9 : W17 m ρ c (Proc.devRef .tc main_arg9) = (m ((c : Thread nD τ).loc main_arg9)) :=
  ((W17_arr m ρ c 2).trans (((dat8 (X16 m ρ) c).arrAt_in 2 rfl _).trans (A_eq8 (X16 m ρ) c 2))).trans (W16_arg9 m ρ c)
theorem W4_arg10 : W4 m ρ c (Proc.devRef .tc main_arg10) = (m ((c : Thread nD τ).loc main_arg10)) :=
  ((W4_of_ne m ρ c main_arg10 (by decide)).trans ((StableHlo.after_of_writes_sub hostOps1 (W2 m ρ c) hostOps1_writes (by decide : main_arg10 ∉ hostOps1_W)).trans ((W2_of_ne m ρ c main_arg10 (by decide)).trans (StableHlo.after_of_writes_sub hostOps0 (W0 m ρ c) hostOps0_writes (by decide : main_arg10 ∉ hostOps0_W)))))
theorem W8_arg10 : W8 m ρ c (Proc.devRef .tc main_arg10) = (m ((c : Thread nD τ).loc main_arg10)) :=
  (((W8_of_ne m ρ c main_arg10 (by decide)).trans ((StableHlo.after_of_writes_sub hostOps3 (W6 m ρ c) hostOps3_writes (by decide : main_arg10 ∉ hostOps3_W)).trans ((W6_of_ne m ρ c main_arg10 (by decide)).trans (StableHlo.after_of_writes_sub hostOps2 (W4 m ρ c) hostOps2_writes (by decide : main_arg10 ∉ hostOps2_W)))))).trans (W4_arg10 m ρ c)
theorem W12_arg10 : W12 m ρ c (Proc.devRef .tc main_arg10) = (m ((c : Thread nD τ).loc main_arg10)) :=
  (((W12_of_ne m ρ c main_arg10 (by decide)).trans ((StableHlo.after_of_writes_sub hostOps5 (W10 m ρ c) hostOps5_writes (by decide : main_arg10 ∉ hostOps5_W)).trans ((W10_of_ne m ρ c main_arg10 (by decide)).trans (StableHlo.after_of_writes_sub hostOps4 (W8 m ρ c) hostOps4_writes (by decide : main_arg10 ∉ hostOps4_W)))))).trans (W8_arg10 m ρ c)
theorem W16_arg10 : W16 m ρ c (Proc.devRef .tc main_arg10) = (m ((c : Thread nD τ).loc main_arg10)) :=
  (((W16_of_ne m ρ c main_arg10 (by decide)).trans ((StableHlo.after_of_writes_sub hostOps7 (W14 m ρ c) hostOps7_writes (by decide : main_arg10 ∉ hostOps7_W)).trans ((W14_of_ne m ρ c main_arg10 (by decide)).trans (StableHlo.after_of_writes_sub hostOps6 (W12 m ρ c) hostOps6_writes (by decide : main_arg10 ∉ hostOps6_W)))))).trans (W12_arg10 m ρ c)
theorem W17_arg10 : W17 m ρ c (Proc.devRef .tc main_arg10) = (m ((c : Thread nD τ).loc main_arg10)) :=
  ((W17_arr m ρ c 3).trans (((dat8 (X16 m ρ) c).arrAt_in 3 rfl _).trans (A_eq8 (X16 m ρ) c 3))).trans (W16_arg10 m ρ c)
theorem W4_arg11 : W4 m ρ c (Proc.devRef .tc main_arg11) = (m ((c : Thread nD τ).loc main_arg11)) :=
  ((W4_of_ne m ρ c main_arg11 (by decide)).trans ((StableHlo.after_of_writes_sub hostOps1 (W2 m ρ c) hostOps1_writes (by decide : main_arg11 ∉ hostOps1_W)).trans ((W2_of_ne m ρ c main_arg11 (by decide)).trans (StableHlo.after_of_writes_sub hostOps0 (W0 m ρ c) hostOps0_writes (by decide : main_arg11 ∉ hostOps0_W)))))
theorem W8_arg11 : W8 m ρ c (Proc.devRef .tc main_arg11) = (m ((c : Thread nD τ).loc main_arg11)) :=
  (((W8_of_ne m ρ c main_arg11 (by decide)).trans ((StableHlo.after_of_writes_sub hostOps3 (W6 m ρ c) hostOps3_writes (by decide : main_arg11 ∉ hostOps3_W)).trans ((W6_of_ne m ρ c main_arg11 (by decide)).trans (StableHlo.after_of_writes_sub hostOps2 (W4 m ρ c) hostOps2_writes (by decide : main_arg11 ∉ hostOps2_W)))))).trans (W4_arg11 m ρ c)
theorem W12_arg11 : W12 m ρ c (Proc.devRef .tc main_arg11) = (m ((c : Thread nD τ).loc main_arg11)) :=
  (((W12_of_ne m ρ c main_arg11 (by decide)).trans ((StableHlo.after_of_writes_sub hostOps5 (W10 m ρ c) hostOps5_writes (by decide : main_arg11 ∉ hostOps5_W)).trans ((W10_of_ne m ρ c main_arg11 (by decide)).trans (StableHlo.after_of_writes_sub hostOps4 (W8 m ρ c) hostOps4_writes (by decide : main_arg11 ∉ hostOps4_W)))))).trans (W8_arg11 m ρ c)
theorem W16_arg11 : W16 m ρ c (Proc.devRef .tc main_arg11) = (m ((c : Thread nD τ).loc main_arg11)) :=
  (((W16_of_ne m ρ c main_arg11 (by decide)).trans ((StableHlo.after_of_writes_sub hostOps7 (W14 m ρ c) hostOps7_writes (by decide : main_arg11 ∉ hostOps7_W)).trans ((W14_of_ne m ρ c main_arg11 (by decide)).trans (StableHlo.after_of_writes_sub hostOps6 (W12 m ρ c) hostOps6_writes (by decide : main_arg11 ∉ hostOps6_W)))))).trans (W12_arg11 m ρ c)
theorem W17_arg11 : W17 m ρ c (Proc.devRef .tc main_arg11) = (m ((c : Thread nD τ).loc main_arg11)) :=
  ((W17_arr m ρ c 4).trans (((dat8 (X16 m ρ) c).arrAt_in 4 rfl _).trans (A_eq8 (X16 m ρ) c 4))).trans (W16_arg11 m ρ c)

/-- THE FRAME: every weakly fair execution terminates, nothing faulting, and the twelve arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W17_arg0 m ρ c),
      (h c _ (mem_uc main_arg1 (by decide))).trans (W17_arg1 m ρ c),
      (h c _ (mem_uc main_arg2 (by decide))).trans (W17_arg2 m ρ c),
      (h c _ (mem_uc main_arg3 (by decide))).trans (W17_arg3 m ρ c),
      (h c _ (mem_uc main_arg4 (by decide))).trans (W17_arg4 m ρ c),
      (h c _ (mem_uc main_arg5 (by decide))).trans (W17_arg5 m ρ c),
      (h c _ (mem_uc main_arg6 (by decide))).trans (W17_arg6 m ρ c),
      (h c _ (mem_uc main_arg7 (by decide))).trans (W17_arg7 m ρ c),
      (h c _ (mem_uc main_arg8 (by decide))).trans (W17_arg8 m ρ c),
      (h c _ (mem_uc main_arg9 (by decide))).trans (W17_arg9 m ρ c),
      (h c _ (mem_uc main_arg10 (by decide))).trans (W17_arg10 m ρ c),
      (h c _ (mem_uc main_arg11 (by decide))).trans (W17_arg11 m ρ c)⟩) (run_all m ρ)

end Cert.KernelIdeal.Hand

end
-- ==== Proof.Ref.Spec.lean ====
/- The network the reference computes, as closed pure functions of arrays, at any float values: the sum
   aggregation over the edge list, a dense layer with rectifier, the batch normalization over the node axis,
   their composition into ONE graph layer that is applied four times (each time to its own slices of the
   stacked parameters), and the two-layer read-out. No program is mentioned here: the shapes and the dimension
   records are stated by their values. -/
import Idealize.ShloMosaic.PureOps

noncomputable section

namespace Cert.Gin.Spec

open Idealize.ShloMosaic

/-! ## Shapes -/

abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S1x128x128 : Shape := ⟨3, ![1, 128, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x1 : Shape := ⟨2, ![1, 1]⟩

/-! ## The side conditions of the shape operations -/

theorem slices_S2x600000_S1x600000_0_0 : S2x600000.Slices ![0, 0] S1x600000 := by decide
theorem slices_S2x600000_S1x600000_1_0 : S2x600000.Slices ![1, 0] S1x600000 := by decide
theorem shapeCasts_S1x600000_S600000 : S1x600000.ShapeCasts S600000 := by decide
theorem slicesMat (l : Fin 4) : S4x128x128.Slices ![l.val, 0, 0] S1x128x128 := by revert l; decide
theorem slicesVec (l : Fin 4) : S4x128.Slices ![l.val, 0] S1x128 := by revert l; decide
theorem shapeCasts_S1x128x128_S128x128 : S1x128x128.ShapeCasts S128x128 := by decide
theorem shapeCasts_S1x128_S128 : S1x128.ShapeCasts S128 := by decide
theorem bcast_S_S600000 : S_.BroadcastsInDim S600000 (![] : Fin 0 → Fin S600000.rank) := by decide
theorem bcast_S600000_S600000x1_0 : S600000.BroadcastsInDim S600000x1 (![0] : Fin 1 → Fin S600000x1.rank) := by decide
theorem bcast_S_S50000x128 : S_.BroadcastsInDim S50000x128 (![] : Fin 0 → Fin S50000x128.rank) := by decide
theorem bcast_S128_S1x128_1 : S128.BroadcastsInDim S1x128 (![1] : Fin 1 → Fin S1x128.rank) := by decide
theorem bcast_S1x128_S50000x128_0_1 : S1x128.BroadcastsInDim S50000x128 (![0, 1] : Fin 2 → Fin S50000x128.rank) := by decide
theorem bcast_S_S1x128 : S_.BroadcastsInDim S1x128 (![] : Fin 0 → Fin S1x128.rank) := by decide
theorem bcast_S1_S1x1_1 : S1.BroadcastsInDim S1x1 (![1] : Fin 1 → Fin S1x1.rank) := by decide
theorem bcast_S1x1_S50000x1_0_1 : S1x1.BroadcastsInDim S50000x1 (![0, 1] : Fin 2 → Fin S50000x1.rank) := by decide
theorem reducesTo_S50000x128_S128_d0 : S50000x128.ReducesTo [0] S128 := by decide
theorem h_S_ : 0 < S_.numel := by decide
theorem gatherD_wf : GatherDims.WF S50000x128 S600000x1 S600000x128 [1] [0] [] [0] [] 1 ![1, 128] := by decide
theorem scatterD_wf : ScatterDims.WF S50000x128 S600000x1 S600000x128 [1] [0] [0] 1 := by decide
theorem dotD_wf : DotDims.WF S50000x128 S128x128 S50000x128 [1] [0] [0] [1] [] [] := by decide
theorem dotOutD_wf : DotDims.WF S50000x128 S128x1 S50000x1 [1] [0] [0] [1] [] [] := by decide

/-! ## The dimension records -/

/-- Row gather: result row `e` is the operand's row `idx e`. -/
def gatherD : GatherDims S50000x128 S600000x1 S600000x128 where
  offsetDims := [1]
  collapsedSliceDims := [0]
  operandBatchingDims := []
  startIndicesBatchingDims := []
  startIndexMap := [0]
  indexVectorDim := 1
  sliceSizes := ![1, 128]
  wf := gatherD_wf
/-- Row scatter: update row `e` goes to the operand's row `idx e`. -/
def scatterD : ScatterDims S50000x128 S600000x1 S600000x128 where
  updateWindowDims := [1]
  insertedWindowDims := [0]
  scatterDimsToOperandDims := [0]
  indexVectorDim := 1
  wf := scatterD_wf
/-- `[50000,128] · [128,128]`, contracting the second axis of the left with the first of the right. -/
def dotD : DotDims S50000x128 S128x128 S50000x128 where
  lhsContracting := [1]
  rhsContracting := [0]
  lhsNonContracting := [0]
  rhsNonContracting := [1]
  lhsBatch := []
  rhsBatch := []
  wf := dotD_wf
/-- `[50000,128] · [128,1]`, the same contraction. -/
def dotOutD : DotDims S50000x128 S128x1 S50000x1 where
  lhsContracting := [1]
  rhsContracting := [0]
  lhsNonContracting := [0]
  rhsNonContracting := [1]
  lhsBatch := []
  rhsBatch := []
  wf := dotOutD_wf

variable {F : FTy → Type} [FloatOps F]

/-! ## Broadcasts -/

/-- A vector of 128 as a row `[1,128]`. -/
def asRow (v : FVec F S128 .f32) : FVec F S1x128 .f32 := broadcastInDim S1x128 ![1] bcast_S128_S1x128_1 v
/-- A row `[1,128]` repeated over the 50000 nodes. -/
def overNodes (v : FVec F S1x128 .f32) : FVec F S50000x128 .f32 := broadcastInDim S50000x128 ![0, 1] bcast_S1x128_S50000x128_0_1 v
/-- The row `[1,128]` of one float constant. -/
def splatRow (b : BitVec 32) : FVec F S1x128 .f32 := broadcastInDim S1x128 ![] bcast_S_S1x128 (constant S_ .f32 b)
/-- The `[50000,128]` array of zeros. -/
def zeros : FVec F S50000x128 .f32 := broadcastInDim S50000x128 ![] bcast_S_S50000x128 (constant S_ .f32 0x00000000#32)

/-! ## The aggregation `h + segment_sum(h[src], dst)` -/

/-- The sources of the edges: row 0 of the edge list. -/
def src (ei : IVec S2x600000 32) : IVec S600000 32 :=
  shapeCast S600000 (extractStridedSlice S1x600000 ![0, 0] ei slices_S2x600000_S1x600000_0_0) shapeCasts_S1x600000_S600000
/-- The destinations of the edges: row 1 of the edge list. -/
def dst (ei : IVec S2x600000 32) : IVec S600000 32 :=
  shapeCast S600000 (extractStridedSlice S1x600000 ![1, 0] ei slices_S2x600000_S1x600000_1_0) shapeCasts_S1x600000_S600000
/-- A negative index counted from the end: `i < 0 ? i + 50000 : i`. -/
def wrap (s : IVec S600000 32) : IVec S600000 32 :=
  select (cmpi .slt s (broadcastInDim S600000 ![] bcast_S_S600000 (constantI S_ 32 0#32)))
    (addi s (broadcastInDim S600000 ![] bcast_S_S600000 (constantI S_ 32 50000#32))) s
/-- The aggregation from the two index vectors: `h` plus, at each node, the sum of `h`'s rows at the sources of
    the edges that end there. -/
def aggSD (h : FVec F S50000x128 .f32) (s d : IVec S600000 32) : FVec F S50000x128 .f32 :=
  addf h (Host.scatterAdd scatterD zeros (broadcastInDim S600000x1 ![0] bcast_S600000_S600000x1_0 d)
    (Host.gather gatherD h (broadcastInDim S600000x1 ![0] bcast_S600000_S600000x1_0 (wrap s))))
/-- The aggregation from the edge list. -/
def agg (h : FVec F S50000x128 .f32) (ei : IVec S2x600000 32) : FVec F S50000x128 .f32 := aggSD h (src ei) (dst ei)

/-! ## Dense layer, batch normalization -/

/-- `relu(a · w + b)`. -/
def dense (a : FVec F S50000x128 .f32) (w : FVec F S128x128 .f32) (b : FVec F S128 .f32) : FVec F S50000x128 .f32 :=
  maximumf (addf (Host.dotGeneral dotD none a w) (overNodes (asRow b))) zeros
/-- The first dense layer of a graph layer. -/
abbrev dense1 (a : FVec F S50000x128 .f32) (w : FVec F S128x128 .f32) (b : FVec F S128 .f32) : FVec F S50000x128 .f32 := dense a w b
/-- The second dense layer of a graph layer. -/
abbrev dense2 (a : FVec F S50000x128 .f32) (w : FVec F S128x128 .f32) (b : FVec F S128 .f32) : FVec F S50000x128 .f32 := dense a w b

/-- The mean over the node axis, as a row: the column sums divided by 50000. -/
def colMean (x : FVec F S50000x128 .f32) : FVec F S1x128 .f32 :=
  Host.divf (asRow (Host.reduceAdd x (constant S_ .f32 0x00000000#32) reducesTo_S50000x128_S128_d0 h_S_)) (splatRow 0x47435000#32)
/-- Batch normalization over the node axis: `(x − mean) · rsqrt(var + ε) · γ + β`, `var` the mean of the squared
    deviation from the mean, `ε` the float `0x3727C5AC` (1e-5). -/
def bn (x : FVec F S50000x128 .f32) (gamma beta : FVec F S128 .f32) : FVec F S50000x128 .f32 :=
  addf (mulf (mulf (subf x (overNodes (colMean x)))
      (overNodes (Host.rsqrt (addf (colMean (mulf (subf x (overNodes (colMean x))) (subf x (overNodes (colMean x))))) (splatRow 0x3727C5AC#32)))))
    (overNodes (asRow gamma))) (overNodes (asRow beta))

/-! ## One graph layer, its parameters, the read-out, the network -/

/-- One graph layer from the two index vectors. -/
def layerSD (h : FVec F S50000x128 .f32) (s d : IVec S600000 32) (w1 : FVec F S128x128 .f32) (b1 gamma beta : FVec F S128 .f32)
    (w2 : FVec F S128x128 .f32) (b2 : FVec F S128 .f32) : FVec F S50000x128 .f32 :=
  dense2 (bn (dense1 (aggSD h s d) w1 b1) gamma beta) w2 b2
/-- One graph layer: aggregation, dense, batch normalization, dense. -/
def layer (h : FVec F S50000x128 .f32) (ei : IVec S2x600000 32) (w1 : FVec F S128x128 .f32) (b1 gamma beta : FVec F S128 .f32)
    (w2 : FVec F S128x128 .f32) (b2 : FVec F S128 .f32) : FVec F S50000x128 .f32 :=
  layerSD h (src ei) (dst ei) w1 b1 gamma beta w2 b2

/-- Matrix `l` of a stack of four. -/
def sliceMat (W : FVec F S4x128x128 .f32) (l : Fin 4) : FVec F S128x128 .f32 :=
  shapeCast S128x128 (extractStridedSlice S1x128x128 ![l.val, 0, 0] W (slicesMat l)) shapeCasts_S1x128x128_S128x128
/-- Vector `l` of a stack of four. -/
def sliceVec (B : FVec F S4x128 .f32) (l : Fin 4) : FVec F S128 .f32 :=
  shapeCast S128 (extractStridedSlice S1x128 ![l.val, 0] B (slicesVec l)) shapeCasts_S1x128_S128

/-- Graph layer `l` of the network: `layer` at slice `l` of each stacked parameter. -/
def conv (l : Fin 4) (h : FVec F S50000x128 .f32) (ei : IVec S2x600000 32) (cw1 : FVec F S4x128x128 .f32)
    (cb1 cg cbeta : FVec F S4x128 .f32) (cw2 : FVec F S4x128x128 .f32) (cb2 : FVec F S4x128 .f32) : FVec F S50000x128 .f32 :=
  layer h ei (sliceMat cw1 l) (sliceVec cb1 l) (sliceVec cg l) (sliceVec cbeta l) (sliceMat cw2 l) (sliceVec cb2 l)

/-- The read-out: `relu(h · w1 + b1) · w2 + b2`. -/
def fc (h : FVec F S50000x128 .f32) (w1 : FVec F S128x128 .f32) (b1 : FVec F S128 .f32) (w2 : FVec F S128x1 .f32)
    (b2 : FVec F S1 .f32) : FVec F S50000x1 .f32 :=
  addf (Host.dotGeneral dotOutD none (dense h w1 b1) w2)
    (broadcastInDim S50000x1 ![0, 1] bcast_S1x1_S50000x1_0_1 (broadcastInDim S1x1 ![1] bcast_S1_S1x1_1 b2))

/-- The network: four graph layers, then the read-out. -/
def net (x : FVec F S50000x128 .f32) (ei : IVec S2x600000 32) (cw1 : FVec F S4x128x128 .f32) (cb1 cg cbeta : FVec F S4x128 .f32)
    (cw2 : FVec F S4x128x128 .f32) (cb2 : FVec F S4x128 .f32) (f1w : FVec F S128x128 .f32) (f1b : FVec F S128 .f32)
    (f2w : FVec F S128x1 .f32) (f2b : FVec F S1 .f32) : FVec F S50000x1 .f32 :=
  fc (conv 3 (conv 2 (conv 1 (conv 0 x ei cw1 cb1 cg cbeta cw2 cb2) ei cw1 cb1 cg cbeta cw2 cb2) ei cw1 cb1 cg cbeta cw2 cb2)
      ei cw1 cb1 cg cbeta cw2 cb2) f1w f1b f2w f2b

end Cert.Gin.Spec

end
-- ==== Proof.Alg.Ker.lean ====
/-
  The network as the kernel's program computes it, on the extended reals: what each kernel region leaves in its
  output arrays, index by index — max(rows · weights + bias, 0) and its column sums and column sums of squares;
  max((rows * scale + shift) · weights + bias, 0); the read-out — and the host arithmetic between the regions
  (the mean, the variance as the mean of squares minus the squared mean, the scale and the shift of the
  normalization), composed into one graph layer, applied four times, then the read-out. The aggregation and the
  parameter slices are the reference's own functions.
-/
import proofs.«121608_j10213432229998_1_alg».proof.Proof.Ref.Spec
import Idealize.ShloMosaic.PureOps.Ideal
import Idealize.ShloMosaic.Lib.ValueIdx

noncomputable section

namespace Cert.Gin.Ker

open Idealize.ShloMosaic Idealize.ShloMosaic.ValueIdx Cert.Gin.Spec

theorem shapeCasts_S128_S1x128 : S128.ShapeCasts S1x128 := by decide

/-! ## What the regions leave, index by index -/

/-- Entry (r, q) of max(a · w + b, 0). -/
def denseAt (a : FVec Ideal S50000x128 .f32) (w : FVec Ideal S128x128 .f32) (b : FVec Ideal S128 .f32) (r : Fin 50000) (q : Fin 128) : EReal :=
  max ((∑ k : Fin 128, a (ix2 r k) * w (ix2 k q)) + b (ix1 q)) 0
/-- max(a · w + b, 0), the first output of a layer's first region. -/
def pre (a : FVec Ideal S50000x128 .f32) (w : FVec Ideal S128x128 .f32) (b : FVec Ideal S128 .f32) : FVec Ideal S50000x128 .f32 :=
  fun i => denseAt a w b (i 0) (i 1)
/-- The column sums, as a row: the second output of a layer's first region. -/
def colSum (x : FVec Ideal S50000x128 .f32) : FVec Ideal S1x128 .f32 := fun j => ∑ r : Fin 50000, x (ix2 r (j 1))
/-- The column sums of squares, as a row: its third output. -/
def colSumSq (x : FVec Ideal S50000x128 .f32) : FVec Ideal S1x128 .f32 := fun j => ∑ r : Fin 50000, x (ix2 r (j 1)) * x (ix2 r (j 1))
/-- Entry (r, q) of max((x * scale + shift) · w + b, 0), scale and shift rows. -/
def normDenseAt (x : FVec Ideal S50000x128 .f32) (scale shift : FVec Ideal S1x128 .f32) (w : FVec Ideal S128x128 .f32) (b : FVec Ideal S128 .f32)
    (r : Fin 50000) (q : Fin 128) : EReal :=
  max ((∑ k : Fin 128, (x (ix2 r k) * scale (ix2 (0 : Fin 1) k) + shift (ix2 (0 : Fin 1) k)) * w (ix2 k q)) + b (ix1 q)) 0
/-- The output of a layer's second region. -/
def normDense (x : FVec Ideal S50000x128 .f32) (scale shift : FVec Ideal S1x128 .f32) (w : FVec Ideal S128x128 .f32) (b : FVec Ideal S128 .f32) :
    FVec Ideal S50000x128 .f32 :=
  fun i => normDenseAt x scale shift w b (i 0) (i 1)
/-- Entry r of the read-out max(h · w1 + b1, 0) · w2 + b2. -/
def readOutAt (h : FVec Ideal S50000x128 .f32) (w1 : FVec Ideal S128x128 .f32) (b1 : FVec Ideal S128 .f32) (w2 : FVec Ideal S128x1 .f32)
    (b2 : FVec Ideal S1 .f32) (r : Fin 50000) : EReal :=
  (∑ k : Fin 128, denseAt h w1 b1 r k * w2 (ix2 k (0 : Fin 1))) + b2 (ix1 (0 : Fin 1))
/-- The output of the last region. -/
def readOut (h : FVec Ideal S50000x128 .f32) (w1 : FVec Ideal S128x128 .f32) (b1 : FVec Ideal S128 .f32) (w2 : FVec Ideal S128x1 .f32)
    (b2 : FVec Ideal S1 .f32) : FVec Ideal S50000x1 .f32 :=
  fun i => readOutAt h w1 b1 w2 b2 (i 0)

/-! ## The host arithmetic between a layer's two regions -/

/-- A row divided by the number of nodes. -/
def meanRow (s : FVec Ideal S1x128 .f32) : FVec Ideal S1x128 .f32 := Host.divf s (splatRow 0x47435000#32)
/-- gamma · rsqrt(E[x²] − E[x]² + ε), from the column sums and the column sums of squares. -/
def scaleRow (s ssq : FVec Ideal S1x128 .f32) (gamma : FVec Ideal S128 .f32) : FVec Ideal S1x128 .f32 :=
  mulf (shapeCast S1x128 gamma shapeCasts_S128_S1x128)
    (Host.rsqrt (addf (subf (meanRow ssq) (mulf (meanRow s) (meanRow s))) (splatRow 0x3727C5AC#32)))
/-- beta − E[x] · scale. -/
def shiftRow (s ssq : FVec Ideal S1x128 .f32) (gamma beta : FVec Ideal S128 .f32) : FVec Ideal S1x128 .f32 :=
  subf (shapeCast S1x128 beta shapeCasts_S128_S1x128) (mulf (meanRow s) (scaleRow s ssq gamma))

/-! ## One graph layer, the network -/

/-- One graph layer from the aggregated rows. -/
def layerOfAgg (a : FVec Ideal S50000x128 .f32) (w1 : FVec Ideal S128x128 .f32) (b1 gamma beta : FVec Ideal S128 .f32)
    (w2 : FVec Ideal S128x128 .f32) (b2 : FVec Ideal S128 .f32) : FVec Ideal S50000x128 .f32 :=
  normDense (pre a w1 b1) (scaleRow (colSum (pre a w1 b1)) (colSumSq (pre a w1 b1)) gamma)
    (shiftRow (colSum (pre a w1 b1)) (colSumSq (pre a w1 b1)) gamma beta) w2 b2
/-- One graph layer. -/
def layer (h : FVec Ideal S50000x128 .f32) (ei : IVec S2x600000 32) (w1 : FVec Ideal S128x128 .f32) (b1 gamma beta : FVec Ideal S128 .f32)
    (w2 : FVec Ideal S128x128 .f32) (b2 : FVec Ideal S128 .f32) : FVec Ideal S50000x128 .f32 :=
  layerOfAgg (agg h ei) w1 b1 gamma beta w2 b2
/-- Graph layer l of the network. -/
def conv (l : Fin 4) (h : FVec Ideal S50000x128 .f32) (ei : IVec S2x600000 32) (cw1 : FVec Ideal S4x128x128 .f32)
    (cb1 cg cbeta : FVec Ideal S4x128 .f32) (cw2 : FVec Ideal S4x128x128 .f32) (cb2 : FVec Ideal S4x128 .f32) : FVec Ideal S50000x128 .f32 :=
  layer h ei (sliceMat cw1 l) (sliceVec cb1 l) (sliceVec cg l) (sliceVec cbeta l) (sliceMat cw2 l) (sliceVec cb2 l)
/-- The network. -/
def net (x : FVec Ideal S50000x128 .f32) (ei : IVec S2x600000 32) (cw1 : FVec Ideal S4x128x128 .f32) (cb1 cg cbeta : FVec Ideal S4x128 .f32)
    (cw2 : FVec Ideal S4x128x128 .f32) (cb2 : FVec Ideal S4x128 .f32) (f1w : FVec Ideal S128x128 .f32) (f1b : FVec Ideal S128 .f32)
    (f2w : FVec Ideal S128x1 .f32) (f2b : FVec Ideal S1 .f32) : FVec Ideal S50000x1 .f32 :=
  readOut (conv 3 (conv 2 (conv 1 (conv 0 x ei cw1 cb1 cg cbeta cw2 cb2) ei cw1 cb1 cg cbeta cw2 cb2) ei cw1 cb1 cg cbeta cw2 cb2)
      ei cw1 cb1 cg cbeta cw2 cb2) f1w f1b f2w f2b

end Cert.Gin.Ker

end
-- ==== Proof.KI.Host.lean ====
/-
  The host operations between the kernel regions, read one stretch at a time at the extended reals from any
  contents W of the buffers before the stretch: the edge list's two rows; the aggregation
  h + segment_sum(h[src], dst); each layer's slices of the stacked parameters; and, after a layer's first
  region, the scale and the shift of the normalization from the column sums and the column sums of squares.
-/
import proofs.«121608_j10213432229998_1_alg».proof.Proof.Gen.KernelIdeal.Launch
import proofs.«121608_j10213432229998_1_alg».proof.Proof.Alg.Ker
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable (W : Valuation τ sig (Elt Ideal))

theorem host0_src : after hostOps0 W (Proc.devRef .tc main_v1) = Cert.Gin.Spec.src (W (Proc.devRef .tc main_arg1)) := by after_results; rfl
theorem host0_dst : after hostOps0 W (Proc.devRef .tc main_v3) = Cert.Gin.Spec.dst (W (Proc.devRef .tc main_arg1)) := by after_results; rfl
set_option maxHeartbeats 4000000 in
theorem host0_agg : after hostOps0 W (Proc.devRef .tc main_v14) = Cert.Gin.Spec.aggSD (F := Ideal) (W (Proc.devRef .tc main_arg0)) (Cert.Gin.Spec.src (W (Proc.devRef .tc main_arg1))) (Cert.Gin.Spec.dst (W (Proc.devRef .tc main_arg1))) := by after_results; rfl
theorem host0_w1 : after hostOps0 W (Proc.devRef .tc main_v16) = Cert.Gin.Spec.sliceMat (F := Ideal) (W (Proc.devRef .tc main_arg2)) 0 := by after_results; rfl
theorem host0_b1 : after hostOps0 W (Proc.devRef .tc main_v18) = Cert.Gin.Spec.sliceVec (F := Ideal) (W (Proc.devRef .tc main_arg3)) 0 := by after_results; rfl
theorem host0_gamma : after hostOps0 W (Proc.devRef .tc main_v20) = Cert.Gin.Spec.sliceVec (F := Ideal) (W (Proc.devRef .tc main_arg4)) 0 := by after_results; rfl
theorem host0_beta : after hostOps0 W (Proc.devRef .tc main_v22) = Cert.Gin.Spec.sliceVec (F := Ideal) (W (Proc.devRef .tc main_arg5)) 0 := by after_results; rfl
theorem host0_w2 : after hostOps0 W (Proc.devRef .tc main_v24) = Cert.Gin.Spec.sliceMat (F := Ideal) (W (Proc.devRef .tc main_arg6)) 0 := by after_results; rfl
theorem host0_b2 : after hostOps0 W (Proc.devRef .tc main_v26) = Cert.Gin.Spec.sliceVec (F := Ideal) (W (Proc.devRef .tc main_arg7)) 0 := by after_results; rfl
set_option maxHeartbeats 2000000 in
theorem host1_scale : after hostOps1 W (Proc.devRef .tc main_v38) = Cert.Gin.Ker.scaleRow (W (Proc.devRef .tc main_v27_1)) (W (Proc.devRef .tc main_v27_2)) (W (Proc.devRef .tc main_v20)) := by after_results; rfl
set_option maxHeartbeats 2000000 in
theorem host1_shift : after hostOps1 W (Proc.devRef .tc main_v41) = Cert.Gin.Ker.shiftRow (W (Proc.devRef .tc main_v27_1)) (W (Proc.devRef .tc main_v27_2)) (W (Proc.devRef .tc main_v20)) (W (Proc.devRef .tc main_v22)) := by after_results; rfl
set_option maxHeartbeats 4000000 in
theorem host2_agg : after hostOps2 W (Proc.devRef .tc main_v53) = Cert.Gin.Spec.aggSD (F := Ideal) (W (Proc.devRef .tc main_v42)) (W (Proc.devRef .tc main_v1)) (W (Proc.devRef .tc main_v3)) := by after_results; rfl
theorem host2_w1 : after hostOps2 W (Proc.devRef .tc main_v55) = Cert.Gin.Spec.sliceMat (F := Ideal) (W (Proc.devRef .tc main_arg2)) 1 := by after_results; rfl
theorem host2_b1 : after hostOps2 W (Proc.devRef .tc main_v57) = Cert.Gin.Spec.sliceVec (F := Ideal) (W (Proc.devRef .tc main_arg3)) 1 := by after_results; rfl
theorem host2_gamma : after hostOps2 W (Proc.devRef .tc main_v59) = Cert.Gin.Spec.sliceVec (F := Ideal) (W (Proc.devRef .tc main_arg4)) 1 := by after_results; rfl
theorem host2_beta : after hostOps2 W (Proc.devRef .tc main_v61) = Cert.Gin.Spec.sliceVec (F := Ideal) (W (Proc.devRef .tc main_arg5)) 1 := by after_results; rfl
theorem host2_w2 : after hostOps2 W (Proc.devRef .tc main_v63) = Cert.Gin.Spec.sliceMat (F := Ideal) (W (Proc.devRef .tc main_arg6)) 1 := by after_results; rfl
theorem host2_b2 : after hostOps2 W (Proc.devRef .tc main_v65) = Cert.Gin.Spec.sliceVec (F := Ideal) (W (Proc.devRef .tc main_arg7)) 1 := by after_results; rfl
set_option maxHeartbeats 2000000 in
theorem host3_scale : after hostOps3 W (Proc.devRef .tc main_v77) = Cert.Gin.Ker.scaleRow (W (Proc.devRef .tc main_v66_1)) (W (Proc.devRef .tc main_v66_2)) (W (Proc.devRef .tc main_v59)) := by after_results; rfl
set_option maxHeartbeats 2000000 in
theorem host3_shift : after hostOps3 W (Proc.devRef .tc main_v80) = Cert.Gin.Ker.shiftRow (W (Proc.devRef .tc main_v66_1)) (W (Proc.devRef .tc main_v66_2)) (W (Proc.devRef .tc main_v59)) (W (Proc.devRef .tc main_v61)) := by after_results; rfl
set_option maxHeartbeats 4000000 in
theorem host4_agg : after hostOps4 W (Proc.devRef .tc main_v92) = Cert.Gin.Spec.aggSD (F := Ideal) (W (Proc.devRef .tc main_v81)) (W (Proc.devRef .tc main_v1)) (W (Proc.devRef .tc main_v3)) := by after_results; rfl
theorem host4_w1 : after hostOps4 W (Proc.devRef .tc main_v94) = Cert.Gin.Spec.sliceMat (F := Ideal) (W (Proc.devRef .tc main_arg2)) 2 := by after_results; rfl
theorem host4_b1 : after hostOps4 W (Proc.devRef .tc main_v96) = Cert.Gin.Spec.sliceVec (F := Ideal) (W (Proc.devRef .tc main_arg3)) 2 := by after_results; rfl
theorem host4_gamma : after hostOps4 W (Proc.devRef .tc main_v98) = Cert.Gin.Spec.sliceVec (F := Ideal) (W (Proc.devRef .tc main_arg4)) 2 := by after_results; rfl
theorem host4_beta : after hostOps4 W (Proc.devRef .tc main_v100) = Cert.Gin.Spec.sliceVec (F := Ideal) (W (Proc.devRef .tc main_arg5)) 2 := by after_results; rfl
theorem host4_w2 : after hostOps4 W (Proc.devRef .tc main_v102) = Cert.Gin.Spec.sliceMat (F := Ideal) (W (Proc.devRef .tc main_arg6)) 2 := by after_results; rfl
theorem host4_b2 : after hostOps4 W (Proc.devRef .tc main_v104) = Cert.Gin.Spec.sliceVec (F := Ideal) (W (Proc.devRef .tc main_arg7)) 2 := by after_results; rfl
set_option maxHeartbeats 2000000 in
theorem host5_scale : after hostOps5 W (Proc.devRef .tc main_v116) = Cert.Gin.Ker.scaleRow (W (Proc.devRef .tc main_v105_1)) (W (Proc.devRef .tc main_v105_2)) (W (Proc.devRef .tc main_v98)) := by after_results; rfl
set_option maxHeartbeats 2000000 in
theorem host5_shift : after hostOps5 W (Proc.devRef .tc main_v119) = Cert.Gin.Ker.shiftRow (W (Proc.devRef .tc main_v105_1)) (W (Proc.devRef .tc main_v105_2)) (W (Proc.devRef .tc main_v98)) (W (Proc.devRef .tc main_v100)) := by after_results; rfl
set_option maxHeartbeats 4000000 in
theorem host6_agg : after hostOps6 W (Proc.devRef .tc main_v131) = Cert.Gin.Spec.aggSD (F := Ideal) (W (Proc.devRef .tc main_v120)) (W (Proc.devRef .tc main_v1)) (W (Proc.devRef .tc main_v3)) := by after_results; rfl
theorem host6_w1 : after hostOps6 W (Proc.devRef .tc main_v133) = Cert.Gin.Spec.sliceMat (F := Ideal) (W (Proc.devRef .tc main_arg2)) 3 := by after_results; rfl
theorem host6_b1 : after hostOps6 W (Proc.devRef .tc main_v135) = Cert.Gin.Spec.sliceVec (F := Ideal) (W (Proc.devRef .tc main_arg3)) 3 := by after_results; rfl
theorem host6_gamma : after hostOps6 W (Proc.devRef .tc main_v137) = Cert.Gin.Spec.sliceVec (F := Ideal) (W (Proc.devRef .tc main_arg4)) 3 := by after_results; rfl
theorem host6_beta : after hostOps6 W (Proc.devRef .tc main_v139) = Cert.Gin.Spec.sliceVec (F := Ideal) (W (Proc.devRef .tc main_arg5)) 3 := by after_results; rfl
theorem host6_w2 : after hostOps6 W (Proc.devRef .tc main_v141) = Cert.Gin.Spec.sliceMat (F := Ideal) (W (Proc.devRef .tc main_arg6)) 3 := by after_results; rfl
theorem host6_b2 : after hostOps6 W (Proc.devRef .tc main_v143) = Cert.Gin.Spec.sliceVec (F := Ideal) (W (Proc.devRef .tc main_arg7)) 3 := by after_results; rfl
set_option maxHeartbeats 2000000 in
theorem host7_scale : after hostOps7 W (Proc.devRef .tc main_v155) = Cert.Gin.Ker.scaleRow (W (Proc.devRef .tc main_v144_1)) (W (Proc.devRef .tc main_v144_2)) (W (Proc.devRef .tc main_v137)) := by after_results; rfl
set_option maxHeartbeats 2000000 in
theorem host7_shift : after hostOps7 W (Proc.devRef .tc main_v158) = Cert.Gin.Ker.shiftRow (W (Proc.devRef .tc main_v144_1)) (W (Proc.devRef .tc main_v144_2)) (W (Proc.devRef .tc main_v137)) (W (Proc.devRef .tc main_v139)) := by after_results; rfl

end Cert.KernelIdeal.Hand

end
-- ==== Proof.KI.Pieces0.lean ====
/-
  Region 0: what each run of the body leaves in each buffer, as the body's arithmetic of the blocks it
  read: the output block is max(rows · weights + bias, 0); each running sum is what it held (zero at the
  first point) plus the block's column sums (of the entries, of their squares); at the last point the two
  statistics windows receive the running sums.
-/
import proofs.«121608_j10213432229998_1_alg».proof.Proof.KI.Reg0
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2_0 : (![0, 0] : Fin 2 → Nat) = fun _ => 0 := funext fun a => by fin_cases a <;> rfl
theorem hz1_0 : (![0] : Fin 1 → Nat) = fun _ => 0 := funext fun a => by fin_cases a <;> rfl

theorem pc0_outA_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) :
    out0_A_3 c i arg1 harg1 arg2 harg2 arg3 harg3 arg4 harg4 arg5 harg5 arg6 harg6 arg7 harg7 arg8 harg8 hc0 hc1 x0 x1 x2 = k0_pay1 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutA_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) :
    sout0_A_0 c i arg1 harg1 arg2 harg2 arg3 harg3 arg4 harg4 arg5 harg5 arg6 harg6 arg7 harg7 arg8 harg8 hc0 hc1 x0 x1 x2 = k0_pay4 x0 x1 x2 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2_0, View.readCov_unit_zero (S := S1x128) _ hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutA_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (hc1 : ¬cond0_1 i)
    (x0 : Vec F S5000x128 .f32) (x1 : Vec F S128x128 .f32) (x2 : Vec F S128 .f32) :
    sout0_A_1 c i arg1 harg1 arg2 harg2 arg3 harg3 arg4 harg4 arg5 harg5 arg6 harg6 arg7 harg7 arg8 harg8 hc0 hc1 x0 x1 x2 = k0_pay5 x0 x1 x2 (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  try sl_unfold_words
  rw [View.canon_cons_unit_zero hz2_0, View.readCov_unit_zero (S := S1x128) _ hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_outB_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 xs1 : Vec F S1x128 .f32) :
    out0_B_3 c i arg1 harg1 arg2 harg2 arg3 harg3 arg4 harg4 arg5 harg5 arg6 harg6 arg7 harg7 arg8 harg8 hc0 hc1 x0 x1 x2 xs0 xs1 = k0_pay1 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutB_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 xs1 : Vec F S1x128 .f32) :
    sout0_B_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutB_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : ¬cond0_1 i)
    (x0 : Vec F S5000x128 .f32) (x1 : Vec F S128x128 .f32) (x2 : Vec F S128 .f32) (xs0 xs1 : Vec F S1x128 .f32) :
    sout0_B_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_outC_3 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 xs1 : Vec F S1x128 .f32) :
    out0_C_3 c i arg1 harg1 arg2 harg2 arg3 harg3 arg4 harg4 arg5 harg5 arg6 harg6 arg7 harg7 arg8 harg8 hc0 hc1 x0 x1 x2 xs0 xs1 = k0_pay1 x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_outC_4 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 xs1 : Vec F S1x128 .f32) :
    out0_C_4 c i arg1 harg1 arg2 harg2 arg3 harg3 arg4 harg4 arg5 harg5 arg6 harg6 arg7 harg7 arg8 harg8 hc0 hc1 x0 x1 x2 xs0 xs1 = k0_pay4 x0 x1 x2 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2_0, View.readCov_unit_zero (S := S1x128) _ hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_outC_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 xs1 : Vec F S1x128 .f32) :
    out0_C_5 c i arg1 harg1 arg2 harg2 arg3 harg3 arg4 harg4 arg5 harg5 arg6 harg6 arg7 harg7 arg8 harg8 hc0 hc1 x0 x1 x2 xs0 xs1 = k0_pay5 x0 x1 x2 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2_0, View.readCov_unit_zero (S := S1x128) _ hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutC_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 xs1 : Vec F S1x128 .f32) :
    sout0_C_0 c i arg1 harg1 arg2 harg2 arg3 harg3 arg4 harg4 arg5 harg5 arg6 harg6 arg7 harg7 arg8 harg8 hc0 hc1 x0 x1 x2 xs0 xs1 = k0_pay4 x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

theorem pc0_soutC_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (hc1 : cond0_1 i)
    (x0 : Vec F S5000x128 .f32) (x1 : Vec F S128x128 .f32) (x2 : Vec F S128 .f32) (xs0 xs1 : Vec F S1x128 .f32) :
    sout0_C_1 c i arg1 harg1 arg2 harg2 arg3 harg3 arg4 harg4 arg5 harg5 arg6 harg6 arg7 harg7 arg8 harg8 hc0 hc1 x0 x1 x2 xs0 xs1 = k0_pay5 x0 x1 x2 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold kernelRun0_C
  dsimp only
  try sl_unfold_words
  rw [View.canon_unit_zero hz2_0]
  simp only [View.readAt_eq_ld, harg1.read_unread, harg2.read_unread, harg3.read_unread, harg7.read_unread, harg8.read_unread, View.ld_unit_zero (S := S5000x128) hz2_0, View.ld_unit_zero (S := S128x128) hz2_0, View.ld_unit_zero (S := S128) hz1_0, View.ld_unit_zero (S := S1x128) hz2_0]

end Cert.KernelIdeal.Hand

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibDenseLayers.lean ====
/-
  The three dense layers of a graph network as functions of whole arrays, entry by entry, on the extended reals.

  `affine X W b` is a linear layer: entry (r, c) is row r of X against column c of W, plus b c. `product X W` is the same
  without the bias. `biasRelu X b` adds b c to entry (r, c) and takes the larger of that and zero. Each is stated for any
  extents, so that the same function describes a block of rows and the whole array: a block of rows of a layer's output is
  the layer applied to that block of rows of its input, which is all a row-tiled launch needs.

  Below, each of the two ways such a layer is computed is read at an entry: a block kernel's arithmetic (a matrix
  unit's product of the operands, converted to a narrower float format on the way in — the identity here — into a zero
  accumulator, the bias laid out as one row and repeated down the rows), and the host's (a general dot product, the bias
  broadcast in two steps, the zero of the maximum broadcast from a scalar).
-/
import proofs.«121608_j10213432229998_1_alg».proof.Proof.LibMatDot
import proofs.«121608_j10213432229998_1_alg».proof.Proof.LibAsRow
import proofs.«121608_j10213432229998_1_alg».proof.Proof.LibSlabs
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx Cert.Lib
open scoped BigOperators

variable {n K M : ℕ}

/-- A linear layer with bias: entry (r, c) is the sum over k of X (r, k) · W (k, c), plus b c. -/
def affine (X : FVec Ideal ⟨2, ![n, K]⟩ .f32) (W : FVec Ideal ⟨2, ![K, M]⟩ .f32) (b : FVec Ideal ⟨1, ![M]⟩ .f32) :
    FVec Ideal ⟨2, ![n, M]⟩ .f32 :=
  fun i => (∑ k : Fin K, X (ix2 (i 0) k) * W (ix2 k (i 1))) + b (ix1 (i 1))

/-- A linear layer without bias: entry (r, c) is the sum over k of X (r, k) · W (k, c). -/
def product (X : FVec Ideal ⟨2, ![n, K]⟩ .f32) (W : FVec Ideal ⟨2, ![K, M]⟩ .f32) : FVec Ideal ⟨2, ![n, M]⟩ .f32 :=
  fun i => ∑ k : Fin K, X (ix2 (i 0) k) * W (ix2 k (i 1))

/-- Bias, then the larger of the sum and zero: entry (r, c) is max (X (r, c) + b c) 0. -/
def biasRelu (X : FVec Ideal ⟨2, ![n, M]⟩ .f32) (b : FVec Ideal ⟨1, ![M]⟩ .f32) : FVec Ideal ⟨2, ![n, M]⟩ .f32 :=
  fun i => max (X i + b (ix1 (i 1))) (Ideal.ofBits .f32 0x00000000#32)

theorem affine_apply (X : FVec Ideal ⟨2, ![n, K]⟩ .f32) (W : FVec Ideal ⟨2, ![K, M]⟩ .f32) (b : FVec Ideal ⟨1, ![M]⟩ .f32)
    (p : Fin n) (q : Fin M) : affine X W b (ix2 p q) = (∑ k : Fin K, X (ix2 p k) * W (ix2 k q)) + b (ix1 q) := rfl

theorem product_apply (X : FVec Ideal ⟨2, ![n, K]⟩ .f32) (W : FVec Ideal ⟨2, ![K, M]⟩ .f32)
    (p : Fin n) (q : Fin M) : product X W (ix2 p q) = ∑ k : Fin K, X (ix2 p k) * W (ix2 k q) := rfl

theorem biasRelu_apply (X : FVec Ideal ⟨2, ![n, M]⟩ .f32) (b : FVec Ideal ⟨1, ![M]⟩ .f32) (p : Fin n) (q : Fin M) :
    biasRelu X b (ix2 p q) = max (X (ix2 p q) + b (ix1 q)) (Ideal.ofBits .f32 0x00000000#32) := rfl

/-! ## A block kernel's arithmetic at an entry -/

/-- The bias as the kernel lays it out — the vector as one row, the row repeated down n rows — reads b c at (r, c). -/
theorem biasRows_apply (b : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    broadcastTo ⟨2, ![n, M]⟩ (shapeCast ⟨2, ![1, M]⟩ b hs) hb (ix2 p q) = b (ix1 q) := by
  rw [broadcastTo_1b_ab_apply, shapeCast_a_1a_apply]

/-- The matrix unit's product of the two operands, each converted to a narrower format on the way in, into a zero
    accumulator, plus the bias laid out in rows: the linear layer's entry. -/
theorem kernelAffine_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32)
    (x2 : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    addf (matmul (matDot wf) none (truncf ψ x0 h) (truncf ψ x1 h) (constant ⟨2, ![n, M]⟩ .f32 0x00000000#32))
        (broadcastTo ⟨2, ![n, M]⟩ (shapeCast ⟨2, ![1, M]⟩ x2 hs) hb) (ix2 p q)
      = affine x0 x1 x2 (ix2 p q) := by
  show FloatOps.matmul (matDot wf) none (truncf ψ x0 h) (truncf ψ x1 h) (constant ⟨2, ![n, M]⟩ .f32 0x00000000#32) (ix2 p q)
      + broadcastTo ⟨2, ![n, M]⟩ (shapeCast ⟨2, ![1, M]⟩ x2 hs) hb (ix2 p q) = _
  rw [matmul_plain_zero_apply, biasRows_apply]
  rfl

/-- The same without the bias. -/
theorem kernelProduct_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32) (p : Fin n) (q : Fin M) :
    matmul (matDot wf) none (truncf ψ x0 h) (truncf ψ x1 h) (constant ⟨2, ![n, M]⟩ .f32 0x00000000#32) (ix2 p q)
      = product x0 x1 (ix2 p q) := by
  show FloatOps.matmul (matDot wf) none (truncf ψ x0 h) (truncf ψ x1 h) (constant ⟨2, ![n, M]⟩ .f32 0x00000000#32) (ix2 p q) = _
  rw [matmul_plain_zero_apply]
  rfl

/-- The block plus the bias laid out in rows, against a zero repeated over the block. -/
theorem kernelBiasRelu_apply (x0 : FVec Ideal ⟨2, ![n, M]⟩ .f32) (x1 : FVec Ideal ⟨1, ![M]⟩ .f32)
    (hs : (⟨1, ![M]⟩ : Shape).ShapeCasts ⟨2, ![1, M]⟩) (hb : (⟨2, ![1, M]⟩ : Shape).Broadcasts ⟨2, ![n, M]⟩) (p : Fin n) (q : Fin M) :
    maximumf (addf x0 (broadcastTo ⟨2, ![n, M]⟩ (shapeCast ⟨2, ![1, M]⟩ x1 hs) hb))
        (broadcast ⟨2, ![n, M]⟩ (Scalar.ofBits (F := Ideal) .f32 0x00000000#32)) (ix2 p q)
      = biasRelu x0 x1 (ix2 p q) := by
  show max (x0 (ix2 p q) + broadcastTo ⟨2, ![n, M]⟩ (shapeCast ⟨2, ![1, M]⟩ x1 hs) hb (ix2 p q)) _ = _
  rw [biasRows_apply]
  rfl

/-! ## The host's arithmetic at an entry -/

/-- The bias as the host lays it out — the vector broadcast into one row, the row broadcast down n rows — reads b c. -/
theorem hostBias_apply (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) (p : Fin n) (q : Fin M) :
    broadcastInDim ⟨2, ![n, M]⟩ ![0, 1] h2 (broadcastInDim ⟨2, ![1, M]⟩ ![1] h1 b) (ix2 p q) = b (ix1 q) := by
  rw [rows_of_oneRow, broadcastInDim_eq_asRow]
  rfl

/-- The host's general dot product plus the bias broadcast: the linear layer, as whole arrays. -/
theorem hostAffine (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral (F := Ideal) (matDot wf) none X W)
        (broadcastInDim ⟨2, ![n, M]⟩ ![0, 1] h2 (broadcastInDim ⟨2, ![1, M]⟩ ![1] h1 b)) = affine X W b := by
  funext i
  obtain ⟨p, q, rfl⟩ : ∃ (p : Fin n) (q : Fin M), i = ix2 p q := ⟨i 0, i 1, eq_ix2 i⟩
  show FloatOps.dotGeneral (matDot wf) none _ X W (ix2 p q)
      + broadcastInDim ⟨2, ![n, M]⟩ ![0, 1] h2 (broadcastInDim ⟨2, ![1, M]⟩ ![1] h1 b) (ix2 p q) = _
  rw [dotGeneral_plain_apply, hostBias_apply]
  rfl

/-- The host's general dot product alone. -/
theorem hostProduct (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) :
    Host.dotGeneral (F := Ideal) (matDot wf) none X W = product X W := by
  funext i
  obtain ⟨p, q, rfl⟩ : ∃ (p : Fin n) (q : Fin M), i = ix2 p q := ⟨i 0, i 1, eq_ix2 i⟩
  show FloatOps.dotGeneral (matDot wf) none _ X W (ix2 p q) = _
  rw [dotGeneral_plain_apply]
  rfl

/-- The host's sum with the broadcast bias, then its maximum with a zero broadcast from a scalar. -/
theorem hostBiasRelu (X : FVec Ideal ⟨2, ![n, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2)) :
    maximumf (addf X (broadcastInDim ⟨2, ![n, M]⟩ ![0, 1] h2 (broadcastInDim ⟨2, ![1, M]⟩ ![1] h1 b)))
        (broadcastInDim ⟨2, ![n, M]⟩ ![] h0 (constant (F := Ideal) ⟨0, ![]⟩ .f32 0x00000000#32)) = biasRelu X b := by
  funext i
  obtain ⟨p, q, rfl⟩ : ∃ (p : Fin n) (q : Fin M), i = ix2 p q := ⟨i 0, i 1, eq_ix2 i⟩
  show max (X (ix2 p q) + broadcastInDim ⟨2, ![n, M]⟩ ![0, 1] h2 (broadcastInDim ⟨2, ![1, M]⟩ ![1] h1 b) (ix2 p q))
      (broadcastInDim ⟨2, ![n, M]⟩ ![] h0 (constant (F := Ideal) ⟨0, ![]⟩ .f32 0x00000000#32) (ix2 p q)) = _
  rw [hostBias_apply]
  rfl

end Cert.Gcn

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.KI.Pay0.lean ====
/-
  Region 0's arithmetic at an entry, on the extended reals.

  The body of a layer's first region stores three things from a block of 5000 rows: the block
  max(rows · weights + bias, 0) itself, and two running rows — the column sums of that block and the column sums of
  its squares, each added onto what the row held, each started from zero. Here every stored value is read at one
  entry: the block at (p, q) as a row-by-column sum, the two starting rows as zero, and the two running rows at
  column q as what they held plus a sum over the block's 5000 rows.
-/
import proofs.«121608_j10213432229998_1_alg».proof.Proof.Gen.KernelIdeal.Skeleton
import proofs.«121608_j10213432229998_1_alg».proof.Proof.Alg.Ker
import proofs.«121608_j10213432229998_1_alg».proof.Proof.LibDenseLayers
import proofs.«121608_j10213432229998_1_alg».proof.Proof.LibColSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Entry (p, q) of the block the body stores first: row p of the rows against column q of the weights, plus the bias
    at q, or zero if that is larger. -/
theorem pay0_1_apply (x0 : FVec Ideal S5000x128 .f32) (x1 : FVec Ideal S128x128 .f32) (x2 : FVec Ideal S128 .f32)
    (p : Fin 5000) (q : Fin 128) :
    k0_pay1 x0 x1 x2 (ix2 p q) = max ((∑ k : Fin 128, x0 (ix2 p k) * x1 (ix2 k q)) + x2 (ix1 q)) 0 := by
  unfold k0_pay1
  refine (Cert.Gcn.kernelBiasRelu_apply _ (shapeCast S128 x2 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x2 (ix1 q)) 0) ?_
  exact Cert.Gcn.kernelProduct_apply dot_S5000x128_S128x128_S5000x128_1_0_0_1_n_n_wf bitsLt_bf16_f32 x0 x1 p q

/-- The row of column sums starts at zero, -/
theorem pay0_2_apply (q : Fin 128) : (k0_pay2 (F := Ideal)) (ix2 (0 : Fin 1) q) = 0 := by
  unfold k0_pay2
  simp only [shapeCast_self]
  exact Ideal.ofBits_zero_f32

/-- and so does the row of column sums of squares. -/
theorem pay0_3_apply (q : Fin 128) : (k0_pay3 (F := Ideal)) (ix2 (0 : Fin 1) q) = 0 := by
  unfold k0_pay3
  simp only [shapeCast_self]
  exact Ideal.ofBits_zero_f32

/-- The running row of column sums after a block: what it held plus the sum of the block's column q. -/
theorem pay0_4_apply (x0 : FVec Ideal S5000x128 .f32) (x1 : FVec Ideal S128x128 .f32) (x2 : FVec Ideal S128 .f32)
    (v : FVec Ideal S1x128 .f32) (q : Fin 128) :
    k0_pay4 x0 x1 x2 v (ix2 (0 : Fin 1) q) = v (ix2 (0 : Fin 1) q) + ∑ r : Fin 5000, k0_pay1 x0 x1 x2 (ix2 r q) := by
  unfold k0_pay4
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact Cert.Lib.multiReduction_add_cols (k0_pay1 x0 x1 x2) _ _ _ _ q

/-- The running row of column sums of squares after a block: what it held plus the sum of the squares of the block's
    column q. -/
theorem pay0_5_apply (x0 : FVec Ideal S5000x128 .f32) (x1 : FVec Ideal S128x128 .f32) (x2 : FVec Ideal S128 .f32)
    (v : FVec Ideal S1x128 .f32) (q : Fin 128) :
    k0_pay5 x0 x1 x2 v (ix2 (0 : Fin 1) q)
      = v (ix2 (0 : Fin 1) q) + ∑ r : Fin 5000, k0_pay1 x0 x1 x2 (ix2 r q) * k0_pay1 x0 x1 x2 (ix2 r q) := by
  unfold k0_pay5
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact (Cert.Lib.multiReduction_add_cols (mulf (k0_pay1 x0 x1 x2) (k0_pay1 x0 x1 x2)) _ _ _ _ q).trans
    (Finset.sum_congr rfl fun _ _ => rfl)

end Cert.KernelIdeal.Hand

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.LibAccum.lean ====
/-
  A sum accumulated tile by tile is the sum over the whole range.

  A row of 8192 terms is cut into 16 consecutive tiles of 512. A running value that starts from zero and takes in one
  tile's sum at a time is, after tile `J`, the sum of the first `J + 1` tiles, and after the last tile the sum of all
  8192 terms: term `j` is term `j % 512` of tile `j / 512`. Only commutativity and associativity of `+` and its neutral
  zero are used, so the law holds on the extended reals with no finiteness hypothesis.
-/
import Mathlib.Algebra.BigOperators.Fin
import Mathlib.Logic.Equiv.Fin.Basic
import proofs.«121608_j10213432229998_1_alg».proof.Proof.LibBlockSum

namespace Cert.Lib

open Finset

variable {M : Type*} [AddCommMonoid M]

/-- A running value that starts at `0 + T 0` and adds `T (J + 1)` at step `J + 1` is, at every step below `N`, the sum
    of the terms so far. -/
theorem accum_range (acc T : ℕ → M) (N : ℕ) (h0 : acc 0 = 0 + T 0)
    (hs : ∀ J, J + 1 < N → acc (J + 1) = acc J + T (J + 1)) :
    ∀ J, J < N → acc J = ∑ K ∈ range (J + 1), T K := by
  intro J
  induction J with
  | zero => intro _; rw [h0, zero_add, sum_range_one]
  | succ J ih =>
    intro hJ
    rw [hs J hJ, ih (Nat.lt_of_succ_lt hJ), ← sum_range_succ]

/-- The 16 tiles' sums of 512 terms each are the sum of the 8192 terms: term `j` is term `j % 512` of tile `j / 512`. -/
theorem sum_tiles (g : Fin 16 → Fin 512 → M) :
    ∑ K : Fin 16, ∑ q : Fin 512, g K q
      = ∑ j : Fin 8192, g ⟨j.val / 512, Nat.div_lt_of_lt_mul j.isLt⟩ ⟨j.val % 512, Nat.mod_lt _ (by decide)⟩ := by
  refine ((sum_blocks 16 512 fun j : Fin (16 * 512) =>
    g ⟨j.val / 512, Nat.div_lt_of_lt_mul j.isLt⟩ ⟨j.val % 512, Nat.mod_lt _ (by decide)⟩).trans ?_).symm
  refine sum_congr rfl fun K _ => sum_congr rfl fun q _ => ?_
  have hq := q.isLt
  congr 1 <;> refine Fin.ext ?_
  · show (q.val + 512 * K.val) / 512 = K.val
    omega
  · show (q.val + 512 * K.val) % 512 = q.val
    omega

/-- The partial form: a running value that starts at `0 + T 0` and adds tile `J + 1`'s term `T (J + 1)` at step `J + 1`,
    each term a tile's sum of 512 entries, is after tile `J` the sum of the first `J + 1` tiles. -/
theorem accum_tiles_partial (acc : ℕ → M) (T : Fin 16 → M) (g : Fin 16 → Fin 512 → M)
    (hT : ∀ K, T K = ∑ q : Fin 512, g K q) (h0 : acc 0 = 0 + T 0)
    (hs : ∀ J (h : J + 1 < 16), acc (J + 1) = acc J + T ⟨J + 1, h⟩) (J : ℕ) (hJ : J < 16) :
    acc J = ∑ K : Fin (J + 1), ∑ q : Fin 512, g ⟨K.val, lt_of_lt_of_le K.isLt hJ⟩ q := by
  have h := accum_range acc (fun K => if h : K < 16 then T ⟨K, h⟩ else 0) 16
    (by rw [h0, dif_pos (by decide : 0 < 16)]; rfl)
    (fun J h => by rw [hs J h, dif_pos h]) J hJ
  rw [h, ← Fin.sum_univ_eq_sum_range (fun K => if h : K < 16 then T ⟨K, h⟩ else 0) (J + 1)]
  refine sum_congr rfl fun K _ => ?_
  rw [dif_pos (lt_of_lt_of_le K.isLt hJ), hT]

/-- The whole row: after the last of the 16 tiles the running value is the sum of all 8192 terms (with the zero the
    whole-row sum starts from in front). -/
theorem accum_tiles (acc : ℕ → M) (T : Fin 16 → M) (g : Fin 16 → Fin 512 → M)
    (hT : ∀ K, T K = ∑ q : Fin 512, g K q) (h0 : acc 0 = 0 + T 0)
    (hs : ∀ J (h : J + 1 < 16), acc (J + 1) = acc J + T ⟨J + 1, h⟩) :
    acc 15 = 0 + ∑ j : Fin 8192, g ⟨j.val / 512, Nat.div_lt_of_lt_mul j.isLt⟩ ⟨j.val % 512, Nat.mod_lt _ (by decide)⟩ := by
  rw [zero_add, ← sum_tiles, accum_tiles_partial acc T g hT h0 hs 15 (by decide)]

end Cert.Lib
-- ==== Proof.KI.Val0.lean ====
/-
  Region 0, from blocks to the arrays. After the region its first output array holds
  max(rows · weights + bias, 0) over all 50000 rows: point t writes back rows 5000 t … 5000 t + 4999, and
  the ten blocks tile the rows. The two running sums start at zero and gain one block's column sums per
  point, so after the last point they are the column sums over all 50000 rows (of the entries, and of their
  squares): ten blocks of 5000 rows are one sum over 50000 rows. The last point copies them to the two
  statistics arrays, whose only block is the whole array.
-/
import proofs.«121608_j10213432229998_1_alg».proof.Proof.KI.Pieces0
import proofs.«121608_j10213432229998_1_alg».proof.Proof.KI.Pay0
import proofs.«121608_j10213432229998_1_alg».proof.Proof.Alg.Ker
import proofs.«121608_j10213432229998_1_alg».proof.Proof.LibBlockSum
import proofs.«121608_j10213432229998_1_alg».proof.Proof.LibAccum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem cfgN0 : cfg0.N = 10 := N_0

/-! ## The blocks the body reads -/

/-- The index maps over the ten points: the rows and the first output move one block per point; the weights, the bias
    and the two statistics arrays stay at their only block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row r of the rows' block at point t is row 5000 t + r of the array. -/
theorem rowsBlock0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_v14 : S50000x128.Idx → EReal) i := by
  obtain ⟨e0, e1, -⟩ := blockIndex0 t
  show V c main_v14 (((cfg0.win 0).blk t).view.emb y) = V c main_v14 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block is the whole array, at every point, -/
theorem weightsBlock0_eq (c : Dev nD) (t : Fin cfg0.N) :
    (iblk0 V c 1 t : Vec Ideal S128x128 .f32) = (V c main_v16 : S128x128.Idx → EReal) := by
  obtain ⟨-, -, e0, e1, -⟩ := blockIndex0 t
  funext y
  show V c main_v16 (((cfg0.win 1).blk t).view.emb y) = V c main_v16 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- and so is the bias's. -/
theorem biasBlock0_eq (c : Dev nD) (t : Fin cfg0.N) :
    (iblk0 V c 2 t : Vec Ideal S128 .f32) = (V c main_v18 : S128.Idx → EReal) := by
  obtain ⟨-, -, -, -, e0, -⟩ := blockIndex0 t
  funext y
  show V c main_v18 (((cfg0.win 2).blk t).view.emb y) = V c main_v18 y
  refine congrArg _ (funext fun a => Fin.ext ?_)
  match a with
  | ⟨0, _⟩ => show win0_2.index t (0 : Fin 1) * 128 + 1 * (y 0).val = (y 0).val; rw [e0]; omega

/-- Entry (r, q) of the body's block result at point t is entry (5000 t + r, q) of max(rows · weights + bias, 0). -/
theorem blockEntry0 (c : Dev nD) (t : Fin cfg0.N) (r : Fin 5000) (q : Fin 128) (i : Fin 50000) (h0 : i.val = 5000 * t.val + r.val) :
    k0_pay1 (iblk0 V c 0 t) (iblk0 V c 1 t) (iblk0 V c 2 t) (ix2 r q) = Cert.Gin.Ker.denseAt (V c main_v14) (V c main_v16) (V c main_v18) i q := by
  rw [weightsBlock0_eq, biasBlock0_eq, pay0_1_apply]
  unfold Cert.Gin.Ker.denseAt
  refine congrArg (fun s => max (s + _) 0) (Finset.sum_congr rfl fun k _ => ?_)
  rw [rowsBlock0_apply V c t (ix2 r k) (ix2 i k) h0 rfl]

/-! ## What each buffer holds after each point -/

-- the runs' found pieces stay folded here: each is used only through its equation
attribute [local irreducible] out0_A_3 sout0_A_0 sout0_A_1 out0_B_3 sout0_B_0 sout0_B_1 out0_C_3 out0_C_4 out0_C_5 sout0_C_0 sout0_C_1

set_option maxHeartbeats 1000000 in
/-- After every point the first output's buffer holds the block's result. -/
theorem outs0_3 (c : Dev nD) (t : Fin cfg0.N) :
    (outsAt0 V c t.val t.isLt).1 = k0_pay1 (iblk0 V c 0 t) (iblk0 V c 1 t) (iblk0 V c 2 t) := by
  have hN : t.val < 10 := lt_of_lt_of_eq t.isLt (show cfg0.N = 10 from N_0)
  by_cases h1 : t.val % 10 = 9
  · have h0 : ¬t.val % 10 = 0 := by omega
    rw [outsAt0_C V c t h0 h1]
    exact pc0_outC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · by_cases h0 : t.val % 10 = 0
    · rw [outsAt0_A V c t h0 h1]
      exact pc0_outA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)
    · rw [outsAt0_B V c t h0 h1]
      exact pc0_outB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

set_option maxHeartbeats 1000000 in
/-- The running sum of the columns after the first point: zero plus the first block's sums. -/
theorem sum0_first (c : Dev nD) (t : Fin cfg0.N) (h0 : t.val % 10 = 0) (h1 : ¬t.val % 10 = 9) :
    (outsAt0 V c t.val t.isLt).2.2.2.1 = k0_pay4 (iblk0 V c 0 t) (iblk0 V c 1 t) (iblk0 V c 2 t) (k0_pay2 (F := Ideal))
    ∧ (outsAt0 V c t.val t.isLt).2.2.2.2 = k0_pay5 (iblk0 V c 0 t) (iblk0 V c 1 t) (iblk0 V c 2 t) (k0_pay3 (F := Ideal)) := by
  rw [outsAt0_A V c t h0 h1]
  exact ⟨pc0_soutA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t), pc0_soutA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t)⟩

set_option maxHeartbeats 1000000 in
/-- After a later point: what the point before left plus this block's sums. -/
theorem sum0_next (c : Dev nD) (t : Fin cfg0.N) (h0 : ¬t.val % 10 = 0) :
    (outsAt0 V c t.val t.isLt).2.2.2.1 = k0_pay4 (iblk0 V c 0 t) (iblk0 V c 1 t) (iblk0 V c 2 t) (outsAt0 V c (t.val - 1) (Nat.lt_of_le_of_lt (Nat.sub_le _ _) t.isLt)).2.2.2.1
    ∧ (outsAt0 V c t.val t.isLt).2.2.2.2 = k0_pay5 (iblk0 V c 0 t) (iblk0 V c 1 t) (iblk0 V c 2 t) (outsAt0 V c (t.val - 1) (Nat.lt_of_le_of_lt (Nat.sub_le _ _) t.isLt)).2.2.2.2 := by
  by_cases h1 : t.val % 10 = 9
  · rw [outsAt0_C V c t h0 h1]
    exact ⟨pc0_soutC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, pc0_soutC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2⟩
  · rw [outsAt0_B V c t h0 h1]
    exact ⟨pc0_soutB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, pc0_soutB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2⟩

set_option maxHeartbeats 1000000 in
/-- At the last point the two statistics windows receive the running sums. -/
theorem stats0_last (c : Dev nD) (t : Fin cfg0.N) (h0 : ¬t.val % 10 = 0) (h1 : t.val % 10 = 9) :
    (outsAt0 V c t.val t.isLt).2.1 = k0_pay4 (iblk0 V c 0 t) (iblk0 V c 1 t) (iblk0 V c 2 t) (outsAt0 V c (t.val - 1) (Nat.lt_of_le_of_lt (Nat.sub_le _ _) t.isLt)).2.2.2.1
    ∧ (outsAt0 V c t.val t.isLt).2.2.1 = k0_pay5 (iblk0 V c 0 t) (iblk0 V c 1 t) (iblk0 V c 2 t) (outsAt0 V c (t.val - 1) (Nat.lt_of_le_of_lt (Nat.sub_le _ _) t.isLt)).2.2.2.2 := by
  rw [outsAt0_C V c t h0 h1]
  exact ⟨pc0_outC_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, pc0_outC_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2⟩

/-! ## The running sums are the sums over the blocks so far -/

/-- Block K's column sums of max(rows · weights + bias, 0), and of its squares. -/
def tile0 (c : Dev nD) (q : Fin 128) (K : ℕ) : EReal :=
  if h : K < cfg0.N then ∑ r : Fin 5000, k0_pay1 (iblk0 V c 0 ⟨K, h⟩) (iblk0 V c 1 ⟨K, h⟩) (iblk0 V c 2 ⟨K, h⟩) (ix2 r q) else 0
def tileSq0 (c : Dev nD) (q : Fin 128) (K : ℕ) : EReal :=
  if h : K < cfg0.N then ∑ r : Fin 5000, k0_pay1 (iblk0 V c 0 ⟨K, h⟩) (iblk0 V c 1 ⟨K, h⟩) (iblk0 V c 2 ⟨K, h⟩) (ix2 r q) * k0_pay1 (iblk0 V c 0 ⟨K, h⟩) (iblk0 V c 1 ⟨K, h⟩) (iblk0 V c 2 ⟨K, h⟩) (ix2 r q) else 0
/-- The running sums after position n, at column q. -/
def acc0 (c : Dev nD) (q : Fin 128) (n : ℕ) : EReal :=
  if h : n < cfg0.N then (outsAt0 V c n h).2.2.2.1 (ix2 (0 : Fin 1) q) else 0
def accSq0 (c : Dev nD) (q : Fin 128) (n : ℕ) : EReal :=
  if h : n < cfg0.N then (outsAt0 V c n h).2.2.2.2 (ix2 (0 : Fin 1) q) else 0

theorem acc0_at (c : Dev nD) (q : Fin 128) (n : ℕ) (h : n < cfg0.N) :
    acc0 V c q n = (outsAt0 V c n h).2.2.2.1 (ix2 (0 : Fin 1) q) := by unfold acc0; rw [dif_pos h]
theorem accSq0_at (c : Dev nD) (q : Fin 128) (n : ℕ) (h : n < cfg0.N) :
    accSq0 V c q n = (outsAt0 V c n h).2.2.2.2 (ix2 (0 : Fin 1) q) := by unfold accSq0; rw [dif_pos h]

theorem acc0_zero (c : Dev nD) (q : Fin 128) : acc0 V c q 0 = 0 + tile0 V c q 0 ∧ accSq0 V c q 0 = 0 + tileSq0 V c q 0 := by
  have h : 0 < cfg0.N := by rw [cfgN0]; decide
  obtain ⟨e0, e1⟩ := sum0_first V c ⟨0, h⟩ rfl (by show ¬(0 : ℕ) % 10 = 9; decide)
  unfold acc0 accSq0 tile0 tileSq0
  rw [dif_pos h, dif_pos h, dif_pos h, dif_pos h, e0, e1, pay0_4_apply, pay0_5_apply, pay0_2_apply, pay0_3_apply]
  exact ⟨rfl, rfl⟩

theorem acc0_succ (c : Dev nD) (q : Fin 128) (J : ℕ) (hJ : J + 1 < 10) :
    acc0 V c q (J + 1) = acc0 V c q J + tile0 V c q (J + 1) ∧ accSq0 V c q (J + 1) = accSq0 V c q J + tileSq0 V c q (J + 1) := by
  have h : J + 1 < cfg0.N := by rw [cfgN0]; exact hJ
  have h' : J < cfg0.N := Nat.lt_of_succ_lt h
  obtain ⟨e0, e1⟩ := sum0_next V c ⟨J + 1, h⟩ (by show ¬(J + 1) % 10 = 0; omega)
  unfold acc0 accSq0 tile0 tileSq0
  rw [dif_pos h, dif_pos h, dif_pos h, dif_pos h, dif_pos h', dif_pos h', e0, e1, pay0_4_apply, pay0_5_apply]
  exact ⟨rfl, rfl⟩

/-- After position J the running sums are the sums of the blocks 0 … J. -/
theorem acc0_eq (c : Dev nD) (q : Fin 128) (J : ℕ) (hJ : J < 10) :
    acc0 V c q J = ∑ K ∈ Finset.range (J + 1), tile0 V c q K ∧ accSq0 V c q J = ∑ K ∈ Finset.range (J + 1), tileSq0 V c q K :=
  ⟨Cert.Lib.accum_range (acc0 V c q) (tile0 V c q) 10 (acc0_zero V c q).1 (fun J h => (acc0_succ V c q J h).1) J hJ,
   Cert.Lib.accum_range (accSq0 V c q) (tileSq0 V c q) 10 (acc0_zero V c q).2 (fun J h => (acc0_succ V c q J h).2) J hJ⟩

/-- A sum over 50000 rows is the sum over ten blocks of the sums over the block's 5000 rows. -/
theorem rows0_split (f : Fin 50000 → EReal) :
    ∑ r : Fin 50000, f r = ∑ d : Fin 10, ∑ j : Fin 5000, f (⟨j.val + 5000 * d.val, by have := j.isLt; have := d.isLt; omega⟩ : Fin 50000) :=
  (Cert.Lib.sum_blocks 10 5000 (fun k : Fin (10 * 5000) => f ⟨k.val, k.isLt⟩)).trans
    (Finset.sum_congr rfl fun d _ => Finset.sum_congr rfl fun j _ => rfl)

set_option maxHeartbeats 1000000 in
/-- Ten blocks of 5000 rows are the 50000 rows. -/
theorem tiles0_sum (c : Dev nD) (q : Fin 128) :
    ∑ K ∈ Finset.range 10, tile0 V c q K = ∑ r : Fin 50000, Cert.Gin.Ker.pre (V c main_v14) (V c main_v16) (V c main_v18) (ix2 r q)
    ∧ ∑ K ∈ Finset.range 10, tileSq0 V c q K = ∑ r : Fin 50000, Cert.Gin.Ker.pre (V c main_v14) (V c main_v16) (V c main_v18) (ix2 r q) * Cert.Gin.Ker.pre (V c main_v14) (V c main_v16) (V c main_v18) (ix2 r q) := by
  have hN : cfg0.N = 10 := cfgN0
  have key : ∀ (d : Fin 10) (r : Fin 5000), k0_pay1 (iblk0 V c 0 ⟨d.val, by rw [hN]; exact d.isLt⟩) (iblk0 V c 1 ⟨d.val, by rw [hN]; exact d.isLt⟩) (iblk0 V c 2 ⟨d.val, by rw [hN]; exact d.isLt⟩) (ix2 r q)
      = Cert.Gin.Ker.pre (V c main_v14) (V c main_v16) (V c main_v18) (ix2 (⟨r.val + 5000 * d.val, by have := r.isLt; have := d.isLt; omega⟩ : Fin 50000) q) := fun d r =>
    blockEntry0 V c ⟨d.val, by rw [hN]; exact d.isLt⟩ r q ⟨r.val + 5000 * d.val, by have := r.isLt; have := d.isLt; omega⟩
      (by show r.val + 5000 * d.val = 5000 * d.val + r.val; omega)
  constructor
  · rw [Finset.sum_range]
    refine Eq.trans ?_ (rows0_split (fun r => Cert.Gin.Ker.pre (V c main_v14) (V c main_v16) (V c main_v18) (ix2 r q))).symm
    refine Finset.sum_congr rfl fun d _ => ?_
    unfold tile0
    rw [dif_pos (show d.val < cfg0.N by rw [hN]; exact d.isLt)]
    exact Finset.sum_congr rfl fun r _ => key d r
  · rw [Finset.sum_range]
    refine Eq.trans ?_ (rows0_split (fun r => Cert.Gin.Ker.pre (V c main_v14) (V c main_v16) (V c main_v18) (ix2 r q) * Cert.Gin.Ker.pre (V c main_v14) (V c main_v16) (V c main_v18) (ix2 r q))).symm
    refine Finset.sum_congr rfl fun d _ => ?_
    unfold tileSq0
    rw [dif_pos (show d.val < cfg0.N by rw [hN]; exact d.isLt)]
    exact Finset.sum_congr rfl fun r _ => by rw [key d r]

/-- What the two statistics windows' buffers hold after the last point: the column sums over all rows. -/
theorem stats0_final (c : Dev nD) (t : Fin cfg0.N) (h1 : t.val % 10 = 9) :
    (outsAt0 V c t.val t.isLt).2.1 = Cert.Gin.Ker.colSum (Cert.Gin.Ker.pre (V c main_v14) (V c main_v16) (V c main_v18))
    ∧ (outsAt0 V c t.val t.isLt).2.2.1 = Cert.Gin.Ker.colSumSq (Cert.Gin.Ker.pre (V c main_v14) (V c main_v16) (V c main_v18)) := by
  have hN : t.val < 10 := lt_of_lt_of_eq t.isLt (show cfg0.N = 10 from N_0)
  have h9 : t.val = 9 := by omega
  obtain ⟨e0, e1⟩ := stats0_last V c t (by omega) h1
  have h8 : t.val - 1 < cfg0.N := Nat.lt_of_le_of_lt (Nat.sub_le _ _) t.isLt
  constructor
  · rw [e0]; funext j
    obtain ⟨z, q, rfl⟩ : ∃ (z : Fin 1) (q : Fin 128), j = ix2 z q := ⟨j 0, j 1, eq_ix2 j⟩
    obtain rfl : z = 0 := Subsingleton.elim _ _
    rw [pay0_4_apply]
    show _ = ∑ r : Fin 50000, Cert.Gin.Ker.pre (V c main_v14) (V c main_v16) (V c main_v18) (ix2 r q)
    rw [← (tiles0_sum V c q).1, Finset.sum_range_succ, ← (acc0_eq V c q 8 (by decide)).1]
    have ha : acc0 V c q 8 = (outsAt0 V c (t.val - 1) h8).2.2.2.1 (ix2 (0 : Fin 1) q) := by
      have e8 : (8 : ℕ) = t.val - 1 := by omega
      rw [e8]; exact acc0_at V c q (t.val - 1) h8
    have hb : tile0 V c q 9 = ∑ r : Fin 5000, k0_pay1 (iblk0 V c 0 t) (iblk0 V c 1 t) (iblk0 V c 2 t) (ix2 r q) := by
      unfold tile0; rw [dif_pos (show 9 < cfg0.N by rw [cfgN0]; decide)]
      have : (⟨9, by rw [cfgN0]; decide⟩ : Fin cfg0.N) = t := Fin.ext h9.symm
      rw [this]
    rw [ha, hb]
  · rw [e1]; funext j
    obtain ⟨z, q, rfl⟩ : ∃ (z : Fin 1) (q : Fin 128), j = ix2 z q := ⟨j 0, j 1, eq_ix2 j⟩
    obtain rfl : z = 0 := Subsingleton.elim _ _
    rw [pay0_5_apply]
    show _ = ∑ r : Fin 50000, Cert.Gin.Ker.pre (V c main_v14) (V c main_v16) (V c main_v18) (ix2 r q) * Cert.Gin.Ker.pre (V c main_v14) (V c main_v16) (V c main_v18) (ix2 r q)
    rw [← (tiles0_sum V c q).2, Finset.sum_range_succ, ← (acc0_eq V c q 8 (by decide)).2]
    have ha : accSq0 V c q 8 = (outsAt0 V c (t.val - 1) h8).2.2.2.2 (ix2 (0 : Fin 1) q) := by
      have e8 : (8 : ℕ) = t.val - 1 := by omega
      rw [e8]; exact accSq0_at V c q (t.val - 1) h8
    have hb : tileSq0 V c q 9 = ∑ r : Fin 5000, k0_pay1 (iblk0 V c 0 t) (iblk0 V c 1 t) (iblk0 V c 2 t) (ix2 r q) * k0_pay1 (iblk0 V c 0 t) (iblk0 V c 1 t) (iblk0 V c 2 t) (ix2 r q) := by
      unfold tileSq0; rw [dif_pos (show 9 < cfg0.N by rw [cfgN0]; decide)]
      have : (⟨9, by rw [cfgN0]; decide⟩ : Fin cfg0.N) = t := Fin.ext h9.symm
      rw [this]
    rw [ha, hb]

/-! ## What the points write back, and the arrays after the region -/

/-- What point t writes back to the first output array is block t of max(rows · weights + bias, 0). -/
theorem flushed0_3_eq (c : Dev nD) (t : Fin cfg0.N) :
    (dat0 V c).flushed 3 t = ((cfg0.win 3).blk t).view.read (Elt Ideal) (Cert.Gin.Ker.pre (V c main_v14) (V c main_v16) (V c main_v18)) := by
  show (cfg0.win 3).cut (grid0.coords t) ((dat0 V c).after 3 t) = _
  rw [after0_3, outs0_3]
  obtain ⟨-, -, -, -, -, e0, e1, -⟩ := blockIndex0 t
  funext j
  obtain ⟨r, q, rfl⟩ : ∃ (r : Fin 5000) (q : Fin 128), j = ix2 r q := ⟨j 0, j 1, eq_ix2 j⟩
  show k0_pay1 (iblk0 V c 0 t) (iblk0 V c 1 t) (iblk0 V c 2 t) (ix2 r q) = Cert.Gin.Ker.pre (V c main_v14) (V c main_v16) (V c main_v18) (((cfg0.win 3).blk t).view.emb (ix2 r q))
  have hi : ((cfg0.win 3).blk t).view.emb (ix2 r q) = (ix2 (⟨5000 * t.val + r.val, by have := lt_of_lt_of_eq t.isLt cfgN0; have := r.isLt; omega⟩ : Fin 50000) q : S50000x128.Idx) := by
    funext a; apply Fin.ext
    match a with
    | ⟨0, _⟩ => show win0_3.index t (0 : Fin 2) * 5000 + 1 * r.val = 5000 * t.val + r.val; rw [e0]; omega
    | ⟨1, _⟩ => show win0_3.index t (1 : Fin 2) * 128 + 1 * q.val = q.val; rw [e1]; omega
  rw [hi]
  exact blockEntry0 V c t r q _ rfl

theorem memBlock0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v27_0).slice (win0_3.rect t)).set ↔ _
  rw [View.set_slice_whole, Rect.mem_set_unit]
  exact Iff.rfl

theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, e0, e1, -⟩ := blockIndex0 t
  have ht : t.val = (i 0).val / 5000 := rfl
  refine ⟨t, flush0_3 t, ?_⟩
  rw [memBlock0_3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- After the region the first output array holds max(rows · weights + bias, 0) of the arrays as the region finds them. -/
theorem final0_3 (c : Dev nD) : (dat0 V c).arrAt 3 cfg0.N = Cert.Gin.Ker.pre (V c main_v14) (V c main_v16) (V c main_v18) :=
  (dat0 V c).arrAt_eq_of_cover 3 _ (fun t _ => flushed0_3_eq V c t) covered0_3

/-- The one write-back of statistics array 4, at the last point, writes the column sums over all rows. -/
theorem flushed0_4_eq (c : Dev nD) (t : Fin cfg0.N) (hf : (cfg0.win 4).flush t = true) :
    (dat0 V c).flushed 4 t = ((cfg0.win 4).blk t).view.read (Elt Ideal) (Cert.Gin.Ker.colSum (Cert.Gin.Ker.pre (V c main_v14) (V c main_v16) (V c main_v18))) := by
  have h1 : t.val % 10 = 9 := (flush0_4 t).mp hf
  show (cfg0.win 4).cut (grid0.coords t) ((dat0 V c).after 4 t) = _
  rw [after0_4, (stats0_final V c t h1).1]
  obtain ⟨-, -, -, -, -, -, -, e40, e41, e50, e51⟩ := blockIndex0 t
  generalize Cert.Gin.Ker.colSum (Cert.Gin.Ker.pre (V c main_v14) (V c main_v16) (V c main_v18)) = G
  funext j
  have hemb : ((cfg0.win 4).blk t).view.emb j = j := by
    funext a; apply Fin.ext
    match a with
    | ⟨0, _⟩ => show win0_4.index t (0 : Fin 2) * 1 + 1 * (j 0).val = (j 0).val; rw [e40]; omega
    | ⟨1, _⟩ => show win0_4.index t (1 : Fin 2) * 128 + 1 * (j 1).val = (j 1).val; rw [e41]; omega
  show G j = G (((cfg0.win 4).blk t).view.emb j)
  rw [hemb]

theorem covered0_4 (i : S1x128.Idx) :
    ∃ t : Fin cfg0.N, (cfg0.win 4).flush t = true ∧ i ∈ ((cfg0.win 4).blk t).view.set := by
  have hi0 : (i 0).val < 1 := (i 0).isLt
  have hi1 : (i 1).val < 128 := (i 1).isLt
  let t : Fin cfg0.N := ⟨9, by rw [cfgN0]; decide⟩
  obtain ⟨-, -, -, -, -, -, -, e40, e41, e50, e51⟩ := blockIndex0 t
  refine ⟨t, (flush0_4 t).mpr rfl, ?_⟩
  show i ∈ ((View.whole main_v27_1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    rw [e40]; omega
  | ⟨1, _⟩ =>
    show win0_4.index t (1 : Fin 2) * 128 ≤ (i 1).val ∧ (i 1).val < win0_4.index t (1 : Fin 2) * 128 + 128
    rw [e41]; omega

theorem final0_4 (c : Dev nD) : (dat0 V c).arrAt 4 cfg0.N = Cert.Gin.Ker.colSum (Cert.Gin.Ker.pre (V c main_v14) (V c main_v16) (V c main_v18)) :=
  (dat0 V c).arrAt_eq_of_cover 4 _ (flushed0_4_eq V c) covered0_4

/-- The one write-back of statistics array 5, at the last point, writes the column sums over all rows. -/
theorem flushed0_5_eq (c : Dev nD) (t : Fin cfg0.N) (hf : (cfg0.win 5).flush t = true) :
    (dat0 V c).flushed 5 t = ((cfg0.win 5).blk t).view.read (Elt Ideal) (Cert.Gin.Ker.colSumSq (Cert.Gin.Ker.pre (V c main_v14) (V c main_v16) (V c main_v18))) := by
  have h1 : t.val % 10 = 9 := (flush0_5 t).mp hf
  show (cfg0.win 5).cut (grid0.coords t) ((dat0 V c).after 5 t) = _
  rw [after0_5, (stats0_final V c t h1).2]
  obtain ⟨-, -, -, -, -, -, -, e40, e41, e50, e51⟩ := blockIndex0 t
  generalize Cert.Gin.Ker.colSumSq (Cert.Gin.Ker.pre (V c main_v14) (V c main_v16) (V c main_v18)) = G
  funext j
  have hemb : ((cfg0.win 5).blk t).view.emb j = j := by
    funext a; apply Fin.ext
    match a with
    | ⟨0, _⟩ => show win0_5.index t (0 : Fin 2) * 1 + 1 * (j 0).val = (j 0).val; rw [e50]; omega
    | ⟨1, _⟩ => show win0_5.index t (1 : Fin 2) * 128 + 1 * (j 1).val = (j 1).val; rw [e51]; omega
  show G j = G (((cfg0.win 5).blk t).view.emb j)
  rw [hemb]

theorem covered0_5 (i : S1x128.Idx) :
    ∃ t : Fin cfg0.N, (cfg0.win 5).flush t = true ∧ i ∈ ((cfg0.win 5).blk t).view.set := by
  have hi0 : (i 0).val < 1 := (i 0).isLt
  have hi1 : (i 1).val < 128 := (i 1).isLt
  let t : Fin cfg0.N := ⟨9, by rw [cfgN0]; decide⟩
  obtain ⟨-, -, -, -, -, -, -, e40, e41, e50, e51⟩ := blockIndex0 t
  refine ⟨t, (flush0_5 t).mpr rfl, ?_⟩
  show i ∈ ((View.whole main_v27_2).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [e50]; omega
  | ⟨1, _⟩ =>
    show win0_5.index t (1 : Fin 2) * 128 ≤ (i 1).val ∧ (i 1).val < win0_5.index t (1 : Fin 2) * 128 + 128
    rw [e51]; omega

theorem final0_5 (c : Dev nD) : (dat0 V c).arrAt 5 cfg0.N = Cert.Gin.Ker.colSumSq (Cert.Gin.Ker.pre (V c main_v14) (V c main_v16) (V c main_v18)) :=
  (dat0 V c).arrAt_eq_of_cover 5 _ (flushed0_5_eq V c) covered0_5

end Cert.KernelIdeal.Hand

end
-- ==== Proof.KI.Val1.lean ====
/-
  Region 1, from blocks to the array: the second dense step of a layer over all 50000 rows.

  At each of the ten grid points the body stores, over a block of 5000 rows,
  max((rows * scale + shift) · weights + bias, 0) of that block of the input rows and of the whole scale row, shift
  row, weight matrix and bias. Entry (p, q) of a block's result reads row p of the block only, and row p of block t
  is row 5000 t + p of the array; so what point t writes back is block t of ONE function of the five whole arrays.
  The ten blocks tile the 50000 rows — row r lies in block r / 5000 — hence the output array after the region is
  that function of the arrays as the region finds them.
-/
import proofs.«121608_j10213432229998_1_alg».proof.Proof.KI.Reg1
import proofs.«121608_j10213432229998_1_alg».proof.Proof.Alg.Ker
import proofs.«121608_j10213432229998_1_alg».proof.Proof.LibDenseLayers
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- Entry (p, q) of what the body stores: row p of the block, scaled and shifted entry by entry, against column q of
    the weights, plus the bias at q, or zero if that is larger. -/
theorem pay1_apply (x0 : Vec Ideal S5000x128 .f32) (x1 x2 : Vec Ideal S1x128 .f32) (x3 : Vec Ideal S128x128 .f32)
    (x4 : Vec Ideal S128 .f32) (p : Fin 5000) (q : Fin 128) :
    k1_pay1 x0 x1 x2 x3 x4 (ix2 p q)
      = max ((∑ k : Fin 128, (x0 (ix2 p k) * x1 (ix2 (0 : Fin 1) k) + x2 (ix2 (0 : Fin 1) k)) * x3 (ix2 k q))
          + x4 (ix1 q)) 0 := by
  unfold k1_pay1
  refine (Cert.Gcn.kernelBiasRelu_apply _ (shapeCast S128 x4 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x4 (ix1 q)) 0) ?_
  refine (Cert.Gcn.kernelProduct_apply dot_S5000x128_S128x128_S5000x128_1_0_0_1_n_n_wf bitsLt_bf16_f32 _ _ p q).trans ?_
  rw [Cert.Gcn.product_apply]
  refine Finset.sum_congr rfl fun k _ => ?_
  refine congrArg (· * x3 (ix2 k q)) ?_
  show x0 (ix2 p k) * broadcastTo S5000x128 x1 _ (ix2 p k) + broadcastTo S5000x128 x2 _ (ix2 p k) = _
  rw [broadcastTo_1b_ab_apply, broadcastTo_1b_ab_apply]

/-! ## The blocks the body reads -/

variable (V : (c : Dev nD) → (b : Ref sig .tc) → Buf (Elt Ideal) ((c : Thread nD τ).loc b))

theorem zeroOffsets1_2 : (![0, 0] : Fin 2 → Nat) = fun _ => 0 := funext fun a => by fin_cases a <;> rfl
theorem zeroOffsets1_1 : (![0] : Fin 1 → Nat) = fun _ => 0 := funext fun a => by fin_cases a; rfl

/-- The index maps over the ten points: the rows and the output move one block per point, the four parameter arrays
    stay at their only block. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the rows' block at point t is row 5000 t + p of the array. -/
theorem rowsBlock1_apply (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v27_0 : S50000x128.Idx → EReal) i := by
  obtain ⟨e0, e1, -⟩ := blockIndex1 t
  show V c main_v27_0 (((cfg1.win 0).blk t).view.emb y) = V c main_v27_0 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The scale row's block is the whole array, at every point. -/
theorem scaleBlock1_eq (c : Dev nD) (t : Fin cfg1.N) :
    (iblk1 V c 1 t : Vec Ideal S1x128 .f32) = (V c main_v38 : S1x128.Idx → EReal) := by
  obtain ⟨-, -, e0, e1, -⟩ := blockIndex1 t
  funext y
  show V c main_v38 (((cfg1.win 1).blk t).view.emb y) = V c main_v38 y
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- So is the shift row's, -/
theorem shiftBlock1_eq (c : Dev nD) (t : Fin cfg1.N) :
    (iblk1 V c 2 t : Vec Ideal S1x128 .f32) = (V c main_v41 : S1x128.Idx → EReal) := by
  obtain ⟨-, -, -, -, e0, e1, -⟩ := blockIndex1 t
  funext y
  show V c main_v41 (((cfg1.win 2).blk t).view.emb y) = V c main_v41 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- the weights', -/
theorem weightsBlock1_eq (c : Dev nD) (t : Fin cfg1.N) :
    (iblk1 V c 3 t : Vec Ideal S128x128 .f32) = (V c main_v24 : S128x128.Idx → EReal) := by
  obtain ⟨-, -, -, -, -, -, e0, e1, -⟩ := blockIndex1 t
  funext y
  show V c main_v24 (((cfg1.win 3).blk t).view.emb y) = V c main_v24 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- and the bias's. -/
theorem biasBlock1_eq (c : Dev nD) (t : Fin cfg1.N) :
    (iblk1 V c 4 t : Vec Ideal S128 .f32) = (V c main_v26 : S128.Idx → EReal) := by
  obtain ⟨-, -, -, -, -, -, -, -, e0, -⟩ := blockIndex1 t
  funext y
  show V c main_v26 (((cfg1.win 4).blk t).view.emb y) = V c main_v26 y
  refine congrArg _ (funext fun a => Fin.ext ?_)
  match a with
  | ⟨0, _⟩ => show win1_4.index t (0 : Fin 1) * 128 + 1 * (y 0).val = (y 0).val; rw [e0]; omega

/-! ## What a point writes back -/

/-- Entry j of the body's result at point t is the whole-array function at the entry of the output array that j is
    written back to: the same row of the input, the same column. -/
theorem blockEntry1 (c : Dev nD) (t : Fin cfg1.N) (j : S5000x128.Idx) (i : S50000x128.Idx)
    (h0 : (i 0).val = 5000 * t.val + (j 0).val) (h1 : (i 1).val = (j 1).val) :
    k1_pay1 (iblk1 V c 0 t) (V c main_v38) (V c main_v41) (V c main_v24) (V c main_v26) j
      = Cert.Gin.Ker.normDense (V c main_v27_0) (V c main_v38) (V c main_v41) (V c main_v24) (V c main_v26) i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  rw [pay1_apply]
  show _ = Cert.Gin.Ker.normDenseAt _ _ _ _ _ r q'
  unfold Cert.Gin.Ker.normDenseAt
  refine congrArg (fun s => max (s + _) 0) (Finset.sum_congr rfl fun k _ => ?_)
  rw [rowsBlock1_apply V c t (ix2 p k) (ix2 r k) h0 rfl]

/-- What point t writes back is block t of the whole-array function of the arrays as the region finds them. -/
theorem flushed1_eq (c : Dev nD) (t : Fin cfg1.N) :
    (dat1 V c).flushed 5 t = ((cfg1.win 5).blk t).view.read (Elt Ideal)
      (Cert.Gin.Ker.normDense (V c main_v27_0) (V c main_v38) (V c main_v41) (V c main_v24) (V c main_v26)) := by
  show (cfg1.win 5).cut (grid1.coords t) ((dat1 V c).after 5 t) = _
  rw [after1_5]
  unfold out1_5
  rw [View.canon_unit_zero zeroOffsets1_2]
  simp only [View.ld_unit_zero (S := S5000x128) zeroOffsets1_2, View.ld_unit_zero (S := S1x128) zeroOffsets1_2,
    View.ld_unit_zero (S := S128x128) zeroOffsets1_2, View.ld_unit_zero (S := S128) zeroOffsets1_1]
  rw [scaleBlock1_eq, shiftBlock1_eq, weightsBlock1_eq, biasBlock1_eq]
  obtain ⟨-, -, -, -, -, -, -, -, -, e0, e1⟩ := blockIndex1 t
  funext j
  refine blockEntry1 V c t j (((cfg1.win 5).blk t).view.emb j) ?_ ?_
  · show win1_5.index t (0 : Fin 2) * 5000 + 1 * (j 0).val = 5000 * t.val + (j 0).val; rw [e0]; omega
  · show win1_5.index t (1 : Fin 2) * 128 + 1 * (j 1).val = (j 1).val; rw [e1]; omega

/-! ## The blocks tile the array -/

/-- An index of the output array is in point t's block iff each coordinate is in the block's range on its axis. -/
theorem memBlock1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v42).slice (win1_5.rect t)).set ↔ _
  rw [View.set_slice_whole, Rect.mem_set_unit]
  exact Iff.rfl

/-- Row r of the output lies in the block of point r / 5000. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, e0, e1⟩ := blockIndex1 t
  have ht : t.val = (i 0).val / 5000 := rfl
  refine ⟨t, flush1_5 t, ?_⟩
  rw [memBlock1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-! ## The output array after the region -/

/-- After the region the output array holds max((x * scale + shift) · w + b, 0) of the five arrays as the region
    finds them. -/
theorem final1 (c : Dev nD) :
    (dat1 V c).arrAt 5 cfg1.N
      = Cert.Gin.Ker.normDense (V c main_v27_0) (V c main_v38) (V c main_v41) (V c main_v24) (V c main_v26) :=
  (dat1 V c).arrAt_eq_of_cover 5 _ (fun t _ => flushed1_eq V c t) covered1

end Cert.KernelIdeal.Hand

end
-- ==== Proof.KI.Pieces2.lean ====
/-
  Region 2: what each run of the body leaves in each buffer, as the body's arithmetic of the blocks it
  read: the output block is max(rows · weights + bias, 0); each running sum is what it held (zero at the
  first point) plus the block's column sums (of the entries, of their squares); at the last point the two
  statistics windows receive the running sums.
-/
import proofs.«121608_j10213432229998_1_alg».proof.Proof.KI.Reg2
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2_2 : (![0, 0] : Fin 2 → Nat) = fun _ => 0 := funext fun a => by fin_cases a <;> rfl
theorem hz1_2 : (![0] : Fin 1 → Nat) = fun _ => 0 := funext fun a => by fin_cases a <;> rfl

theorem pc2_outA_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) :
    out2_A_3 c i arg1 harg1 arg2 harg2 arg3 harg3 arg4 harg4 arg5 harg5 arg6 harg6 arg7 harg7 arg8 harg8 hc0 hc1 x0 x1 x2 = k2_pay1 x0 x1 x2 := by
  unfold out2_A_3
  rw [View.read_writes_eq_canon _ _ _ (cover2_A_3 c i arg1 harg1 arg2 harg2 arg3 harg3 arg4 harg4 arg5 harg5 arg6 harg6 arg7 harg7 arg8 harg8 hc0 hc1 x0 x1 x2)]
  unfold kernelRun2_A
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutA_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) :
    sout2_A_0 c i arg1 harg1 arg2 harg2 arg3 harg3 arg4 harg4 arg5 harg5 arg6 harg6 arg7 harg7 arg8 harg8 hc0 hc1 x0 x1 x2 = k2_pay4 x0 x1 x2 (k2_pay2 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2)]
  unfold kernelRun2_A
  dsimp only
  try sl_unfold_words
  rw [View.canon_cons_unit_zero hz2_2, View.readCov_unit_zero (S := S1x128) _ hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutA_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond2_0 i) (hc1 : ¬cond2_1 i)
    (x0 : Vec F S5000x128 .f32) (x1 : Vec F S128x128 .f32) (x2 : Vec F S128 .f32) :
    sout2_A_1 c i arg1 harg1 arg2 harg2 arg3 harg3 arg4 harg4 arg5 harg5 arg6 harg6 arg7 harg7 arg8 harg8 hc0 hc1 x0 x1 x2 = k2_pay5 x0 x1 x2 (k2_pay3 (F := F)) := by
  unfold sout2_A_1
  rw [View.read_writes_eq_canon _ _ _ (scover2_A_1 c i arg1 harg1 arg2 harg2 arg3 harg3 arg4 harg4 arg5 harg5 arg6 harg6 arg7 harg7 arg8 harg8 hc0 hc1 x0 x1 x2)]
  unfold kernelRun2_A
  dsimp only
  try sl_unfold_words
  rw [View.canon_cons_unit_zero hz2_2, View.readCov_unit_zero (S := S1x128) _ hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_outB_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 xs1 : Vec F S1x128 .f32) :
    out2_B_3 c i arg1 harg1 arg2 harg2 arg3 harg3 arg4 harg4 arg5 harg5 arg6 harg6 arg7 harg7 arg8 harg8 hc0 hc1 x0 x1 x2 xs0 xs1 = k2_pay1 x0 x1 x2 := by
  unfold out2_B_3
  rw [View.read_writes_eq_canon _ _ _ (cover2_B_3 c i arg1 harg1 arg2 harg2 arg3 harg3 arg4 harg4 arg5 harg5 arg6 harg6 arg7 harg7 arg8 harg8 hc0 hc1 x0 x1 x2 xs0 xs1)]
  unfold kernelRun2_B
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutB_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 xs1 : Vec F S1x128 .f32) :
    sout2_B_0 c i arg1 harg1 arg2 harg2 arg3 harg3 arg4 harg4 arg5 harg5 arg6 harg6 arg7 harg7 arg8 harg8 hc0 hc1 x0 x1 x2 xs0 xs1 = k2_pay4 x0 x1 x2 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 xs0 xs1)]
  unfold kernelRun2_B
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutB_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : ¬cond2_1 i)
    (x0 : Vec F S5000x128 .f32) (x1 : Vec F S128x128 .f32) (x2 : Vec F S128 .f32) (xs0 xs1 : Vec F S1x128 .f32) :
    sout2_B_1 c i arg1 harg1 arg2 harg2 arg3 harg3 arg4 harg4 arg5 harg5 arg6 harg6 arg7 harg7 arg8 harg8 hc0 hc1 x0 x1 x2 xs0 xs1 = k2_pay5 x0 x1 x2 xs1 := by
  unfold sout2_B_1
  rw [View.read_writes_eq_canon _ _ _ (scover2_B_1 c i arg1 harg1 arg2 harg2 arg3 harg3 arg4 harg4 arg5 harg5 arg6 harg6 arg7 harg7 arg8 harg8 hc0 hc1 x0 x1 x2 xs0 xs1)]
  unfold kernelRun2_B
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_outC_3 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 xs1 : Vec F S1x128 .f32) :
    out2_C_3 c i arg1 harg1 arg2 harg2 arg3 harg3 arg4 harg4 arg5 harg5 arg6 harg6 arg7 harg7 arg8 harg8 hc0 hc1 x0 x1 x2 xs0 xs1 = k2_pay1 x0 x1 x2 := by
  unfold out2_C_3
  rw [View.read_writes_eq_canon _ _ _ (cover2_C_3 c i arg1 harg1 arg2 harg2 arg3 harg3 arg4 harg4 arg5 harg5 arg6 harg6 arg7 harg7 arg8 harg8 hc0 hc1 x0 x1 x2 xs0 xs1)]
  unfold kernelRun2_C
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_outC_4 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 xs1 : Vec F S1x128 .f32) :
    out2_C_4 c i arg1 harg1 arg2 harg2 arg3 harg3 arg4 harg4 arg5 harg5 arg6 harg6 arg7 harg7 arg8 harg8 hc0 hc1 x0 x1 x2 xs0 xs1 = k2_pay4 x0 x1 x2 xs0 := by
  unfold out2_C_4
  rw [View.read_writes_eq_canon _ _ _ (cover2_C_4 c i arg1 harg1 arg2 harg2 arg3 harg3 arg4 harg4 arg5 harg5 arg6 harg6 arg7 harg7 arg8 harg8 hc0 hc1 x0 x1 x2 xs0 xs1)]
  unfold kernelRun2_C
  dsimp only
  try sl_unfold_words
  rw [View.canon_unit_zero hz2_2, View.readCov_unit_zero (S := S1x128) _ hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_outC_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 xs1 : Vec F S1x128 .f32) :
    out2_C_5 c i arg1 harg1 arg2 harg2 arg3 harg3 arg4 harg4 arg5 harg5 arg6 harg6 arg7 harg7 arg8 harg8 hc0 hc1 x0 x1 x2 xs0 xs1 = k2_pay5 x0 x1 x2 xs1 := by
  unfold out2_C_5
  rw [View.read_writes_eq_canon _ _ _ (cover2_C_5 c i arg1 harg1 arg2 harg2 arg3 harg3 arg4 harg4 arg5 harg5 arg6 harg6 arg7 harg7 arg8 harg8 hc0 hc1 x0 x1 x2 xs0 xs1)]
  unfold kernelRun2_C
  dsimp only
  try sl_unfold_words
  rw [View.canon_unit_zero hz2_2, View.readCov_unit_zero (S := S1x128) _ hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutC_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 xs1 : Vec F S1x128 .f32) :
    sout2_C_0 c i arg1 harg1 arg2 harg2 arg3 harg3 arg4 harg4 arg5 harg5 arg6 harg6 arg7 harg7 arg8 harg8 hc0 hc1 x0 x1 x2 xs0 xs1 = k2_pay4 x0 x1 x2 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 xs0 xs1)]
  unfold kernelRun2_C
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

theorem pc2_soutC_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i) (hc1 : cond2_1 i)
    (x0 : Vec F S5000x128 .f32) (x1 : Vec F S128x128 .f32) (x2 : Vec F S128 .f32) (xs0 xs1 : Vec F S1x128 .f32) :
    sout2_C_1 c i arg1 harg1 arg2 harg2 arg3 harg3 arg4 harg4 arg5 harg5 arg6 harg6 arg7 harg7 arg8 harg8 hc0 hc1 x0 x1 x2 xs0 xs1 = k2_pay5 x0 x1 x2 xs1 := by
  unfold sout2_C_1
  rw [View.read_writes_eq_canon _ _ _ (scover2_C_1 c i arg1 harg1 arg2 harg2 arg3 harg3 arg4 harg4 arg5 harg5 arg6 harg6 arg7 harg7 arg8 harg8 hc0 hc1 x0 x1 x2 xs0 xs1)]
  unfold kernelRun2_C
  dsimp only
  try sl_unfold_words
  rw [View.canon_unit_zero hz2_2]
  simp only [View.readAt_eq_ld, harg1.read_unread, harg2.read_unread, harg3.read_unread, harg7.read_unread, harg8.read_unread, View.ld_unit_zero (S := S5000x128) hz2_2, View.ld_unit_zero (S := S128x128) hz2_2, View.ld_unit_zero (S := S128) hz1_2, View.ld_unit_zero (S := S1x128) hz2_2]

end Cert.KernelIdeal.Hand

end
-- ==== Proof.KI.Pay2.lean ====
/-
  Region 2's arithmetic at an entry, on the extended reals.

  The body of a layer's first region stores three things from a block of 5000 rows: the block
  max(rows · weights + bias, 0) itself, and two running rows — the column sums of that block and the column sums of
  its squares, each added onto what the row held, each started from zero. Here every stored value is read at one
  entry: the block at (p, q) as a row-by-column sum, the two starting rows as zero, and the two running rows at
  column q as what they held plus a sum over the block's 5000 rows.
-/
import proofs.«121608_j10213432229998_1_alg».proof.Proof.Gen.KernelIdeal.Skeleton
import proofs.«121608_j10213432229998_1_alg».proof.Proof.Alg.Ker
import proofs.«121608_j10213432229998_1_alg».proof.Proof.LibDenseLayers
import proofs.«121608_j10213432229998_1_alg».proof.Proof.LibColSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Entry (p, q) of the block the body stores first: row p of the rows against column q of the weights, plus the bias
    at q, or zero if that is larger. -/
theorem pay2_1_apply (x0 : FVec Ideal S5000x128 .f32) (x1 : FVec Ideal S128x128 .f32) (x2 : FVec Ideal S128 .f32)
    (p : Fin 5000) (q : Fin 128) :
    k2_pay1 x0 x1 x2 (ix2 p q) = max ((∑ k : Fin 128, x0 (ix2 p k) * x1 (ix2 k q)) + x2 (ix1 q)) 0 := by
  unfold k2_pay1
  refine (Cert.Gcn.kernelBiasRelu_apply _ (shapeCast S128 x2 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x2 (ix1 q)) 0) ?_
  exact Cert.Gcn.kernelProduct_apply dot_S5000x128_S128x128_S5000x128_1_0_0_1_n_n_wf bitsLt_bf16_f32 x0 x1 p q

/-- The row of column sums starts at zero, -/
theorem pay2_2_apply (q : Fin 128) : (k2_pay2 (F := Ideal)) (ix2 (0 : Fin 1) q) = 0 := by
  unfold k2_pay2
  simp only [shapeCast_self]
  exact Ideal.ofBits_zero_f32

/-- and so does the row of column sums of squares. -/
theorem pay2_3_apply (q : Fin 128) : (k2_pay3 (F := Ideal)) (ix2 (0 : Fin 1) q) = 0 := by
  unfold k2_pay3
  simp only [shapeCast_self]
  exact Ideal.ofBits_zero_f32

/-- The running row of column sums after a block: what it held plus the sum of the block's column q. -/
theorem pay2_4_apply (x0 : FVec Ideal S5000x128 .f32) (x1 : FVec Ideal S128x128 .f32) (x2 : FVec Ideal S128 .f32)
    (v : FVec Ideal S1x128 .f32) (q : Fin 128) :
    k2_pay4 x0 x1 x2 v (ix2 (0 : Fin 1) q) = v (ix2 (0 : Fin 1) q) + ∑ r : Fin 5000, k2_pay1 x0 x1 x2 (ix2 r q) := by
  unfold k2_pay4
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact Cert.Lib.multiReduction_add_cols (k2_pay1 x0 x1 x2) _ _ _ _ q

/-- The running row of column sums of squares after a block: what it held plus the sum of the squares of the block's
    column q. -/
theorem pay2_5_apply (x0 : FVec Ideal S5000x128 .f32) (x1 : FVec Ideal S128x128 .f32) (x2 : FVec Ideal S128 .f32)
    (v : FVec Ideal S1x128 .f32) (q : Fin 128) :
    k2_pay5 x0 x1 x2 v (ix2 (0 : Fin 1) q)
      = v (ix2 (0 : Fin 1) q) + ∑ r : Fin 5000, k2_pay1 x0 x1 x2 (ix2 r q) * k2_pay1 x0 x1 x2 (ix2 r q) := by
  unfold k2_pay5
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact (Cert.Lib.multiReduction_add_cols (mulf (k2_pay1 x0 x1 x2) (k2_pay1 x0 x1 x2)) _ _ _ _ q).trans
    (Finset.sum_congr rfl fun _ _ => rfl)

end Cert.KernelIdeal.Hand

end
-- ==== Proof.KI.Val2.lean ====
/-
  Region 2, from blocks to the arrays. After the region its first output array holds
  max(rows · weights + bias, 0) over all 50000 rows: point t writes back rows 5000 t … 5000 t + 4999, and
  the ten blocks tile the rows. The two running sums start at zero and gain one block's column sums per
  point, so after the last point they are the column sums over all 50000 rows (of the entries, and of their
  squares): ten blocks of 5000 rows are one sum over 50000 rows. The last point copies them to the two
  statistics arrays, whose only block is the whole array.
-/
import proofs.«121608_j10213432229998_1_alg».proof.Proof.KI.Pieces2
import proofs.«121608_j10213432229998_1_alg».proof.Proof.KI.Pay2
import proofs.«121608_j10213432229998_1_alg».proof.Proof.Alg.Ker
import proofs.«121608_j10213432229998_1_alg».proof.Proof.LibBlockSum
import proofs.«121608_j10213432229998_1_alg».proof.Proof.LibAccum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem cfgN2 : cfg2.N = 10 := N_2

/-! ## The blocks the body reads -/

/-- The index maps over the ten points: the rows and the first output move one block per point; the weights, the bias
    and the two statistics arrays stay at their only block. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row r of the rows' block at point t is row 5000 t + r of the array. -/
theorem rowsBlock2_apply (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v53 : S50000x128.Idx → EReal) i := by
  obtain ⟨e0, e1, -⟩ := blockIndex2 t
  show V c main_v53 (((cfg2.win 0).blk t).view.emb y) = V c main_v53 i
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weights' block is the whole array, at every point, -/
theorem weightsBlock2_eq (c : Dev nD) (t : Fin cfg2.N) :
    (iblk2 V c 1 t : Vec Ideal S128x128 .f32) = (V c main_v55 : S128x128.Idx → EReal) := by
  obtain ⟨-, -, e0, e1, -⟩ := blockIndex2 t
  funext y
  show V c main_v55 (((cfg2.win 1).blk t).view.emb y) = V c main_v55 y
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- and so is the bias's. -/
theorem biasBlock2_eq (c : Dev nD) (t : Fin cfg2.N) :
    (iblk2 V c 2 t : Vec Ideal S128 .f32) = (V c main_v57 : S128.Idx → EReal) := by
  obtain ⟨-, -, -, -, e0, -⟩ := blockIndex2 t
  funext y
  show V c main_v57 (((cfg2.win 2).blk t).view.emb y) = V c main_v57 y
  refine congrArg _ (funext fun a => Fin.ext ?_)
  match a with
  | ⟨0, _⟩ => show win2_2.index t (0 : Fin 1) * 128 + 1 * (y 0).val = (y 0).val; rw [e0]; omega

/-- Entry (r, q) of the body's block result at point t is entry (5000 t + r, q) of max(rows · weights + bias, 0). -/
theorem blockEntry2 (c : Dev nD) (t : Fin cfg2.N) (r : Fin 5000) (q : Fin 128) (i : Fin 50000) (h0 : i.val = 5000 * t.val + r.val) :
    k2_pay1 (iblk2 V c 0 t) (iblk2 V c 1 t) (iblk2 V c 2 t) (ix2 r q) = Cert.Gin.Ker.denseAt (V c main_v53) (V c main_v55) (V c main_v57) i q := by
  rw [weightsBlock2_eq, biasBlock2_eq, pay2_1_apply]
  unfold Cert.Gin.Ker.denseAt
  refine congrArg (fun s => max (s + _) 0) (Finset.sum_congr rfl fun k _ => ?_)
  rw [rowsBlock2_apply V c t (ix2 r k) (ix2 i k) h0 rfl]

/-! ## What each buffer holds after each point -/

-- the runs' found pieces stay folded here: each is used only through its equation
attribute [local irreducible] out2_A_3 sout2_A_0 sout2_A_1 out2_B_3 sout2_B_0 sout2_B_1 out2_C_3 out2_C_4 out2_C_5 sout2_C_0 sout2_C_1

set_option maxHeartbeats 1000000 in
/-- After every point the first output's buffer holds the block's result. -/
theorem outs2_3 (c : Dev nD) (t : Fin cfg2.N) :
    (outsAt2 V c t.val t.isLt).1 = k2_pay1 (iblk2 V c 0 t) (iblk2 V c 1 t) (iblk2 V c 2 t) := by
  have hN : t.val < 10 := lt_of_lt_of_eq t.isLt (show cfg2.N = 10 from N_2)
  by_cases h1 : t.val % 10 = 9
  · have h0 : ¬t.val % 10 = 0 := by omega
    rw [outsAt2_C V c t h0 h1]
    exact pc2_outC_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
  · by_cases h0 : t.val % 10 = 0
    · rw [outsAt2_A V c t h0 h1]
      exact pc2_outA_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)
    · rw [outsAt2_B V c t h0 h1]
      exact pc2_outB_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

set_option maxHeartbeats 1000000 in
/-- The running sum of the columns after the first point: zero plus the first block's sums. -/
theorem sum2_first (c : Dev nD) (t : Fin cfg2.N) (h0 : t.val % 10 = 0) (h1 : ¬t.val % 10 = 9) :
    (outsAt2 V c t.val t.isLt).2.2.2.1 = k2_pay4 (iblk2 V c 0 t) (iblk2 V c 1 t) (iblk2 V c 2 t) (k2_pay2 (F := Ideal))
    ∧ (outsAt2 V c t.val t.isLt).2.2.2.2 = k2_pay5 (iblk2 V c 0 t) (iblk2 V c 1 t) (iblk2 V c 2 t) (k2_pay3 (F := Ideal)) := by
  rw [outsAt2_A V c t h0 h1]
  exact ⟨pc2_soutA_0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t), pc2_soutA_1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((hcond2_0 t).mpr h0) (fun h => h1 ((hcond2_1 t).mp h)) (iblk2 V c 0 t) (iblk2 V c 1 t) (iblk2 V c 2 t)⟩

set_option maxHeartbeats 1000000 in
/-- After a later point: what the point before left plus this block's sums. -/
theorem sum2_next (c : Dev nD) (t : Fin cfg2.N) (h0 : ¬t.val % 10 = 0) :
    (outsAt2 V c t.val t.isLt).2.2.2.1 = k2_pay4 (iblk2 V c 0 t) (iblk2 V c 1 t) (iblk2 V c 2 t) (outsAt2 V c (t.val - 1) (Nat.lt_of_le_of_lt (Nat.sub_le _ _) t.isLt)).2.2.2.1
    ∧ (outsAt2 V c t.val t.isLt).2.2.2.2 = k2_pay5 (iblk2 V c 0 t) (iblk2 V c 1 t) (iblk2 V c 2 t) (outsAt2 V c (t.val - 1) (Nat.lt_of_le_of_lt (Nat.sub_le _ _) t.isLt)).2.2.2.2 := by
  by_cases h1 : t.val % 10 = 9
  · rw [outsAt2_C V c t h0 h1]
    exact ⟨pc2_soutC_0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, pc2_soutC_1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩
  · rw [outsAt2_B V c t h0 h1]
    exact ⟨pc2_soutB_0 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, pc2_soutB_1 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩

set_option maxHeartbeats 1000000 in
/-- At the last point the two statistics windows receive the running sums. -/
theorem stats2_last (c : Dev nD) (t : Fin cfg2.N) (h0 : ¬t.val % 10 = 0) (h1 : t.val % 10 = 9) :
    (outsAt2 V c t.val t.isLt).2.1 = k2_pay4 (iblk2 V c 0 t) (iblk2 V c 1 t) (iblk2 V c 2 t) (outsAt2 V c (t.val - 1) (Nat.lt_of_le_of_lt (Nat.sub_le _ _) t.isLt)).2.2.2.1
    ∧ (outsAt2 V c t.val t.isLt).2.2.1 = k2_pay5 (iblk2 V c 0 t) (iblk2 V c 1 t) (iblk2 V c 2 t) (outsAt2 V c (t.val - 1) (Nat.lt_of_le_of_lt (Nat.sub_le _ _) t.isLt)).2.2.2.2 := by
  rw [outsAt2_C V c t h0 h1]
  exact ⟨pc2_outC_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, pc2_outC_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2.2.1 (outsAt2 V c (t.val - 1) (Nat.lt_of_le_of_lt (Nat.sub_le _ _) t.isLt)).2.2.2.2⟩

/-! ## The running sums are the sums over the blocks so far -/

/-- Block K's column sums of max(rows · weights + bias, 0), and of its squares. -/
def tile2 (c : Dev nD) (q : Fin 128) (K : ℕ) : EReal :=
  if h : K < cfg2.N then ∑ r : Fin 5000, k2_pay1 (iblk2 V c 0 ⟨K, h⟩) (iblk2 V c 1 ⟨K, h⟩) (iblk2 V c 2 ⟨K, h⟩) (ix2 r q) else 0
def tileSq2 (c : Dev nD) (q : Fin 128) (K : ℕ) : EReal :=
  if h : K < cfg2.N then ∑ r : Fin 5000, k2_pay1 (iblk2 V c 0 ⟨K, h⟩) (iblk2 V c 1 ⟨K, h⟩) (iblk2 V c 2 ⟨K, h⟩) (ix2 r q) * k2_pay1 (iblk2 V c 0 ⟨K, h⟩) (iblk2 V c 1 ⟨K, h⟩) (iblk2 V c 2 ⟨K, h⟩) (ix2 r q) else 0
/-- The running sums after position n, at column q. -/
def acc2 (c : Dev nD) (q : Fin 128) (n : ℕ) : EReal :=
  if h : n < cfg2.N then (outsAt2 V c n h).2.2.2.1 (ix2 (0 : Fin 1) q) else 0
def accSq2 (c : Dev nD) (q : Fin 128) (n : ℕ) : EReal :=
  if h : n < cfg2.N then (outsAt2 V c n h).2.2.2.2 (ix2 (0 : Fin 1) q) else 0

theorem acc2_at (c : Dev nD) (q : Fin 128) (n : ℕ) (h : n < cfg2.N) :
    acc2 V c q n = (outsAt2 V c n h).2.2.2.1 (ix2 (0 : Fin 1) q) := by unfold acc2; rw [dif_pos h]
theorem accSq2_at (c : Dev nD) (q : Fin 128) (n : ℕ) (h : n < cfg2.N) :
    accSq2 V c q n = (outsAt2 V c n h).2.2.2.2 (ix2 (0 : Fin 1) q) := by unfold accSq2; rw [dif_pos h]

theorem acc2_zero (c : Dev nD) (q : Fin 128) : acc2 V c q 0 = 0 + tile2 V c q 0 ∧ accSq2 V c q 0 = 0 + tileSq2 V c q 0 := by
  have h : 0 < cfg2.N := by rw [cfgN2]; decide
  obtain ⟨e0, e1⟩ := sum2_first V c ⟨0, h⟩ rfl (by show ¬(0 : ℕ) % 10 = 9; decide)
  unfold acc2 accSq2 tile2 tileSq2
  rw [dif_pos h, dif_pos h, dif_pos h, dif_pos h, e0, e1, pay2_4_apply, pay2_5_apply, pay2_2_apply, pay2_3_apply]
  exact ⟨rfl, rfl⟩

theorem acc2_succ (c : Dev nD) (q : Fin 128) (J : ℕ) (hJ : J + 1 < 10) :
    acc2 V c q (J + 1) = acc2 V c q J + tile2 V c q (J + 1) ∧ accSq2 V c q (J + 1) = accSq2 V c q J + tileSq2 V c q (J + 1) := by
  have h : J + 1 < cfg2.N := by rw [cfgN2]; exact hJ
  have h' : J < cfg2.N := Nat.lt_of_succ_lt h
  obtain ⟨e0, e1⟩ := sum2_next V c ⟨J + 1, h⟩ (by show ¬(J + 1) % 10 = 0; omega)
  unfold acc2 accSq2 tile2 tileSq2
  rw [dif_pos h, dif_pos h, dif_pos h, dif_pos h, dif_pos h', dif_pos h', e0, e1, pay2_4_apply, pay2_5_apply]
  exact ⟨rfl, rfl⟩

/-- After position J the running sums are the sums of the blocks 0 … J. -/
theorem acc2_eq (c : Dev nD) (q : Fin 128) (J : ℕ) (hJ : J < 10) :
    acc2 V c q J = ∑ K ∈ Finset.range (J + 1), tile2 V c q K ∧ accSq2 V c q J = ∑ K ∈ Finset.range (J + 1), tileSq2 V c q K :=
  ⟨Cert.Lib.accum_range (acc2 V c q) (tile2 V c q) 10 (acc2_zero V c q).1 (fun J h => (acc2_succ V c q J h).1) J hJ,
   Cert.Lib.accum_range (accSq2 V c q) (tileSq2 V c q) 10 (acc2_zero V c q).2 (fun J h => (acc2_succ V c q J h).2) J hJ⟩

/-- A sum over 50000 rows is the sum over ten blocks of the sums over the block's 5000 rows. -/
theorem rows2_split (f : Fin 50000 → EReal) :
    ∑ r : Fin 50000, f r = ∑ d : Fin 10, ∑ j : Fin 5000, f (⟨j.val + 5000 * d.val, by have := j.isLt; have := d.isLt; omega⟩ : Fin 50000) :=
  (Cert.Lib.sum_blocks 10 5000 (fun k : Fin (10 * 5000) => f ⟨k.val, k.isLt⟩)).trans
    (Finset.sum_congr rfl fun d _ => Finset.sum_congr rfl fun j _ => rfl)

set_option maxHeartbeats 1000000 in
/-- Ten blocks of 5000 rows are the 50000 rows. -/
theorem tiles2_sum (c : Dev nD) (q : Fin 128) :
    ∑ K ∈ Finset.range 10, tile2 V c q K = ∑ r : Fin 50000, Cert.Gin.Ker.pre (V c main_v53) (V c main_v55) (V c main_v57) (ix2 r q)
    ∧ ∑ K ∈ Finset.range 10, tileSq2 V c q K = ∑ r : Fin 50000, Cert.Gin.Ker.pre (V c main_v53) (V c main_v55) (V c main_v57) (ix2 r q) * Cert.Gin.Ker.pre (V c main_v53) (V c main_v55) (V c main_v57) (ix2 r q) := by
  have hN : cfg2.N = 10 := cfgN2
  have key : ∀ (d : Fin 10) (r : Fin 5000), k2_pay1 (iblk2 V c 0 ⟨d.val, by rw [hN]; exact d.isLt⟩) (iblk2 V c 1 ⟨d.val, by rw [hN]; exact d.isLt⟩) (iblk2 V c 2 ⟨d.val, by rw [hN]; exact d.isLt⟩) (ix2 r q)
      = Cert.Gin.Ker.pre (V c main_v53) (V c main_v55) (V c main_v57) (ix2 (⟨r.val + 5000 * d.val, by have := r.isLt; have := d.isLt; omega⟩ : Fin 50000) q) := fun d r =>
    blockEntry2 V c ⟨d.val, by rw [hN]; exact d.isLt⟩ r q ⟨r.val + 5000 * d.val, by have := r.isLt; have := d.isLt; omega⟩
      (by show r.val + 5000 * d.val = 5000 * d.val + r.val; omega)
  constructor
  · rw [Finset.sum_range]
    refine Eq.trans ?_ (rows2_split (fun r => Cert.Gin.Ker.pre (V c main_v53) (V c main_v55) (V c main_v57) (ix2 r q))).symm
    refine Finset.sum_congr rfl fun d _ => ?_
    unfold tile2
    rw [dif_pos (show d.val < cfg2.N by rw [hN]; exact d.isLt)]
    exact Finset.sum_congr rfl fun r _ => key d r
  · rw [Finset.sum_range]
    refine Eq.trans ?_ (rows2_split (fun r => Cert.Gin.Ker.pre (V c main_v53) (V c main_v55) (V c main_v57) (ix2 r q) * Cert.Gin.Ker.pre (V c main_v53) (V c main_v55) (V c main_v57) (ix2 r q))).symm
    refine Finset.sum_congr rfl fun d _ => ?_
    unfold tileSq2
    rw [dif_pos (show d.val < cfg2.N by rw [hN]; exact d.isLt)]
    exact Finset.sum_congr rfl fun r _ => by rw [key d r]

/-- What the two statistics windows' buffers hold after the last point: the column sums over all rows. -/
theorem stats2_final (c : Dev nD) (t : Fin cfg2.N) (h1 : t.val % 10 = 9) :
    (outsAt2 V c t.val t.isLt).2.1 = Cert.Gin.Ker.colSum (Cert.Gin.Ker.pre (V c main_v53) (V c main_v55) (V c main_v57))
    ∧ (outsAt2 V c t.val t.isLt).2.2.1 = Cert.Gin.Ker.colSumSq (Cert.Gin.Ker.pre (V c main_v53) (V c main_v55) (V c main_v57)) := by
  have hN : t.val < 10 := lt_of_lt_of_eq t.isLt (show cfg2.N = 10 from N_2)
  have h9 : t.val = 9 := by omega
  obtain ⟨e0, e1⟩ := stats2_last V c t (by omega) h1
  have h8 : t.val - 1 < cfg2.N := Nat.lt_of_le_of_lt (Nat.sub_le _ _) t.isLt
  constructor
  · rw [e0]; funext j
    obtain ⟨z, q, rfl⟩ : ∃ (z : Fin 1) (q : Fin 128), j = ix2 z q := ⟨j 0, j 1, eq_ix2 j⟩
    obtain rfl : z = 0 := Subsingleton.elim _ _
    rw [pay2_4_apply]
    show _ = ∑ r : Fin 50000, Cert.Gin.Ker.pre (V c main_v53) (V c main_v55) (V c main_v57) (ix2 r q)
    rw [← (tiles2_sum V c q).1, Finset.sum_range_succ, ← (acc2_eq V c q 8 (by decide)).1]
    have ha : acc2 V c q 8 = (outsAt2 V c (t.val - 1) h8).2.2.2.1 (ix2 (0 : Fin 1) q) := by
      have e8 : (8 : ℕ) = t.val - 1 := by omega
      rw [e8]; exact acc2_at V c q (t.val - 1) h8
    have hb : tile2 V c q 9 = ∑ r : Fin 5000, k2_pay1 (iblk2 V c 0 t) (iblk2 V c 1 t) (iblk2 V c 2 t) (ix2 r q) := by
      unfold tile2; rw [dif_pos (show 9 < cfg2.N by rw [cfgN2]; decide)]
      have : (⟨9, by rw [cfgN2]; decide⟩ : Fin cfg2.N) = t := Fin.ext h9.symm
      rw [this]
    rw [ha, hb]
  · rw [e1]; funext j
    obtain ⟨z, q, rfl⟩ : ∃ (z : Fin 1) (q : Fin 128), j = ix2 z q := ⟨j 0, j 1, eq_ix2 j⟩
    obtain rfl : z = 0 := Subsingleton.elim _ _
    rw [pay2_5_apply]
    show _ = ∑ r : Fin 50000, Cert.Gin.Ker.pre (V c main_v53) (V c main_v55) (V c main_v57) (ix2 r q) * Cert.Gin.Ker.pre (V c main_v53) (V c main_v55) (V c main_v57) (ix2 r q)
    rw [← (tiles2_sum V c q).2, Finset.sum_range_succ, ← (acc2_eq V c q 8 (by decide)).2]
    have ha : accSq2 V c q 8 = (outsAt2 V c (t.val - 1) h8).2.2.2.2 (ix2 (0 : Fin 1) q) := by
      have e8 : (8 : ℕ) = t.val - 1 := by omega
      rw [e8]; exact accSq2_at V c q (t.val - 1) h8
    have hb : tileSq2 V c q 9 = ∑ r : Fin 5000, k2_pay1 (iblk2 V c 0 t) (iblk2 V c 1 t) (iblk2 V c 2 t) (ix2 r q) * k2_pay1 (iblk2 V c 0 t) (iblk2 V c 1 t) (iblk2 V c 2 t) (ix2 r q) := by
      unfold tileSq2; rw [dif_pos (show 9 < cfg2.N by rw [cfgN2]; decide)]
      have : (⟨9, by rw [cfgN2]; decide⟩ : Fin cfg2.N) = t := Fin.ext h9.symm
      rw [this]
    rw [ha, hb]

/-! ## What the points write back, and the arrays after the region -/

/-- What point t writes back to the first output array is block t of max(rows · weights + bias, 0). -/
theorem flushed2_3_eq (c : Dev nD) (t : Fin cfg2.N) :
    (dat2 V c).flushed 3 t = ((cfg2.win 3).blk t).view.read (Elt Ideal) (Cert.Gin.Ker.pre (V c main_v53) (V c main_v55) (V c main_v57)) := by
  show (cfg2.win 3).cut (grid2.coords t) ((dat2 V c).after 3 t) = _
  rw [after2_3, outs2_3]
  obtain ⟨-, -, -, -, -, e0, e1, -⟩ := blockIndex2 t
  funext j
  obtain ⟨r, q, rfl⟩ : ∃ (r : Fin 5000) (q : Fin 128), j = ix2 r q := ⟨j 0, j 1, eq_ix2 j⟩
  show k2_pay1 (iblk2 V c 0 t) (iblk2 V c 1 t) (iblk2 V c 2 t) (ix2 r q) = Cert.Gin.Ker.pre (V c main_v53) (V c main_v55) (V c main_v57) (((cfg2.win 3).blk t).view.emb (ix2 r q))
  have hi : ((cfg2.win 3).blk t).view.emb (ix2 r q) = (ix2 (⟨5000 * t.val + r.val, by have := lt_of_lt_of_eq t.isLt cfgN2; have := r.isLt; omega⟩ : Fin 50000) q : S50000x128.Idx) := by
    funext a; apply Fin.ext
    match a with
    | ⟨0, _⟩ => show win2_3.index t (0 : Fin 2) * 5000 + 1 * r.val = 5000 * t.val + r.val; rw [e0]; omega
    | ⟨1, _⟩ => show win2_3.index t (1 : Fin 2) * 128 + 1 * q.val = q.val; rw [e1]; omega
  rw [hi]
  exact blockEntry2 V c t r q _ rfl

theorem memBlock2_3 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v66_0).slice (win2_3.rect t)).set ↔ _
  rw [View.set_slice_whole, Rect.mem_set_unit]
  exact Iff.rfl

theorem covered2_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, e0, e1, -⟩ := blockIndex2 t
  have ht : t.val = (i 0).val / 5000 := rfl
  refine ⟨t, flush2_3 t, ?_⟩
  rw [memBlock2_3]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 128 ≤ (i 1).val ∧ (i 1).val < win2_3.index t (1 : Fin 2) * 128 + 128
    rw [e1]; omega

/-- After the region the first output array holds max(rows · weights + bias, 0) of the arrays as the region finds them. -/
theorem final2_3 (c : Dev nD) : (dat2 V c).arrAt 3 cfg2.N = Cert.Gin.Ker.pre (V c main_v53) (V c main_v55) (V c main_v57) :=
  (dat2 V c).arrAt_eq_of_cover 3 _ (fun t _ => flushed2_3_eq V c t) covered2_3

/-- The one write-back of statistics array 4, at the last point, writes the column sums over all rows. -/
theorem flushed2_4_eq (c : Dev nD) (t : Fin cfg2.N) (hf : (cfg2.win 4).flush t = true) :
    (dat2 V c).flushed 4 t = ((cfg2.win 4).blk t).view.read (Elt Ideal) (Cert.Gin.Ker.colSum (Cert.Gin.Ker.pre (V c main_v53) (V c main_v55) (V c main_v57))) := by
  have h1 : t.val % 10 = 9 := (flush2_4 t).mp hf
  show (cfg2.win 4).cut (grid2.coords t) ((dat2 V c).after 4 t) = _
  rw [after2_4, (stats2_final V c t h1).1]
  obtain ⟨-, -, -, -, -, -, -, e40, e41, e50, e51⟩ := blockIndex2 t
  generalize Cert.Gin.Ker.colSum (Cert.Gin.Ker.pre (V c main_v53) (V c main_v55) (V c main_v57)) = G
  funext j
  have hemb : ((cfg2.win 4).blk t).view.emb j = j := by
    funext a; apply Fin.ext
    match a with
    | ⟨0, _⟩ => show win2_4.index t (0 : Fin 2) * 1 + 1 * (j 0).val = (j 0).val; rw [e40]; omega
    | ⟨1, _⟩ => show win2_4.index t (1 : Fin 2) * 128 + 1 * (j 1).val = (j 1).val; rw [e41]; omega
  show G j = G (((cfg2.win 4).blk t).view.emb j)
  rw [hemb]

theorem covered2_4 (i : S1x128.Idx) :
    ∃ t : Fin cfg2.N, (cfg2.win 4).flush t = true ∧ i ∈ ((cfg2.win 4).blk t).view.set := by
  have hi0 : (i 0).val < 1 := (i 0).isLt
  have hi1 : (i 1).val < 128 := (i 1).isLt
  let t : Fin cfg2.N := ⟨9, by rw [cfgN2]; decide⟩
  obtain ⟨-, -, -, -, -, -, -, e40, e41, e50, e51⟩ := blockIndex2 t
  refine ⟨t, (flush2_4 t).mpr rfl, ?_⟩
  show i ∈ ((View.whole main_v66_1).slice (win2_4.rect t)).set
  rw [View.set_slice_whole, Rect.mem_set_unit]
  intro a
  match a with
  | ⟨0, _⟩ =>
    show win2_4.index t (0 : Fin 2) * 1 ≤ (i 0).val ∧ (i 0).val < win2_4.index t (0 : Fin 2) * 1 + 1
    rw [e40]; omega
  | ⟨1, _⟩ =>
    show win2_4.index t (1 : Fin 2) * 128 ≤ (i 1).val ∧ (i 1).val < win2_4.index t (1 : Fin 2) * 128 + 128
    rw [e41]; omega

theorem final2_4 (c : Dev nD) : (dat2 V c).arrAt 4 cfg2.N = Cert.Gin.Ker.colSum (Cert.Gin.Ker.pre (V c main_v53) (V c main_v55) (V c main_v57)) :=
  (dat2 V c).arrAt_eq_of_cover 4 _ (flushed2_4_eq V c) covered2_4

/-- The one write-back of statistics array 5, at the last point, writes the column sums over all rows. -/
theorem flushed2_5_eq (c : Dev nD) (t : Fin cfg2.N) (hf : (cfg2.win 5).flush t = true) :
    (dat2 V c).flushed 5 t = ((cfg2.win 5).blk t).view.read (Elt Ideal) (Cert.Gin.Ker.colSumSq (Cert.Gin.Ker.pre (V c main_v53) (V c main_v55) (V c main_v57))) := by
  have h1 : t.val % 10 = 9 := (flush2_5 t).mp hf
  show (cfg2.win 5).cut (grid2.coords t) ((dat2 V c).after 5 t) = _
  rw [after2_5, (stats2_final V c t h1).2]
  obtain ⟨-, -, -, -, -, -, -, e40, e41, e50, e51⟩ := blockIndex2 t
  generalize Cert.Gin.Ker.colSumSq (Cert.Gin.Ker.pre (V c main_v53) (V c main_v55) (V c main_v57)) = G
  funext j
  have hemb : ((cfg2.win 5).blk t).view.emb j = j := by
    funext a; apply Fin.ext
    match a with
    | ⟨0, _⟩ => show win2_5.index t (0 : Fin 2) * 1 + 1 * (j 0).val = (j 0).val; rw [e50]; omega
    | ⟨1, _⟩ => show win2_5.index t (1 : Fin 2) * 128 + 1 * (j 1).val = (j 1).val; rw [e51]; omega
  show G j = G (((cfg2.win 5).blk t).view.emb j)
  rw [hemb]

theorem covered2_5 (i : S1x128.Idx) :
    ∃ t : Fin cfg2.N, (cfg2.win 5).flush t = true ∧ i ∈ ((cfg2.win 5).blk t).view.set := by
  have hi0 : (i 0).val < 1 := (i 0).isLt
  have hi1 : (i 1).val < 128 := (i 1).isLt
  let t : Fin cfg2.N := ⟨9, by rw [cfgN2]; decide⟩
  obtain ⟨-, -, -, -, -, -, -, e40, e41, e50, e51⟩ := blockIndex2 t
  refine ⟨t, (flush2_5 t).mpr rfl, ?_⟩
  show i ∈ ((View.whole main_v66_2).slice (win2_5.rect t)).set
  rw [View.set_slice_whole, Rect.mem_set_unit]
  intro a
  match a with
  | ⟨0, _⟩ =>
    show win2_5.index t (0 : Fin 2) * 1 ≤ (i 0).val ∧ (i 0).val < win2_5.index t (0 : Fin 2) * 1 + 1
    rw [e50]; omega
  | ⟨1, _⟩ =>
    show win2_5.index t (1 : Fin 2) * 128 ≤ (i 1).val ∧ (i 1).val < win2_5.index t (1 : Fin 2) * 128 + 128
    rw [e51]; omega

theorem final2_5 (c : Dev nD) : (dat2 V c).arrAt 5 cfg2.N = Cert.Gin.Ker.colSumSq (Cert.Gin.Ker.pre (V c main_v53) (V c main_v55) (V c main_v57)) :=
  (dat2 V c).arrAt_eq_of_cover 5 _ (flushed2_5_eq V c) covered2_5

end Cert.KernelIdeal.Hand

end
-- ==== Proof.KI.Val3.lean ====
/-
  Region 3, from blocks to the array: the second dense step of a layer over all 50000 rows.

  At each of the ten grid points the body stores, over a block of 5000 rows,
  max((rows * scale + shift) · weights + bias, 0) of that block of the input rows and of the whole scale row, shift
  row, weight matrix and bias. Entry (p, q) of a block's result reads row p of the block only, and row p of block t
  is row 5000 t + p of the array; so what point t writes back is block t of ONE function of the five whole arrays.
  The ten blocks tile the 50000 rows — row r lies in block r / 5000 — hence the output array after the region is
  that function of the arrays as the region finds them.
-/
import proofs.«121608_j10213432229998_1_alg».proof.Proof.KI.Reg3
import proofs.«121608_j10213432229998_1_alg».proof.Proof.Alg.Ker
import proofs.«121608_j10213432229998_1_alg».proof.Proof.LibDenseLayers
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- Entry (p, q) of what the body stores: row p of the block, scaled and shifted entry by entry, against column q of
    the weights, plus the bias at q, or zero if that is larger. -/
theorem pay3_apply (x0 : Vec Ideal S5000x128 .f32) (x1 x2 : Vec Ideal S1x128 .f32) (x3 : Vec Ideal S128x128 .f32)
    (x4 : Vec Ideal S128 .f32) (p : Fin 5000) (q : Fin 128) :
    k3_pay1 x0 x1 x2 x3 x4 (ix2 p q)
      = max ((∑ k : Fin 128, (x0 (ix2 p k) * x1 (ix2 (0 : Fin 1) k) + x2 (ix2 (0 : Fin 1) k)) * x3 (ix2 k q))
          + x4 (ix1 q)) 0 := by
  unfold k3_pay1
  refine (Cert.Gcn.kernelBiasRelu_apply _ (shapeCast S128 x4 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x4 (ix1 q)) 0) ?_
  refine (Cert.Gcn.kernelProduct_apply dot_S5000x128_S128x128_S5000x128_1_0_0_1_n_n_wf bitsLt_bf16_f32 _ _ p q).trans ?_
  rw [Cert.Gcn.product_apply]
  refine Finset.sum_congr rfl fun k _ => ?_
  refine congrArg (· * x3 (ix2 k q)) ?_
  show x0 (ix2 p k) * broadcastTo S5000x128 x1 _ (ix2 p k) + broadcastTo S5000x128 x2 _ (ix2 p k) = _
  rw [broadcastTo_1b_ab_apply, broadcastTo_1b_ab_apply]

/-! ## The blocks the body reads -/

variable (V : (c : Dev nD) → (b : Ref sig .tc) → Buf (Elt Ideal) ((c : Thread nD τ).loc b))

theorem zeroOffsets3_2 : (![0, 0] : Fin 2 → Nat) = fun _ => 0 := funext fun a => by fin_cases a <;> rfl
theorem zeroOffsets3_1 : (![0] : Fin 1 → Nat) = fun _ => 0 := funext fun a => by fin_cases a; rfl

/-- The index maps over the ten points: the rows and the output move one block per point, the four parameter arrays
    stay at their only block. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Row p of the rows' block at point t is row 5000 t + p of the array. -/
theorem rowsBlock3_apply (c : Dev nD) (t : Fin cfg3.N) (y : S5000x128.Idx) (i : S50000x128.Idx)
    (h0 : (i 0).val = 5000 * t.val + (y 0).val) (h1 : (i 1).val = (y 1).val) :
    (iblk3 V c 0 t : Vec Ideal S5000x128 .f32) y = (V c main_v66_0 : S50000x128.Idx → EReal) i := by
  obtain ⟨e0, e1, -⟩ := blockIndex3 t
  show V c main_v66_0 (((cfg3.win 0).blk t).view.emb y) = V c main_v66_0 i
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The scale row's block is the whole array, at every point. -/
theorem scaleBlock3_eq (c : Dev nD) (t : Fin cfg3.N) :
    (iblk3 V c 1 t : Vec Ideal S1x128 .f32) = (V c main_v77 : S1x128.Idx → EReal) := by
  obtain ⟨-, -, e0, e1, -⟩ := blockIndex3 t
  funext y
  show V c main_v77 (((cfg3.win 1).blk t).view.emb y) = V c main_v77 y
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- So is the shift row's, -/
theorem shiftBlock3_eq (c : Dev nD) (t : Fin cfg3.N) :
    (iblk3 V c 2 t : Vec Ideal S1x128 .f32) = (V c main_v80 : S1x128.Idx → EReal) := by
  obtain ⟨-, -, -, -, e0, e1, -⟩ := blockIndex3 t
  funext y
  show V c main_v80 (((cfg3.win 2).blk t).view.emb y) = V c main_v80 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- the weights', -/
theorem weightsBlock3_eq (c : Dev nD) (t : Fin cfg3.N) :
    (iblk3 V c 3 t : Vec Ideal S128x128 .f32) = (V c main_v63 : S128x128.Idx → EReal) := by
  obtain ⟨-, -, -, -, -, -, e0, e1, -⟩ := blockIndex3 t
  funext y
  show V c main_v63 (((cfg3.win 3).blk t).view.emb y) = V c main_v63 y
  refine congrArg _ (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- and the bias's. -/
theorem biasBlock3_eq (c : Dev nD) (t : Fin cfg3.N) :
    (iblk3 V c 4 t : Vec Ideal S128 .f32) = (V c main_v65 : S128.Idx → EReal) := by
  obtain ⟨-, -, -, -, -, -, -, -, e0, -⟩ := blockIndex3 t
  funext y
  show V c main_v65 (((cfg3.win 4).blk t).view.emb y) = V c main_v65 y
  refine congrArg _ (funext fun a => Fin.ext ?_)
  match a with
  | ⟨0, _⟩ => show win3_4.index t (0 : Fin 1) * 128 + 1 * (y 0).val = (y 0).val; rw [e0]; omega

/-! ## What a point writes back -/

/-- Entry j of the body's result at point t is the whole-array function at the entry of the output array that j is
    written back to: the same row of the input, the same column. -/
theorem blockEntry3 (c : Dev nD) (t : Fin cfg3.N) (j : S5000x128.Idx) (i : S50000x128.Idx)
    (h0 : (i 0).val = 5000 * t.val + (j 0).val) (h1 : (i 1).val = (j 1).val) :
    k3_pay1 (iblk3 V c 0 t) (V c main_v77) (V c main_v80) (V c main_v63) (V c main_v65) j
      = Cert.Gin.Ker.normDense (V c main_v66_0) (V c main_v77) (V c main_v80) (V c main_v63) (V c main_v65) i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  rw [pay3_apply]
  show _ = Cert.Gin.Ker.normDenseAt _ _ _ _ _ r q'
  unfold Cert.Gin.Ker.normDenseAt
  refine congrArg (fun s => max (s + _) 0) (Finset.sum_congr rfl fun k _ => ?_)
  rw [rowsBlock3_apply V c t (ix2 p k) (ix2 r k) h0 rfl]

/-- What point t writes back is block t of the whole-array function of the arrays as the region finds them. -/
theorem flushed3_eq (c : Dev nD) (t : Fin cfg3.N) :
    (dat3 V c).flushed 5 t = ((cfg3.win 5).blk t).view.read (Elt Ideal)
      (Cert.Gin.Ker.normDense (V c main_v66_0) (V c main_v77) (V c main_v80) (V c main_v63) (V c main_v65)) := by
  show (cfg3.win 5).cut (grid3.coords t) ((dat3 V c).after 5 t) = _
  rw [after3_5]
  unfold out3_5
  rw [View.canon_unit_zero zeroOffsets3_2]
  simp only [View.ld_unit_zero (S := S5000x128) zeroOffsets3_2, View.ld_unit_zero (S := S1x128) zeroOffsets3_2,
    View.ld_unit_zero (S := S128x128) zeroOffsets3_2, View.ld_unit_zero (S := S128) zeroOffsets3_1]
  rw [scaleBlock3_eq, shiftBlock3_eq, weightsBlock3_eq, biasBlock3_eq]
  obtain ⟨-, -, -, -, -, -, -, -, -, e0, e1⟩ := blockIndex3 t
  funext j
  refine blockEntry3 V c t j (((cfg3.win 5).blk t).view.emb j) ?_ ?_
  · show win3_5.index t (0 : Fin 2) * 5000 + 1 * (j 0).val = 5000 * t.val + (j 0).val; rw [e0]; omega
  · show win3_5.index t (1 : Fin 2) * 128 + 1 * (j 1).val = (j 1).val; rw [e1]; omega

/-! ## The blocks tile the array -/

/-- An index of the output array is in point t's block iff each coordinate is in the block's range on its axis. -/
theorem memBlock3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v81).slice (win3_5.rect t)).set ↔ _
  rw [View.set_slice_whole, Rect.mem_set_unit]
  exact Iff.rfl

/-- Row r of the output lies in the block of point r / 5000. -/
theorem covered3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, e0, e1⟩ := blockIndex3 t
  have ht : t.val = (i 0).val / 5000 := rfl
  refine ⟨t, flush3_5 t, ?_⟩
  rw [memBlock3]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 128 ≤ (i 1).val ∧ (i 1).val < win3_5.index t (1 : Fin 2) * 128 + 128
    rw [e1]; omega

/-! ## The output array after the region -/

/-- After the region the output array holds max((x * scale + shift) · w + b, 0) of the five arrays as the region
    finds them. -/
theorem final3 (c : Dev nD) :
    (dat3 V c).arrAt 5 cfg3.N
      = Cert.Gin.Ker.normDense (V c main_v66_0) (V c main_v77) (V c main_v80) (V c main_v63) (V c main_v65) :=
  (dat3 V c).arrAt_eq_of_cover 5 _ (fun t _ => flushed3_eq V c t) covered3

end Cert.KernelIdeal.Hand

end
-- ==== Proof.KI.Pieces4.lean ====
/-
  Region 4: what each run of the body leaves in each buffer, as the body's arithmetic of the blocks it
  read: the output block is max(rows · weights + bias, 0); each running sum is what it held (zero at the
  first point) plus the block's column sums (of the entries, of their squares); at the last point the two
  statistics windows receive the running sums.
-/
import proofs.«121608_j10213432229998_1_alg».proof.Proof.KI.Reg4
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2_4 : (![0, 0] : Fin 2 → Nat) = fun _ => 0 := funext fun a => by fin_cases a <;> rfl
theorem hz1_4 : (![0] : Fin 1 → Nat) = fun _ => 0 := funext fun a => by fin_cases a <;> rfl

theorem pc4_outA_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) :
    out4_A_3 c i arg1 harg1 arg2 harg2 arg3 harg3 arg4 harg4 arg5 harg5 arg6 harg6 arg7 harg7 arg8 harg8 hc0 hc1 x0 x1 x2 = k4_pay1 x0 x1 x2 := by
  unfold out4_A_3
  rw [View.read_writes_eq_canon _ _ _ (cover4_A_3 c i arg1 harg1 arg2 harg2 arg3 harg3 arg4 harg4 arg5 harg5 arg6 harg6 arg7 harg7 arg8 harg8 hc0 hc1 x0 x1 x2)]
  unfold kernelRun4_A
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutA_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) :
    sout4_A_0 c i arg1 harg1 arg2 harg2 arg3 harg3 arg4 harg4 arg5 harg5 arg6 harg6 arg7 harg7 arg8 harg8 hc0 hc1 x0 x1 x2 = k4_pay4 x0 x1 x2 (k4_pay2 (F := F)) := by
  unfold sout4_A_0
  rw [View.read_writes_eq_canon _ _ _ (scover4_A_0 c i arg1 harg1 arg2 harg2 arg3 harg3 arg4 harg4 arg5 harg5 arg6 harg6 arg7 harg7 arg8 harg8 hc0 hc1 x0 x1 x2)]
  unfold kernelRun4_A
  dsimp only
  try sl_unfold_words
  rw [View.canon_cons_unit_zero hz2_4, View.readCov_unit_zero (S := S1x128) _ hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutA_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond4_0 i) (hc1 : ¬cond4_1 i)
    (x0 : Vec F S5000x128 .f32) (x1 : Vec F S128x128 .f32) (x2 : Vec F S128 .f32) :
    sout4_A_1 c i arg1 harg1 arg2 harg2 arg3 harg3 arg4 harg4 arg5 harg5 arg6 harg6 arg7 harg7 arg8 harg8 hc0 hc1 x0 x1 x2 = k4_pay5 x0 x1 x2 (k4_pay3 (F := F)) := by
  unfold sout4_A_1
  rw [View.read_writes_eq_canon _ _ _ (scover4_A_1 c i arg1 harg1 arg2 harg2 arg3 harg3 arg4 harg4 arg5 harg5 arg6 harg6 arg7 harg7 arg8 harg8 hc0 hc1 x0 x1 x2)]
  unfold kernelRun4_A
  dsimp only
  try sl_unfold_words
  rw [View.canon_cons_unit_zero hz2_4, View.readCov_unit_zero (S := S1x128) _ hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_outB_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 xs1 : Vec F S1x128 .f32) :
    out4_B_3 c i arg1 harg1 arg2 harg2 arg3 harg3 arg4 harg4 arg5 harg5 arg6 harg6 arg7 harg7 arg8 harg8 hc0 hc1 x0 x1 x2 xs0 xs1 = k4_pay1 x0 x1 x2 := by
  unfold out4_B_3
  rw [View.read_writes_eq_canon _ _ _ (cover4_B_3 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutB_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 xs1 : Vec F S1x128 .f32) :
    sout4_B_0 c i arg1 harg1 arg2 harg2 arg3 harg3 arg4 harg4 arg5 harg5 arg6 harg6 arg7 harg7 arg8 harg8 hc0 hc1 x0 x1 x2 xs0 xs1 = k4_pay4 x0 x1 x2 xs0 := by
  unfold sout4_B_0
  rw [View.read_writes_eq_canon _ _ _ (scover4_B_0 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutB_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : ¬cond4_1 i)
    (x0 : Vec F S5000x128 .f32) (x1 : Vec F S128x128 .f32) (x2 : Vec F S128 .f32) (xs0 xs1 : Vec F S1x128 .f32) :
    sout4_B_1 c i arg1 harg1 arg2 harg2 arg3 harg3 arg4 harg4 arg5 harg5 arg6 harg6 arg7 harg7 arg8 harg8 hc0 hc1 x0 x1 x2 xs0 xs1 = k4_pay5 x0 x1 x2 xs1 := by
  unfold sout4_B_1
  rw [View.read_writes_eq_canon _ _ _ (scover4_B_1 c i arg1 harg1 arg2 harg2 arg3 harg3 arg4 harg4 arg5 harg5 arg6 harg6 arg7 harg7 arg8 harg8 hc0 hc1 x0 x1 x2 xs0 xs1)]
  unfold kernelRun4_B
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_outC_3 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 xs1 : Vec F S1x128 .f32) :
    out4_C_3 c i arg1 harg1 arg2 harg2 arg3 harg3 arg4 harg4 arg5 harg5 arg6 harg6 arg7 harg7 arg8 harg8 hc0 hc1 x0 x1 x2 xs0 xs1 = k4_pay1 x0 x1 x2 := by
  unfold out4_C_3
  rw [View.read_writes_eq_canon _ _ _ (cover4_C_3 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_outC_4 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 xs1 : Vec F S1x128 .f32) :
    out4_C_4 c i arg1 harg1 arg2 harg2 arg3 harg3 arg4 harg4 arg5 harg5 arg6 harg6 arg7 harg7 arg8 harg8 hc0 hc1 x0 x1 x2 xs0 xs1 = k4_pay4 x0 x1 x2 xs0 := by
  unfold out4_C_4
  rw [View.read_writes_eq_canon _ _ _ (cover4_C_4 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  rw [View.canon_unit_zero hz2_4, View.readCov_unit_zero (S := S1x128) _ hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_outC_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 xs1 : Vec F S1x128 .f32) :
    out4_C_5 c i arg1 harg1 arg2 harg2 arg3 harg3 arg4 harg4 arg5 harg5 arg6 harg6 arg7 harg7 arg8 harg8 hc0 hc1 x0 x1 x2 xs0 xs1 = k4_pay5 x0 x1 x2 xs1 := by
  unfold out4_C_5
  rw [View.read_writes_eq_canon _ _ _ (cover4_C_5 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  rw [View.canon_unit_zero hz2_4, View.readCov_unit_zero (S := S1x128) _ hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutC_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 xs1 : Vec F S1x128 .f32) :
    sout4_C_0 c i arg1 harg1 arg2 harg2 arg3 harg3 arg4 harg4 arg5 harg5 arg6 harg6 arg7 harg7 arg8 harg8 hc0 hc1 x0 x1 x2 xs0 xs1 = k4_pay4 x0 x1 x2 xs0 := by
  unfold sout4_C_0
  rw [View.read_writes_eq_canon _ _ _ (scover4_C_0 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

theorem pc4_soutC_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (hc1 : cond4_1 i)
    (x0 : Vec F S5000x128 .f32) (x1 : Vec F S128x128 .f32) (x2 : Vec F S128 .f32) (xs0 xs1 : Vec F S1x128 .f32) :
    sout4_C_1 c i arg1 harg1 arg2 harg2 arg3 harg3 arg4 harg4 arg5 harg5 arg6 harg6 arg7 harg7 arg8 harg8 hc0 hc1 x0 x1 x2 xs0 xs1 = k4_pay5 x0 x1 x2 xs1 := by
  unfold sout4_C_1
  rw [View.read_writes_eq_canon _ _ _ (scover4_C_1 c i arg1 harg1 arg2 harg2 arg3 harg3 arg4 harg4 arg5 harg5 arg6 harg6 arg7 harg7 arg8 harg8 hc0 hc1 x0 x1 x2 xs0 xs1)]
  unfold kernelRun4_C
  dsimp only
  try sl_unfold_words
  rw [View.canon_unit_zero hz2_4]
  simp only [View.readAt_eq_ld, harg1.read_unread, harg2.read_unread, harg3.read_unread, harg7.read_unread, harg8.read_unread, View.ld_unit_zero (S := S5000x128) hz2_4, View.ld_unit_zero (S := S128x128) hz2_4, View.ld_unit_zero (S := S128) hz1_4, View.ld_unit_zero (S := S1x128) hz2_4]

end Cert.KernelIdeal.Hand

end
-- ==== Proof.KI.Pay4.lean ====
/-
  Region 4's arithmetic at an entry, on the extended reals.

  The body of a layer's first region stores three things from a block of 5000 rows: the block
  max(rows · weights + bias, 0) itself, and two running rows — the column sums of that block and the column sums of
  its squares, each added onto what the row held, each started from zero. Here every stored value is read at one
  entry: the block at (p, q) as a row-by-column sum, the two starting rows as zero, and the two running rows at
  column q as what they held plus a sum over the block's 5000 rows.
-/
import proofs.«121608_j10213432229998_1_alg».proof.Proof.Gen.KernelIdeal.Skeleton
import proofs.«121608_j10213432229998_1_alg».proof.Proof.Alg.Ker
import proofs.«121608_j10213432229998_1_alg».proof.Proof.LibDenseLayers
import proofs.«121608_j10213432229998_1_alg».proof.Proof.LibColSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Entry (p, q) of the block the body stores first: row p of the rows against column q of the weights, plus the bias
    at q, or zero if that is larger. -/
theorem pay4_1_apply (x0 : FVec Ideal S5000x128 .f32) (x1 : FVec Ideal S128x128 .f32) (x2 : FVec Ideal S128 .f32)
    (p : Fin 5000) (q : Fin 128) :
    k4_pay1 x0 x1 x2 (ix2 p q) = max ((∑ k : Fin 128, x0 (ix2 p k) * x1 (ix2 k q)) + x2 (ix1 q)) 0 := by
  unfold k4_pay1
  refine (Cert.Gcn.kernelBiasRelu_apply _ (shapeCast S128 x2 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x2 (ix1 q)) 0) ?_
  exact Cert.Gcn.kernelProduct_apply dot_S5000x128_S128x128_S5000x128_1_0_0_1_n_n_wf bitsLt_bf16_f32 x0 x1 p q

/-- The row of column sums starts at zero, -/
theorem pay4_2_apply (q : Fin 128) : (k4_pay2 (F := Ideal)) (ix2 (0 : Fin 1) q) = 0 := by
  unfold k4_pay2
  simp only [shapeCast_self]
  exact Ideal.ofBits_zero_f32

/-- and so does the row of column sums of squares. -/
theorem pay4_3_apply (q : Fin 128) : (k4_pay3 (F := Ideal)) (ix2 (0 : Fin 1) q) = 0 := by
  unfold k4_pay3
  simp only [shapeCast_self]
  exact Ideal.ofBits_zero_f32

/-- The running row of column sums after a block: what it held plus the sum of the block's column q. -/
theorem pay4_4_apply (x0 : FVec Ideal S5000x128 .f32) (x1 : FVec Ideal S128x128 .f32) (x2 : FVec Ideal S128 .f32)
    (v : FVec Ideal S1x128 .f32) (q : Fin 128) :
    k4_pay4 x0 x1 x2 v (ix2 (0 : Fin 1) q) = v (ix2 (0 : Fin 1) q) + ∑ r : Fin 5000, k4_pay1 x0 x1 x2 (ix2 r q) := by
  unfold k4_pay4
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact Cert.Lib.multiReduction_add_cols (k4_pay1 x0 x1 x2) _ _ _ _ q

/-- The running row of column sums of squares after a block: what it held plus the sum of the squares of the block's
    column q. -/
theorem pay4_5_apply (x0 : FVec Ideal S5000x128 .f32) (x1 : FVec Ideal S128x128 .f32) (x2 : FVec Ideal S128 .f32)
    (v : FVec Ideal S1x128 .f32) (q : Fin 128) :
    k4_pay5 x0 x1 x2 v (ix2 (0 : Fin 1) q)
      = v (ix2 (0 : Fin 1) q) + ∑ r : Fin 5000, k4_pay1 x0 x1 x2 (ix2 r q) * k4_pay1 x0 x1 x2 (ix2 r q) := by
  unfold k4_pay5
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact (Cert.Lib.multiReduction_add_cols (mulf (k4_pay1 x0 x1 x2) (k4_pay1 x0 x1 x2)) _ _ _ _ q).trans
    (Finset.sum_congr rfl fun _ _ => rfl)

end Cert.KernelIdeal.Hand

end
-- ==== Proof.KI.Val4.lean ====
/-
  Region 4, from blocks to the arrays. After the region its first output array holds
  max(rows · weights + bias, 0) over all 50000 rows: point t writes back rows 5000 t … 5000 t + 4999, and
  the ten blocks tile the rows. The two running sums start at zero and gain one block's column sums per
  point, so after the last point they are the column sums over all 50000 rows (of the entries, and of their
  squares): ten blocks of 5000 rows are one sum over 50000 rows. The last point copies them to the two
  statistics arrays, whose only block is the whole array.
-/
import proofs.«121608_j10213432229998_1_alg».proof.Proof.KI.Pieces4
import proofs.«121608_j10213432229998_1_alg».proof.Proof.KI.Pay4
import proofs.«121608_j10213432229998_1_alg».proof.Proof.Alg.Ker
import proofs.«121608_j10213432229998_1_alg».proof.Proof.LibBlockSum
import proofs.«121608_j10213432229998_1_alg».proof.Proof.LibAccum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem cfgN4 : cfg4.N = 10 := N_4

/-! ## The blocks the body reads -/

/-- The index maps over the ten points: the rows and the first output move one block per point; the weights, the bias
    and the two statistics arrays stay at their only block. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Row r of the rows' block at point t is row 5000 t + r of the array. -/
theorem rowsBlock4_apply (c : Dev nD) (t : Fin cfg4.N) (y : S5000x128.Idx) (i : S50000x128.Idx)
    (h0 : (i 0).val = 5000 * t.val + (y 0).val) (h1 : (i 1).val = (y 1).val) :
    (iblk4 V c 0 t : Vec Ideal S5000x128 .f32) y = (V c main_v92 : S50000x128.Idx → EReal) i := by
  obtain ⟨e0, e1, -⟩ := blockIndex4 t
  show V c main_v92 (((cfg4.win 0).blk t).view.emb y) = V c main_v92 i
  refine congrArg _ (funext fun a => Fin.ext ?_)
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- The weights' block is the whole array, at every point, -/
theorem weightsBlock4_eq (c : Dev nD) (t : Fin cfg4.N) :
    (iblk4 V c 1 t : Vec Ideal S128x128 .f32) = (V c main_v94 : S128x128.Idx → EReal) := by
  obtain ⟨-, -, e0, e1, -⟩ := blockIndex4 t
  funext y
  show V c main_v94 (((cfg4.win 1).blk t).view.emb y) = V c main_v94 y
  refine congrArg _ (funext fun a => Fin.ext ?_)
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- and so is the bias's. -/
theorem biasBlock4_eq (c : Dev nD) (t : Fin cfg4.N) :
    (iblk4 V c 2 t : Vec Ideal S128 .f32) = (V c main_v96 : S128.Idx → EReal) := by
  obtain ⟨-, -, -, -, e0, -⟩ := blockIndex4 t
  funext y
  show V c main_v96 (((cfg4.win 2).blk t).view.emb y) = V c main_v96 y
  refine congrArg _ (funext fun a => Fin.ext ?_)
  match a with
  | ⟨0, _⟩ => show win4_2.index t (0 : Fin 1) * 128 + 1 * (y 0).val = (y 0).val; rw [e0]; omega

/-- Entry (r, q) of the body's block result at point t is entry (5000 t + r, q) of max(rows · weights + bias, 0). -/
theorem blockEntry4 (c : Dev nD) (t : Fin cfg4.N) (r : Fin 5000) (q : Fin 128) (i : Fin 50000) (h0 : i.val = 5000 * t.val + r.val) :
    k4_pay1 (iblk4 V c 0 t) (iblk4 V c 1 t) (iblk4 V c 2 t) (ix2 r q) = Cert.Gin.Ker.denseAt (V c main_v92) (V c main_v94) (V c main_v96) i q := by
  rw [weightsBlock4_eq, biasBlock4_eq, pay4_1_apply]
  unfold Cert.Gin.Ker.denseAt
  refine congrArg (fun s => max (s + _) 0) (Finset.sum_congr rfl fun k _ => ?_)
  rw [rowsBlock4_apply V c t (ix2 r k) (ix2 i k) h0 rfl]

/-! ## What each buffer holds after each point -/

-- the runs' found pieces stay folded here: each is used only through its equation
attribute [local irreducible] out4_A_3 sout4_A_0 sout4_A_1 out4_B_3 sout4_B_0 sout4_B_1 out4_C_3 out4_C_4 out4_C_5 sout4_C_0 sout4_C_1

set_option maxHeartbeats 1000000 in
/-- After every point the first output's buffer holds the block's result. -/
theorem outs4_3 (c : Dev nD) (t : Fin cfg4.N) :
    (outsAt4 V c t.val t.isLt).1 = k4_pay1 (iblk4 V c 0 t) (iblk4 V c 1 t) (iblk4 V c 2 t) := by
  have hN : t.val < 10 := lt_of_lt_of_eq t.isLt (show cfg4.N = 10 from N_4)
  by_cases h1 : t.val % 10 = 9
  · have h0 : ¬t.val % 10 = 0 := by omega
    rw [outsAt4_C V c t h0 h1]
    exact pc4_outC_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
  · by_cases h0 : t.val % 10 = 0
    · rw [outsAt4_A V c t h0 h1]
      exact pc4_outA_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)
    · rw [outsAt4_B V c t h0 h1]
      exact pc4_outB_3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

set_option maxHeartbeats 1000000 in
/-- The running sum of the columns after the first point: zero plus the first block's sums. -/
theorem sum4_first (c : Dev nD) (t : Fin cfg4.N) (h0 : t.val % 10 = 0) (h1 : ¬t.val % 10 = 9) :
    (outsAt4 V c t.val t.isLt).2.2.2.1 = k4_pay4 (iblk4 V c 0 t) (iblk4 V c 1 t) (iblk4 V c 2 t) (k4_pay2 (F := Ideal))
    ∧ (outsAt4 V c t.val t.isLt).2.2.2.2 = k4_pay5 (iblk4 V c 0 t) (iblk4 V c 1 t) (iblk4 V c 2 t) (k4_pay3 (F := Ideal)) := by
  rw [outsAt4_A V c t h0 h1]
  exact ⟨pc4_soutA_0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t), pc4_soutA_1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) ((hcond4_0 t).mpr h0) (fun h => h1 ((hcond4_1 t).mp h)) (iblk4 V c 0 t) (iblk4 V c 1 t) (iblk4 V c 2 t)⟩

set_option maxHeartbeats 1000000 in
/-- After a later point: what the point before left plus this block's sums. -/
theorem sum4_next (c : Dev nD) (t : Fin cfg4.N) (h0 : ¬t.val % 10 = 0) :
    (outsAt4 V c t.val t.isLt).2.2.2.1 = k4_pay4 (iblk4 V c 0 t) (iblk4 V c 1 t) (iblk4 V c 2 t) (outsAt4 V c (t.val - 1) (Nat.lt_of_le_of_lt (Nat.sub_le _ _) t.isLt)).2.2.2.1
    ∧ (outsAt4 V c t.val t.isLt).2.2.2.2 = k4_pay5 (iblk4 V c 0 t) (iblk4 V c 1 t) (iblk4 V c 2 t) (outsAt4 V c (t.val - 1) (Nat.lt_of_le_of_lt (Nat.sub_le _ _) t.isLt)).2.2.2.2 := by
  by_cases h1 : t.val % 10 = 9
  · rw [outsAt4_C V c t h0 h1]
    exact ⟨pc4_soutC_0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, pc4_soutC_1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2⟩
  · rw [outsAt4_B V c t h0 h1]
    exact ⟨pc4_soutB_0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, pc4_soutB_1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2⟩

set_option maxHeartbeats 1000000 in
/-- At the last point the two statistics windows receive the running sums. -/
theorem stats4_last (c : Dev nD) (t : Fin cfg4.N) (h0 : ¬t.val % 10 = 0) (h1 : t.val % 10 = 9) :
    (outsAt4 V c t.val t.isLt).2.1 = k4_pay4 (iblk4 V c 0 t) (iblk4 V c 1 t) (iblk4 V c 2 t) (outsAt4 V c (t.val - 1) (Nat.lt_of_le_of_lt (Nat.sub_le _ _) t.isLt)).2.2.2.1
    ∧ (outsAt4 V c t.val t.isLt).2.2.1 = k4_pay5 (iblk4 V c 0 t) (iblk4 V c 1 t) (iblk4 V c 2 t) (outsAt4 V c (t.val - 1) (Nat.lt_of_le_of_lt (Nat.sub_le _ _) t.isLt)).2.2.2.2 := by
  rw [outsAt4_C V c t h0 h1]
  exact ⟨pc4_outC_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, pc4_outC_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2.2.2.1 (outsAt4 V c (t.val - 1) (Nat.lt_of_le_of_lt (Nat.sub_le _ _) t.isLt)).2.2.2.2⟩

/-! ## The running sums are the sums over the blocks so far -/

/-- Block K's column sums of max(rows · weights + bias, 0), and of its squares. -/
def tile4 (c : Dev nD) (q : Fin 128) (K : ℕ) : EReal :=
  if h : K < cfg4.N then ∑ r : Fin 5000, k4_pay1 (iblk4 V c 0 ⟨K, h⟩) (iblk4 V c 1 ⟨K, h⟩) (iblk4 V c 2 ⟨K, h⟩) (ix2 r q) else 0
def tileSq4 (c : Dev nD) (q : Fin 128) (K : ℕ) : EReal :=
  if h : K < cfg4.N then ∑ r : Fin 5000, k4_pay1 (iblk4 V c 0 ⟨K, h⟩) (iblk4 V c 1 ⟨K, h⟩) (iblk4 V c 2 ⟨K, h⟩) (ix2 r q) * k4_pay1 (iblk4 V c 0 ⟨K, h⟩) (iblk4 V c 1 ⟨K, h⟩) (iblk4 V c 2 ⟨K, h⟩) (ix2 r q) else 0
/-- The running sums after position n, at column q. -/
def acc4 (c : Dev nD) (q : Fin 128) (n : ℕ) : EReal :=
  if h : n < cfg4.N then (outsAt4 V c n h).2.2.2.1 (ix2 (0 : Fin 1) q) else 0
def accSq4 (c : Dev nD) (q : Fin 128) (n : ℕ) : EReal :=
  if h : n < cfg4.N then (outsAt4 V c n h).2.2.2.2 (ix2 (0 : Fin 1) q) else 0

theorem acc4_at (c : Dev nD) (q : Fin 128) (n : ℕ) (h : n < cfg4.N) :
    acc4 V c q n = (outsAt4 V c n h).2.2.2.1 (ix2 (0 : Fin 1) q) := by unfold acc4; rw [dif_pos h]
theorem accSq4_at (c : Dev nD) (q : Fin 128) (n : ℕ) (h : n < cfg4.N) :
    accSq4 V c q n = (outsAt4 V c n h).2.2.2.2 (ix2 (0 : Fin 1) q) := by unfold accSq4; rw [dif_pos h]

theorem acc4_zero (c : Dev nD) (q : Fin 128) : acc4 V c q 0 = 0 + tile4 V c q 0 ∧ accSq4 V c q 0 = 0 + tileSq4 V c q 0 := by
  have h : 0 < cfg4.N := by rw [cfgN4]; decide
  obtain ⟨e0, e1⟩ := sum4_first V c ⟨0, h⟩ rfl (by show ¬(0 : ℕ) % 10 = 9; decide)
  unfold acc4 accSq4 tile4 tileSq4
  rw [dif_pos h, dif_pos h, dif_pos h, dif_pos h, e0, e1, pay4_4_apply, pay4_5_apply, pay4_2_apply, pay4_3_apply]
  exact ⟨rfl, rfl⟩

theorem acc4_succ (c : Dev nD) (q : Fin 128) (J : ℕ) (hJ : J + 1 < 10) :
    acc4 V c q (J + 1) = acc4 V c q J + tile4 V c q (J + 1) ∧ accSq4 V c q (J + 1) = accSq4 V c q J + tileSq4 V c q (J + 1) := by
  have h : J + 1 < cfg4.N := by rw [cfgN4]; exact hJ
  have h' : J < cfg4.N := Nat.lt_of_succ_lt h
  obtain ⟨e0, e1⟩ := sum4_next V c ⟨J + 1, h⟩ (by show ¬(J + 1) % 10 = 0; omega)
  unfold acc4 accSq4 tile4 tileSq4
  rw [dif_pos h, dif_pos h, dif_pos h, dif_pos h, dif_pos h', dif_pos h', e0, e1, pay4_4_apply, pay4_5_apply]
  exact ⟨rfl, rfl⟩

/-- After position J the running sums are the sums of the blocks 0 … J. -/
theorem acc4_eq (c : Dev nD) (q : Fin 128) (J : ℕ) (hJ : J < 10) :
    acc4 V c q J = ∑ K ∈ Finset.range (J + 1), tile4 V c q K ∧ accSq4 V c q J = ∑ K ∈ Finset.range (J + 1), tileSq4 V c q K :=
  ⟨Cert.Lib.accum_range (acc4 V c q) (tile4 V c q) 10 (acc4_zero V c q).1 (fun J h => (acc4_succ V c q J h).1) J hJ,
   Cert.Lib.accum_range (accSq4 V c q) (tileSq4 V c q) 10 (acc4_zero V c q).2 (fun J h => (acc4_succ V c q J h).2) J hJ⟩

/-- A sum over 50000 rows is the sum over ten blocks of the sums over the block's 5000 rows. -/
theorem rows4_split (f : Fin 50000 → EReal) :
    ∑ r : Fin 50000, f r = ∑ d : Fin 10, ∑ j : Fin 5000, f (⟨j.val + 5000 * d.val, by have := j.isLt; have := d.isLt; omega⟩ : Fin 50000) :=
  (Cert.Lib.sum_blocks 10 5000 (fun k : Fin (10 * 5000) => f ⟨k.val, k.isLt⟩)).trans
    (Finset.sum_congr rfl fun d _ => Finset.sum_congr rfl fun j _ => rfl)

set_option maxHeartbeats 1000000 in
/-- Ten blocks of 5000 rows are the 50000 rows. -/
theorem tiles4_sum (c : Dev nD) (q : Fin 128) :
    ∑ K ∈ Finset.range 10, tile4 V c q K = ∑ r : Fin 50000, Cert.Gin.Ker.pre (V c main_v92) (V c main_v94) (V c main_v96) (ix2 r q)
    ∧ ∑ K ∈ Finset.range 10, tileSq4 V c q K = ∑ r : Fin 50000, Cert.Gin.Ker.pre (V c main_v92) (V c main_v94) (V c main_v96) (ix2 r q) * Cert.Gin.Ker.pre (V c main_v92) (V c main_v94) (V c main_v96) (ix2 r q) := by
  have hN : cfg4.N = 10 := cfgN4
  have key : ∀ (d : Fin 10) (r : Fin 5000), k4_pay1 (iblk4 V c 0 ⟨d.val, by rw [hN]; exact d.isLt⟩) (iblk4 V c 1 ⟨d.val, by rw [hN]; exact d.isLt⟩) (iblk4 V c 2 ⟨d.val, by rw [hN]; exact d.isLt⟩) (ix2 r q)
      = Cert.Gin.Ker.pre (V c main_v92) (V c main_v94) (V c main_v96) (ix2 (⟨r.val + 5000 * d.val, by have := r.isLt; have := d.isLt; omega⟩ : Fin 50000) q) := fun d r =>
    blockEntry4 V c ⟨d.val, by rw [hN]; exact d.isLt⟩ r q ⟨r.val + 5000 * d.val, by have := r.isLt; have := d.isLt; omega⟩
      (by show r.val + 5000 * d.val = 5000 * d.val + r.val; omega)
  constructor
  · rw [Finset.sum_range]
    refine Eq.trans ?_ (rows4_split (fun r => Cert.Gin.Ker.pre (V c main_v92) (V c main_v94) (V c main_v96) (ix2 r q))).symm
    refine Finset.sum_congr rfl fun d _ => ?_
    unfold tile4
    rw [dif_pos (show d.val < cfg4.N by rw [hN]; exact d.isLt)]
    exact Finset.sum_congr rfl fun r _ => key d r
  · rw [Finset.sum_range]
    refine Eq.trans ?_ (rows4_split (fun r => Cert.Gin.Ker.pre (V c main_v92) (V c main_v94) (V c main_v96) (ix2 r q) * Cert.Gin.Ker.pre (V c main_v92) (V c main_v94) (V c main_v96) (ix2 r q))).symm
    refine Finset.sum_congr rfl fun d _ => ?_
    unfold tileSq4
    rw [dif_pos (show d.val < cfg4.N by rw [hN]; exact d.isLt)]
    exact Finset.sum_congr rfl fun r _ => by rw [key d r]

/-- What the two statistics windows' buffers hold after the last point: the column sums over all rows. -/
theorem stats4_final (c : Dev nD) (t : Fin cfg4.N) (h1 : t.val % 10 = 9) :
    (outsAt4 V c t.val t.isLt).2.1 = Cert.Gin.Ker.colSum (Cert.Gin.Ker.pre (V c main_v92) (V c main_v94) (V c main_v96))
    ∧ (outsAt4 V c t.val t.isLt).2.2.1 = Cert.Gin.Ker.colSumSq (Cert.Gin.Ker.pre (V c main_v92) (V c main_v94) (V c main_v96)) := by
  have hN : t.val < 10 := lt_of_lt_of_eq t.isLt (show cfg4.N = 10 from N_4)
  have h9 : t.val = 9 := by omega
  obtain ⟨e0, e1⟩ := stats4_last V c t (by omega) h1
  have h8 : t.val - 1 < cfg4.N := Nat.lt_of_le_of_lt (Nat.sub_le _ _) t.isLt
  constructor
  · rw [e0]; funext j
    obtain ⟨z, q, rfl⟩ : ∃ (z : Fin 1) (q : Fin 128), j = ix2 z q := ⟨j 0, j 1, eq_ix2 j⟩
    obtain rfl : z = 0 := Subsingleton.elim _ _
    rw [pay4_4_apply]
    show _ = ∑ r : Fin 50000, Cert.Gin.Ker.pre (V c main_v92) (V c main_v94) (V c main_v96) (ix2 r q)
    rw [← (tiles4_sum V c q).1, Finset.sum_range_succ, ← (acc4_eq V c q 8 (by decide)).1]
    have ha : acc4 V c q 8 = (outsAt4 V c (t.val - 1) h8).2.2.2.1 (ix2 (0 : Fin 1) q) := by
      have e8 : (8 : ℕ) = t.val - 1 := by omega
      rw [e8]; exact acc4_at V c q (t.val - 1) h8
    have hb : tile4 V c q 9 = ∑ r : Fin 5000, k4_pay1 (iblk4 V c 0 t) (iblk4 V c 1 t) (iblk4 V c 2 t) (ix2 r q) := by
      unfold tile4; rw [dif_pos (show 9 < cfg4.N by rw [cfgN4]; decide)]
      have : (⟨9, by rw [cfgN4]; decide⟩ : Fin cfg4.N) = t := Fin.ext h9.symm
      rw [this]
    rw [ha, hb]
  · rw [e1]; funext j
    obtain ⟨z, q, rfl⟩ : ∃ (z : Fin 1) (q : Fin 128), j = ix2 z q := ⟨j 0, j 1, eq_ix2 j⟩
    obtain rfl : z = 0 := Subsingleton.elim _ _
    rw [pay4_5_apply]
    show _ = ∑ r : Fin 50000, Cert.Gin.Ker.pre (V c main_v92) (V c main_v94) (V c main_v96) (ix2 r q) * Cert.Gin.Ker.pre (V c main_v92) (V c main_v94) (V c main_v96) (ix2 r q)
    rw [← (tiles4_sum V c q).2, Finset.sum_range_succ, ← (acc4_eq V c q 8 (by decide)).2]
    have ha : accSq4 V c q 8 = (outsAt4 V c (t.val - 1) h8).2.2.2.2 (ix2 (0 : Fin 1) q) := by
      have e8 : (8 : ℕ) = t.val - 1 := by omega
      rw [e8]; exact accSq4_at V c q (t.val - 1) h8
    have hb : tileSq4 V c q 9 = ∑ r : Fin 5000, k4_pay1 (iblk4 V c 0 t) (iblk4 V c 1 t) (iblk4 V c 2 t) (ix2 r q) * k4_pay1 (iblk4 V c 0 t) (iblk4 V c 1 t) (iblk4 V c 2 t) (ix2 r q) := by
      unfold tileSq4; rw [dif_pos (show 9 < cfg4.N by rw [cfgN4]; decide)]
      have : (⟨9, by rw [cfgN4]; decide⟩ : Fin cfg4.N) = t := Fin.ext h9.symm
      rw [this]
    rw [ha, hb]

/-! ## What the points write back, and the arrays after the region -/

/-- What point t writes back to the first output array is block t of max(rows · weights + bias, 0). -/
theorem flushed4_3_eq (c : Dev nD) (t : Fin cfg4.N) :
    (dat4 V c).flushed 3 t = ((cfg4.win 3).blk t).view.read (Elt Ideal) (Cert.Gin.Ker.pre (V c main_v92) (V c main_v94) (V c main_v96)) := by
  show (cfg4.win 3).cut (grid4.coords t) ((dat4 V c).after 3 t) = _
  rw [after4_3, outs4_3]
  obtain ⟨-, -, -, -, -, e0, e1, -⟩ := blockIndex4 t
  funext j
  obtain ⟨r, q, rfl⟩ : ∃ (r : Fin 5000) (q : Fin 128), j = ix2 r q := ⟨j 0, j 1, eq_ix2 j⟩
  show k4_pay1 (iblk4 V c 0 t) (iblk4 V c 1 t) (iblk4 V c 2 t) (ix2 r q) = Cert.Gin.Ker.pre (V c main_v92) (V c main_v94) (V c main_v96) (((cfg4.win 3).blk t).view.emb (ix2 r q))
  have hi : ((cfg4.win 3).blk t).view.emb (ix2 r q) = (ix2 (⟨5000 * t.val + r.val, by have := lt_of_lt_of_eq t.isLt cfgN4; have := r.isLt; omega⟩ : Fin 50000) q : S50000x128.Idx) := by
    funext a; apply Fin.ext
    match a with
    | ⟨0, _⟩ => show win4_3.index t (0 : Fin 2) * 5000 + 1 * r.val = 5000 * t.val + r.val; rw [e0]; omega
    | ⟨1, _⟩ => show win4_3.index t (1 : Fin 2) * 128 + 1 * q.val = q.val; rw [e1]; omega
  rw [hi]
  exact blockEntry4 V c t r q _ rfl

theorem memBlock4_3 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v105_0).slice (win4_3.rect t)).set ↔ _
  rw [View.set_slice_whole, Rect.mem_set_unit]
  exact Iff.rfl

theorem covered4_3 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, e0, e1, -⟩ := blockIndex4 t
  have ht : t.val = (i 0).val / 5000 := rfl
  refine ⟨t, flush4_3 t, ?_⟩
  rw [memBlock4_3]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 128 ≤ (i 1).val ∧ (i 1).val < win4_3.index t (1 : Fin 2) * 128 + 128
    rw [e1]; omega

/-- After the region the first output array holds max(rows · weights + bias, 0) of the arrays as the region finds them. -/
theorem final4_3 (c : Dev nD) : (dat4 V c).arrAt 3 cfg4.N = Cert.Gin.Ker.pre (V c main_v92) (V c main_v94) (V c main_v96) :=
  (dat4 V c).arrAt_eq_of_cover 3 _ (fun t _ => flushed4_3_eq V c t) covered4_3

/-- The one write-back of statistics array 4, at the last point, writes the column sums over all rows. -/
theorem flushed4_4_eq (c : Dev nD) (t : Fin cfg4.N) (hf : (cfg4.win 4).flush t = true) :
    (dat4 V c).flushed 4 t = ((cfg4.win 4).blk t).view.read (Elt Ideal) (Cert.Gin.Ker.colSum (Cert.Gin.Ker.pre (V c main_v92) (V c main_v94) (V c main_v96))) := by
  have h1 : t.val % 10 = 9 := (flush4_4 t).mp hf
  show (cfg4.win 4).cut (grid4.coords t) ((dat4 V c).after 4 t) = _
  rw [after4_4, (stats4_final V c t h1).1]
  obtain ⟨-, -, -, -, -, -, -, e40, e41, e50, e51⟩ := blockIndex4 t
  generalize Cert.Gin.Ker.colSum (Cert.Gin.Ker.pre (V c main_v92) (V c main_v94) (V c main_v96)) = G
  funext j
  have hemb : ((cfg4.win 4).blk t).view.emb j = j := by
    funext a; apply Fin.ext
    match a with
    | ⟨0, _⟩ => show win4_4.index t (0 : Fin 2) * 1 + 1 * (j 0).val = (j 0).val; rw [e40]; omega
    | ⟨1, _⟩ => show win4_4.index t (1 : Fin 2) * 128 + 1 * (j 1).val = (j 1).val; rw [e41]; omega
  show G j = G (((cfg4.win 4).blk t).view.emb j)
  rw [hemb]

theorem covered4_4 (i : S1x128.Idx) :
    ∃ t : Fin cfg4.N, (cfg4.win 4).flush t = true ∧ i ∈ ((cfg4.win 4).blk t).view.set := by
  have hi0 : (i 0).val < 1 := (i 0).isLt
  have hi1 : (i 1).val < 128 := (i 1).isLt
  let t : Fin cfg4.N := ⟨9, by rw [cfgN4]; decide⟩
  obtain ⟨-, -, -, -, -, -, -, e40, e41, e50, e51⟩ := blockIndex4 t
  refine ⟨t, (flush4_4 t).mpr rfl, ?_⟩
  show i ∈ ((View.whole main_v105_1).slice (win4_4.rect t)).set
  rw [View.set_slice_whole, Rect.mem_set_unit]
  intro a
  match a with
  | ⟨0, _⟩ =>
    show win4_4.index t (0 : Fin 2) * 1 ≤ (i 0).val ∧ (i 0).val < win4_4.index t (0 : Fin 2) * 1 + 1
    rw [e40]; omega
  | ⟨1, _⟩ =>
    show win4_4.index t (1 : Fin 2) * 128 ≤ (i 1).val ∧ (i 1).val < win4_4.index t (1 : Fin 2) * 128 + 128
    rw [e41]; omega

theorem final4_4 (c : Dev nD) : (dat4 V c).arrAt 4 cfg4.N = Cert.Gin.Ker.colSum (Cert.Gin.Ker.pre (V c main_v92) (V c main_v94) (V c main_v96)) :=
  (dat4 V c).arrAt_eq_of_cover 4 _ (flushed4_4_eq V c) covered4_4

/-- The one write-back of statistics array 5, at the last point, writes the column sums over all rows. -/
theorem flushed4_5_eq (c : Dev nD) (t : Fin cfg4.N) (hf : (cfg4.win 5).flush t = true) :
    (dat4 V c).flushed 5 t = ((cfg4.win 5).blk t).view.read (Elt Ideal) (Cert.Gin.Ker.colSumSq (Cert.Gin.Ker.pre (V c main_v92) (V c main_v94) (V c main_v96))) := by
  have h1 : t.val % 10 = 9 := (flush4_5 t).mp hf
  show (cfg4.win 5).cut (grid4.coords t) ((dat4 V c).after 5 t) = _
  rw [after4_5, (stats4_final V c t h1).2]
  obtain ⟨-, -, -, -, -, -, -, e40, e41, e50, e51⟩ := blockIndex4 t
  generalize Cert.Gin.Ker.colSumSq (Cert.Gin.Ker.pre (V c main_v92) (V c main_v94) (V c main_v96)) = G
  funext j
  have hemb : ((cfg4.win 5).blk t).view.emb j = j := by
    funext a; apply Fin.ext
    match a with
    | ⟨0, _⟩ => show win4_5.index t (0 : Fin 2) * 1 + 1 * (j 0).val = (j 0).val; rw [e50]; omega
    | ⟨1, _⟩ => show win4_5.index t (1 : Fin 2) * 128 + 1 * (j 1).val = (j 1).val; rw [e51]; omega
  show G j = G (((cfg4.win 5).blk t).view.emb j)
  rw [hemb]

theorem covered4_5 (i : S1x128.Idx) :
    ∃ t : Fin cfg4.N, (cfg4.win 5).flush t = true ∧ i ∈ ((cfg4.win 5).blk t).view.set := by
  have hi0 : (i 0).val < 1 := (i 0).isLt
  have hi1 : (i 1).val < 128 := (i 1).isLt
  let t : Fin cfg4.N := ⟨9, by rw [cfgN4]; decide⟩
  obtain ⟨-, -, -, -, -, -, -, e40, e41, e50, e51⟩ := blockIndex4 t
  refine ⟨t, (flush4_5 t).mpr rfl, ?_⟩
  show i ∈ ((View.whole main_v105_2).slice (win4_5.rect t)).set
  rw [View.set_slice_whole, Rect.mem_set_unit]
  intro a
  match a with
  | ⟨0, _⟩ =>
    show win4_5.index t (0 : Fin 2) * 1 ≤ (i 0).val ∧ (i 0).val < win4_5.index t (0 : Fin 2) * 1 + 1
    rw [e50]; omega
  | ⟨1, _⟩ =>
    show win4_5.index t (1 : Fin 2) * 128 ≤ (i 1).val ∧ (i 1).val < win4_5.index t (1 : Fin 2) * 128 + 128
    rw [e51]; omega

theorem final4_5 (c : Dev nD) : (dat4 V c).arrAt 5 cfg4.N = Cert.Gin.Ker.colSumSq (Cert.Gin.Ker.pre (V c main_v92) (V c main_v94) (V c main_v96)) :=
  (dat4 V c).arrAt_eq_of_cover 5 _ (flushed4_5_eq V c) covered4_5

end Cert.KernelIdeal.Hand

end
-- ==== Proof.KI.Val5.lean ====
/-
  Region 5, from blocks to the array: the second dense step of a layer over all 50000 rows.

  At each of the ten grid points the body stores, over a block of 5000 rows,
  max((rows * scale + shift) · weights + bias, 0) of that block of the input rows and of the whole scale row, shift
  row, weight matrix and bias. Entry (p, q) of a block's result reads row p of the block only, and row p of block t
  is row 5000 t + p of the array; so what point t writes back is block t of ONE function of the five whole arrays.
  The ten blocks tile the 50000 rows — row r lies in block r / 5000 — hence the output array after the region is
  that function of the arrays as the region finds them.
-/
import proofs.«121608_j10213432229998_1_alg».proof.Proof.KI.Reg5
import proofs.«121608_j10213432229998_1_alg».proof.Proof.Alg.Ker
import proofs.«121608_j10213432229998_1_alg».proof.Proof.LibDenseLayers
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- Entry (p, q) of what the body stores: row p of the block, scaled and shifted entry by entry, against column q of
    the weights, plus the bias at q, or zero if that is larger. -/
theorem pay5_apply (x0 : Vec Ideal S5000x128 .f32) (x1 x2 : Vec Ideal S1x128 .f32) (x3 : Vec Ideal S128x128 .f32)
    (x4 : Vec Ideal S128 .f32) (p : Fin 5000) (q : Fin 128) :
    k5_pay1 x0 x1 x2 x3 x4 (ix2 p q)
      = max ((∑ k : Fin 128, (x0 (ix2 p k) * x1 (ix2 (0 : Fin 1) k) + x2 (ix2 (0 : Fin 1) k)) * x3 (ix2 k q))
          + x4 (ix1 q)) 0 := by
  unfold k5_pay1
  refine (Cert.Gcn.kernelBiasRelu_apply _ (shapeCast S128 x4 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x4 (ix1 q)) 0) ?_
  refine (Cert.Gcn.kernelProduct_apply dot_S5000x128_S128x128_S5000x128_1_0_0_1_n_n_wf bitsLt_bf16_f32 _ _ p q).trans ?_
  rw [Cert.Gcn.product_apply]
  refine Finset.sum_congr rfl fun k _ => ?_
  refine congrArg (· * x3 (ix2 k q)) ?_
  show x0 (ix2 p k) * broadcastTo S5000x128 x1 _ (ix2 p k) + broadcastTo S5000x128 x2 _ (ix2 p k) = _
  rw [broadcastTo_1b_ab_apply, broadcastTo_1b_ab_apply]

/-! ## The blocks the body reads -/

variable (V : (c : Dev nD) → (b : Ref sig .tc) → Buf (Elt Ideal) ((c : Thread nD τ).loc b))

theorem zeroOffsets5_2 : (![0, 0] : Fin 2 → Nat) = fun _ => 0 := funext fun a => by fin_cases a <;> rfl
theorem zeroOffsets5_1 : (![0] : Fin 1 → Nat) = fun _ => 0 := funext fun a => by fin_cases a; rfl

/-- The index maps over the ten points: the rows and the output move one block per point, the four parameter arrays
    stay at their only block. -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Row p of the rows' block at point t is row 5000 t + p of the array. -/
theorem rowsBlock5_apply (c : Dev nD) (t : Fin cfg5.N) (y : S5000x128.Idx) (i : S50000x128.Idx)
    (h0 : (i 0).val = 5000 * t.val + (y 0).val) (h1 : (i 1).val = (y 1).val) :
    (iblk5 V c 0 t : Vec Ideal S5000x128 .f32) y = (V c main_v105_0 : S50000x128.Idx → EReal) i := by
  obtain ⟨e0, e1, -⟩ := blockIndex5 t
  show V c main_v105_0 (((cfg5.win 0).blk t).view.emb y) = V c main_v105_0 i
  refine congrArg _ (funext fun a => Fin.ext ?_)
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The scale row's block is the whole array, at every point. -/
theorem scaleBlock5_eq (c : Dev nD) (t : Fin cfg5.N) :
    (iblk5 V c 1 t : Vec Ideal S1x128 .f32) = (V c main_v116 : S1x128.Idx → EReal) := by
  obtain ⟨-, -, e0, e1, -⟩ := blockIndex5 t
  funext y
  show V c main_v116 (((cfg5.win 1).blk t).view.emb y) = V c main_v116 y
  refine congrArg _ (funext fun a => Fin.ext ?_)
  match a with
  | ⟨0, _⟩ => show win5_1.index t (0 : Fin 2) * 1 + 1 * (y 0).val = (y 0).val; rw [e0]; omega
  | ⟨1, _⟩ => show win5_1.index t (1 : Fin 2) * 128 + 1 * (y 1).val = (y 1).val; rw [e1]; omega

/-- So is the shift row's, -/
theorem shiftBlock5_eq (c : Dev nD) (t : Fin cfg5.N) :
    (iblk5 V c 2 t : Vec Ideal S1x128 .f32) = (V c main_v119 : S1x128.Idx → EReal) := by
  obtain ⟨-, -, -, -, e0, e1, -⟩ := blockIndex5 t
  funext y
  show V c main_v119 (((cfg5.win 2).blk t).view.emb y) = V c main_v119 y
  refine congrArg _ (funext fun a => Fin.ext ?_)
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- the weights', -/
theorem weightsBlock5_eq (c : Dev nD) (t : Fin cfg5.N) :
    (iblk5 V c 3 t : Vec Ideal S128x128 .f32) = (V c main_v102 : S128x128.Idx → EReal) := by
  obtain ⟨-, -, -, -, -, -, e0, e1, -⟩ := blockIndex5 t
  funext y
  show V c main_v102 (((cfg5.win 3).blk t).view.emb y) = V c main_v102 y
  refine congrArg _ (funext fun a => Fin.ext ?_)
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- and the bias's. -/
theorem biasBlock5_eq (c : Dev nD) (t : Fin cfg5.N) :
    (iblk5 V c 4 t : Vec Ideal S128 .f32) = (V c main_v104 : S128.Idx → EReal) := by
  obtain ⟨-, -, -, -, -, -, -, -, e0, -⟩ := blockIndex5 t
  funext y
  show V c main_v104 (((cfg5.win 4).blk t).view.emb y) = V c main_v104 y
  refine congrArg _ (funext fun a => Fin.ext ?_)
  match a with
  | ⟨0, _⟩ => show win5_4.index t (0 : Fin 1) * 128 + 1 * (y 0).val = (y 0).val; rw [e0]; omega

/-! ## What a point writes back -/

/-- Entry j of the body's result at point t is the whole-array function at the entry of the output array that j is
    written back to: the same row of the input, the same column. -/
theorem blockEntry5 (c : Dev nD) (t : Fin cfg5.N) (j : S5000x128.Idx) (i : S50000x128.Idx)
    (h0 : (i 0).val = 5000 * t.val + (j 0).val) (h1 : (i 1).val = (j 1).val) :
    k5_pay1 (iblk5 V c 0 t) (V c main_v116) (V c main_v119) (V c main_v102) (V c main_v104) j
      = Cert.Gin.Ker.normDense (V c main_v105_0) (V c main_v116) (V c main_v119) (V c main_v102) (V c main_v104) i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  rw [pay5_apply]
  show _ = Cert.Gin.Ker.normDenseAt _ _ _ _ _ r q'
  unfold Cert.Gin.Ker.normDenseAt
  refine congrArg (fun s => max (s + _) 0) (Finset.sum_congr rfl fun k _ => ?_)
  rw [rowsBlock5_apply V c t (ix2 p k) (ix2 r k) h0 rfl]

/-- What point t writes back is block t of the whole-array function of the arrays as the region finds them. -/
theorem flushed5_eq (c : Dev nD) (t : Fin cfg5.N) :
    (dat5 V c).flushed 5 t = ((cfg5.win 5).blk t).view.read (Elt Ideal)
      (Cert.Gin.Ker.normDense (V c main_v105_0) (V c main_v116) (V c main_v119) (V c main_v102) (V c main_v104)) := by
  show (cfg5.win 5).cut (grid5.coords t) ((dat5 V c).after 5 t) = _
  rw [after5_5]
  unfold out5_5
  rw [View.canon_unit_zero zeroOffsets5_2]
  simp only [View.ld_unit_zero (S := S5000x128) zeroOffsets5_2, View.ld_unit_zero (S := S1x128) zeroOffsets5_2,
    View.ld_unit_zero (S := S128x128) zeroOffsets5_2, View.ld_unit_zero (S := S128) zeroOffsets5_1]
  rw [scaleBlock5_eq, shiftBlock5_eq, weightsBlock5_eq, biasBlock5_eq]
  obtain ⟨-, -, -, -, -, -, -, -, -, e0, e1⟩ := blockIndex5 t
  funext j
  refine blockEntry5 V c t j (((cfg5.win 5).blk t).view.emb j) ?_ ?_
  · show win5_5.index t (0 : Fin 2) * 5000 + 1 * (j 0).val = 5000 * t.val + (j 0).val; rw [e0]; omega
  · show win5_5.index t (1 : Fin 2) * 128 + 1 * (j 1).val = (j 1).val; rw [e1]; omega

/-! ## The blocks tile the array -/

/-- An index of the output array is in point t's block iff each coordinate is in the block's range on its axis. -/
theorem memBlock5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v120).slice (win5_5.rect t)).set ↔ _
  rw [View.set_slice_whole, Rect.mem_set_unit]
  exact Iff.rfl

/-- Row r of the output lies in the block of point r / 5000. -/
theorem covered5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, -, e0, e1⟩ := blockIndex5 t
  have ht : t.val = (i 0).val / 5000 := rfl
  refine ⟨t, flush5_5 t, ?_⟩
  rw [memBlock5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 128 ≤ (i 1).val ∧ (i 1).val < win5_5.index t (1 : Fin 2) * 128 + 128
    rw [e1]; omega

/-! ## The output array after the region -/

/-- After the region the output array holds max((x * scale + shift) · w + b, 0) of the five arrays as the region
    finds them. -/
theorem final5 (c : Dev nD) :
    (dat5 V c).arrAt 5 cfg5.N
      = Cert.Gin.Ker.normDense (V c main_v105_0) (V c main_v116) (V c main_v119) (V c main_v102) (V c main_v104) :=
  (dat5 V c).arrAt_eq_of_cover 5 _ (fun t _ => flushed5_eq V c t) covered5

end Cert.KernelIdeal.Hand

end
-- ==== Proof.KI.Pieces6.lean ====
/-
  Region 6: what each run of the body leaves in each buffer, as the body's arithmetic of the blocks it
  read: the output block is max(rows · weights + bias, 0); each running sum is what it held (zero at the
  first point) plus the block's column sums (of the entries, of their squares); at the last point the two
  statistics windows receive the running sums.
-/
import proofs.«121608_j10213432229998_1_alg».proof.Proof.KI.Reg6
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

theorem hz2_6 : (![0, 0] : Fin 2 → Nat) = fun _ => 0 := funext fun a => by fin_cases a <;> rfl
theorem hz1_6 : (![0] : Fin 1 → Nat) = fun _ => 0 := funext fun a => by fin_cases a <;> rfl

theorem pc6_outA_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) :
    out6_A_3 c i arg1 harg1 arg2 harg2 arg3 harg3 arg4 harg4 arg5 harg5 arg6 harg6 arg7 harg7 arg8 harg8 hc0 hc1 x0 x1 x2 = k6_pay1 x0 x1 x2 := by
  unfold out6_A_3
  rw [View.read_writes_eq_canon _ _ _ (cover6_A_3 c i arg1 harg1 arg2 harg2 arg3 harg3 arg4 harg4 arg5 harg5 arg6 harg6 arg7 harg7 arg8 harg8 hc0 hc1 x0 x1 x2)]
  unfold kernelRun6_A
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutA_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) :
    sout6_A_0 c i arg1 harg1 arg2 harg2 arg3 harg3 arg4 harg4 arg5 harg5 arg6 harg6 arg7 harg7 arg8 harg8 hc0 hc1 x0 x1 x2 = k6_pay4 x0 x1 x2 (k6_pay2 (F := F)) := by
  unfold sout6_A_0
  rw [View.read_writes_eq_canon _ _ _ (scover6_A_0 c i arg1 harg1 arg2 harg2 arg3 harg3 arg4 harg4 arg5 harg5 arg6 harg6 arg7 harg7 arg8 harg8 hc0 hc1 x0 x1 x2)]
  unfold kernelRun6_A
  dsimp only
  try sl_unfold_words
  rw [View.canon_cons_unit_zero hz2_6, View.readCov_unit_zero (S := S1x128) _ hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutA_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S128 .f32) :
    sout6_A_1 c i arg1 harg1 arg2 harg2 arg3 harg3 arg4 harg4 arg5 harg5 arg6 harg6 arg7 harg7 arg8 harg8 hc0 hc1 x0 x1 x2 = k6_pay5 x0 x1 x2 (k6_pay3 (F := F)) := by
  unfold sout6_A_1
  rw [View.read_writes_eq_canon _ _ _ (scover6_A_1 c i arg1 harg1 arg2 harg2 arg3 harg3 arg4 harg4 arg5 harg5 arg6 harg6 arg7 harg7 arg8 harg8 hc0 hc1 x0 x1 x2)]
  unfold kernelRun6_A
  dsimp only
  try sl_unfold_words
  rw [View.canon_cons_unit_zero hz2_6, View.readCov_unit_zero (S := S1x128) _ hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_outB_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 xs1 : Vec F S1x128 .f32) :
    out6_B_3 c i arg1 harg1 arg2 harg2 arg3 harg3 arg4 harg4 arg5 harg5 arg6 harg6 arg7 harg7 arg8 harg8 hc0 hc1 x0 x1 x2 xs0 xs1 = k6_pay1 x0 x1 x2 := by
  unfold out6_B_3
  rw [View.read_writes_eq_canon _ _ _ (cover6_B_3 c i arg1 harg1 arg2 harg2 arg3 harg3 arg4 harg4 arg5 harg5 arg6 harg6 arg7 harg7 arg8 harg8 hc0 hc1 x0 x1 x2 xs0 xs1)]
  unfold kernelRun6_B
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutB_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 xs1 : Vec F S1x128 .f32) :
    sout6_B_0 c i arg1 harg1 arg2 harg2 arg3 harg3 arg4 harg4 arg5 harg5 arg6 harg6 arg7 harg7 arg8 harg8 hc0 hc1 x0 x1 x2 xs0 xs1 = k6_pay4 x0 x1 x2 xs0 := by
  unfold sout6_B_0
  rw [View.read_writes_eq_canon _ _ _ (scover6_B_0 c i arg1 harg1 arg2 harg2 arg3 harg3 arg4 harg4 arg5 harg5 arg6 harg6 arg7 harg7 arg8 harg8 hc0 hc1 x0 x1 x2 xs0 xs1)]
  unfold kernelRun6_B
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutB_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S128 .f32) (xs0 xs1 : Vec F S1x128 .f32) :
    sout6_B_1 c i arg1 harg1 arg2 harg2 arg3 harg3 arg4 harg4 arg5 harg5 arg6 harg6 arg7 harg7 arg8 harg8 hc0 hc1 x0 x1 x2 xs0 xs1 = k6_pay5 x0 x1 x2 xs1 := by
  unfold sout6_B_1
  rw [View.read_writes_eq_canon _ _ _ (scover6_B_1 c i arg1 harg1 arg2 harg2 arg3 harg3 arg4 harg4 arg5 harg5 arg6 harg6 arg7 harg7 arg8 harg8 hc0 hc1 x0 x1 x2 xs0 xs1)]
  unfold kernelRun6_B
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_outC_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 xs1 : Vec F S1x128 .f32) :
    out6_C_3 c i arg1 harg1 arg2 harg2 arg3 harg3 arg4 harg4 arg5 harg5 arg6 harg6 arg7 harg7 arg8 harg8 hc0 hc1 x0 x1 x2 xs0 xs1 = k6_pay1 x0 x1 x2 := by
  unfold out6_C_3
  rw [View.read_writes_eq_canon _ _ _ (cover6_C_3 c i arg1 harg1 arg2 harg2 arg3 harg3 arg4 harg4 arg5 harg5 arg6 harg6 arg7 harg7 arg8 harg8 hc0 hc1 x0 x1 x2 xs0 xs1)]
  unfold kernelRun6_C
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_outC_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 xs1 : Vec F S1x128 .f32) :
    out6_C_4 c i arg1 harg1 arg2 harg2 arg3 harg3 arg4 harg4 arg5 harg5 arg6 harg6 arg7 harg7 arg8 harg8 hc0 hc1 x0 x1 x2 xs0 xs1 = k6_pay4 x0 x1 x2 xs0 := by
  unfold out6_C_4
  rw [View.read_writes_eq_canon _ _ _ (cover6_C_4 c i arg1 harg1 arg2 harg2 arg3 harg3 arg4 harg4 arg5 harg5 arg6 harg6 arg7 harg7 arg8 harg8 hc0 hc1 x0 x1 x2 xs0 xs1)]
  unfold kernelRun6_C
  dsimp only
  try sl_unfold_words
  rw [View.canon_unit_zero hz2_6, View.readCov_unit_zero (S := S1x128) _ hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_outC_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 xs1 : Vec F S1x128 .f32) :
    out6_C_5 c i arg1 harg1 arg2 harg2 arg3 harg3 arg4 harg4 arg5 harg5 arg6 harg6 arg7 harg7 arg8 harg8 hc0 hc1 x0 x1 x2 xs0 xs1 = k6_pay5 x0 x1 x2 xs1 := by
  unfold out6_C_5
  rw [View.read_writes_eq_canon _ _ _ (cover6_C_5 c i arg1 harg1 arg2 harg2 arg3 harg3 arg4 harg4 arg5 harg5 arg6 harg6 arg7 harg7 arg8 harg8 hc0 hc1 x0 x1 x2 xs0 xs1)]
  unfold kernelRun6_C
  dsimp only
  try sl_unfold_words
  rw [View.canon_unit_zero hz2_6, View.readCov_unit_zero (S := S1x128) _ hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutC_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 xs1 : Vec F S1x128 .f32) :
    sout6_C_0 c i arg1 harg1 arg2 harg2 arg3 harg3 arg4 harg4 arg5 harg5 arg6 harg6 arg7 harg7 arg8 harg8 hc0 hc1 x0 x1 x2 xs0 xs1 = k6_pay4 x0 x1 x2 xs0 := by
  unfold sout6_C_0
  rw [View.read_writes_eq_canon _ _ _ (scover6_C_0 c i arg1 harg1 arg2 harg2 arg3 harg3 arg4 harg4 arg5 harg5 arg6 harg6 arg7 harg7 arg8 harg8 hc0 hc1 x0 x1 x2 xs0 xs1)]
  unfold kernelRun6_C
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

theorem pc6_soutC_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S128 .f32) (xs0 xs1 : Vec F S1x128 .f32) :
    sout6_C_1 c i arg1 harg1 arg2 harg2 arg3 harg3 arg4 harg4 arg5 harg5 arg6 harg6 arg7 harg7 arg8 harg8 hc0 hc1 x0 x1 x2 xs0 xs1 = k6_pay5 x0 x1 x2 xs1 := by
  unfold sout6_C_1
  rw [View.read_writes_eq_canon _ _ _ (scover6_C_1 c i arg1 harg1 arg2 harg2 arg3 harg3 arg4 harg4 arg5 harg5 arg6 harg6 arg7 harg7 arg8 harg8 hc0 hc1 x0 x1 x2 xs0 xs1)]
  unfold kernelRun6_C
  dsimp only
  try sl_unfold_words
  rw [View.canon_unit_zero hz2_6]
  simp only [View.readAt_eq_ld, harg1.read_unread, harg2.read_unread, harg3.read_unread, harg7.read_unread, harg8.read_unread, View.ld_unit_zero (S := S5000x128) hz2_6, View.ld_unit_zero (S := S128x128) hz2_6, View.ld_unit_zero (S := S128) hz1_6, View.ld_unit_zero (S := S1x128) hz2_6]

end Cert.KernelIdeal.Hand

end
-- ==== Proof.KI.Pay6.lean ====
/-
  Region 6's arithmetic at an entry, on the extended reals.

  The body of a layer's first region stores three things from a block of 5000 rows: the block
  max(rows · weights + bias, 0) itself, and two running rows — the column sums of that block and the column sums of
  its squares, each added onto what the row held, each started from zero. Here every stored value is read at one
  entry: the block at (p, q) as a row-by-column sum, the two starting rows as zero, and the two running rows at
  column q as what they held plus a sum over the block's 5000 rows.
-/
import proofs.«121608_j10213432229998_1_alg».proof.Proof.Gen.KernelIdeal.Skeleton
import proofs.«121608_j10213432229998_1_alg».proof.Proof.Alg.Ker
import proofs.«121608_j10213432229998_1_alg».proof.Proof.LibDenseLayers
import proofs.«121608_j10213432229998_1_alg».proof.Proof.LibColSum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Entry (p, q) of the block the body stores first: row p of the rows against column q of the weights, plus the bias
    at q, or zero if that is larger. -/
theorem pay6_1_apply (x0 : FVec Ideal S5000x128 .f32) (x1 : FVec Ideal S128x128 .f32) (x2 : FVec Ideal S128 .f32)
    (p : Fin 5000) (q : Fin 128) :
    k6_pay1 x0 x1 x2 (ix2 p q) = max ((∑ k : Fin 128, x0 (ix2 p k) * x1 (ix2 k q)) + x2 (ix1 q)) 0 := by
  unfold k6_pay1
  refine (Cert.Gcn.kernelBiasRelu_apply _ (shapeCast S128 x2 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x2 (ix1 q)) 0) ?_
  exact Cert.Gcn.kernelProduct_apply dot_S5000x128_S128x128_S5000x128_1_0_0_1_n_n_wf bitsLt_bf16_f32 x0 x1 p q

/-- The row of column sums starts at zero, -/
theorem pay6_2_apply (q : Fin 128) : (k6_pay2 (F := Ideal)) (ix2 (0 : Fin 1) q) = 0 := by
  unfold k6_pay2
  simp only [shapeCast_self]
  exact Ideal.ofBits_zero_f32

/-- and so does the row of column sums of squares. -/
theorem pay6_3_apply (q : Fin 128) : (k6_pay3 (F := Ideal)) (ix2 (0 : Fin 1) q) = 0 := by
  unfold k6_pay3
  simp only [shapeCast_self]
  exact Ideal.ofBits_zero_f32

/-- The running row of column sums after a block: what it held plus the sum of the block's column q. -/
theorem pay6_4_apply (x0 : FVec Ideal S5000x128 .f32) (x1 : FVec Ideal S128x128 .f32) (x2 : FVec Ideal S128 .f32)
    (v : FVec Ideal S1x128 .f32) (q : Fin 128) :
    k6_pay4 x0 x1 x2 v (ix2 (0 : Fin 1) q) = v (ix2 (0 : Fin 1) q) + ∑ r : Fin 5000, k6_pay1 x0 x1 x2 (ix2 r q) := by
  unfold k6_pay4
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact Cert.Lib.multiReduction_add_cols (k6_pay1 x0 x1 x2) _ _ _ _ q

/-- The running row of column sums of squares after a block: what it held plus the sum of the squares of the block's
    column q. -/
theorem pay6_5_apply (x0 : FVec Ideal S5000x128 .f32) (x1 : FVec Ideal S128x128 .f32) (x2 : FVec Ideal S128 .f32)
    (v : FVec Ideal S1x128 .f32) (q : Fin 128) :
    k6_pay5 x0 x1 x2 v (ix2 (0 : Fin 1) q)
      = v (ix2 (0 : Fin 1) q) + ∑ r : Fin 5000, k6_pay1 x0 x1 x2 (ix2 r q) * k6_pay1 x0 x1 x2 (ix2 r q) := by
  unfold k6_pay5
  simp only [shapeCast_self]
  show v (ix2 (0 : Fin 1) q) + shapeCast S1x128 _ shapeCasts_S128_S1x128 (ix2 (0 : Fin 1) q) = _
  rw [shapeCast_a_1a_apply]
  refine congrArg (v (ix2 (0 : Fin 1) q) + ·) ?_
  exact (Cert.Lib.multiReduction_add_cols (mulf (k6_pay1 x0 x1 x2) (k6_pay1 x0 x1 x2)) _ _ _ _ q).trans
    (Finset.sum_congr rfl fun _ _ => rfl)

end Cert.KernelIdeal.Hand

end
-- ==== Proof.KI.Val6.lean ====
/-
  Region 6, from blocks to the arrays. After the region its first output array holds
  max(rows · weights + bias, 0) over all 50000 rows: point t writes back rows 5000 t … 5000 t + 4999, and
  the ten blocks tile the rows. The two running sums start at zero and gain one block's column sums per
  point, so after the last point they are the column sums over all 50000 rows (of the entries, and of their
  squares): ten blocks of 5000 rows are one sum over 50000 rows. The last point copies them to the two
  statistics arrays, whose only block is the whole array.
-/
import proofs.«121608_j10213432229998_1_alg».proof.Proof.KI.Pieces6
import proofs.«121608_j10213432229998_1_alg».proof.Proof.KI.Pay6
import proofs.«121608_j10213432229998_1_alg».proof.Proof.Alg.Ker
import proofs.«121608_j10213432229998_1_alg».proof.Proof.LibBlockSum
import proofs.«121608_j10213432229998_1_alg».proof.Proof.LibAccum
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem cfgN6 : cfg6.N = 10 := N_6

/-! ## The blocks the body reads -/

/-- The index maps over the ten points: the rows and the first output move one block per point; the weights, the bias
    and the two statistics arrays stay at their only block. -/
theorem blockIndex6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Row r of the rows' block at point t is row 5000 t + r of the array. -/
theorem rowsBlock6_apply (c : Dev nD) (t : Fin cfg6.N) (y : S5000x128.Idx) (i : S50000x128.Idx)
    (h0 : (i 0).val = 5000 * t.val + (y 0).val) (h1 : (i 1).val = (y 1).val) :
    (iblk6 V c 0 t : Vec Ideal S5000x128 .f32) y = (V c main_v131 : S50000x128.Idx → EReal) i := by
  obtain ⟨e0, e1, -⟩ := blockIndex6 t
  show V c main_v131 (((cfg6.win 0).blk t).view.emb y) = V c main_v131 i
  refine congrArg _ (funext fun a => Fin.ext ?_)
  match a with
  | ⟨0, _⟩ => show win6_0.index t (0 : Fin 2) * 5000 + 1 * (y 0).val = (i 0).val; rw [e0, h0]; omega
  | ⟨1, _⟩ => show win6_0.index t (1 : Fin 2) * 128 + 1 * (y 1).val = (i 1).val; rw [e1, h1]; omega

/-- The weights' block is the whole array, at every point, -/
theorem weightsBlock6_eq (c : Dev nD) (t : Fin cfg6.N) :
    (iblk6 V c 1 t : Vec Ideal S128x128 .f32) = (V c main_v133 : S128x128.Idx → EReal) := by
  obtain ⟨-, -, e0, e1, -⟩ := blockIndex6 t
  funext y
  show V c main_v133 (((cfg6.win 1).blk t).view.emb y) = V c main_v133 y
  refine congrArg _ (funext fun a => Fin.ext ?_)
  match a with
  | ⟨0, _⟩ => show win6_1.index t (0 : Fin 2) * 128 + 1 * (y 0).val = (y 0).val; rw [e0]; omega
  | ⟨1, _⟩ => show win6_1.index t (1 : Fin 2) * 128 + 1 * (y 1).val = (y 1).val; rw [e1]; omega

/-- and so is the bias's. -/
theorem biasBlock6_eq (c : Dev nD) (t : Fin cfg6.N) :
    (iblk6 V c 2 t : Vec Ideal S128 .f32) = (V c main_v135 : S128.Idx → EReal) := by
  obtain ⟨-, -, -, -, e0, -⟩ := blockIndex6 t
  funext y
  show V c main_v135 (((cfg6.win 2).blk t).view.emb y) = V c main_v135 y
  refine congrArg _ (funext fun a => Fin.ext ?_)
  match a with
  | ⟨0, _⟩ => show win6_2.index t (0 : Fin 1) * 128 + 1 * (y 0).val = (y 0).val; rw [e0]; omega

/-- Entry (r, q) of the body's block result at point t is entry (5000 t + r, q) of max(rows · weights + bias, 0). -/
theorem blockEntry6 (c : Dev nD) (t : Fin cfg6.N) (r : Fin 5000) (q : Fin 128) (i : Fin 50000) (h0 : i.val = 5000 * t.val + r.val) :
    k6_pay1 (iblk6 V c 0 t) (iblk6 V c 1 t) (iblk6 V c 2 t) (ix2 r q) = Cert.Gin.Ker.denseAt (V c main_v131) (V c main_v133) (V c main_v135) i q := by
  rw [weightsBlock6_eq, biasBlock6_eq, pay6_1_apply]
  unfold Cert.Gin.Ker.denseAt
  refine congrArg (fun s => max (s + _) 0) (Finset.sum_congr rfl fun k _ => ?_)
  rw [rowsBlock6_apply V c t (ix2 r k) (ix2 i k) h0 rfl]

/-! ## What each buffer holds after each point -/

-- the runs' found pieces stay folded here: each is used only through its equation
attribute [local irreducible] out6_A_3 sout6_A_0 sout6_A_1 out6_B_3 sout6_B_0 sout6_B_1 out6_C_3 out6_C_4 out6_C_5 sout6_C_0 sout6_C_1

set_option maxHeartbeats 1000000 in
/-- After every point the first output's buffer holds the block's result. -/
theorem outs6_3 (c : Dev nD) (t : Fin cfg6.N) :
    (outsAt6 V c t.val t.isLt).1 = k6_pay1 (iblk6 V c 0 t) (iblk6 V c 1 t) (iblk6 V c 2 t) := by
  have hN : t.val < 10 := lt_of_lt_of_eq t.isLt (show cfg6.N = 10 from N_6)
  by_cases h1 : t.val % 10 = 9
  · have h0 : ¬t.val % 10 = 0 := by omega
    rw [outsAt6_C V c t h0 h1]
    exact pc6_outC_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2
  · by_cases h0 : t.val % 10 = 0
    · rw [outsAt6_A V c t h0 h1]
      exact pc6_outA_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)
    · rw [outsAt6_B V c t h0 h1]
      exact pc6_outB_3 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2

set_option maxHeartbeats 1000000 in
/-- The running sum of the columns after the first point: zero plus the first block's sums. -/
theorem sum6_first (c : Dev nD) (t : Fin cfg6.N) (h0 : t.val % 10 = 0) (h1 : ¬t.val % 10 = 9) :
    (outsAt6 V c t.val t.isLt).2.2.2.1 = k6_pay4 (iblk6 V c 0 t) (iblk6 V c 1 t) (iblk6 V c 2 t) (k6_pay2 (F := Ideal))
    ∧ (outsAt6 V c t.val t.isLt).2.2.2.2 = k6_pay5 (iblk6 V c 0 t) (iblk6 V c 1 t) (iblk6 V c 2 t) (k6_pay3 (F := Ideal)) := by
  rw [outsAt6_A V c t h0 h1]
  exact ⟨pc6_soutA_0 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), pc6_soutA_1 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)⟩

set_option maxHeartbeats 1000000 in
/-- After a later point: what the point before left plus this block's sums. -/
theorem sum6_next (c : Dev nD) (t : Fin cfg6.N) (h0 : ¬t.val % 10 = 0) :
    (outsAt6 V c t.val t.isLt).2.2.2.1 = k6_pay4 (iblk6 V c 0 t) (iblk6 V c 1 t) (iblk6 V c 2 t) (outsAt6 V c (t.val - 1) (Nat.lt_of_le_of_lt (Nat.sub_le _ _) t.isLt)).2.2.2.1
    ∧ (outsAt6 V c t.val t.isLt).2.2.2.2 = k6_pay5 (iblk6 V c 0 t) (iblk6 V c 1 t) (iblk6 V c 2 t) (outsAt6 V c (t.val - 1) (Nat.lt_of_le_of_lt (Nat.sub_le _ _) t.isLt)).2.2.2.2 := by
  by_cases h1 : t.val % 10 = 9
  · rw [outsAt6_C V c t h0 h1]
    exact ⟨pc6_soutC_0 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, pc6_soutC_1 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2⟩
  · rw [outsAt6_B V c t h0 h1]
    exact ⟨pc6_soutB_0 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, pc6_soutB_1 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2⟩

set_option maxHeartbeats 1000000 in
/-- At the last point the two statistics windows receive the running sums. -/
theorem stats6_last (c : Dev nD) (t : Fin cfg6.N) (h0 : ¬t.val % 10 = 0) (h1 : t.val % 10 = 9) :
    (outsAt6 V c t.val t.isLt).2.1 = k6_pay4 (iblk6 V c 0 t) (iblk6 V c 1 t) (iblk6 V c 2 t) (outsAt6 V c (t.val - 1) (Nat.lt_of_le_of_lt (Nat.sub_le _ _) t.isLt)).2.2.2.1
    ∧ (outsAt6 V c t.val t.isLt).2.2.1 = k6_pay5 (iblk6 V c 0 t) (iblk6 V c 1 t) (iblk6 V c 2 t) (outsAt6 V c (t.val - 1) (Nat.lt_of_le_of_lt (Nat.sub_le _ _) t.isLt)).2.2.2.2 := by
  rw [outsAt6_C V c t h0 h1]
  exact ⟨pc6_outC_4 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2, pc6_outC_5 (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2⟩

/-! ## The running sums are the sums over the blocks so far -/

/-- Block K's column sums of max(rows · weights + bias, 0), and of its squares. -/
def tile6 (c : Dev nD) (q : Fin 128) (K : ℕ) : EReal :=
  if h : K < cfg6.N then ∑ r : Fin 5000, k6_pay1 (iblk6 V c 0 ⟨K, h⟩) (iblk6 V c 1 ⟨K, h⟩) (iblk6 V c 2 ⟨K, h⟩) (ix2 r q) else 0
def tileSq6 (c : Dev nD) (q : Fin 128) (K : ℕ) : EReal :=
  if h : K < cfg6.N then ∑ r : Fin 5000, k6_pay1 (iblk6 V c 0 ⟨K, h⟩) (iblk6 V c 1 ⟨K, h⟩) (iblk6 V c 2 ⟨K, h⟩) (ix2 r q) * k6_pay1 (iblk6 V c 0 ⟨K, h⟩) (iblk6 V c 1 ⟨K, h⟩) (iblk6 V c 2 ⟨K, h⟩) (ix2 r q) else 0
/-- The running sums after position n, at column q. -/
def acc6 (c : Dev nD) (q : Fin 128) (n : ℕ) : EReal :=
  if h : n < cfg6.N then (outsAt6 V c n h).2.2.2.1 (ix2 (0 : Fin 1) q) else 0
def accSq6 (c : Dev nD) (q : Fin 128) (n : ℕ) : EReal :=
  if h : n < cfg6.N then (outsAt6 V c n h).2.2.2.2 (ix2 (0 : Fin 1) q) else 0

theorem acc6_at (c : Dev nD) (q : Fin 128) (n : ℕ) (h : n < cfg6.N) :
    acc6 V c q n = (outsAt6 V c n h).2.2.2.1 (ix2 (0 : Fin 1) q) := by unfold acc6; rw [dif_pos h]
theorem accSq6_at (c : Dev nD) (q : Fin 128) (n : ℕ) (h : n < cfg6.N) :
    accSq6 V c q n = (outsAt6 V c n h).2.2.2.2 (ix2 (0 : Fin 1) q) := by unfold accSq6; rw [dif_pos h]

theorem acc6_zero (c : Dev nD) (q : Fin 128) : acc6 V c q 0 = 0 + tile6 V c q 0 ∧ accSq6 V c q 0 = 0 + tileSq6 V c q 0 := by
  have h : 0 < cfg6.N := by rw [cfgN6]; decide
  obtain ⟨e0, e1⟩ := sum6_first V c ⟨0, h⟩ rfl (by show ¬(0 : ℕ) % 10 = 9; decide)
  unfold acc6 accSq6 tile6 tileSq6
  rw [dif_pos h, dif_pos h, dif_pos h, dif_pos h, e0, e1, pay6_4_apply, pay6_5_apply, pay6_2_apply, pay6_3_apply]
  exact ⟨rfl, rfl⟩

theorem acc6_succ (c : Dev nD) (q : Fin 128) (J : ℕ) (hJ : J + 1 < 10) :
    acc6 V c q (J + 1) = acc6 V c q J + tile6 V c q (J + 1) ∧ accSq6 V c q (J + 1) = accSq6 V c q J + tileSq6 V c q (J + 1) := by
  have h : J + 1 < cfg6.N := by rw [cfgN6]; exact hJ
  have h' : J < cfg6.N := Nat.lt_of_succ_lt h
  obtain ⟨e0, e1⟩ := sum6_next V c ⟨J + 1, h⟩ (by show ¬(J + 1) % 10 = 0; omega)
  unfold acc6 accSq6 tile6 tileSq6
  rw [dif_pos h, dif_pos h, dif_pos h, dif_pos h, dif_pos h', dif_pos h', e0, e1, pay6_4_apply, pay6_5_apply]
  exact ⟨rfl, rfl⟩

/-- After position J the running sums are the sums of the blocks 0 … J. -/
theorem acc6_eq (c : Dev nD) (q : Fin 128) (J : ℕ) (hJ : J < 10) :
    acc6 V c q J = ∑ K ∈ Finset.range (J + 1), tile6 V c q K ∧ accSq6 V c q J = ∑ K ∈ Finset.range (J + 1), tileSq6 V c q K :=
  ⟨Cert.Lib.accum_range (acc6 V c q) (tile6 V c q) 10 (acc6_zero V c q).1 (fun J h => (acc6_succ V c q J h).1) J hJ,
   Cert.Lib.accum_range (accSq6 V c q) (tileSq6 V c q) 10 (acc6_zero V c q).2 (fun J h => (acc6_succ V c q J h).2) J hJ⟩

/-- A sum over 50000 rows is the sum over ten blocks of the sums over the block's 5000 rows. -/
theorem rows6_split (f : Fin 50000 → EReal) :
    ∑ r : Fin 50000, f r = ∑ d : Fin 10, ∑ j : Fin 5000, f (⟨j.val + 5000 * d.val, by have := j.isLt; have := d.isLt; omega⟩ : Fin 50000) :=
  (Cert.Lib.sum_blocks 10 5000 (fun k : Fin (10 * 5000) => f ⟨k.val, k.isLt⟩)).trans
    (Finset.sum_congr rfl fun d _ => Finset.sum_congr rfl fun j _ => rfl)

set_option maxHeartbeats 1000000 in
/-- Ten blocks of 5000 rows are the 50000 rows. -/
theorem tiles6_sum (c : Dev nD) (q : Fin 128) :
    ∑ K ∈ Finset.range 10, tile6 V c q K = ∑ r : Fin 50000, Cert.Gin.Ker.pre (V c main_v131) (V c main_v133) (V c main_v135) (ix2 r q)
    ∧ ∑ K ∈ Finset.range 10, tileSq6 V c q K = ∑ r : Fin 50000, Cert.Gin.Ker.pre (V c main_v131) (V c main_v133) (V c main_v135) (ix2 r q) * Cert.Gin.Ker.pre (V c main_v131) (V c main_v133) (V c main_v135) (ix2 r q) := by
  have hN : cfg6.N = 10 := cfgN6
  have key : ∀ (d : Fin 10) (r : Fin 5000), k6_pay1 (iblk6 V c 0 ⟨d.val, by rw [hN]; exact d.isLt⟩) (iblk6 V c 1 ⟨d.val, by rw [hN]; exact d.isLt⟩) (iblk6 V c 2 ⟨d.val, by rw [hN]; exact d.isLt⟩) (ix2 r q)
      = Cert.Gin.Ker.pre (V c main_v131) (V c main_v133) (V c main_v135) (ix2 (⟨r.val + 5000 * d.val, by have := r.isLt; have := d.isLt; omega⟩ : Fin 50000) q) := fun d r =>
    blockEntry6 V c ⟨d.val, by rw [hN]; exact d.isLt⟩ r q ⟨r.val + 5000 * d.val, by have := r.isLt; have := d.isLt; omega⟩
      (by show r.val + 5000 * d.val = 5000 * d.val + r.val; omega)
  constructor
  · rw [Finset.sum_range]
    refine Eq.trans ?_ (rows6_split (fun r => Cert.Gin.Ker.pre (V c main_v131) (V c main_v133) (V c main_v135) (ix2 r q))).symm
    refine Finset.sum_congr rfl fun d _ => ?_
    unfold tile6
    rw [dif_pos (show d.val < cfg6.N by rw [hN]; exact d.isLt)]
    exact Finset.sum_congr rfl fun r _ => key d r
  · rw [Finset.sum_range]
    refine Eq.trans ?_ (rows6_split (fun r => Cert.Gin.Ker.pre (V c main_v131) (V c main_v133) (V c main_v135) (ix2 r q) * Cert.Gin.Ker.pre (V c main_v131) (V c main_v133) (V c main_v135) (ix2 r q))).symm
    refine Finset.sum_congr rfl fun d _ => ?_
    unfold tileSq6
    rw [dif_pos (show d.val < cfg6.N by rw [hN]; exact d.isLt)]
    exact Finset.sum_congr rfl fun r _ => by rw [key d r]

/-- What the two statistics windows' buffers hold after the last point: the column sums over all rows. -/
theorem stats6_final (c : Dev nD) (t : Fin cfg6.N) (h1 : t.val % 10 = 9) :
    (outsAt6 V c t.val t.isLt).2.1 = Cert.Gin.Ker.colSum (Cert.Gin.Ker.pre (V c main_v131) (V c main_v133) (V c main_v135))
    ∧ (outsAt6 V c t.val t.isLt).2.2.1 = Cert.Gin.Ker.colSumSq (Cert.Gin.Ker.pre (V c main_v131) (V c main_v133) (V c main_v135)) := by
  have hN : t.val < 10 := lt_of_lt_of_eq t.isLt (show cfg6.N = 10 from N_6)
  have h9 : t.val = 9 := by omega
  obtain ⟨e0, e1⟩ := stats6_last V c t (by omega) h1
  have h8 : t.val - 1 < cfg6.N := Nat.lt_of_le_of_lt (Nat.sub_le _ _) t.isLt
  constructor
  · rw [e0]; funext j
    obtain ⟨z, q, rfl⟩ : ∃ (z : Fin 1) (q : Fin 128), j = ix2 z q := ⟨j 0, j 1, eq_ix2 j⟩
    obtain rfl : z = 0 := Subsingleton.elim _ _
    rw [pay6_4_apply]
    show _ = ∑ r : Fin 50000, Cert.Gin.Ker.pre (V c main_v131) (V c main_v133) (V c main_v135) (ix2 r q)
    rw [← (tiles6_sum V c q).1, Finset.sum_range_succ, ← (acc6_eq V c q 8 (by decide)).1]
    have ha : acc6 V c q 8 = (outsAt6 V c (t.val - 1) h8).2.2.2.1 (ix2 (0 : Fin 1) q) := by
      have e8 : (8 : ℕ) = t.val - 1 := by omega
      rw [e8]; exact acc6_at V c q (t.val - 1) h8
    have hb : tile6 V c q 9 = ∑ r : Fin 5000, k6_pay1 (iblk6 V c 0 t) (iblk6 V c 1 t) (iblk6 V c 2 t) (ix2 r q) := by
      unfold tile6; rw [dif_pos (show 9 < cfg6.N by rw [cfgN6]; decide)]
      have : (⟨9, by rw [cfgN6]; decide⟩ : Fin cfg6.N) = t := Fin.ext h9.symm
      rw [this]
    rw [ha, hb]
  · rw [e1]; funext j
    obtain ⟨z, q, rfl⟩ : ∃ (z : Fin 1) (q : Fin 128), j = ix2 z q := ⟨j 0, j 1, eq_ix2 j⟩
    obtain rfl : z = 0 := Subsingleton.elim _ _
    rw [pay6_5_apply]
    show _ = ∑ r : Fin 50000, Cert.Gin.Ker.pre (V c main_v131) (V c main_v133) (V c main_v135) (ix2 r q) * Cert.Gin.Ker.pre (V c main_v131) (V c main_v133) (V c main_v135) (ix2 r q)
    rw [← (tiles6_sum V c q).2, Finset.sum_range_succ, ← (acc6_eq V c q 8 (by decide)).2]
    have ha : accSq6 V c q 8 = (outsAt6 V c (t.val - 1) h8).2.2.2.2 (ix2 (0 : Fin 1) q) := by
      have e8 : (8 : ℕ) = t.val - 1 := by omega
      rw [e8]; exact accSq6_at V c q (t.val - 1) h8
    have hb : tileSq6 V c q 9 = ∑ r : Fin 5000, k6_pay1 (iblk6 V c 0 t) (iblk6 V c 1 t) (iblk6 V c 2 t) (ix2 r q) * k6_pay1 (iblk6 V c 0 t) (iblk6 V c 1 t) (iblk6 V c 2 t) (ix2 r q) := by
      unfold tileSq6; rw [dif_pos (show 9 < cfg6.N by rw [cfgN6]; decide)]
      have : (⟨9, by rw [cfgN6]; decide⟩ : Fin cfg6.N) = t := Fin.ext h9.symm
      rw [this]
    rw [ha, hb]

/-! ## What the points write back, and the arrays after the region -/

/-- What point t writes back to the first output array is block t of max(rows · weights + bias, 0). -/
theorem flushed6_3_eq (c : Dev nD) (t : Fin cfg6.N) :
    (dat6 V c).flushed 3 t = ((cfg6.win 3).blk t).view.read (Elt Ideal) (Cert.Gin.Ker.pre (V c main_v131) (V c main_v133) (V c main_v135)) := by
  show (cfg6.win 3).cut (grid6.coords t) ((dat6 V c).after 3 t) = _
  rw [after6_3, outs6_3]
  obtain ⟨-, -, -, -, -, e0, e1, -⟩ := blockIndex6 t
  funext j
  obtain ⟨r, q, rfl⟩ : ∃ (r : Fin 5000) (q : Fin 128), j = ix2 r q := ⟨j 0, j 1, eq_ix2 j⟩
  show k6_pay1 (iblk6 V c 0 t) (iblk6 V c 1 t) (iblk6 V c 2 t) (ix2 r q) = Cert.Gin.Ker.pre (V c main_v131) (V c main_v133) (V c main_v135) (((cfg6.win 3).blk t).view.emb (ix2 r q))
  have hi : ((cfg6.win 3).blk t).view.emb (ix2 r q) = (ix2 (⟨5000 * t.val + r.val, by have := lt_of_lt_of_eq t.isLt cfgN6; have := r.isLt; omega⟩ : Fin 50000) q : S50000x128.Idx) := by
    funext a; apply Fin.ext
    match a with
    | ⟨0, _⟩ => show win6_3.index t (0 : Fin 2) * 5000 + 1 * r.val = 5000 * t.val + r.val; rw [e0]; omega
    | ⟨1, _⟩ => show win6_3.index t (1 : Fin 2) * 128 + 1 * q.val = q.val; rw [e1]; omega
  rw [hi]
  exact blockEntry6 V c t r q _ rfl

theorem memBlock6_3 (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole main_v144_0).slice (win6_3.rect t)).set ↔ _
  rw [View.set_slice_whole, Rect.mem_set_unit]
  exact Iff.rfl

theorem covered6_3 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, e0, e1, -⟩ := blockIndex6 t
  have ht : t.val = (i 0).val / 5000 := rfl
  refine ⟨t, flush6_3 t, ?_⟩
  rw [memBlock6_3]
  intro a
  match a with
  | ⟨0, _⟩ =>
    show win6_3.index t (0 : Fin 2) * 5000 ≤ (i 0).val ∧ (i 0).val < win6_3.index t (0 : Fin 2) * 5000 + 5000
    rw [e0, ht]; omega
  | ⟨1, _⟩ =>
    show win6_3.index t (1 : Fin 2) * 128 ≤ (i 1).val ∧ (i 1).val < win6_3.index t (1 : Fin 2) * 128 + 128
    rw [e1]; omega

/-- After the region the first output array holds max(rows · weights + bias, 0) of the arrays as the region finds them. -/
theorem final6_3 (c : Dev nD) : (dat6 V c).arrAt 3 cfg6.N = Cert.Gin.Ker.pre (V c main_v131) (V c main_v133) (V c main_v135) :=
  (dat6 V c).arrAt_eq_of_cover 3 _ (fun t _ => flushed6_3_eq V c t) covered6_3

/-- The one write-back of statistics array 4, at the last point, writes the column sums over all rows. -/
theorem flushed6_4_eq (c : Dev nD) (t : Fin cfg6.N) (hf : (cfg6.win 4).flush t = true) :
    (dat6 V c).flushed 4 t = ((cfg6.win 4).blk t).view.read (Elt Ideal) (Cert.Gin.Ker.colSum (Cert.Gin.Ker.pre (V c main_v131) (V c main_v133) (V c main_v135))) := by
  have h1 : t.val % 10 = 9 := (flush6_4 t).mp hf
  show (cfg6.win 4).cut (grid6.coords t) ((dat6 V c).after 4 t) = _
  rw [after6_4, (stats6_final V c t h1).1]
  obtain ⟨-, -, -, -, -, -, -, e40, e41, e50, e51⟩ := blockIndex6 t
  generalize Cert.Gin.Ker.colSum (Cert.Gin.Ker.pre (V c main_v131) (V c main_v133) (V c main_v135)) = G
  funext j
  have hemb : ((cfg6.win 4).blk t).view.emb j = j := by
    funext a; apply Fin.ext
    match a with
    | ⟨0, _⟩ => show win6_4.index t (0 : Fin 2) * 1 + 1 * (j 0).val = (j 0).val; rw [e40]; omega
    | ⟨1, _⟩ => show win6_4.index t (1 : Fin 2) * 128 + 1 * (j 1).val = (j 1).val; rw [e41]; omega
  show G j = G (((cfg6.win 4).blk t).view.emb j)
  rw [hemb]

theorem covered6_4 (i : S1x128.Idx) :
    ∃ t : Fin cfg6.N, (cfg6.win 4).flush t = true ∧ i ∈ ((cfg6.win 4).blk t).view.set := by
  have hi0 : (i 0).val < 1 := (i 0).isLt
  have hi1 : (i 1).val < 128 := (i 1).isLt
  let t : Fin cfg6.N := ⟨9, by rw [cfgN6]; decide⟩
  obtain ⟨-, -, -, -, -, -, -, e40, e41, e50, e51⟩ := blockIndex6 t
  refine ⟨t, (flush6_4 t).mpr rfl, ?_⟩
  show i ∈ ((View.whole main_v144_1).slice (win6_4.rect t)).set
  rw [View.set_slice_whole, Rect.mem_set_unit]
  intro a
  match a with
  | ⟨0, _⟩ =>
    show win6_4.index t (0 : Fin 2) * 1 ≤ (i 0).val ∧ (i 0).val < win6_4.index t (0 : Fin 2) * 1 + 1
    rw [e40]; omega
  | ⟨1, _⟩ =>
    show win6_4.index t (1 : Fin 2) * 128 ≤ (i 1).val ∧ (i 1).val < win6_4.index t (1 : Fin 2) * 128 + 128
    rw [e41]; omega

theorem final6_4 (c : Dev nD) : (dat6 V c).arrAt 4 cfg6.N = Cert.Gin.Ker.colSum (Cert.Gin.Ker.pre (V c main_v131) (V c main_v133) (V c main_v135)) :=
  (dat6 V c).arrAt_eq_of_cover 4 _ (flushed6_4_eq V c) covered6_4

/-- The one write-back of statistics array 5, at the last point, writes the column sums over all rows. -/
theorem flushed6_5_eq (c : Dev nD) (t : Fin cfg6.N) (hf : (cfg6.win 5).flush t = true) :
    (dat6 V c).flushed 5 t = ((cfg6.win 5).blk t).view.read (Elt Ideal) (Cert.Gin.Ker.colSumSq (Cert.Gin.Ker.pre (V c main_v131) (V c main_v133) (V c main_v135))) := by
  have h1 : t.val % 10 = 9 := (flush6_5 t).mp hf
  show (cfg6.win 5).cut (grid6.coords t) ((dat6 V c).after 5 t) = _
  rw [after6_5, (stats6_final V c t h1).2]
  obtain ⟨-, -, -, -, -, -, -, e40, e41, e50, e51⟩ := blockIndex6 t
  generalize Cert.Gin.Ker.colSumSq (Cert.Gin.Ker.pre (V c main_v131) (V c main_v133) (V c main_v135)) = G
  funext j
  have hemb : ((cfg6.win 5).blk t).view.emb j = j := by
    funext a; apply Fin.ext
    match a with
    | ⟨0, _⟩ => show win6_5.index t (0 : Fin 2) * 1 + 1 * (j 0).val = (j 0).val; rw [e50]; omega
    | ⟨1, _⟩ => show win6_5.index t (1 : Fin 2) * 128 + 1 * (j 1).val = (j 1).val; rw [e51]; omega
  show G j = G (((cfg6.win 5).blk t).view.emb j)
  rw [hemb]

theorem covered6_5 (i : S1x128.Idx) :
    ∃ t : Fin cfg6.N, (cfg6.win 5).flush t = true ∧ i ∈ ((cfg6.win 5).blk t).view.set := by
  have hi0 : (i 0).val < 1 := (i 0).isLt
  have hi1 : (i 1).val < 128 := (i 1).isLt
  let t : Fin cfg6.N := ⟨9, by rw [cfgN6]; decide⟩
  obtain ⟨-, -, -, -, -, -, -, e40, e41, e50, e51⟩ := blockIndex6 t
  refine ⟨t, (flush6_5 t).mpr rfl, ?_⟩
  show i ∈ ((View.whole main_v144_2).slice (win6_5.rect t)).set
  rw [View.set_slice_whole, Rect.mem_set_unit]
  intro a
  match a with
  | ⟨0, _⟩ =>
    show win6_5.index t (0 : Fin 2) * 1 ≤ (i 0).val ∧ (i 0).val < win6_5.index t (0 : Fin 2) * 1 + 1
    rw [e50]; omega
  | ⟨1, _⟩ =>
    show win6_5.index t (1 : Fin 2) * 128 ≤ (i 1).val ∧ (i 1).val < win6_5.index t (1 : Fin 2) * 128 + 128
    rw [e51]; omega

theorem final6_5 (c : Dev nD) : (dat6 V c).arrAt 5 cfg6.N = Cert.Gin.Ker.colSumSq (Cert.Gin.Ker.pre (V c main_v131) (V c main_v133) (V c main_v135)) :=
  (dat6 V c).arrAt_eq_of_cover 5 _ (flushed6_5_eq V c) covered6_5

end Cert.KernelIdeal.Hand

end
-- ==== Proof.KI.Val7.lean ====
/-
  Region 7, from blocks to the array: the second dense step of a layer over all 50000 rows.

  At each of the ten grid points the body stores, over a block of 5000 rows,
  max((rows * scale + shift) · weights + bias, 0) of that block of the input rows and of the whole scale row, shift
  row, weight matrix and bias. Entry (p, q) of a block's result reads row p of the block only, and row p of block t
  is row 5000 t + p of the array; so what point t writes back is block t of ONE function of the five whole arrays.
  The ten blocks tile the 50000 rows — row r lies in block r / 5000 — hence the output array after the region is
  that function of the arrays as the region finds them.
-/
import proofs.«121608_j10213432229998_1_alg».proof.Proof.KI.Reg7
import proofs.«121608_j10213432229998_1_alg».proof.Proof.Alg.Ker
import proofs.«121608_j10213432229998_1_alg».proof.Proof.LibDenseLayers
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- Entry (p, q) of what the body stores: row p of the block, scaled and shifted entry by entry, against column q of
    the weights, plus the bias at q, or zero if that is larger. -/
theorem pay7_apply (x0 : Vec Ideal S5000x128 .f32) (x1 x2 : Vec Ideal S1x128 .f32) (x3 : Vec Ideal S128x128 .f32)
    (x4 : Vec Ideal S128 .f32) (p : Fin 5000) (q : Fin 128) :
    k7_pay1 x0 x1 x2 x3 x4 (ix2 p q)
      = max ((∑ k : Fin 128, (x0 (ix2 p k) * x1 (ix2 (0 : Fin 1) k) + x2 (ix2 (0 : Fin 1) k)) * x3 (ix2 k q))
          + x4 (ix1 q)) 0 := by
  unfold k7_pay1
  refine (Cert.Gcn.kernelBiasRelu_apply _ (shapeCast S128 x4 shapeCasts_S128_S128) shapeCasts_S128_S1x128
    broadcasts_S1x128_S5000x128 p q).trans ?_
  rw [Cert.Gcn.biasRelu_apply, Ideal.ofBits_zero_f32]
  simp only [shapeCast_self]
  refine congrArg (fun s => max (s + x4 (ix1 q)) 0) ?_
  refine (Cert.Gcn.kernelProduct_apply dot_S5000x128_S128x128_S5000x128_1_0_0_1_n_n_wf bitsLt_bf16_f32 _ _ p q).trans ?_
  rw [Cert.Gcn.product_apply]
  refine Finset.sum_congr rfl fun k _ => ?_
  refine congrArg (· * x3 (ix2 k q)) ?_
  show x0 (ix2 p k) * broadcastTo S5000x128 x1 _ (ix2 p k) + broadcastTo S5000x128 x2 _ (ix2 p k) = _
  rw [broadcastTo_1b_ab_apply, broadcastTo_1b_ab_apply]

/-! ## The blocks the body reads -/

variable (V : (c : Dev nD) → (b : Ref sig .tc) → Buf (Elt Ideal) ((c : Thread nD τ).loc b))

theorem zeroOffsets7_2 : (![0, 0] : Fin 2 → Nat) = fun _ => 0 := funext fun a => by fin_cases a <;> rfl
theorem zeroOffsets7_1 : (![0] : Fin 1 → Nat) = fun _ => 0 := funext fun a => by fin_cases a; rfl

/-- The index maps over the ten points: the rows and the output move one block per point, the four parameter arrays
    stay at their only block. -/
theorem blockIndex7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-- Row p of the rows' block at point t is row 5000 t + p of the array. -/
theorem rowsBlock7_apply (c : Dev nD) (t : Fin cfg7.N) (y : S5000x128.Idx) (i : S50000x128.Idx)
    (h0 : (i 0).val = 5000 * t.val + (y 0).val) (h1 : (i 1).val = (y 1).val) :
    (iblk7 V c 0 t : Vec Ideal S5000x128 .f32) y = (V c main_v144_0 : S50000x128.Idx → EReal) i := by
  obtain ⟨e0, e1, -⟩ := blockIndex7 t
  show V c main_v144_0 (((cfg7.win 0).blk t).view.emb y) = V c main_v144_0 i
  refine congrArg _ (funext fun a => Fin.ext ?_)
  match a with
  | ⟨0, _⟩ => show win7_0.index t (0 : Fin 2) * 5000 + 1 * (y 0).val = (i 0).val; rw [e0, h0]; omega
  | ⟨1, _⟩ => show win7_0.index t (1 : Fin 2) * 128 + 1 * (y 1).val = (i 1).val; rw [e1, h1]; omega

/-- The scale row's block is the whole array, at every point. -/
theorem scaleBlock7_eq (c : Dev nD) (t : Fin cfg7.N) :
    (iblk7 V c 1 t : Vec Ideal S1x128 .f32) = (V c main_v155 : S1x128.Idx → EReal) := by
  obtain ⟨-, -, e0, e1, -⟩ := blockIndex7 t
  funext y
  show V c main_v155 (((cfg7.win 1).blk t).view.emb y) = V c main_v155 y
  refine congrArg _ (funext fun a => Fin.ext ?_)
  match a with
  | ⟨0, _⟩ => show win7_1.index t (0 : Fin 2) * 1 + 1 * (y 0).val = (y 0).val; rw [e0]; omega
  | ⟨1, _⟩ => show win7_1.index t (1 : Fin 2) * 128 + 1 * (y 1).val = (y 1).val; rw [e1]; omega

/-- So is the shift row's, -/
theorem shiftBlock7_eq (c : Dev nD) (t : Fin cfg7.N) :
    (iblk7 V c 2 t : Vec Ideal S1x128 .f32) = (V c main_v158 : S1x128.Idx → EReal) := by
  obtain ⟨-, -, -, -, e0, e1, -⟩ := blockIndex7 t
  funext y
  show V c main_v158 (((cfg7.win 2).blk t).view.emb y) = V c main_v158 y
  refine congrArg _ (funext fun a => Fin.ext ?_)
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- the weights', -/
theorem weightsBlock7_eq (c : Dev nD) (t : Fin cfg7.N) :
    (iblk7 V c 3 t : Vec Ideal S128x128 .f32) = (V c main_v141 : S128x128.Idx → EReal) := by
  obtain ⟨-, -, -, -, -, -, e0, e1, -⟩ := blockIndex7 t
  funext y
  show V c main_v141 (((cfg7.win 3).blk t).view.emb y) = V c main_v141 y
  refine congrArg _ (funext fun a => Fin.ext ?_)
  match a with
  | ⟨0, _⟩ => show win7_3.index t (0 : Fin 2) * 128 + 1 * (y 0).val = (y 0).val; rw [e0]; omega
  | ⟨1, _⟩ => show win7_3.index t (1 : Fin 2) * 128 + 1 * (y 1).val = (y 1).val; rw [e1]; omega

/-- and the bias's. -/
theorem biasBlock7_eq (c : Dev nD) (t : Fin cfg7.N) :
    (iblk7 V c 4 t : Vec Ideal S128 .f32) = (V c main_v143 : S128.Idx → EReal) := by
  obtain ⟨-, -, -, -, -, -, -, -, e0, -⟩ := blockIndex7 t
  funext y
  show V c main_v143 (((cfg7.win 4).blk t).view.emb y) = V c main_v143 y
  refine congrArg _ (funext fun a => Fin.ext ?_)
  match a with
  | ⟨0, _⟩ => show win7_4.index t (0 : Fin 1) * 128 + 1 * (y 0).val = (y 0).val; rw [e0]; omega

/-! ## What a point writes back -/

/-- Entry j of the body's result at point t is the whole-array function at the entry of the output array that j is
    written back to: the same row of the input, the same column. -/
theorem blockEntry7 (c : Dev nD) (t : Fin cfg7.N) (j : S5000x128.Idx) (i : S50000x128.Idx)
    (h0 : (i 0).val = 5000 * t.val + (j 0).val) (h1 : (i 1).val = (j 1).val) :
    k7_pay1 (iblk7 V c 0 t) (V c main_v155) (V c main_v158) (V c main_v141) (V c main_v143) j
      = Cert.Gin.Ker.normDense (V c main_v144_0) (V c main_v155) (V c main_v158) (V c main_v141) (V c main_v143) i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  rw [pay7_apply]
  show _ = Cert.Gin.Ker.normDenseAt _ _ _ _ _ r q'
  unfold Cert.Gin.Ker.normDenseAt
  refine congrArg (fun s => max (s + _) 0) (Finset.sum_congr rfl fun k _ => ?_)
  rw [rowsBlock7_apply V c t (ix2 p k) (ix2 r k) h0 rfl]

/-- What point t writes back is block t of the whole-array function of the arrays as the region finds them. -/
theorem flushed7_eq (c : Dev nD) (t : Fin cfg7.N) :
    (dat7 V c).flushed 5 t = ((cfg7.win 5).blk t).view.read (Elt Ideal)
      (Cert.Gin.Ker.normDense (V c main_v144_0) (V c main_v155) (V c main_v158) (V c main_v141) (V c main_v143)) := by
  show (cfg7.win 5).cut (grid7.coords t) ((dat7 V c).after 5 t) = _
  rw [after7_5]
  unfold out7_5
  rw [View.canon_unit_zero zeroOffsets7_2]
  simp only [View.ld_unit_zero (S := S5000x128) zeroOffsets7_2, View.ld_unit_zero (S := S1x128) zeroOffsets7_2,
    View.ld_unit_zero (S := S128x128) zeroOffsets7_2, View.ld_unit_zero (S := S128) zeroOffsets7_1]
  rw [scaleBlock7_eq, shiftBlock7_eq, weightsBlock7_eq, biasBlock7_eq]
  obtain ⟨-, -, -, -, -, -, -, -, -, e0, e1⟩ := blockIndex7 t
  funext j
  refine blockEntry7 V c t j (((cfg7.win 5).blk t).view.emb j) ?_ ?_
  · show win7_5.index t (0 : Fin 2) * 5000 + 1 * (j 0).val = 5000 * t.val + (j 0).val; rw [e0]; omega
  · show win7_5.index t (1 : Fin 2) * 128 + 1 * (j 1).val = (j 1).val; rw [e1]; omega

/-! ## The blocks tile the array -/

/-- An index of the output array is in point t's block iff each coordinate is in the block's range on its axis. -/
theorem memBlock7 (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v159).slice (win7_5.rect t)).set ↔ _
  rw [View.set_slice_whole, Rect.mem_set_unit]
  exact Iff.rfl

/-- Row r of the output lies in the block of point r / 5000. -/
theorem covered7 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  obtain ⟨-, -, -, -, -, -, -, -, -, e0, e1⟩ := blockIndex7 t
  have ht : t.val = (i 0).val / 5000 := rfl
  refine ⟨t, flush7_5 t, ?_⟩
  rw [memBlock7]
  intro a
  match a with
  | ⟨0, _⟩ =>
    show win7_5.index t (0 : Fin 2) * 5000 ≤ (i 0).val ∧ (i 0).val < win7_5.index t (0 : Fin 2) * 5000 + 5000
    rw [e0, ht]; omega
  | ⟨1, _⟩ =>
    show win7_5.index t (1 : Fin 2) * 128 ≤ (i 1).val ∧ (i 1).val < win7_5.index t (1 : Fin 2) * 128 + 128
    rw [e1]; omega

/-! ## The output array after the region -/

/-- After the region the output array holds max((x * scale + shift) · w + b, 0) of the five arrays as the region
    finds them. -/
theorem final7 (c : Dev nD) :
    (dat7 V c).arrAt 5 cfg7.N
      = Cert.Gin.Ker.normDense (V c main_v144_0) (V c main_v155) (V c main_v158) (V c main_v141) (V c main_v143) :=
  (dat7 V c).arrAt_eq_of_cover 5 _ (fun t _ => flushed7_eq V c t) covered7

end Cert.KernelIdeal.Hand

end
-- ==== Proof.KI.Val8.lean ====
/-
  Region 8, from blocks to the array: the read-out over all 50000 rows.

  At each of the ten grid points the body stores, over a block of 5000 rows, one number per row:
  max(row · weights₁ + bias₁, 0) · weights₂ + bias₂, from that block of the input rows and the whole of the two weight
  matrices and the two biases. Entry p of a block's result reads row p of the block only, and row p of block t is row
  5000 t + p of the array; so what point t writes back is block t of ONE function of the five whole arrays. The ten
  blocks tile the 50000 rows — row r lies in block r / 5000 — hence the output array after the region is that
  function of the arrays as the region finds them.
-/
import proofs.«121608_j10213432229998_1_alg».proof.Proof.KI.Reg8
import proofs.«121608_j10213432229998_1_alg».proof.Proof.Alg.Ker
import proofs.«121608_j10213432229998_1_alg».proof.Proof.LibDenseLayers
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's arithmetic at an entry -/

/-- Entry p of what the body stores: the hidden row max(row p · weights₁ + bias₁, 0), entry by entry, against the one
    column of weights₂, plus bias₂. -/
theorem pay8_apply (x0 : Vec Ideal S5000x128 .f32) (x1 : Vec Ideal S128x128 .f32) (x2 : Vec Ideal S128 .f32)
    (x3 : Vec Ideal S128x1 .f32) (x4 : Vec Ideal S1 .f32) (p : Fin 5000) (q : Fin 1) :
    k8_pay1 x0 x1 x2 x3 x4 (ix2 p q)
      = (∑ k : Fin 128, max ((∑ k' : Fin 128, x0 (ix2 p k') * x1 (ix2 k' k)) + x2 (ix1 k)) 0 * x3 (ix2 k q))
          + x4 (ix1 q) := by
  unfold k8_pay1
  refine (Cert.Gcn.kernelAffine_apply dot_S5000x128_S128x1_S5000x1_1_0_0_1_n_n_wf bitsLt_bf16_f32 _ x3 x4
    shapeCasts_S1_S1x1 broadcasts_S1x1_S5000x1 p q).trans ?_
  rw [Cert.Gcn.affine_apply]
  refine congrArg (· + x4 (ix1 q)) (Finset.sum_congr rfl fun k _ => ?_)
  refine congrArg (· * x3 (ix2 k q)) ?_
  refine (Cert.Gcn.kernelBiasRelu_apply _ x2 shapeCasts_S128_S1x128 broadcasts_S1x128_S5000x128 p k).trans ?_
  rw [Cert.Gcn.biasRelu_apply, Ideal.ofBits_zero_f32]
  refine congrArg (fun s => max (s + x2 (ix1 k)) 0) ?_
  simp only [shapeCast_self]
  exact Cert.Gcn.kernelProduct_apply dot_S5000x128_S128x128_S5000x128_1_0_0_1_n_n_wf bitsLt_bf16_f32 x0 x1 p k

/-! ## The blocks the body reads -/

variable (V : (c : Dev nD) → (b : Ref sig .tc) → Buf (Elt Ideal) ((c : Thread nD τ).loc b))

theorem zeroOffsets8_2 : (![0, 0] : Fin 2 → Nat) = fun _ => 0 := funext fun a => by fin_cases a <;> rfl
theorem zeroOffsets8_1 : (![0] : Fin 1 → Nat) = fun _ => 0 := funext fun a => by fin_cases a; rfl

/-- The index maps over the ten points: the rows and the output move one block per point, the four parameter arrays
    stay at their only block. -/
theorem blockIndex8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 :=
  (by decide +kernel : ∀ t : Fin grid8.N, _)

/-- Row p of the rows' block at point t is row 5000 t + p of the array. -/
theorem rowsBlock8_apply (c : Dev nD) (t : Fin cfg8.N) (y : S5000x128.Idx) (i : S50000x128.Idx)
    (h0 : (i 0).val = 5000 * t.val + (y 0).val) (h1 : (i 1).val = (y 1).val) :
    (iblk8 V c 0 t : Vec Ideal S5000x128 .f32) y = (V c main_v159 : S50000x128.Idx → EReal) i := by
  obtain ⟨e0, e1, -⟩ := blockIndex8 t
  show V c main_v159 (((cfg8.win 0).blk t).view.emb y) = V c main_v159 i
  refine congrArg _ (funext fun a => Fin.ext ?_)
  match a with
  | ⟨0, _⟩ => show win8_0.index t (0 : Fin 2) * 5000 + 1 * (y 0).val = (i 0).val; rw [e0, h0]; omega
  | ⟨1, _⟩ => show win8_0.index t (1 : Fin 2) * 128 + 1 * (y 1).val = (i 1).val; rw [e1, h1]; omega

/-- The first weights' block is the whole array, at every point. -/
theorem weightsBlock8_eq (c : Dev nD) (t : Fin cfg8.N) :
    (iblk8 V c 1 t : Vec Ideal S128x128 .f32) = (V c main_arg8 : S128x128.Idx → EReal) := by
  obtain ⟨-, -, e0, e1, -⟩ := blockIndex8 t
  funext y
  show V c main_arg8 (((cfg8.win 1).blk t).view.emb y) = V c main_arg8 y
  refine congrArg _ (funext fun a => Fin.ext ?_)
  match a with
  | ⟨0, _⟩ => show win8_1.index t (0 : Fin 2) * 128 + 1 * (y 0).val = (y 0).val; rw [e0]; omega
  | ⟨1, _⟩ => show win8_1.index t (1 : Fin 2) * 128 + 1 * (y 1).val = (y 1).val; rw [e1]; omega

/-- So is the first bias's, -/
theorem biasBlock8_eq (c : Dev nD) (t : Fin cfg8.N) :
    (iblk8 V c 2 t : Vec Ideal S128 .f32) = (V c main_arg9 : S128.Idx → EReal) := by
  obtain ⟨-, -, -, -, e0, -⟩ := blockIndex8 t
  funext y
  show V c main_arg9 (((cfg8.win 2).blk t).view.emb y) = V c main_arg9 y
  refine congrArg _ (funext fun a => Fin.ext ?_)
  match a with
  | ⟨0, _⟩ => show win8_2.index t (0 : Fin 1) * 128 + 1 * (y 0).val = (y 0).val; rw [e0]; omega

/-- the second weights', -/
theorem outWeightsBlock8_eq (c : Dev nD) (t : Fin cfg8.N) :
    (iblk8 V c 3 t : Vec Ideal S128x1 .f32) = (V c main_arg10 : S128x1.Idx → EReal) := by
  obtain ⟨-, -, -, -, -, e0, e1, -⟩ := blockIndex8 t
  funext y
  show V c main_arg10 (((cfg8.win 3).blk t).view.emb y) = V c main_arg10 y
  refine congrArg _ (funext fun a => Fin.ext ?_)
  match a with
  | ⟨0, _⟩ => show win8_3.index t (0 : Fin 2) * 128 + 1 * (y 0).val = (y 0).val; rw [e0]; omega
  | ⟨1, _⟩ => show win8_3.index t (1 : Fin 2) * 1 + 1 * (y 1).val = (y 1).val; rw [e1]; omega

/-- and the second bias's. -/
theorem outBiasBlock8_eq (c : Dev nD) (t : Fin cfg8.N) :
    (iblk8 V c 4 t : Vec Ideal S1 .f32) = (V c main_arg11 : S1.Idx → EReal) := by
  obtain ⟨-, -, -, -, -, -, -, e0, -⟩ := blockIndex8 t
  funext y
  show V c main_arg11 (((cfg8.win 4).blk t).view.emb y) = V c main_arg11 y
  refine congrArg _ (funext fun a => Fin.ext ?_)
  match a with
  | ⟨0, _⟩ => show win8_4.index t (0 : Fin 1) * 1 + 1 * (y 0).val = (y 0).val; rw [e0]; omega

/-! ## What a point writes back -/

/-- Entry j of the body's result at point t is the whole-array function at the entry of the output array that j is
    written back to: the same row of the input. -/
theorem blockEntry8 (c : Dev nD) (t : Fin cfg8.N) (j : S5000x1.Idx) (i : S50000x1.Idx)
    (h0 : (i 0).val = 5000 * t.val + (j 0).val) :
    k8_pay1 (iblk8 V c 0 t) (V c main_arg8) (V c main_arg9) (V c main_arg10) (V c main_arg11) j
      = Cert.Gin.Ker.readOut (V c main_v159) (V c main_arg8) (V c main_arg9) (V c main_arg10) (V c main_arg11) i := by
  obtain ⟨p, q, rfl⟩ : ∃ (p : Fin 5000) (q : Fin 1), j = ix2 p q := ⟨j 0, j 1, eq_ix2 j⟩
  obtain ⟨r, q', rfl⟩ : ∃ (r : Fin 50000) (q' : Fin 1), i = ix2 r q' := ⟨i 0, i 1, eq_ix2 i⟩
  obtain rfl : q = 0 := Subsingleton.elim _ _
  rw [pay8_apply]
  show _ = Cert.Gin.Ker.readOutAt _ _ _ _ _ r
  unfold Cert.Gin.Ker.readOutAt Cert.Gin.Ker.denseAt
  refine congrArg (· + _) (Finset.sum_congr rfl fun k _ => ?_)
  refine congrArg (fun s => max (s + _) 0 * _) (Finset.sum_congr rfl fun k' _ => ?_)
  rw [rowsBlock8_apply V c t (ix2 p k') (ix2 r k') h0 rfl]

/-- What point t writes back is block t of the whole-array function of the arrays as the region finds them. -/
theorem flushed8_eq (c : Dev nD) (t : Fin cfg8.N) :
    (dat8 V c).flushed 5 t = ((cfg8.win 5).blk t).view.read (Elt Ideal)
      (Cert.Gin.Ker.readOut (V c main_v159) (V c main_arg8) (V c main_arg9) (V c main_arg10) (V c main_arg11)) := by
  show (cfg8.win 5).cut (grid8.coords t) ((dat8 V c).after 5 t) = _
  rw [after8_5]
  unfold out8_5
  rw [View.canon_unit_zero zeroOffsets8_2]
  simp only [View.ld_unit_zero (S := S5000x128) zeroOffsets8_2, View.ld_unit_zero (S := S128x128) zeroOffsets8_2,
    View.ld_unit_zero (S := S128) zeroOffsets8_1, View.ld_unit_zero (S := S128x1) zeroOffsets8_2,
    View.ld_unit_zero (S := S1) zeroOffsets8_1]
  rw [weightsBlock8_eq, biasBlock8_eq, outWeightsBlock8_eq, outBiasBlock8_eq]
  obtain ⟨-, -, -, -, -, -, -, -, e0, e1⟩ := blockIndex8 t
  funext j
  refine blockEntry8 V c t j (((cfg8.win 5).blk t).view.emb j) ?_
  show win8_5.index t (0 : Fin 2) * 5000 + 1 * (j 0).val = 5000 * t.val + (j 0).val; rw [e0]; omega

/-! ## The blocks tile the array -/

/-- An index of the output array is in point t's block iff each coordinate is in the block's range on its axis. -/
theorem memBlock8 (t : Fin cfg8.N) (i : S50000x1.Idx) :
    i ∈ ((cfg8.win 5).blk t).view.set ↔ ∀ a : Fin 2, win8_5.index t a * S5000x1.size a ≤ (i a).val
      ∧ (i a).val < win8_5.index t a * S5000x1.size a + S5000x1.size a := by
  show i ∈ ((View.whole main_v160).slice (win8_5.rect t)).set ↔ _
  rw [View.set_slice_whole, Rect.mem_set_unit]
  exact Iff.rfl

/-- Row r of the output lies in the block of point r / 5000. -/
theorem covered8 (i : S50000x1.Idx) :
    ∃ t : Fin cfg8.N, (cfg8.win 5).flush t = true ∧ i ∈ ((cfg8.win 5).blk t).view.set := by
  have hi0 : (i 0).val < 50000 := (i 0).isLt
  have hi1 : (i 1).val < 1 := (i 1).isLt
  have hN : cfg8.N = 10 := N_8
  let t : Fin cfg8.N := ⟨(i 0).val / 5000, by rw [hN]; omega⟩
  obtain ⟨-, -, -, -, -, -, -, -, e0, e1⟩ := blockIndex8 t
  have ht : t.val = (i 0).val / 5000 := rfl
  refine ⟨t, flush8_5 t, ?_⟩
  rw [memBlock8]
  intro a
  match a with
  | ⟨0, _⟩ =>
    show win8_5.index t (0 : Fin 2) * 5000 ≤ (i 0).val ∧ (i 0).val < win8_5.index t (0 : Fin 2) * 5000 + 5000
    rw [e0, ht]; omega
  | ⟨1, _⟩ =>
    show win8_5.index t (1 : Fin 2) * 1 ≤ (i 1).val ∧ (i 1).val < win8_5.index t (1 : Fin 2) * 1 + 1
    rw [e1]; omega

/-! ## The output array after the region -/

/-- After the region the output array holds max(h · w₁ + b₁, 0) · w₂ + b₂ of the five arrays as the region finds
    them. -/
theorem final8 (c : Dev nD) :
    (dat8 V c).arrAt 5 cfg8.N
      = Cert.Gin.Ker.readOut (V c main_v159) (V c main_arg8) (V c main_arg9) (V c main_arg10) (V c main_arg11) :=
  (dat8 V c).arrAt_eq_of_cover 5 _ (fun t _ => flushed8_eq V c t) covered8

end Cert.KernelIdeal.Hand

end
-- ==== Proof.KI.Chain.lean ====
/-
  The value the idealized kernel program returns: following the buffers from the launch memory through the
  stretches of host operations and the nine regions, the result array ends holding the network of the argument
  arrays — four graph layers (aggregation, dense step with its column statistics, the normalization's scale
  and shift, second dense step), then the read-out.
-/
import proofs.«121608_j10213432229998_1_alg».proof.Proof.KI.Args
import proofs.«121608_j10213432229998_1_alg».proof.Proof.KI.Host
import proofs.«121608_j10213432229998_1_alg».proof.Proof.KI.Val0
import proofs.«121608_j10213432229998_1_alg».proof.Proof.KI.Val1
import proofs.«121608_j10213432229998_1_alg».proof.Proof.KI.Val2
import proofs.«121608_j10213432229998_1_alg».proof.Proof.KI.Val3
import proofs.«121608_j10213432229998_1_alg».proof.Proof.KI.Val4
import proofs.«121608_j10213432229998_1_alg».proof.Proof.KI.Val5
import proofs.«121608_j10213432229998_1_alg».proof.Proof.KI.Val6
import proofs.«121608_j10213432229998_1_alg».proof.Proof.KI.Val7
import proofs.«121608_j10213432229998_1_alg».proof.Proof.KI.Val8

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The inputs of the four layers and of the read-out. -/
def hh0 : FVec Ideal Cert.Gin.Spec.S50000x128 .f32 := (m ((c : Thread nD τ).loc main_arg0))
def hh1 : FVec Ideal Cert.Gin.Spec.S50000x128 .f32 := Cert.Gin.Ker.conv 0 (hh0 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def hh2 : FVec Ideal Cert.Gin.Spec.S50000x128 .f32 := Cert.Gin.Ker.conv 1 (hh1 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def hh3 : FVec Ideal Cert.Gin.Spec.S50000x128 .f32 := Cert.Gin.Ker.conv 2 (hh2 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
def hh4 : FVec Ideal Cert.Gin.Spec.S50000x128 .f32 := Cert.Gin.Ker.conv 3 (hh3 m c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The edge list's two rows are computed once, before the first region, and kept. -/
theorem W1_src : W1 m ρ c (Proc.devRef .tc main_v1) = (Cert.Gin.Spec.src (m ((c : Thread nD τ).loc main_arg1))) := host0_src (W0 m ρ c)
theorem W1_dst : W1 m ρ c (Proc.devRef .tc main_v3) = (Cert.Gin.Spec.dst (m ((c : Thread nD τ).loc main_arg1))) := host0_dst (W0 m ρ c)
theorem W4_src : W4 m ρ c (Proc.devRef .tc main_v1) = (Cert.Gin.Spec.src (m ((c : Thread nD τ).loc main_arg1))) := (((W4_of_ne m ρ c main_v1 (by decide)).trans ((StableHlo.after_of_writes_sub hostOps1 (W2 m ρ c) hostOps1_writes (by decide : main_v1 ∉ hostOps1_W)).trans (W2_of_ne m ρ c main_v1 (by decide))))).trans (W1_src m ρ c)
theorem W4_dst : W4 m ρ c (Proc.devRef .tc main_v3) = (Cert.Gin.Spec.dst (m ((c : Thread nD τ).loc main_arg1))) := (((W4_of_ne m ρ c main_v3 (by decide)).trans ((StableHlo.after_of_writes_sub hostOps1 (W2 m ρ c) hostOps1_writes (by decide : main_v3 ∉ hostOps1_W)).trans (W2_of_ne m ρ c main_v3 (by decide))))).trans (W1_dst m ρ c)
theorem W8_src : W8 m ρ c (Proc.devRef .tc main_v1) = (Cert.Gin.Spec.src (m ((c : Thread nD τ).loc main_arg1))) := (((W8_of_ne m ρ c main_v1 (by decide)).trans ((StableHlo.after_of_writes_sub hostOps3 (W6 m ρ c) hostOps3_writes (by decide : main_v1 ∉ hostOps3_W)).trans ((W6_of_ne m ρ c main_v1 (by decide)).trans (StableHlo.after_of_writes_sub hostOps2 (W4 m ρ c) hostOps2_writes (by decide : main_v1 ∉ hostOps2_W)))))).trans (W4_src m ρ c)
theorem W8_dst : W8 m ρ c (Proc.devRef .tc main_v3) = (Cert.Gin.Spec.dst (m ((c : Thread nD τ).loc main_arg1))) := (((W8_of_ne m ρ c main_v3 (by decide)).trans ((StableHlo.after_of_writes_sub hostOps3 (W6 m ρ c) hostOps3_writes (by decide : main_v3 ∉ hostOps3_W)).trans ((W6_of_ne m ρ c main_v3 (by decide)).trans (StableHlo.after_of_writes_sub hostOps2 (W4 m ρ c) hostOps2_writes (by decide : main_v3 ∉ hostOps2_W)))))).trans (W4_dst m ρ c)
theorem W12_src : W12 m ρ c (Proc.devRef .tc main_v1) = (Cert.Gin.Spec.src (m ((c : Thread nD τ).loc main_arg1))) := (((W12_of_ne m ρ c main_v1 (by decide)).trans ((StableHlo.after_of_writes_sub hostOps5 (W10 m ρ c) hostOps5_writes (by decide : main_v1 ∉ hostOps5_W)).trans ((W10_of_ne m ρ c main_v1 (by decide)).trans (StableHlo.after_of_writes_sub hostOps4 (W8 m ρ c) hostOps4_writes (by decide : main_v1 ∉ hostOps4_W)))))).trans (W8_src m ρ c)
theorem W12_dst : W12 m ρ c (Proc.devRef .tc main_v3) = (Cert.Gin.Spec.dst (m ((c : Thread nD τ).loc main_arg1))) := (((W12_of_ne m ρ c main_v3 (by decide)).trans ((StableHlo.after_of_writes_sub hostOps5 (W10 m ρ c) hostOps5_writes (by decide : main_v3 ∉ hostOps5_W)).trans ((W10_of_ne m ρ c main_v3 (by decide)).trans (StableHlo.after_of_writes_sub hostOps4 (W8 m ρ c) hostOps4_writes (by decide : main_v3 ∉ hostOps4_W)))))).trans (W8_dst m ρ c)

/-- Layer 0: from its input at boundary 0 to its output at boundary 4. -/
theorem layer0_out : W4 m ρ c (Proc.devRef .tc main_v42) = hh1 m c := by
  have e_agg : W1 m ρ c (Proc.devRef .tc main_v14) = Cert.Gin.Spec.aggSD (F := Ideal) (hh0 m c) (Cert.Gin.Spec.src (m ((c : Thread nD τ).loc main_arg1))) (Cert.Gin.Spec.dst (m ((c : Thread nD τ).loc main_arg1))) := by
    exact host0_agg (W0 m ρ c)
  have e_w1 : W1 m ρ c (Proc.devRef .tc main_v16) = Cert.Gin.Spec.sliceMat (F := Ideal) (m ((c : Thread nD τ).loc main_arg2)) 0 := by
    rw [show W1 m ρ c (Proc.devRef .tc main_v16) = _ from host0_w1 (W0 m ρ c)]
  have e_b1 : W1 m ρ c (Proc.devRef .tc main_v18) = Cert.Gin.Spec.sliceVec (F := Ideal) (m ((c : Thread nD τ).loc main_arg3)) 0 := by
    rw [show W1 m ρ c (Proc.devRef .tc main_v18) = _ from host0_b1 (W0 m ρ c)]
  have e_g : W1 m ρ c (Proc.devRef .tc main_v20) = Cert.Gin.Spec.sliceVec (F := Ideal) (m ((c : Thread nD τ).loc main_arg4)) 0 := by
    rw [show W1 m ρ c (Proc.devRef .tc main_v20) = _ from host0_gamma (W0 m ρ c)]
  have e_be : W1 m ρ c (Proc.devRef .tc main_v22) = Cert.Gin.Spec.sliceVec (F := Ideal) (m ((c : Thread nD τ).loc main_arg5)) 0 := by
    rw [show W1 m ρ c (Proc.devRef .tc main_v22) = _ from host0_beta (W0 m ρ c)]
  have e_w2 : W1 m ρ c (Proc.devRef .tc main_v24) = Cert.Gin.Spec.sliceMat (F := Ideal) (m ((c : Thread nD τ).loc main_arg6)) 0 := by
    rw [show W1 m ρ c (Proc.devRef .tc main_v24) = _ from host0_w2 (W0 m ρ c)]
  have e_b2 : W1 m ρ c (Proc.devRef .tc main_v26) = Cert.Gin.Spec.sliceVec (F := Ideal) (m ((c : Thread nD τ).loc main_arg7)) 0 := by
    rw [show W1 m ρ c (Proc.devRef .tc main_v26) = _ from host0_b2 (W0 m ρ c)]
  -- the first region's three output arrays
  have e_o3 : W2 m ρ c (Proc.devRef .tc main_v27_0) = Cert.Gin.Ker.pre (W1 m ρ c (Proc.devRef .tc main_v14)) (W1 m ρ c (Proc.devRef .tc main_v16)) (W1 m ρ c (Proc.devRef .tc main_v18)) :=
    (W2_arr m ρ c 3).trans (final0_3 (X1 m ρ) c)
  have e_s : W2 m ρ c (Proc.devRef .tc main_v27_1) = Cert.Gin.Ker.colSum (Cert.Gin.Ker.pre (W1 m ρ c (Proc.devRef .tc main_v14)) (W1 m ρ c (Proc.devRef .tc main_v16)) (W1 m ρ c (Proc.devRef .tc main_v18))) :=
    (W2_arr m ρ c 4).trans (final0_4 (X1 m ρ) c)
  have e_ss : W2 m ρ c (Proc.devRef .tc main_v27_2) = Cert.Gin.Ker.colSumSq (Cert.Gin.Ker.pre (W1 m ρ c (Proc.devRef .tc main_v14)) (W1 m ρ c (Proc.devRef .tc main_v16)) (W1 m ρ c (Proc.devRef .tc main_v18))) :=
    (W2_arr m ρ c 5).trans (final0_5 (X1 m ρ) c)
  -- the scale and the shift
  have k_g : W2 m ρ c (Proc.devRef .tc main_v20) = W1 m ρ c (Proc.devRef .tc main_v20) := (W2_of_ne m ρ c main_v20 (by decide))
  have k_be : W2 m ρ c (Proc.devRef .tc main_v22) = W1 m ρ c (Proc.devRef .tc main_v22) := (W2_of_ne m ρ c main_v22 (by decide))
  have e_sc : W3 m ρ c (Proc.devRef .tc main_v38) = Cert.Gin.Ker.scaleRow (W2 m ρ c (Proc.devRef .tc main_v27_1)) (W2 m ρ c (Proc.devRef .tc main_v27_2)) (W2 m ρ c (Proc.devRef .tc main_v20)) := host1_scale (W2 m ρ c)
  have e_sh : W3 m ρ c (Proc.devRef .tc main_v41) = Cert.Gin.Ker.shiftRow (W2 m ρ c (Proc.devRef .tc main_v27_1)) (W2 m ρ c (Proc.devRef .tc main_v27_2)) (W2 m ρ c (Proc.devRef .tc main_v20)) (W2 m ρ c (Proc.devRef .tc main_v22)) := host1_shift (W2 m ρ c)
  have k_o3 : W3 m ρ c (Proc.devRef .tc main_v27_0) = W2 m ρ c (Proc.devRef .tc main_v27_0) := (StableHlo.after_of_writes_sub hostOps1 (W2 m ρ c) hostOps1_writes (by decide : main_v27_0 ∉ hostOps1_W))
  have k_w2 : W3 m ρ c (Proc.devRef .tc main_v24) = W1 m ρ c (Proc.devRef .tc main_v24) := ((StableHlo.after_of_writes_sub hostOps1 (W2 m ρ c) hostOps1_writes (by decide : main_v24 ∉ hostOps1_W)).trans (W2_of_ne m ρ c main_v24 (by decide)))
  have k_b2 : W3 m ρ c (Proc.devRef .tc main_v26) = W1 m ρ c (Proc.devRef .tc main_v26) := ((StableHlo.after_of_writes_sub hostOps1 (W2 m ρ c) hostOps1_writes (by decide : main_v26 ∉ hostOps1_W)).trans (W2_of_ne m ρ c main_v26 (by decide)))
  -- the second region's output array
  have e_out : W4 m ρ c (Proc.devRef .tc main_v42) = Cert.Gin.Ker.normDense (W3 m ρ c (Proc.devRef .tc main_v27_0)) (W3 m ρ c (Proc.devRef .tc main_v38)) (W3 m ρ c (Proc.devRef .tc main_v41)) (W3 m ρ c (Proc.devRef .tc main_v24)) (W3 m ρ c (Proc.devRef .tc main_v26)) :=
    (W4_arr m ρ c 5).trans (final1 (X3 m ρ) c)
  rw [e_out, k_o3, e_sc, e_sh, k_w2, k_b2, e_o3, e_s, e_ss, k_g, k_be, e_agg, e_w1, e_b1, e_g, e_be, e_w2, e_b2]
  rfl

/-- Layer 1: from its input at boundary 4 to its output at boundary 8. -/
theorem layer1_out (hin : W4 m ρ c (Proc.devRef .tc main_v42) = hh1 m c) : W8 m ρ c (Proc.devRef .tc main_v81) = hh2 m c := by
  have e_agg : W5 m ρ c (Proc.devRef .tc main_v53) = Cert.Gin.Spec.aggSD (F := Ideal) (hh1 m c) (Cert.Gin.Spec.src (m ((c : Thread nD τ).loc main_arg1))) (Cert.Gin.Spec.dst (m ((c : Thread nD τ).loc main_arg1))) := by
    rw [show W5 m ρ c (Proc.devRef .tc main_v53) = _ from host2_agg (W4 m ρ c), hin, W4_src m ρ c, W4_dst m ρ c]
  have e_w1 : W5 m ρ c (Proc.devRef .tc main_v55) = Cert.Gin.Spec.sliceMat (F := Ideal) (m ((c : Thread nD τ).loc main_arg2)) 1 := by
    rw [show W5 m ρ c (Proc.devRef .tc main_v55) = _ from host2_w1 (W4 m ρ c), W4_arg2 m ρ c]
  have e_b1 : W5 m ρ c (Proc.devRef .tc main_v57) = Cert.Gin.Spec.sliceVec (F := Ideal) (m ((c : Thread nD τ).loc main_arg3)) 1 := by
    rw [show W5 m ρ c (Proc.devRef .tc main_v57) = _ from host2_b1 (W4 m ρ c), W4_arg3 m ρ c]
  have e_g : W5 m ρ c (Proc.devRef .tc main_v59) = Cert.Gin.Spec.sliceVec (F := Ideal) (m ((c : Thread nD τ).loc main_arg4)) 1 := by
    rw [show W5 m ρ c (Proc.devRef .tc main_v59) = _ from host2_gamma (W4 m ρ c), W4_arg4 m ρ c]
  have e_be : W5 m ρ c (Proc.devRef .tc main_v61) = Cert.Gin.Spec.sliceVec (F := Ideal) (m ((c : Thread nD τ).loc main_arg5)) 1 := by
    rw [show W5 m ρ c (Proc.devRef .tc main_v61) = _ from host2_beta (W4 m ρ c), W4_arg5 m ρ c]
  have e_w2 : W5 m ρ c (Proc.devRef .tc main_v63) = Cert.Gin.Spec.sliceMat (F := Ideal) (m ((c : Thread nD τ).loc main_arg6)) 1 := by
    rw [show W5 m ρ c (Proc.devRef .tc main_v63) = _ from host2_w2 (W4 m ρ c), W4_arg6 m ρ c]
  have e_b2 : W5 m ρ c (Proc.devRef .tc main_v65) = Cert.Gin.Spec.sliceVec (F := Ideal) (m ((c : Thread nD τ).loc main_arg7)) 1 := by
    rw [show W5 m ρ c (Proc.devRef .tc main_v65) = _ from host2_b2 (W4 m ρ c), W4_arg7 m ρ c]
  -- the first region's three output arrays
  have e_o3 : W6 m ρ c (Proc.devRef .tc main_v66_0) = Cert.Gin.Ker.pre (W5 m ρ c (Proc.devRef .tc main_v53)) (W5 m ρ c (Proc.devRef .tc main_v55)) (W5 m ρ c (Proc.devRef .tc main_v57)) :=
    (W6_arr m ρ c 3).trans (final2_3 (X5 m ρ) c)
  have e_s : W6 m ρ c (Proc.devRef .tc main_v66_1) = Cert.Gin.Ker.colSum (Cert.Gin.Ker.pre (W5 m ρ c (Proc.devRef .tc main_v53)) (W5 m ρ c (Proc.devRef .tc main_v55)) (W5 m ρ c (Proc.devRef .tc main_v57))) :=
    (W6_arr m ρ c 4).trans (final2_4 (X5 m ρ) c)
  have e_ss : W6 m ρ c (Proc.devRef .tc main_v66_2) = Cert.Gin.Ker.colSumSq (Cert.Gin.Ker.pre (W5 m ρ c (Proc.devRef .tc main_v53)) (W5 m ρ c (Proc.devRef .tc main_v55)) (W5 m ρ c (Proc.devRef .tc main_v57))) :=
    (W6_arr m ρ c 5).trans (final2_5 (X5 m ρ) c)
  -- the scale and the shift
  have k_g : W6 m ρ c (Proc.devRef .tc main_v59) = W5 m ρ c (Proc.devRef .tc main_v59) := (W6_of_ne m ρ c main_v59 (by decide))
  have k_be : W6 m ρ c (Proc.devRef .tc main_v61) = W5 m ρ c (Proc.devRef .tc main_v61) := (W6_of_ne m ρ c main_v61 (by decide))
  have e_sc : W7 m ρ c (Proc.devRef .tc main_v77) = Cert.Gin.Ker.scaleRow (W6 m ρ c (Proc.devRef .tc main_v66_1)) (W6 m ρ c (Proc.devRef .tc main_v66_2)) (W6 m ρ c (Proc.devRef .tc main_v59)) := host3_scale (W6 m ρ c)
  have e_sh : W7 m ρ c (Proc.devRef .tc main_v80) = Cert.Gin.Ker.shiftRow (W6 m ρ c (Proc.devRef .tc main_v66_1)) (W6 m ρ c (Proc.devRef .tc main_v66_2)) (W6 m ρ c (Proc.devRef .tc main_v59)) (W6 m ρ c (Proc.devRef .tc main_v61)) := host3_shift (W6 m ρ c)
  have k_o3 : W7 m ρ c (Proc.devRef .tc main_v66_0) = W6 m ρ c (Proc.devRef .tc main_v66_0) := (StableHlo.after_of_writes_sub hostOps3 (W6 m ρ c) hostOps3_writes (by decide : main_v66_0 ∉ hostOps3_W))
  have k_w2 : W7 m ρ c (Proc.devRef .tc main_v63) = W5 m ρ c (Proc.devRef .tc main_v63) := ((StableHlo.after_of_writes_sub hostOps3 (W6 m ρ c) hostOps3_writes (by decide : main_v63 ∉ hostOps3_W)).trans (W6_of_ne m ρ c main_v63 (by decide)))
  have k_b2 : W7 m ρ c (Proc.devRef .tc main_v65) = W5 m ρ c (Proc.devRef .tc main_v65) := ((StableHlo.after_of_writes_sub hostOps3 (W6 m ρ c) hostOps3_writes (by decide : main_v65 ∉ hostOps3_W)).trans (W6_of_ne m ρ c main_v65 (by decide)))
  -- the second region's output array
  have e_out : W8 m ρ c (Proc.devRef .tc main_v81) = Cert.Gin.Ker.normDense (W7 m ρ c (Proc.devRef .tc main_v66_0)) (W7 m ρ c (Proc.devRef .tc main_v77)) (W7 m ρ c (Proc.devRef .tc main_v80)) (W7 m ρ c (Proc.devRef .tc main_v63)) (W7 m ρ c (Proc.devRef .tc main_v65)) :=
    (W8_arr m ρ c 5).trans (final3 (X7 m ρ) c)
  rw [e_out, k_o3, e_sc, e_sh, k_w2, k_b2, e_o3, e_s, e_ss, k_g, k_be, e_agg, e_w1, e_b1, e_g, e_be, e_w2, e_b2]
  rfl

/-- Layer 2: from its input at boundary 8 to its output at boundary 12. -/
theorem layer2_out (hin : W8 m ρ c (Proc.devRef .tc main_v81) = hh2 m c) : W12 m ρ c (Proc.devRef .tc main_v120) = hh3 m c := by
  have e_agg : W9 m ρ c (Proc.devRef .tc main_v92) = Cert.Gin.Spec.aggSD (F := Ideal) (hh2 m c) (Cert.Gin.Spec.src (m ((c : Thread nD τ).loc main_arg1))) (Cert.Gin.Spec.dst (m ((c : Thread nD τ).loc main_arg1))) := by
    rw [show W9 m ρ c (Proc.devRef .tc main_v92) = _ from host4_agg (W8 m ρ c), hin, W8_src m ρ c, W8_dst m ρ c]
  have e_w1 : W9 m ρ c (Proc.devRef .tc main_v94) = Cert.Gin.Spec.sliceMat (F := Ideal) (m ((c : Thread nD τ).loc main_arg2)) 2 := by
    rw [show W9 m ρ c (Proc.devRef .tc main_v94) = _ from host4_w1 (W8 m ρ c), W8_arg2 m ρ c]
  have e_b1 : W9 m ρ c (Proc.devRef .tc main_v96) = Cert.Gin.Spec.sliceVec (F := Ideal) (m ((c : Thread nD τ).loc main_arg3)) 2 := by
    rw [show W9 m ρ c (Proc.devRef .tc main_v96) = _ from host4_b1 (W8 m ρ c), W8_arg3 m ρ c]
  have e_g : W9 m ρ c (Proc.devRef .tc main_v98) = Cert.Gin.Spec.sliceVec (F := Ideal) (m ((c : Thread nD τ).loc main_arg4)) 2 := by
    rw [show W9 m ρ c (Proc.devRef .tc main_v98) = _ from host4_gamma (W8 m ρ c), W8_arg4 m ρ c]
  have e_be : W9 m ρ c (Proc.devRef .tc main_v100) = Cert.Gin.Spec.sliceVec (F := Ideal) (m ((c : Thread nD τ).loc main_arg5)) 2 := by
    rw [show W9 m ρ c (Proc.devRef .tc main_v100) = _ from host4_beta (W8 m ρ c), W8_arg5 m ρ c]
  have e_w2 : W9 m ρ c (Proc.devRef .tc main_v102) = Cert.Gin.Spec.sliceMat (F := Ideal) (m ((c : Thread nD τ).loc main_arg6)) 2 := by
    rw [show W9 m ρ c (Proc.devRef .tc main_v102) = _ from host4_w2 (W8 m ρ c), W8_arg6 m ρ c]
  have e_b2 : W9 m ρ c (Proc.devRef .tc main_v104) = Cert.Gin.Spec.sliceVec (F := Ideal) (m ((c : Thread nD τ).loc main_arg7)) 2 := by
    rw [show W9 m ρ c (Proc.devRef .tc main_v104) = _ from host4_b2 (W8 m ρ c), W8_arg7 m ρ c]
  -- the first region's three output arrays
  have e_o3 : W10 m ρ c (Proc.devRef .tc main_v105_0) = Cert.Gin.Ker.pre (W9 m ρ c (Proc.devRef .tc main_v92)) (W9 m ρ c (Proc.devRef .tc main_v94)) (W9 m ρ c (Proc.devRef .tc main_v96)) :=
    (W10_arr m ρ c 3).trans (final4_3 (X9 m ρ) c)
  have e_s : W10 m ρ c (Proc.devRef .tc main_v105_1) = Cert.Gin.Ker.colSum (Cert.Gin.Ker.pre (W9 m ρ c (Proc.devRef .tc main_v92)) (W9 m ρ c (Proc.devRef .tc main_v94)) (W9 m ρ c (Proc.devRef .tc main_v96))) :=
    (W10_arr m ρ c 4).trans (final4_4 (X9 m ρ) c)
  have e_ss : W10 m ρ c (Proc.devRef .tc main_v105_2) = Cert.Gin.Ker.colSumSq (Cert.Gin.Ker.pre (W9 m ρ c (Proc.devRef .tc main_v92)) (W9 m ρ c (Proc.devRef .tc main_v94)) (W9 m ρ c (Proc.devRef .tc main_v96))) :=
    (W10_arr m ρ c 5).trans (final4_5 (X9 m ρ) c)
  -- the scale and the shift
  have k_g : W10 m ρ c (Proc.devRef .tc main_v98) = W9 m ρ c (Proc.devRef .tc main_v98) := (W10_of_ne m ρ c main_v98 (by decide))
  have k_be : W10 m ρ c (Proc.devRef .tc main_v100) = W9 m ρ c (Proc.devRef .tc main_v100) := (W10_of_ne m ρ c main_v100 (by decide))
  have e_sc : W11 m ρ c (Proc.devRef .tc main_v116) = Cert.Gin.Ker.scaleRow (W10 m ρ c (Proc.devRef .tc main_v105_1)) (W10 m ρ c (Proc.devRef .tc main_v105_2)) (W10 m ρ c (Proc.devRef .tc main_v98)) := host5_scale (W10 m ρ c)
  have e_sh : W11 m ρ c (Proc.devRef .tc main_v119) = Cert.Gin.Ker.shiftRow (W10 m ρ c (Proc.devRef .tc main_v105_1)) (W10 m ρ c (Proc.devRef .tc main_v105_2)) (W10 m ρ c (Proc.devRef .tc main_v98)) (W10 m ρ c (Proc.devRef .tc main_v100)) := host5_shift (W10 m ρ c)
  have k_o3 : W11 m ρ c (Proc.devRef .tc main_v105_0) = W10 m ρ c (Proc.devRef .tc main_v105_0) := (StableHlo.after_of_writes_sub hostOps5 (W10 m ρ c) hostOps5_writes (by decide : main_v105_0 ∉ hostOps5_W))
  have k_w2 : W11 m ρ c (Proc.devRef .tc main_v102) = W9 m ρ c (Proc.devRef .tc main_v102) := ((StableHlo.after_of_writes_sub hostOps5 (W10 m ρ c) hostOps5_writes (by decide : main_v102 ∉ hostOps5_W)).trans (W10_of_ne m ρ c main_v102 (by decide)))
  have k_b2 : W11 m ρ c (Proc.devRef .tc main_v104) = W9 m ρ c (Proc.devRef .tc main_v104) := ((StableHlo.after_of_writes_sub hostOps5 (W10 m ρ c) hostOps5_writes (by decide : main_v104 ∉ hostOps5_W)).trans (W10_of_ne m ρ c main_v104 (by decide)))
  -- the second region's output array
  have e_out : W12 m ρ c (Proc.devRef .tc main_v120) = Cert.Gin.Ker.normDense (W11 m ρ c (Proc.devRef .tc main_v105_0)) (W11 m ρ c (Proc.devRef .tc main_v116)) (W11 m ρ c (Proc.devRef .tc main_v119)) (W11 m ρ c (Proc.devRef .tc main_v102)) (W11 m ρ c (Proc.devRef .tc main_v104)) :=
    (W12_arr m ρ c 5).trans (final5 (X11 m ρ) c)
  rw [e_out, k_o3, e_sc, e_sh, k_w2, k_b2, e_o3, e_s, e_ss, k_g, k_be, e_agg, e_w1, e_b1, e_g, e_be, e_w2, e_b2]
  rfl

/-- Layer 3: from its input at boundary 12 to its output at boundary 16. -/
theorem layer3_out (hin : W12 m ρ c (Proc.devRef .tc main_v120) = hh3 m c) : W16 m ρ c (Proc.devRef .tc main_v159) = hh4 m c := by
  have e_agg : W13 m ρ c (Proc.devRef .tc main_v131) = Cert.Gin.Spec.aggSD (F := Ideal) (hh3 m c) (Cert.Gin.Spec.src (m ((c : Thread nD τ).loc main_arg1))) (Cert.Gin.Spec.dst (m ((c : Thread nD τ).loc main_arg1))) := by
    rw [show W13 m ρ c (Proc.devRef .tc main_v131) = _ from host6_agg (W12 m ρ c), hin, W12_src m ρ c, W12_dst m ρ c]
  have e_w1 : W13 m ρ c (Proc.devRef .tc main_v133) = Cert.Gin.Spec.sliceMat (F := Ideal) (m ((c : Thread nD τ).loc main_arg2)) 3 := by
    rw [show W13 m ρ c (Proc.devRef .tc main_v133) = _ from host6_w1 (W12 m ρ c), W12_arg2 m ρ c]
  have e_b1 : W13 m ρ c (Proc.devRef .tc main_v135) = Cert.Gin.Spec.sliceVec (F := Ideal) (m ((c : Thread nD τ).loc main_arg3)) 3 := by
    rw [show W13 m ρ c (Proc.devRef .tc main_v135) = _ from host6_b1 (W12 m ρ c), W12_arg3 m ρ c]
  have e_g : W13 m ρ c (Proc.devRef .tc main_v137) = Cert.Gin.Spec.sliceVec (F := Ideal) (m ((c : Thread nD τ).loc main_arg4)) 3 := by
    rw [show W13 m ρ c (Proc.devRef .tc main_v137) = _ from host6_gamma (W12 m ρ c), W12_arg4 m ρ c]
  have e_be : W13 m ρ c (Proc.devRef .tc main_v139) = Cert.Gin.Spec.sliceVec (F := Ideal) (m ((c : Thread nD τ).loc main_arg5)) 3 := by
    rw [show W13 m ρ c (Proc.devRef .tc main_v139) = _ from host6_beta (W12 m ρ c), W12_arg5 m ρ c]
  have e_w2 : W13 m ρ c (Proc.devRef .tc main_v141) = Cert.Gin.Spec.sliceMat (F := Ideal) (m ((c : Thread nD τ).loc main_arg6)) 3 := by
    rw [show W13 m ρ c (Proc.devRef .tc main_v141) = _ from host6_w2 (W12 m ρ c), W12_arg6 m ρ c]
  have e_b2 : W13 m ρ c (Proc.devRef .tc main_v143) = Cert.Gin.Spec.sliceVec (F := Ideal) (m ((c : Thread nD τ).loc main_arg7)) 3 := by
    rw [show W13 m ρ c (Proc.devRef .tc main_v143) = _ from host6_b2 (W12 m ρ c), W12_arg7 m ρ c]
  -- the first region's three output arrays
  have e_o3 : W14 m ρ c (Proc.devRef .tc main_v144_0) = Cert.Gin.Ker.pre (W13 m ρ c (Proc.devRef .tc main_v131)) (W13 m ρ c (Proc.devRef .tc main_v133)) (W13 m ρ c (Proc.devRef .tc main_v135)) :=
    (W14_arr m ρ c 3).trans (final6_3 (X13 m ρ) c)
  have e_s : W14 m ρ c (Proc.devRef .tc main_v144_1) = Cert.Gin.Ker.colSum (Cert.Gin.Ker.pre (W13 m ρ c (Proc.devRef .tc main_v131)) (W13 m ρ c (Proc.devRef .tc main_v133)) (W13 m ρ c (Proc.devRef .tc main_v135))) :=
    (W14_arr m ρ c 4).trans (final6_4 (X13 m ρ) c)
  have e_ss : W14 m ρ c (Proc.devRef .tc main_v144_2) = Cert.Gin.Ker.colSumSq (Cert.Gin.Ker.pre (W13 m ρ c (Proc.devRef .tc main_v131)) (W13 m ρ c (Proc.devRef .tc main_v133)) (W13 m ρ c (Proc.devRef .tc main_v135))) :=
    (W14_arr m ρ c 5).trans (final6_5 (X13 m ρ) c)
  -- the scale and the shift
  have k_g : W14 m ρ c (Proc.devRef .tc main_v137) = W13 m ρ c (Proc.devRef .tc main_v137) := (W14_of_ne m ρ c main_v137 (by decide))
  have k_be : W14 m ρ c (Proc.devRef .tc main_v139) = W13 m ρ c (Proc.devRef .tc main_v139) := (W14_of_ne m ρ c main_v139 (by decide))
  have e_sc : W15 m ρ c (Proc.devRef .tc main_v155) = Cert.Gin.Ker.scaleRow (W14 m ρ c (Proc.devRef .tc main_v144_1)) (W14 m ρ c (Proc.devRef .tc main_v144_2)) (W14 m ρ c (Proc.devRef .tc main_v137)) := host7_scale (W14 m ρ c)
  have e_sh : W15 m ρ c (Proc.devRef .tc main_v158) = Cert.Gin.Ker.shiftRow (W14 m ρ c (Proc.devRef .tc main_v144_1)) (W14 m ρ c (Proc.devRef .tc main_v144_2)) (W14 m ρ c (Proc.devRef .tc main_v137)) (W14 m ρ c (Proc.devRef .tc main_v139)) := host7_shift (W14 m ρ c)
  have k_o3 : W15 m ρ c (Proc.devRef .tc main_v144_0) = W14 m ρ c (Proc.devRef .tc main_v144_0) := (StableHlo.after_of_writes_sub hostOps7 (W14 m ρ c) hostOps7_writes (by decide : main_v144_0 ∉ hostOps7_W))
  have k_w2 : W15 m ρ c (Proc.devRef .tc main_v141) = W13 m ρ c (Proc.devRef .tc main_v141) := ((StableHlo.after_of_writes_sub hostOps7 (W14 m ρ c) hostOps7_writes (by decide : main_v141 ∉ hostOps7_W)).trans (W14_of_ne m ρ c main_v141 (by decide)))
  have k_b2 : W15 m ρ c (Proc.devRef .tc main_v143) = W13 m ρ c (Proc.devRef .tc main_v143) := ((StableHlo.after_of_writes_sub hostOps7 (W14 m ρ c) hostOps7_writes (by decide : main_v143 ∉ hostOps7_W)).trans (W14_of_ne m ρ c main_v143 (by decide)))
  -- the second region's output array
  have e_out : W16 m ρ c (Proc.devRef .tc main_v159) = Cert.Gin.Ker.normDense (W15 m ρ c (Proc.devRef .tc main_v144_0)) (W15 m ρ c (Proc.devRef .tc main_v155)) (W15 m ρ c (Proc.devRef .tc main_v158)) (W15 m ρ c (Proc.devRef .tc main_v141)) (W15 m ρ c (Proc.devRef .tc main_v143)) :=
    (W16_arr m ρ c 5).trans (final7 (X15 m ρ) c)
  rw [e_out, k_o3, e_sc, e_sh, k_w2, k_b2, e_o3, e_s, e_ss, k_g, k_be, e_agg, e_w1, e_b1, e_g, e_be, e_w2, e_b2]
  rfl

/-- The result array at the last boundary is the network of the argument arrays. -/
theorem result_eq : W17 m ρ c (Proc.devRef .tc main_v160) = Cert.Gin.Ker.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h1 := layer0_out m ρ c
  have h2 := layer1_out m ρ c h1
  have h3 := layer2_out m ρ c h2
  have h4 := layer3_out m ρ c h3
  have e : W17 m ρ c (Proc.devRef .tc main_v160) = Cert.Gin.Ker.readOut (W16 m ρ c (Proc.devRef .tc main_v159)) (W16 m ρ c (Proc.devRef .tc main_arg8)) (W16 m ρ c (Proc.devRef .tc main_arg9)) (W16 m ρ c (Proc.devRef .tc main_arg10)) (W16 m ρ c (Proc.devRef .tc main_arg11)) :=
    (W17_arr m ρ c 5).trans (final8 (X16 m ρ) c)
  rw [e, h4, W16_arg8 m ρ c, W16_arg9 m ρ c, W16_arg10 m ρ c, W16_arg11 m ρ c]
  rfl

/-- THE RUN WITH ITS VALUE: every weakly fair execution terminates, the result array ends holding the network of the
    arguments' launch contents, and the arguments end unchanged. -/
theorem run_value : θ_run defs (onTc (τ := τ) (main (F := Ideal))) ⟨m, fun _ => 0, ρ⟩ (fun r => ∀ c : Dev nD,
      r.2.mem ((c.tc : Thread nD τ).loc main_v160) = Cert.Gin.Ker.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v160 (by decide))).trans (result_eq m ρ c),
      (h c _ (mem_uc main_arg0 (by decide))).trans (W17_arg0 m ρ c),
      (h c _ (mem_uc main_arg1 (by decide))).trans (W17_arg1 m ρ c),
      (h c _ (mem_uc main_arg2 (by decide))).trans (W17_arg2 m ρ c),
      (h c _ (mem_uc main_arg3 (by decide))).trans (W17_arg3 m ρ c),
      (h c _ (mem_uc main_arg4 (by decide))).trans (W17_arg4 m ρ c),
      (h c _ (mem_uc main_arg5 (by decide))).trans (W17_arg5 m ρ c),
      (h c _ (mem_uc main_arg6 (by decide))).trans (W17_arg6 m ρ c),
      (h c _ (mem_uc main_arg7 (by decide))).trans (W17_arg7 m ρ c),
      (h c _ (mem_uc main_arg8 (by decide))).trans (W17_arg8 m ρ c),
      (h c _ (mem_uc main_arg9 (by decide))).trans (W17_arg9 m ρ c),
      (h c _ (mem_uc main_arg10 (by decide))).trans (W17_arg10 m ρ c),
      (h c _ (mem_uc main_arg11 (by decide))).trans (W17_arg11 m ρ c)⟩) (run_all m ρ)

end Cert.KernelIdeal.Hand

end
-- ==== Proof.Ref.Run.lean ====
/- The reference's run, stated over the folded line: every weakly fair execution of @main terminates with
   the result buffer at `StableHlo.after ops` of the launch contents and the twelve arguments unchanged.
   The fold is not opened here; what it computes is the subject of Ref/Value.lean. -/
import proofs.«121608_j10213432229998_1_alg».proof.Proof.Ref.Ops

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- No operation of the line writes an argument: each of the twelve keeps its contents, from any valuation. -/
theorem after_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11) := by
  refine ⟨?_, ?_, ?_, ?_, ?_, ?_, ?_, ?_, ?_, ?_, ?_, ?_⟩ <;> (after_results_simp <;> rfl)

set_option maxRecDepth 8192 in
set_option maxHeartbeats 40000000 in
/-- On every device, for any float values, from any memory with zero counters: every weakly fair execution of
    @main terminates with the result buffer at the fold of the 291 operations over the launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v240) = StableHlo.after ops (launchContents m c) (Proc.devRef .tc main_v240)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
      have a := after_args (F := F) (launchContents m c)
      ⟨h c main_v240,
       (h c main_arg0).trans a.1,
       (h c main_arg1).trans a.2.1,
       (h c main_arg2).trans a.2.2.1,
       (h c main_arg3).trans a.2.2.2.1,
       (h c main_arg4).trans a.2.2.2.2.1,
       (h c main_arg5).trans a.2.2.2.2.2.1,
       (h c main_arg6).trans a.2.2.2.2.2.2.1,
       (h c main_arg7).trans a.2.2.2.2.2.2.2.1,
       (h c main_arg8).trans a.2.2.2.2.2.2.2.2.1,
       (h c main_arg9).trans a.2.2.2.2.2.2.2.2.2.1,
       (h c main_arg10).trans a.2.2.2.2.2.2.2.2.2.2.1,
       (h c main_arg11).trans a.2.2.2.2.2.2.2.2.2.2.2⟩)
    (run_seq scopedRefs_eq scopedSems_eq defs main (fun _ => ops) main_eq (fun _ => ops_sub) m ρ)

end Cert.ReferenceIdeal.ValueP

end
-- ==== Proof.Ref.Frame.lean ====
/- The reference runs and leaves its twelve arguments unchanged (`Cert.frame_ReferenceIdeal`): the run of its
   line, without what it says of the result. -/
import proofs.«121608_j10213432229998_1_alg».proof.Defs
import proofs.«121608_j10213432229998_1_alg».proof.Proof.Ref.Run

noncomputable section

namespace Cert.ReferenceIdeal.ValueP

open Cert.ReferenceIdeal Cert.ReferenceIdeal.Gen Idealize.ShloMosaic Idealize.ShloMosaic.TcCoe Idealize.SL.Sem Idealize.ShloMosaic.StableHlo

/-- Every weakly fair execution of the reference terminates with the arguments as at launch, whatever they hold. -/
theorem frame [hPre_finite_inputs : Cert.Pre_finite_inputs.Facts] :
    Cert.frame_ReferenceIdeal (hReferenceIdeal := Cert.ReferenceIdeal.Gen.facts) (hPre_finite_inputs := hPre_finite_inputs) :=
  fun m g _ => (θ_run (defs (F := Ideal)) _ _).mono (fun _ h c => (h c).2) (run (F := Ideal) m g)

end Cert.ReferenceIdeal.ValueP

end
-- ==== Proof.Ref.Value.lean ====
/- What the reference's line of 291 operations leaves in its result buffer, from any contents `V`: the network
   `Spec.net` of the twelve arguments. The line is cut into six consecutive stretches — the two index vectors; the
   four graph layers, each with the slices of its parameters; the read-out — and each stretch is read on its own, from
   ARBITRARY contents, as one function of the buffers it reads; the stretches are then chained through the contents
   between them, which stay variables. No term ever holds more than one stretch. -/
import proofs.«121608_j10213432229998_1_alg».proof.Proof.Ref.Ops
import proofs.«121608_j10213432229998_1_alg».proof.Proof.Ref.Spec

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- A line run after another is the two run in turn. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The six stretches -/

set_option maxHeartbeats 4000000 in
/-- Operations 0–3: the two rows of the edge list, as vectors. -/
abbrev s0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]

set_option maxHeartbeats 4000000 in
/-- Operations 4–72: slice 0 of the six stacked parameters, then graph layer 0 (from the first argument to `main_v60`). -/
abbrev sL0 : List (HloOp τ sig (Elt F)) :=
  [ unary main_arg2 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v4 main_v5 rfl shapeCasts_S1x128x128_S128x128,
    unary main_arg3 main_v6 ((extractStridedSlice S1x128 ![0, 0] · slices_S4x128_S1x128_0_0) : (⟨S4x128, .f32⟩ : BufTy).Contents (Elt F) → (⟨S1x128, .f32⟩ : BufTy).Contents (Elt F)),
    reshape main_v6 main_v7 rfl shapeCasts_S1x128_S128,
    unary main_arg4 main_v8 ((extractStridedSlice S1x128 ![0, 0] · slices_S4x128_S1x128_0_0) : (⟨S4x128, .f32⟩ : BufTy).Contents (Elt F) → (⟨S1x128, .f32⟩ : BufTy).Contents (Elt F)),
    reshape main_v8 main_v9 rfl shapeCasts_S1x128_S128,
    unary main_arg5 main_v10 ((extractStridedSlice S1x128 ![0, 0] · slices_S4x128_S1x128_0_0) : (⟨S4x128, .f32⟩ : BufTy).Contents (Elt F) → (⟨S1x128, .f32⟩ : BufTy).Contents (Elt F)),
    reshape main_v10 main_v11 rfl shapeCasts_S1x128_S128,
    unary main_arg6 main_v12 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v12 main_v13 rfl shapeCasts_S1x128x128_S128x128,
    unary main_arg7 main_v14 ((extractStridedSlice S1x128 ![0, 0] · slices_S4x128_S1x128_0_0) : (⟨S4x128, .f32⟩ : BufTy).Contents (Elt F) → (⟨S1x128, .f32⟩ : BufTy).Contents (Elt F)),
    reshape main_v14 main_v15 rfl shapeCasts_S1x128_S128,
    nullary main_c (constantI S_ 32 0#32),
    unary main_c main_v16 (broadcastInDim S600000 ![] bcast_S_S600000 : (⟨S_, .i32⟩ : BufTy).Contents (Elt F) → (⟨S600000, .i32⟩ : BufTy).Contents (Elt F)),
    binary main_v1 main_v16 main_v17 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v18 (broadcastInDim S600000 ![] bcast_S_S600000 : (⟨S_, .i32⟩ : BufTy).Contents (Elt F) → (⟨S600000, .i32⟩ : BufTy).Contents (Elt F)),
    binary main_v1 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_arg0 main_v21 main_v22 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v23 (broadcastInDim S50000x128 ![] bcast_S_S50000x128 : (⟨S_, .f32⟩ : BufTy).Contents (Elt F) → (⟨S50000x128, .f32⟩ : BufTy).Contents (Elt F)),
    unary main_v3 main_v24 (broadcastInDim S600000x1 ![0] bcast_S600000_S600000x1_0 : (⟨S600000, .i32⟩ : BufTy).Contents (Elt F) → (⟨S600000x1, .i32⟩ : BufTy).Contents (Elt F)),
    ternary main_v23 main_v24 main_v22 main_v25 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v25 main_v26 (addf : (⟨S50000x128, .f32⟩ : BufTy).Contents (Elt F) → (⟨S50000x128, .f32⟩ : BufTy).Contents (Elt F) → (⟨S50000x128, .f32⟩ : BufTy).Contents (Elt F)),
    binary main_v26 main_v5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v7 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v30) (TRef.of (T := ⟨S50000x128, .f32⟩) main_call0_v0) (TRef.of (T := ⟨S50000x128, .f32⟩) main_v31) maximumf,
    nullary main_cst_1 (constant S_ .f32 0x00000000#32),
    binary main_v31 main_cst_1 main_v32 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v32 main_v33 (broadcastInDim S1x128 ![1] bcast_S128_S1x128_1 : (⟨S128, .f32⟩ : BufTy).Contents (Elt F) → (⟨S1x128, .f32⟩ : BufTy).Contents (Elt F)),
    nullary main_cst_2 (constant S_ .f32 0x47435000#32),
    unary main_cst_2 main_v34 (broadcastInDim S1x128 ![] bcast_S_S1x128 : (⟨S_, .f32⟩ : BufTy).Contents (Elt F) → (⟨S1x128, .f32⟩ : BufTy).Contents (Elt F)),
    binary main_v33 main_v34 main_v35 (Host.divf : (⟨S1x128, .f32⟩ : BufTy).Contents (Elt F) → (⟨S1x128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v31 main_v36 main_v37 (subf : (⟨S50000x128, .f32⟩ : BufTy).Contents (Elt F) → (⟨S50000x128, .f32⟩ : BufTy).Contents (Elt F) → (⟨S50000x128, .f32⟩ : BufTy).Contents (Elt F)),
    binary main_v37 main_v37 main_v38 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v38 main_cst_3 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    nullary main_cst_4 (constant S_ .f32 0x47435000#32),
    unary main_cst_4 main_v41 (broadcastInDim S1x128 ![] bcast_S_S1x128 : (⟨S_, .f32⟩ : BufTy).Contents (Elt F) → (⟨S1x128, .f32⟩ : BufTy).Contents (Elt F)),
    binary main_v40 main_v41 main_v42 (Host.divf : (⟨S1x128, .f32⟩ : BufTy).Contents (Elt F) → (⟨S1x128, .f32⟩ : BufTy).Contents (Elt F) → (⟨S1x128, .f32⟩ : BufTy).Contents (Elt F)),
    unary main_v35 main_v43 (broadcastInDim S50000x128 ![0, 1] bcast_S1x128_S50000x128_0_1 : (⟨S1x128, .f32⟩ : BufTy).Contents (Elt F) → (⟨S50000x128, .f32⟩ : BufTy).Contents (Elt F)),
    binary main_v31 main_v43 main_v44 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v45 (broadcastInDim S1x128 ![] bcast_S_S1x128 : (⟨S_, .f32⟩ : BufTy).Contents (Elt F) → (⟨S1x128, .f32⟩ : BufTy).Contents (Elt F)),
    binary main_v42 main_v45 main_v46 (addf : (⟨S1x128, .f32⟩ : BufTy).Contents (Elt F) → (⟨S1x128, .f32⟩ : BufTy).Contents (Elt F) → (⟨S1x128, .f32⟩ : BufTy).Contents (Elt F)),
    unary main_v46 main_v47 (Host.rsqrt : (⟨S1x128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v44 main_v48 main_v49 (mulf : (⟨S50000x128, .f32⟩ : BufTy).Contents (Elt F) → (⟨S50000x128, .f32⟩ : BufTy).Contents (Elt F) → (⟨S50000x128, .f32⟩ : BufTy).Contents (Elt F)),
    unary main_v9 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (mulf : (⟨S50000x128, .f32⟩ : BufTy).Contents (Elt F) → (⟨S50000x128, .f32⟩ : BufTy).Contents (Elt F) → (⟨S50000x128, .f32⟩ : BufTy).Contents (Elt F)),
    unary main_v11 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    binary main_v55 main_v13 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v15 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v56 main_v58 main_v59 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v59) (TRef.of (T := ⟨S50000x128, .f32⟩) main_call1_v0) (TRef.of (T := ⟨S50000x128, .f32⟩) main_v60) maximumf ]

set_option maxHeartbeats 4000000 in
/-- Operations 73–141: slice 1 of the parameters, then graph layer 1 (from `main_v60` to `main_v117`). -/
abbrev sL1 : List (HloOp τ sig (Elt F)) :=
  [ unary main_arg2 main_v61 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v61 main_v62 rfl shapeCasts_S1x128x128_S128x128,
    unary main_arg3 main_v63 ((extractStridedSlice S1x128 ![1, 0] · slices_S4x128_S1x128_1_0) : (⟨S4x128, .f32⟩ : BufTy).Contents (Elt F) → (⟨S1x128, .f32⟩ : BufTy).Contents (Elt F)),
    reshape main_v63 main_v64 rfl shapeCasts_S1x128_S128,
    unary main_arg4 main_v65 ((extractStridedSlice S1x128 ![1, 0] · slices_S4x128_S1x128_1_0) : (⟨S4x128, .f32⟩ : BufTy).Contents (Elt F) → (⟨S1x128, .f32⟩ : BufTy).Contents (Elt F)),
    reshape main_v65 main_v66 rfl shapeCasts_S1x128_S128,
    unary main_arg5 main_v67 ((extractStridedSlice S1x128 ![1, 0] · slices_S4x128_S1x128_1_0) : (⟨S4x128, .f32⟩ : BufTy).Contents (Elt F) → (⟨S1x128, .f32⟩ : BufTy).Contents (Elt F)),
    reshape main_v67 main_v68 rfl shapeCasts_S1x128_S128,
    unary main_arg6 main_v69 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v69 main_v70 rfl shapeCasts_S1x128x128_S128x128,
    unary main_arg7 main_v71 ((extractStridedSlice S1x128 ![1, 0] · slices_S4x128_S1x128_1_0) : (⟨S4x128, .f32⟩ : BufTy).Contents (Elt F) → (⟨S1x128, .f32⟩ : BufTy).Contents (Elt F)),
    reshape main_v71 main_v72 rfl shapeCasts_S1x128_S128,
    nullary main_c_6 (constantI S_ 32 0#32),
    unary main_c_6 main_v73 (broadcastInDim S600000 ![] bcast_S_S600000 : (⟨S_, .i32⟩ : BufTy).Contents (Elt F) → (⟨S600000, .i32⟩ : BufTy).Contents (Elt F)),
    binary main_v1 main_v73 main_v74 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v75 (broadcastInDim S600000 ![] bcast_S_S600000 : (⟨S_, .i32⟩ : BufTy).Contents (Elt F) → (⟨S600000, .i32⟩ : BufTy).Contents (Elt F)),
    binary main_v1 main_v75 main_v76 (addi : (⟨S600000, .i32⟩ : BufTy).Contents (Elt F) → (⟨S600000, .i32⟩ : BufTy).Contents (Elt F) → (⟨S600000, .i32⟩ : BufTy).Contents (Elt F)),
    ternary main_v74 main_v76 main_v1 main_v77 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v77 main_v78 (broadcastInDim S600000x1 ![0] bcast_S600000_S600000x1_0 : (⟨S600000, .i32⟩ : BufTy).Contents (Elt F) → (⟨S600000x1, .i32⟩ : BufTy).Contents (Elt F)),
    binary main_v60 main_v78 main_v79 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_8 (constant S_ .f32 0x00000000#32),
    unary main_cst_8 main_v80 (broadcastInDim S50000x128 ![] bcast_S_S50000x128 : (⟨S_, .f32⟩ : BufTy).Contents (Elt F) → (⟨S50000x128, .f32⟩ : BufTy).Contents (Elt F)),
    unary main_v3 main_v81 (broadcastInDim S600000x1 ![0] bcast_S600000_S600000x1_0 : (⟨S600000, .i32⟩ : BufTy).Contents (Elt F) → (⟨S600000x1, .i32⟩ : BufTy).Contents (Elt F)),
    ternary main_v80 main_v81 main_v79 main_v82 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v60 main_v82 main_v83 (addf : (⟨S50000x128, .f32⟩ : BufTy).Contents (Elt F) → (⟨S50000x128, .f32⟩ : BufTy).Contents (Elt F) → (⟨S50000x128, .f32⟩ : BufTy).Contents (Elt F)),
    binary main_v83 main_v62 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v64 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v87) (TRef.of (T := ⟨S50000x128, .f32⟩) main_call2_v0) (TRef.of (T := ⟨S50000x128, .f32⟩) main_v88) maximumf,
    nullary main_cst_9 (constant S_ .f32 0x00000000#32),
    binary main_v88 main_cst_9 main_v89 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    nullary main_cst_10 (constant S_ .f32 0x47435000#32),
    unary main_cst_10 main_v91 (broadcastInDim S1x128 ![] bcast_S_S1x128 : (⟨S_, .f32⟩ : BufTy).Contents (Elt F) → (⟨S1x128, .f32⟩ : BufTy).Contents (Elt F)),
    binary main_v90 main_v91 main_v92 (Host.divf : (⟨S1x128, .f32⟩ : BufTy).Contents (Elt F) → (⟨S1x128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v88 main_v93 main_v94 (subf : (⟨S50000x128, .f32⟩ : BufTy).Contents (Elt F) → (⟨S50000x128, .f32⟩ : BufTy).Contents (Elt F) → (⟨S50000x128, .f32⟩ : BufTy).Contents (Elt F)),
    binary main_v94 main_v94 main_v95 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v95 main_cst_11 main_v96 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    nullary main_cst_12 (constant S_ .f32 0x47435000#32),
    unary main_cst_12 main_v98 (broadcastInDim S1x128 ![] bcast_S_S1x128 : (⟨S_, .f32⟩ : BufTy).Contents (Elt F) → (⟨S1x128, .f32⟩ : BufTy).Contents (Elt F)),
    binary main_v97 main_v98 main_v99 (Host.divf : (⟨S1x128, .f32⟩ : BufTy).Contents (Elt F) → (⟨S1x128, .f32⟩ : BufTy).Contents (Elt F) → (⟨S1x128, .f32⟩ : BufTy).Contents (Elt F)),
    unary main_v92 main_v100 (broadcastInDim S50000x128 ![0, 1] bcast_S1x128_S50000x128_0_1 : (⟨S1x128, .f32⟩ : BufTy).Contents (Elt F) → (⟨S50000x128, .f32⟩ : BufTy).Contents (Elt F)),
    binary main_v88 main_v100 main_v101 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v102 (broadcastInDim S1x128 ![] bcast_S_S1x128 : (⟨S_, .f32⟩ : BufTy).Contents (Elt F) → (⟨S1x128, .f32⟩ : BufTy).Contents (Elt F)),
    binary main_v99 main_v102 main_v103 (addf : (⟨S1x128, .f32⟩ : BufTy).Contents (Elt F) → (⟨S1x128, .f32⟩ : BufTy).Contents (Elt F) → (⟨S1x128, .f32⟩ : BufTy).Contents (Elt F)),
    unary main_v103 main_v104 (Host.rsqrt : (⟨S1x128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v101 main_v105 main_v106 (mulf : (⟨S50000x128, .f32⟩ : BufTy).Contents (Elt F) → (⟨S50000x128, .f32⟩ : BufTy).Contents (Elt F) → (⟨S50000x128, .f32⟩ : BufTy).Contents (Elt F)),
    unary main_v66 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (mulf : (⟨S50000x128, .f32⟩ : BufTy).Contents (Elt F) → (⟨S50000x128, .f32⟩ : BufTy).Contents (Elt F) → (⟨S50000x128, .f32⟩ : BufTy).Contents (Elt F)),
    unary main_v68 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (addf : (⟨S50000x128, .f32⟩ : BufTy).Contents (Elt F) → (⟨S50000x128, .f32⟩ : BufTy).Contents (Elt F) → (⟨S50000x128, .f32⟩ : BufTy).Contents (Elt F)),
    binary main_v112 main_v70 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v72 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v113 main_v115 main_v116 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v116) (TRef.of (T := ⟨S50000x128, .f32⟩) main_call3_v0) (TRef.of (T := ⟨S50000x128, .f32⟩) main_v117) maximumf ]

set_option maxHeartbeats 4000000 in
/-- Operations 142–210: slice 2 of the parameters, then graph layer 2 (from `main_v117` to `main_v174`). -/
abbrev sL2 : List (HloOp τ sig (Elt F)) :=
  [ unary main_arg2 main_v118 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v118 main_v119 rfl shapeCasts_S1x128x128_S128x128,
    unary main_arg3 main_v120 ((extractStridedSlice S1x128 ![2, 0] · slices_S4x128_S1x128_2_0) : (⟨S4x128, .f32⟩ : BufTy).Contents (Elt F) → (⟨S1x128, .f32⟩ : BufTy).Contents (Elt F)),
    reshape main_v120 main_v121 rfl shapeCasts_S1x128_S128,
    unary main_arg4 main_v122 ((extractStridedSlice S1x128 ![2, 0] · slices_S4x128_S1x128_2_0) : (⟨S4x128, .f32⟩ : BufTy).Contents (Elt F) → (⟨S1x128, .f32⟩ : BufTy).Contents (Elt F)),
    reshape main_v122 main_v123 rfl shapeCasts_S1x128_S128,
    unary main_arg5 main_v124 ((extractStridedSlice S1x128 ![2, 0] · slices_S4x128_S1x128_2_0) : (⟨S4x128, .f32⟩ : BufTy).Contents (Elt F) → (⟨S1x128, .f32⟩ : BufTy).Contents (Elt F)),
    reshape main_v124 main_v125 rfl shapeCasts_S1x128_S128,
    unary main_arg6 main_v126 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v126 main_v127 rfl shapeCasts_S1x128x128_S128x128,
    unary main_arg7 main_v128 ((extractStridedSlice S1x128 ![2, 0] · slices_S4x128_S1x128_2_0) : (⟨S4x128, .f32⟩ : BufTy).Contents (Elt F) → (⟨S1x128, .f32⟩ : BufTy).Contents (Elt F)),
    reshape main_v128 main_v129 rfl shapeCasts_S1x128_S128,
    nullary main_c_14 (constantI S_ 32 0#32),
    unary main_c_14 main_v130 (broadcastInDim S600000 ![] bcast_S_S600000 : (⟨S_, .i32⟩ : BufTy).Contents (Elt F) → (⟨S600000, .i32⟩ : BufTy).Contents (Elt F)),
    binary main_v1 main_v130 main_v131 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v132 (broadcastInDim S600000 ![] bcast_S_S600000 : (⟨S_, .i32⟩ : BufTy).Contents (Elt F) → (⟨S600000, .i32⟩ : BufTy).Contents (Elt F)),
    binary main_v1 main_v132 main_v133 (addi : (⟨S600000, .i32⟩ : BufTy).Contents (Elt F) → (⟨S600000, .i32⟩ : BufTy).Contents (Elt F) → (⟨S600000, .i32⟩ : BufTy).Contents (Elt F)),
    ternary main_v131 main_v133 main_v1 main_v134 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v134 main_v135 (broadcastInDim S600000x1 ![0] bcast_S600000_S600000x1_0 : (⟨S600000, .i32⟩ : BufTy).Contents (Elt F) → (⟨S600000x1, .i32⟩ : BufTy).Contents (Elt F)),
    binary main_v117 main_v135 main_v136 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_16 (constant S_ .f32 0x00000000#32),
    unary main_cst_16 main_v137 (broadcastInDim S50000x128 ![] bcast_S_S50000x128 : (⟨S_, .f32⟩ : BufTy).Contents (Elt F) → (⟨S50000x128, .f32⟩ : BufTy).Contents (Elt F)),
    unary main_v3 main_v138 (broadcastInDim S600000x1 ![0] bcast_S600000_S600000x1_0 : (⟨S600000, .i32⟩ : BufTy).Contents (Elt F) → (⟨S600000x1, .i32⟩ : BufTy).Contents (Elt F)),
    ternary main_v137 main_v138 main_v136 main_v139 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v117 main_v139 main_v140 (addf : (⟨S50000x128, .f32⟩ : BufTy).Contents (Elt F) → (⟨S50000x128, .f32⟩ : BufTy).Contents (Elt F) → (⟨S50000x128, .f32⟩ : BufTy).Contents (Elt F)),
    binary main_v140 main_v119 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v121 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v144) (TRef.of (T := ⟨S50000x128, .f32⟩) main_call4_v0) (TRef.of (T := ⟨S50000x128, .f32⟩) main_v145) maximumf,
    nullary main_cst_17 (constant S_ .f32 0x00000000#32),
    binary main_v145 main_cst_17 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v146 main_v147 (broadcastInDim S1x128 ![1] bcast_S128_S1x128_1 : (⟨S128, .f32⟩ : BufTy).Contents (Elt F) → (⟨S1x128, .f32⟩ : BufTy).Contents (Elt F)),
    nullary main_cst_18 (constant S_ .f32 0x47435000#32),
    unary main_cst_18 main_v148 (broadcastInDim S1x128 ![] bcast_S_S1x128 : (⟨S_, .f32⟩ : BufTy).Contents (Elt F) → (⟨S1x128, .f32⟩ : BufTy).Contents (Elt F)),
    binary main_v147 main_v148 main_v149 (Host.divf : (⟨S1x128, .f32⟩ : BufTy).Contents (Elt F) → (⟨S1x128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v145 main_v150 main_v151 (subf : (⟨S50000x128, .f32⟩ : BufTy).Contents (Elt F) → (⟨S50000x128, .f32⟩ : BufTy).Contents (Elt F) → (⟨S50000x128, .f32⟩ : BufTy).Contents (Elt F)),
    binary main_v151 main_v151 main_v152 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v152 main_cst_19 main_v153 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    nullary main_cst_20 (constant S_ .f32 0x47435000#32),
    unary main_cst_20 main_v155 (broadcastInDim S1x128 ![] bcast_S_S1x128 : (⟨S_, .f32⟩ : BufTy).Contents (Elt F) → (⟨S1x128, .f32⟩ : BufTy).Contents (Elt F)),
    binary main_v154 main_v155 main_v156 (Host.divf : (⟨S1x128, .f32⟩ : BufTy).Contents (Elt F) → (⟨S1x128, .f32⟩ : BufTy).Contents (Elt F) → (⟨S1x128, .f32⟩ : BufTy).Contents (Elt F)),
    unary main_v149 main_v157 (broadcastInDim S50000x128 ![0, 1] bcast_S1x128_S50000x128_0_1 : (⟨S1x128, .f32⟩ : BufTy).Contents (Elt F) → (⟨S50000x128, .f32⟩ : BufTy).Contents (Elt F)),
    binary main_v145 main_v157 main_v158 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v159 (broadcastInDim S1x128 ![] bcast_S_S1x128 : (⟨S_, .f32⟩ : BufTy).Contents (Elt F) → (⟨S1x128, .f32⟩ : BufTy).Contents (Elt F)),
    binary main_v156 main_v159 main_v160 (addf : (⟨S1x128, .f32⟩ : BufTy).Contents (Elt F) → (⟨S1x128, .f32⟩ : BufTy).Contents (Elt F) → (⟨S1x128, .f32⟩ : BufTy).Contents (Elt F)),
    unary main_v160 main_v161 (Host.rsqrt : (⟨S1x128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v158 main_v162 main_v163 (mulf : (⟨S50000x128, .f32⟩ : BufTy).Contents (Elt F) → (⟨S50000x128, .f32⟩ : BufTy).Contents (Elt F) → (⟨S50000x128, .f32⟩ : BufTy).Contents (Elt F)),
    unary main_v123 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (mulf : (⟨S50000x128, .f32⟩ : BufTy).Contents (Elt F) → (⟨S50000x128, .f32⟩ : BufTy).Contents (Elt F) → (⟨S50000x128, .f32⟩ : BufTy).Contents (Elt F)),
    unary main_v125 main_v167 (broadcastInDim S1x128 ![1] bcast_S128_S1x128_1 : (⟨S128, .f32⟩ : BufTy).Contents (Elt F) → (⟨S1x128, .f32⟩ : BufTy).Contents (Elt F)),
    unary main_v167 main_v168 (broadcastInDim S50000x128 ![0, 1] bcast_S1x128_S50000x128_0_1 : (⟨S1x128, .f32⟩ : BufTy).Contents (Elt F) → (⟨S50000x128, .f32⟩ : BufTy).Contents (Elt F)),
    binary main_v166 main_v168 main_v169 (addf : (⟨S50000x128, .f32⟩ : BufTy).Contents (Elt F) → (⟨S50000x128, .f32⟩ : BufTy).Contents (Elt F) → (⟨S50000x128, .f32⟩ : BufTy).Contents (Elt F)),
    binary main_v169 main_v127 main_v170 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v129 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v170 main_v172 main_v173 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v173) (TRef.of (T := ⟨S50000x128, .f32⟩) main_call5_v0) (TRef.of (T := ⟨S50000x128, .f32⟩) main_v174) maximumf ]

set_option maxHeartbeats 4000000 in
/-- Operations 211–279: slice 3 of the parameters, then graph layer 3 (from `main_v174` to `main_v231`). -/
abbrev sL3 : List (HloOp τ sig (Elt F)) :=
  [ unary main_arg2 main_v175 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v175 main_v176 rfl shapeCasts_S1x128x128_S128x128,
    unary main_arg3 main_v177 ((extractStridedSlice S1x128 ![3, 0] · slices_S4x128_S1x128_3_0) : (⟨S4x128, .f32⟩ : BufTy).Contents (Elt F) → (⟨S1x128, .f32⟩ : BufTy).Contents (Elt F)),
    reshape main_v177 main_v178 rfl shapeCasts_S1x128_S128,
    unary main_arg4 main_v179 ((extractStridedSlice S1x128 ![3, 0] · slices_S4x128_S1x128_3_0) : (⟨S4x128, .f32⟩ : BufTy).Contents (Elt F) → (⟨S1x128, .f32⟩ : BufTy).Contents (Elt F)),
    reshape main_v179 main_v180 rfl shapeCasts_S1x128_S128,
    unary main_arg5 main_v181 ((extractStridedSlice S1x128 ![3, 0] · slices_S4x128_S1x128_3_0) : (⟨S4x128, .f32⟩ : BufTy).Contents (Elt F) → (⟨S1x128, .f32⟩ : BufTy).Contents (Elt F)),
    reshape main_v181 main_v182 rfl shapeCasts_S1x128_S128,
    unary main_arg6 main_v183 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v183 main_v184 rfl shapeCasts_S1x128x128_S128x128,
    unary main_arg7 main_v185 ((extractStridedSlice S1x128 ![3, 0] · slices_S4x128_S1x128_3_0) : (⟨S4x128, .f32⟩ : BufTy).Contents (Elt F) → (⟨S1x128, .f32⟩ : BufTy).Contents (Elt F)),
    reshape main_v185 main_v186 rfl shapeCasts_S1x128_S128,
    nullary main_c_22 (constantI S_ 32 0#32),
    unary main_c_22 main_v187 (broadcastInDim S600000 ![] bcast_S_S600000 : (⟨S_, .i32⟩ : BufTy).Contents (Elt F) → (⟨S600000, .i32⟩ : BufTy).Contents (Elt F)),
    binary main_v1 main_v187 main_v188 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v189 (broadcastInDim S600000 ![] bcast_S_S600000 : (⟨S_, .i32⟩ : BufTy).Contents (Elt F) → (⟨S600000, .i32⟩ : BufTy).Contents (Elt F)),
    binary main_v1 main_v189 main_v190 (addi : (⟨S600000, .i32⟩ : BufTy).Contents (Elt F) → (⟨S600000, .i32⟩ : BufTy).Contents (Elt F) → (⟨S600000, .i32⟩ : BufTy).Contents (Elt F)),
    ternary main_v188 main_v190 main_v1 main_v191 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v191 main_v192 (broadcastInDim S600000x1 ![0] bcast_S600000_S600000x1_0 : (⟨S600000, .i32⟩ : BufTy).Contents (Elt F) → (⟨S600000x1, .i32⟩ : BufTy).Contents (Elt F)),
    binary main_v174 main_v192 main_v193 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_24 (constant S_ .f32 0x00000000#32),
    unary main_cst_24 main_v194 (broadcastInDim S50000x128 ![] bcast_S_S50000x128 : (⟨S_, .f32⟩ : BufTy).Contents (Elt F) → (⟨S50000x128, .f32⟩ : BufTy).Contents (Elt F)),
    unary main_v3 main_v195 (broadcastInDim S600000x1 ![0] bcast_S600000_S600000x1_0 : (⟨S600000, .i32⟩ : BufTy).Contents (Elt F) → (⟨S600000x1, .i32⟩ : BufTy).Contents (Elt F)),
    ternary main_v194 main_v195 main_v193 main_v196 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v174 main_v196 main_v197 (addf : (⟨S50000x128, .f32⟩ : BufTy).Contents (Elt F) → (⟨S50000x128, .f32⟩ : BufTy).Contents (Elt F) → (⟨S50000x128, .f32⟩ : BufTy).Contents (Elt F)),
    binary main_v197 main_v176 main_v198 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v178 main_v199 (broadcastInDim S1x128 ![1] bcast_S128_S1x128_1 : (⟨S128, .f32⟩ : BufTy).Contents (Elt F) → (⟨S1x128, .f32⟩ : BufTy).Contents (Elt F)),
    unary main_v199 main_v200 (broadcastInDim S50000x128 ![0, 1] bcast_S1x128_S50000x128_0_1 : (⟨S1x128, .f32⟩ : BufTy).Contents (Elt F) → (⟨S50000x128, .f32⟩ : BufTy).Contents (Elt F)),
    binary main_v198 main_v200 main_v201 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v201) (TRef.of (T := ⟨S50000x128, .f32⟩) main_call6_v0) (TRef.of (T := ⟨S50000x128, .f32⟩) main_v202) maximumf,
    nullary main_cst_25 (constant S_ .f32 0x00000000#32),
    binary main_v202 main_cst_25 main_v203 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v203 main_v204 (broadcastInDim S1x128 ![1] bcast_S128_S1x128_1 : (⟨S128, .f32⟩ : BufTy).Contents (Elt F) → (⟨S1x128, .f32⟩ : BufTy).Contents (Elt F)),
    nullary main_cst_26 (constant S_ .f32 0x47435000#32),
    unary main_cst_26 main_v205 (broadcastInDim S1x128 ![] bcast_S_S1x128 : (⟨S_, .f32⟩ : BufTy).Contents (Elt F) → (⟨S1x128, .f32⟩ : BufTy).Contents (Elt F)),
    binary main_v204 main_v205 main_v206 (Host.divf : (⟨S1x128, .f32⟩ : BufTy).Contents (Elt F) → (⟨S1x128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v202 main_v207 main_v208 (subf : (⟨S50000x128, .f32⟩ : BufTy).Contents (Elt F) → (⟨S50000x128, .f32⟩ : BufTy).Contents (Elt F) → (⟨S50000x128, .f32⟩ : BufTy).Contents (Elt F)),
    binary main_v208 main_v208 main_v209 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v209 main_cst_27 main_v210 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v210 main_v211 (broadcastInDim S1x128 ![1] bcast_S128_S1x128_1 : (⟨S128, .f32⟩ : BufTy).Contents (Elt F) → (⟨S1x128, .f32⟩ : BufTy).Contents (Elt F)),
    nullary main_cst_28 (constant S_ .f32 0x47435000#32),
    unary main_cst_28 main_v212 (broadcastInDim S1x128 ![] bcast_S_S1x128 : (⟨S_, .f32⟩ : BufTy).Contents (Elt F) → (⟨S1x128, .f32⟩ : BufTy).Contents (Elt F)),
    binary main_v211 main_v212 main_v213 (Host.divf : (⟨S1x128, .f32⟩ : BufTy).Contents (Elt F) → (⟨S1x128, .f32⟩ : BufTy).Contents (Elt F) → (⟨S1x128, .f32⟩ : BufTy).Contents (Elt F)),
    unary main_v206 main_v214 (broadcastInDim S50000x128 ![0, 1] bcast_S1x128_S50000x128_0_1 : (⟨S1x128, .f32⟩ : BufTy).Contents (Elt F) → (⟨S50000x128, .f32⟩ : BufTy).Contents (Elt F)),
    binary main_v202 main_v214 main_v215 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v216 (broadcastInDim S1x128 ![] bcast_S_S1x128 : (⟨S_, .f32⟩ : BufTy).Contents (Elt F) → (⟨S1x128, .f32⟩ : BufTy).Contents (Elt F)),
    binary main_v213 main_v216 main_v217 (addf : (⟨S1x128, .f32⟩ : BufTy).Contents (Elt F) → (⟨S1x128, .f32⟩ : BufTy).Contents (Elt F) → (⟨S1x128, .f32⟩ : BufTy).Contents (Elt F)),
    unary main_v217 main_v218 (Host.rsqrt : (⟨S1x128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v215 main_v219 main_v220 (mulf : (⟨S50000x128, .f32⟩ : BufTy).Contents (Elt F) → (⟨S50000x128, .f32⟩ : BufTy).Contents (Elt F) → (⟨S50000x128, .f32⟩ : BufTy).Contents (Elt F)),
    unary main_v180 main_v221 (broadcastInDim S1x128 ![1] bcast_S128_S1x128_1 : (⟨S128, .f32⟩ : BufTy).Contents (Elt F) → (⟨S1x128, .f32⟩ : BufTy).Contents (Elt F)),
    unary main_v221 main_v222 (broadcastInDim S50000x128 ![0, 1] bcast_S1x128_S50000x128_0_1 : (⟨S1x128, .f32⟩ : BufTy).Contents (Elt F) → (⟨S50000x128, .f32⟩ : BufTy).Contents (Elt F)),
    binary main_v220 main_v222 main_v223 (mulf : (⟨S50000x128, .f32⟩ : BufTy).Contents (Elt F) → (⟨S50000x128, .f32⟩ : BufTy).Contents (Elt F) → (⟨S50000x128, .f32⟩ : BufTy).Contents (Elt F)),
    unary main_v182 main_v224 (broadcastInDim S1x128 ![1] bcast_S128_S1x128_1 : (⟨S128, .f32⟩ : BufTy).Contents (Elt F) → (⟨S1x128, .f32⟩ : BufTy).Contents (Elt F)),
    unary main_v224 main_v225 (broadcastInDim S50000x128 ![0, 1] bcast_S1x128_S50000x128_0_1 : (⟨S1x128, .f32⟩ : BufTy).Contents (Elt F) → (⟨S50000x128, .f32⟩ : BufTy).Contents (Elt F)),
    binary main_v223 main_v225 main_v226 (addf : (⟨S50000x128, .f32⟩ : BufTy).Contents (Elt F) → (⟨S50000x128, .f32⟩ : BufTy).Contents (Elt F) → (⟨S50000x128, .f32⟩ : BufTy).Contents (Elt F)),
    binary main_v226 main_v184 main_v227 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v186 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v227 main_v229 main_v230 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v230) (TRef.of (T := ⟨S50000x128, .f32⟩) main_call7_v0) (TRef.of (T := ⟨S50000x128, .f32⟩) main_v231) maximumf ]

set_option maxHeartbeats 4000000 in
/-- Operations 280–290: the read-out (from `main_v231` to the result `main_v240`). -/
abbrev sR : List (HloOp τ sig (Elt F)) :=
  [ binary main_v231 main_arg8 main_v232 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v233 (broadcastInDim S1x128 ![1] bcast_S128_S1x128_1 : (⟨S128, .f32⟩ : BufTy).Contents (Elt F) → (⟨S1x128, .f32⟩ : BufTy).Contents (Elt F)),
    unary main_v233 main_v234 (broadcastInDim S50000x128 ![0, 1] bcast_S1x128_S50000x128_0_1 : (⟨S1x128, .f32⟩ : BufTy).Contents (Elt F) → (⟨S50000x128, .f32⟩ : BufTy).Contents (Elt F)),
    binary main_v232 main_v234 main_v235 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v235) (TRef.of (T := ⟨S50000x128, .f32⟩) main_call8_v0) (TRef.of (T := ⟨S50000x128, .f32⟩) main_v236) maximumf,
    binary main_v236 main_arg10 main_v237 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg11 main_v238 (broadcastInDim S1x1 ![1] bcast_S1_S1x1_1 : (⟨S1, .f32⟩ : BufTy).Contents (Elt F) → (⟨S1x1, .f32⟩ : BufTy).Contents (Elt F)),
    unary main_v238 main_v239 (broadcastInDim S50000x1 ![0, 1] bcast_S1x1_S50000x1_0_1 : (⟨S1x1, .f32⟩ : BufTy).Contents (Elt F) → (⟨S50000x1, .f32⟩ : BufTy).Contents (Elt F)),
    binary main_v237 main_v239 main_v240 (addf : (⟨S50000x1, .f32⟩ : BufTy).Contents (Elt F) → (⟨S50000x1, .f32⟩ : BufTy).Contents (Elt F) → (⟨S50000x1, .f32⟩ : BufTy).Contents (Elt F)) ]

set_option maxRecDepth 8192 in
set_option maxHeartbeats 4000000 in
/-- The line is its six stretches in order. -/
theorem ops_split : (ops : List (HloOp τ sig (Elt F))) = s0 ++ (sL0 ++ (sL1 ++ (sL2 ++ (sL3 ++ sR)))) := rfl

/-! ## What the stretches hand on -/

/-- Contents `W` that hold the arguments as `V` does and, in `main_v1` / `main_v3`, the sources and the
    destinations of `V`'s edge list: what each stretch after the first finds. -/
structure Inv (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  v1 : W (Proc.devRef .tc main_v1) = Cert.Gin.Spec.src (V (Proc.devRef .tc main_arg1))
  v3 : W (Proc.devRef .tc main_v3) = Cert.Gin.Spec.dst (V (Proc.devRef .tc main_arg1))

/-- Contents `W'` that agree with `W` on the arguments and the two index vectors. -/
structure Keeps (W W' : Valuation τ sig (Elt F)) : Prop where
  a0 : W' (Proc.devRef .tc main_arg0) = W (Proc.devRef .tc main_arg0)
  a1 : W' (Proc.devRef .tc main_arg1) = W (Proc.devRef .tc main_arg1)
  a2 : W' (Proc.devRef .tc main_arg2) = W (Proc.devRef .tc main_arg2)
  a3 : W' (Proc.devRef .tc main_arg3) = W (Proc.devRef .tc main_arg3)
  a4 : W' (Proc.devRef .tc main_arg4) = W (Proc.devRef .tc main_arg4)
  a5 : W' (Proc.devRef .tc main_arg5) = W (Proc.devRef .tc main_arg5)
  a6 : W' (Proc.devRef .tc main_arg6) = W (Proc.devRef .tc main_arg6)
  a7 : W' (Proc.devRef .tc main_arg7) = W (Proc.devRef .tc main_arg7)
  a8 : W' (Proc.devRef .tc main_arg8) = W (Proc.devRef .tc main_arg8)
  a9 : W' (Proc.devRef .tc main_arg9) = W (Proc.devRef .tc main_arg9)
  a10 : W' (Proc.devRef .tc main_arg10) = W (Proc.devRef .tc main_arg10)
  a11 : W' (Proc.devRef .tc main_arg11) = W (Proc.devRef .tc main_arg11)
  v1 : W' (Proc.devRef .tc main_v1) = W (Proc.devRef .tc main_v1)
  v3 : W' (Proc.devRef .tc main_v3) = W (Proc.devRef .tc main_v3)

theorem Inv.step {V W W' : Valuation τ sig (Elt F)} (i : Inv V W) (k : Keeps W W') : Inv V W' :=
  ⟨k.a0.trans i.a0, k.a1.trans i.a1, k.a2.trans i.a2, k.a3.trans i.a3, k.a4.trans i.a4, k.a5.trans i.a5, k.a6.trans i.a6, k.a7.trans i.a7, k.a8.trans i.a8, k.a9.trans i.a9, k.a10.trans i.a10, k.a11.trans i.a11, k.v1.trans i.v1, k.v3.trans i.v3⟩

/-! ## Each stretch, from arbitrary contents -/

set_option maxRecDepth 8192 in
set_option maxHeartbeats 4000000 in
/-- Stretch 0 leaves the arguments and puts the edge list's two rows in `main_v1` and `main_v3`. -/
theorem inv0 (V : Valuation τ sig (Elt F)) : Inv V (after s0 V) := by
  constructor <;> (after_results_simp <;> rfl)

set_option maxRecDepth 8192 in
set_option maxHeartbeats 4000000 in
/-- Stretch 1, from any contents: its last buffer holds one graph layer of its first, at slice 0 of each stacked
    parameter and the two index vectors as it finds them. -/
theorem layer0 (W : Valuation τ sig (Elt F)) :
    after sL0 W (Proc.devRef .tc main_v60)
      = Cert.Gin.Spec.layerSD (W (Proc.devRef .tc main_arg0)) (W (Proc.devRef .tc main_v1)) (W (Proc.devRef .tc main_v3))
          (Cert.Gin.Spec.sliceMat (W (Proc.devRef .tc main_arg2)) 0) (Cert.Gin.Spec.sliceVec (W (Proc.devRef .tc main_arg3)) 0)
          (Cert.Gin.Spec.sliceVec (W (Proc.devRef .tc main_arg4)) 0) (Cert.Gin.Spec.sliceVec (W (Proc.devRef .tc main_arg5)) 0)
          (Cert.Gin.Spec.sliceMat (W (Proc.devRef .tc main_arg6)) 0) (Cert.Gin.Spec.sliceVec (W (Proc.devRef .tc main_arg7)) 0) := by
  after_results_simp
  rfl

set_option maxRecDepth 8192 in
set_option maxHeartbeats 40000000 in
/-- Stretch 1 writes none of the buffers later stretches read. -/
theorem keeps0 (W : Valuation τ sig (Elt F)) : Keeps W (after sL0 W) := by
  constructor <;> (after_results_simp <;> rfl)

/-- Stretch 1 from contents that hold the arguments and the index vectors: graph layer 0 of the network. -/
theorem conv0 {V W : Valuation τ sig (Elt F)} (i : Inv V W) :
    after sL0 W (Proc.devRef .tc main_v60)
      = Cert.Gin.Spec.conv 0 (W (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [layer0 W, i.v1, i.v3, i.a2, i.a3, i.a4, i.a5, i.a6, i.a7]
  rfl

set_option maxRecDepth 8192 in
set_option maxHeartbeats 4000000 in
/-- Stretch 2, from any contents: its last buffer holds one graph layer of its first, at slice 1 of each stacked
    parameter and the two index vectors as it finds them. -/
theorem layer1 (W : Valuation τ sig (Elt F)) :
    after sL1 W (Proc.devRef .tc main_v117)
      = Cert.Gin.Spec.layerSD (W (Proc.devRef .tc main_v60)) (W (Proc.devRef .tc main_v1)) (W (Proc.devRef .tc main_v3))
          (Cert.Gin.Spec.sliceMat (W (Proc.devRef .tc main_arg2)) 1) (Cert.Gin.Spec.sliceVec (W (Proc.devRef .tc main_arg3)) 1)
          (Cert.Gin.Spec.sliceVec (W (Proc.devRef .tc main_arg4)) 1) (Cert.Gin.Spec.sliceVec (W (Proc.devRef .tc main_arg5)) 1)
          (Cert.Gin.Spec.sliceMat (W (Proc.devRef .tc main_arg6)) 1) (Cert.Gin.Spec.sliceVec (W (Proc.devRef .tc main_arg7)) 1) := by
  after_results_simp
  rfl

set_option maxRecDepth 8192 in
set_option maxHeartbeats 40000000 in
/-- Stretch 2 writes none of the buffers later stretches read. -/
theorem keeps1 (W : Valuation τ sig (Elt F)) : Keeps W (after sL1 W) := by
  constructor <;> (after_results_simp <;> rfl)

/-- Stretch 2 from contents that hold the arguments and the index vectors: graph layer 1 of the network. -/
theorem conv1 {V W : Valuation τ sig (Elt F)} (i : Inv V W) :
    after sL1 W (Proc.devRef .tc main_v117)
      = Cert.Gin.Spec.conv 1 (W (Proc.devRef .tc main_v60)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [layer1 W, i.v1, i.v3, i.a2, i.a3, i.a4, i.a5, i.a6, i.a7]
  rfl

set_option maxRecDepth 8192 in
set_option maxHeartbeats 4000000 in
/-- Stretch 3, from any contents: its last buffer holds one graph layer of its first, at slice 2 of each stacked
    parameter and the two index vectors as it finds them. -/
theorem layer2 (W : Valuation τ sig (Elt F)) :
    after sL2 W (Proc.devRef .tc main_v174)
      = Cert.Gin.Spec.layerSD (W (Proc.devRef .tc main_v117)) (W (Proc.devRef .tc main_v1)) (W (Proc.devRef .tc main_v3))
          (Cert.Gin.Spec.sliceMat (W (Proc.devRef .tc main_arg2)) 2) (Cert.Gin.Spec.sliceVec (W (Proc.devRef .tc main_arg3)) 2)
          (Cert.Gin.Spec.sliceVec (W (Proc.devRef .tc main_arg4)) 2) (Cert.Gin.Spec.sliceVec (W (Proc.devRef .tc main_arg5)) 2)
          (Cert.Gin.Spec.sliceMat (W (Proc.devRef .tc main_arg6)) 2) (Cert.Gin.Spec.sliceVec (W (Proc.devRef .tc main_arg7)) 2) := by
  after_results_simp
  rfl

set_option maxRecDepth 8192 in
set_option maxHeartbeats 40000000 in
/-- Stretch 3 writes none of the buffers later stretches read. -/
theorem keeps2 (W : Valuation τ sig (Elt F)) : Keeps W (after sL2 W) := by
  constructor <;> (after_results_simp <;> rfl)

/-- Stretch 3 from contents that hold the arguments and the index vectors: graph layer 2 of the network. -/
theorem conv2 {V W : Valuation τ sig (Elt F)} (i : Inv V W) :
    after sL2 W (Proc.devRef .tc main_v174)
      = Cert.Gin.Spec.conv 2 (W (Proc.devRef .tc main_v117)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [layer2 W, i.v1, i.v3, i.a2, i.a3, i.a4, i.a5, i.a6, i.a7]
  rfl

set_option maxRecDepth 8192 in
set_option maxHeartbeats 4000000 in
/-- Stretch 4, from any contents: its last buffer holds one graph layer of its first, at slice 3 of each stacked
    parameter and the two index vectors as it finds them. -/
theorem layer3 (W : Valuation τ sig (Elt F)) :
    after sL3 W (Proc.devRef .tc main_v231)
      = Cert.Gin.Spec.layerSD (W (Proc.devRef .tc main_v174)) (W (Proc.devRef .tc main_v1)) (W (Proc.devRef .tc main_v3))
          (Cert.Gin.Spec.sliceMat (W (Proc.devRef .tc main_arg2)) 3) (Cert.Gin.Spec.sliceVec (W (Proc.devRef .tc main_arg3)) 3)
          (Cert.Gin.Spec.sliceVec (W (Proc.devRef .tc main_arg4)) 3) (Cert.Gin.Spec.sliceVec (W (Proc.devRef .tc main_arg5)) 3)
          (Cert.Gin.Spec.sliceMat (W (Proc.devRef .tc main_arg6)) 3) (Cert.Gin.Spec.sliceVec (W (Proc.devRef .tc main_arg7)) 3) := by
  after_results_simp
  rfl

set_option maxRecDepth 8192 in
set_option maxHeartbeats 40000000 in
/-- Stretch 4 writes none of the buffers later stretches read. -/
theorem keeps3 (W : Valuation τ sig (Elt F)) : Keeps W (after sL3 W) := by
  constructor <;> (after_results_simp <;> rfl)

/-- Stretch 4 from contents that hold the arguments and the index vectors: graph layer 3 of the network. -/
theorem conv3 {V W : Valuation τ sig (Elt F)} (i : Inv V W) :
    after sL3 W (Proc.devRef .tc main_v231)
      = Cert.Gin.Spec.conv 3 (W (Proc.devRef .tc main_v174)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [layer3 W, i.v1, i.v3, i.a2, i.a3, i.a4, i.a5, i.a6, i.a7]
  rfl

set_option maxRecDepth 8192 in
set_option maxHeartbeats 4000000 in
/-- The last stretch, from any contents: the read-out of `main_v231`. -/
theorem readout (W : Valuation τ sig (Elt F)) :
    after sR W (Proc.devRef .tc main_v240)
      = Cert.Gin.Spec.fc (W (Proc.devRef .tc main_v231)) (W (Proc.devRef .tc main_arg8)) (W (Proc.devRef .tc main_arg9)) (W (Proc.devRef .tc main_arg10)) (W (Proc.devRef .tc main_arg11)) := by
  after_results_simp
  rfl

/-! ## The line -/

/-- From any contents, the line leaves in its result buffer the network of the twelve arguments. -/
theorem value (V : Valuation τ sig (Elt F)) :
    after ops V (Proc.devRef .tc main_v240)
      = Cert.Gin.Spec.net (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) := by
  rw [ops_split, after_app, after_app, after_app, after_app, after_app]
  have i0 := inv0 V
  generalize after s0 V = V0 at i0 ⊢
  have e1 := conv0 i0
  have i1 := i0.step (keeps0 V0)
  generalize after sL0 V0 = V1 at e1 i1 ⊢
  have e2 := conv1 i1
  have i2 := i1.step (keeps1 V1)
  generalize after sL1 V1 = V2 at e2 i2 ⊢
  have e3 := conv2 i2
  have i3 := i2.step (keeps2 V2)
  generalize after sL2 V2 = V3 at e3 i3 ⊢
  have e4 := conv3 i3
  have i4 := i3.step (keeps3 V3)
  generalize after sL3 V3 = V4 at e4 i4 ⊢
  rw [readout V4, e4, e3, e2, e1, i0.a0, i4.a8, i4.a9, i4.a10, i4.a11]
  rfl

end Cert.ReferenceIdeal.ValueP

end
-- ==== Proof.Ref.RunNet.lean ====
/- The reference's run with its result read: every weakly fair execution of @main terminates with the result buffer
   at the network `Spec.net` of the arguments' launch contents, and the arguments unchanged. -/
import proofs.«121608_j10213432229998_1_alg».proof.Proof.Ref.Run
import proofs.«121608_j10213432229998_1_alg».proof.Proof.Ref.Value

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: the reference terminates with its result
    the network of its arguments, and the arguments unchanged. -/
theorem run_net (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v240)
        = Cert.Gin.Spec.net (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (value (launchContents m c)), (h c).2⟩) (run m ρ)

end Cert.ReferenceIdeal.ValueP

end
-- ==== Proof.Alg.Words.lean ====
/-
  The two float constants of the batch normalization, as real numbers: the word `0x47435000` is the node
  count 50000, and the word `0x3727C5AC` (the float nearest 1e-5) is a positive real.
-/
import Idealize.ShloMosaic.PureOps.Ideal.Laws

namespace Cert.Gin

open Idealize.ShloMosaic

/-- The word `0x47435000` is the number 50000. -/
theorem nodes_word : Ideal.ofBits .f32 0x47435000#32 = ((50000 : ℝ) : EReal) := by
  simp [Ideal.ofBits, Ideal.ieee, -EReal.coe_mul]; norm_num

/-- The word `0x3727C5AC` is a positive real: 10995116 · 2⁻⁴⁰. -/
theorem eps_word : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Gin
-- ==== Proof.Alg.Reads.lean ====
/-
  The reference's host operations read at an index, on the extended reals: a vector laid as a row and a row repeated
  over the nodes; the splat of a constant; the dense layer max(a · w + b, 0) entry by entry, which is the kernel's
  first region's entry; the column mean as (0 + the column's sum) / 50000; the batch normalization entry by entry;
  the read-out. And the kernel program's host rows between a layer's two regions, entry by entry.
-/
import proofs.«121608_j10213432229998_1_alg».proof.Proof.Alg.Ker
import proofs.«121608_j10213432229998_1_alg».proof.Proof.Alg.Words
import proofs.«121608_j10213432229998_1_alg».proof.Proof.LibAsRow
import proofs.«121608_j10213432229998_1_alg».proof.Proof.LibSlabs
import proofs.«121608_j10213432229998_1_alg».proof.Proof.LibMatDot
import proofs.«121608_j10213432229998_1_alg».proof.Proof.LibColSum

noncomputable section

namespace Cert.Gin

open Idealize.ShloMosaic Idealize.ShloMosaic.ValueIdx Cert.Gin.Spec
open scoped BigOperators

/-! ## Layout -/

/-- A vector as a row reads the vector's entry. -/
theorem asRow_apply (v : FVec Ideal S128 .f32) (u : Fin 1) (k : Fin 128) : Spec.asRow v (ix2 u k) = v (ix1 k) := by
  unfold Spec.asRow
  rw [Cert.Lib.broadcastInDim_eq_asRow]
  rfl

/-- A row repeated over the nodes reads the row's entry. -/
theorem overNodes_apply (v : FVec Ideal S1x128 .f32) (r : Fin 50000) (q : Fin 128) :
    Spec.overNodes v (ix2 r q) = v (ix2 (0 : Fin 1) q) :=
  Cert.Lib.rows_of_oneRow _ v r q

/-- The row of one constant reads the constant. -/
theorem splatRow_apply (b : BitVec 32) (i : S1x128.Idx) : Spec.splatRow (F := Ideal) b i = Ideal.ofBits .f32 b := rfl

/-- The array of zeros reads zero. -/
theorem zeros_apply (i : S50000x128.Idx) : Spec.zeros (F := Ideal) i = 0 := by
  show Ideal.ofBits .f32 0x00000000#32 = 0
  exact Ideal.ofBits_zero_f32

/-- A vector reshaped to a row reads the vector's entry. -/
theorem rowCast_apply (v : FVec Ideal S128 .f32) (u : Fin 1) (k : Fin 128) :
    shapeCast S1x128 v Ker.shapeCasts_S128_S1x128 (ix2 u k) = v (ix1 k) := by
  rw [Cert.Lib.shapeCast_eq_asRow]
  rfl

/-! ## The dense layer -/

/-- The product of the node rows with a weight matrix at (r, q): row r against column q. -/
theorem dot_apply (a : FVec Ideal S50000x128 .f32) (w : FVec Ideal S128x128 .f32) (r : Fin 50000) (q : Fin 128) :
    Host.dotGeneral dotD none a w (ix2 r q) = ∑ k : Fin 128, a (ix2 r k) * w (ix2 k q) :=
  Cert.Lib.dotGeneral_plain_apply dotD_wf none .single a w r q

/-- The reference's dense layer at (r, q) is the kernel's first region's entry. -/
theorem dense_apply (a : FVec Ideal S50000x128 .f32) (w : FVec Ideal S128x128 .f32) (b : FVec Ideal S128 .f32)
    (r : Fin 50000) (q : Fin 128) : Spec.dense a w b (ix2 r q) = Ker.denseAt a w b r q := by
  show max (Host.dotGeneral dotD none a w (ix2 r q) + Spec.overNodes (Spec.asRow b) (ix2 r q))
      (Spec.zeros (F := Ideal) (ix2 r q)) = _
  rw [dot_apply, overNodes_apply, asRow_apply, zeros_apply]
  rfl

/-- The reference's dense layer is the kernel's first region's first output, as whole arrays. -/
theorem dense_eq_pre (a : FVec Ideal S50000x128 .f32) (w : FVec Ideal S128x128 .f32) (b : FVec Ideal S128 .f32) :
    Spec.dense a w b = Ker.pre a w b := by
  funext i
  obtain ⟨r, q, rfl⟩ : ∃ (r : Fin 50000) (q : Fin 128), i = ix2 r q := ⟨i 0, i 1, eq_ix2 i⟩
  exact dense_apply a w b r q

/-! ## The column mean and the batch normalization -/

theorem reduces_nodes : S50000x128.Reduces [0] S128 := by decide

/-- The host's sum over the node axis at column q: zero plus the column's sum. -/
theorem hostColSum_apply (x : FVec Ideal S50000x128 .f32) (q : Fin 128) :
    Host.reduceAdd x (constant (F := Ideal) S_ .f32 0x00000000#32) reducesTo_S50000x128_S128_d0 h_S_ (ix1 q)
      = 0 + ∑ r : Fin 50000, x (ix2 r q) := by
  show Ideal.hostReduceAdd reducesTo_S50000x128_S128_d0 x (Ideal.ofBits .f32 0x00000000#32) (ix1 q) = _
  rw [Ideal.hostReduceAdd_single reducesTo_S50000x128_S128_d0 reduces_nodes, Ideal.ofBits_zero_f32]
  exact congrArg (0 + ·) (Finset.sum_congr rfl fun k _ => congrArg x (Cert.Lib.lift_firstAxis2 reduces_nodes q k))

/-- The column mean at column q: (0 + the column's sum) / 50000. -/
theorem colMean_apply (x : FVec Ideal S50000x128 .f32) (u : Fin 1) (q : Fin 128) :
    Spec.colMean x (ix2 u q) = Ideal.div (0 + ∑ r : Fin 50000, x (ix2 r q)) ((50000 : ℝ) : EReal) := by
  show Ideal.div (Spec.asRow (Host.reduceAdd x (constant (F := Ideal) S_ .f32 0x00000000#32)
      reducesTo_S50000x128_S128_d0 h_S_) (ix2 u q)) (Ideal.ofBits .f32 0x47435000#32) = _
  rw [asRow_apply, hostColSum_apply, nodes_word]

/-- The batch normalization at (r, q): centre by the column mean, scale by the reciprocal root of the column's mean
    squared deviation plus ε, then by γ, and shift by β. -/
theorem bn_apply (x : FVec Ideal S50000x128 .f32) (gamma beta : FVec Ideal S128 .f32) (r : Fin 50000) (q : Fin 128) :
    Spec.bn x gamma beta (ix2 r q)
      = (x (ix2 r q) - Ideal.div (0 + ∑ p : Fin 50000, x (ix2 p q)) ((50000 : ℝ) : EReal))
          * Ideal.rsqrt (Ideal.div (0 + ∑ p : Fin 50000,
                (x (ix2 p q) - Ideal.div (0 + ∑ p : Fin 50000, x (ix2 p q)) ((50000 : ℝ) : EReal))
                  * (x (ix2 p q) - Ideal.div (0 + ∑ p : Fin 50000, x (ix2 p q)) ((50000 : ℝ) : EReal)))
              ((50000 : ℝ) : EReal) + Ideal.ofBits .f32 0x3727C5AC#32)
          * gamma (ix1 q) + beta (ix1 q) := by
  have hm : ∀ p : Fin 50000, Spec.overNodes (Spec.colMean x) (ix2 p q)
      = Ideal.div (0 + ∑ p : Fin 50000, x (ix2 p q)) ((50000 : ℝ) : EReal) := fun p => by
    rw [overNodes_apply, colMean_apply]
  have hD : ∀ p : Fin 50000,
      mulf (subf x (Spec.overNodes (Spec.colMean x))) (subf x (Spec.overNodes (Spec.colMean x))) (ix2 p q)
        = (x (ix2 p q) - Ideal.div (0 + ∑ p : Fin 50000, x (ix2 p q)) ((50000 : ℝ) : EReal))
          * (x (ix2 p q) - Ideal.div (0 + ∑ p : Fin 50000, x (ix2 p q)) ((50000 : ℝ) : EReal)) := fun p => by
    show (x (ix2 p q) - Spec.overNodes (Spec.colMean x) (ix2 p q))
      * (x (ix2 p q) - Spec.overNodes (Spec.colMean x) (ix2 p q)) = _
    rw [hm]
  have hv : Spec.overNodes (Host.rsqrt (addf (Spec.colMean (mulf (subf x (Spec.overNodes (Spec.colMean x)))
        (subf x (Spec.overNodes (Spec.colMean x))))) (Spec.splatRow 0x3727C5AC#32))) (ix2 r q)
      = Ideal.rsqrt (Ideal.div (0 + ∑ p : Fin 50000,
                (x (ix2 p q) - Ideal.div (0 + ∑ p : Fin 50000, x (ix2 p q)) ((50000 : ℝ) : EReal))
                  * (x (ix2 p q) - Ideal.div (0 + ∑ p : Fin 50000, x (ix2 p q)) ((50000 : ℝ) : EReal)))
              ((50000 : ℝ) : EReal) + Ideal.ofBits .f32 0x3727C5AC#32) := by
    rw [overNodes_apply]
    show Ideal.rsqrt (Spec.colMean (mulf (subf x (Spec.overNodes (Spec.colMean x)))
        (subf x (Spec.overNodes (Spec.colMean x)))) (ix2 (0 : Fin 1) q) + Ideal.ofBits .f32 0x3727C5AC#32) = _
    rw [colMean_apply]
    simp only [hD]
  show (x (ix2 r q) - Spec.overNodes (Spec.colMean x) (ix2 r q))
      * Spec.overNodes (Host.rsqrt (addf (Spec.colMean (mulf (subf x (Spec.overNodes (Spec.colMean x)))
        (subf x (Spec.overNodes (Spec.colMean x))))) (Spec.splatRow 0x3727C5AC#32))) (ix2 r q)
      * Spec.overNodes (Spec.asRow gamma) (ix2 r q) + Spec.overNodes (Spec.asRow beta) (ix2 r q) = _
  rw [hm, hv, overNodes_apply, asRow_apply, overNodes_apply, asRow_apply]

/-! ## The kernel program's rows between a layer's two regions -/

/-- The scale row at column k: γ · rsqrt(E[x²] − E[x]² + ε), from the column's sum and sum of squares. -/
theorem scaleRow_apply (x : FVec Ideal S50000x128 .f32) (gamma : FVec Ideal S128 .f32) (k : Fin 128) :
    Ker.scaleRow (Ker.colSum x) (Ker.colSumSq x) gamma (ix2 (0 : Fin 1) k)
      = gamma (ix1 k) * Ideal.rsqrt (Ideal.div (∑ p : Fin 50000, x (ix2 p k) * x (ix2 p k)) ((50000 : ℝ) : EReal)
          - Ideal.div (∑ p : Fin 50000, x (ix2 p k)) ((50000 : ℝ) : EReal)
            * Ideal.div (∑ p : Fin 50000, x (ix2 p k)) ((50000 : ℝ) : EReal) + Ideal.ofBits .f32 0x3727C5AC#32) := by
  show shapeCast S1x128 gamma Ker.shapeCasts_S128_S1x128 (ix2 (0 : Fin 1) k)
      * Ideal.rsqrt (Ideal.div (∑ p : Fin 50000, x (ix2 p k) * x (ix2 p k)) (Ideal.ofBits .f32 0x47435000#32)
          - Ideal.div (∑ p : Fin 50000, x (ix2 p k)) (Ideal.ofBits .f32 0x47435000#32)
            * Ideal.div (∑ p : Fin 50000, x (ix2 p k)) (Ideal.ofBits .f32 0x47435000#32)
          + Ideal.ofBits .f32 0x3727C5AC#32) = _
  rw [rowCast_apply, nodes_word]

/-- The shift row at column k: β − E[x] · scale. -/
theorem shiftRow_apply (x : FVec Ideal S50000x128 .f32) (gamma beta : FVec Ideal S128 .f32) (k : Fin 128) :
    Ker.shiftRow (Ker.colSum x) (Ker.colSumSq x) gamma beta (ix2 (0 : Fin 1) k)
      = beta (ix1 k) - Ideal.div (∑ p : Fin 50000, x (ix2 p k)) ((50000 : ℝ) : EReal)
          * Ker.scaleRow (Ker.colSum x) (Ker.colSumSq x) gamma (ix2 (0 : Fin 1) k) := by
  show shapeCast S1x128 beta Ker.shapeCasts_S128_S1x128 (ix2 (0 : Fin 1) k)
      - Ideal.div (∑ p : Fin 50000, x (ix2 p k)) (Ideal.ofBits .f32 0x47435000#32)
        * Ker.scaleRow (Ker.colSum x) (Ker.colSumSq x) gamma (ix2 (0 : Fin 1) k) = _
  rw [rowCast_apply, nodes_word]

/-! ## The read-out -/

/-- The product of the node rows with the read-out's column at (r, 0). -/
theorem dotOut_apply (a : FVec Ideal S50000x128 .f32) (w : FVec Ideal S128x1 .f32) (r : Fin 50000) (u : Fin 1) :
    Host.dotGeneral dotOutD none a w (ix2 r u) = ∑ k : Fin 128, a (ix2 r k) * w (ix2 k u) :=
  Cert.Lib.dotGeneral_plain_apply dotOutD_wf none .single a w r u

/-- The reference's read-out at (r, 0) is the kernel's last region's entry. -/
theorem fc_apply (h : FVec Ideal S50000x128 .f32) (w1 : FVec Ideal S128x128 .f32) (b1 : FVec Ideal S128 .f32)
    (w2 : FVec Ideal S128x1 .f32) (b2 : FVec Ideal S1 .f32) (r : Fin 50000) :
    Spec.fc h w1 b1 w2 b2 (ix2 r (0 : Fin 1)) = Ker.readOutAt h w1 b1 w2 b2 r := by
  show Host.dotGeneral dotOutD none (Spec.dense h w1 b1) w2 (ix2 r (0 : Fin 1))
      + broadcastInDim S50000x1 ![0, 1] bcast_S1x1_S50000x1_0_1 (broadcastInDim S1x1 ![1] bcast_S1_S1x1_1 b2)
          (ix2 r (0 : Fin 1)) = _
  rw [dotOut_apply, Cert.Lib.rows_of_oneRow bcast_S1x1_S50000x1_0_1, Cert.Lib.broadcastInDim_eq_asRow]
  unfold Ker.readOutAt
  refine congrArg₂ (· + ·) (Finset.sum_congr rfl fun k _ => ?_) rfl
  rw [dense_apply]

/-- The reference's read-out is the kernel's last region's output, as whole arrays. -/
theorem fc_eq_readOut (h : FVec Ideal S50000x128 .f32) (w1 : FVec Ideal S128x128 .f32) (b1 : FVec Ideal S128 .f32)
    (w2 : FVec Ideal S128x1 .f32) (b2 : FVec Ideal S1 .f32) : Spec.fc h w1 b1 w2 b2 = Ker.readOut h w1 b1 w2 b2 := by
  funext i
  obtain ⟨r, u, rfl⟩ : ∃ (r : Fin 50000) (u : Fin 1), i = ix2 r u := ⟨i 0, i 1, eq_ix2 i⟩
  obtain rfl : u = 0 := Subsingleton.elim _ _
  exact fc_apply h w1 b1 w2 b2 r

end Cert.Gin

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.Alg.Real.lean ====
/-
  Arrays of reals stay arrays of reals: a sum, a product, a maximum with zero of reals is a real; so the entries of
  the dense layer of real arrays are reals; an array read through any re-indexing (a slice of a stack, a reshape) keeps
  real entries; and the aggregation h + segment_sum(h[src], dst) of a real array is real, being at each entry the
  entry of h plus zero plus a finite sum of entries of h.
-/
import proofs.«121608_j10213432229998_1_alg».proof.Proof.Alg.Reads
import proofs.«121608_j10213432229998_1_alg».proof.Proof.LibRealEntries
import proofs.«121608_j10213432229998_1_alg».proof.Proof.LibAggLinear
import proofs.«121608_j10213432229998_1_alg».proof.Proof.LibEdgeRows

noncomputable section

namespace Cert.Gin

open Idealize.ShloMosaic Idealize.ShloMosaic.ValueIdx Cert.Gin.Spec Cert.Lib
open scoped BigOperators

/-! ## Reals among the extended reals -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max_zero {x : EReal} (hx : ∃ r : ℝ, x = (r : EReal)) : ∃ r : ℝ, max x 0 = (r : EReal) := by
  obtain ⟨a, rfl⟩ := hx
  rcases le_total (a : EReal) 0 with h | h
  · exact ⟨0, by rw [max_eq_right h, EReal.coe_zero]⟩
  · exact ⟨a, max_eq_left h⟩

/-- A sum over a whole finite type of reals is a real. -/
theorem real_sum_univ {α : Type*} [Fintype α] (f : α → EReal) (hf : ∀ a, ∃ r : ℝ, f a = (r : EReal)) :
    ∃ r : ℝ, ∑ a, f a = (r : EReal) :=
  real_sum Finset.univ f hf

/-- An array of reals read through any re-indexing is an array of reals. -/
theorem allReal_comp {ι κ : Type} (x : ι → EReal) (hx : AllReal x) (f : κ → ι) : AllReal (fun j => x (f j)) :=
  fun j => hx (f j)

/-! ## The dense layer -/

/-- An entry of the dense layer of real arrays is a real. -/
theorem denseAt_real (a : FVec Ideal S50000x128 .f32) (w : FVec Ideal S128x128 .f32) (b : FVec Ideal S128 .f32)
    (r : Fin 50000) (ha : ∀ k : Fin 128, ∃ v : ℝ, a (ix2 r k) = (v : EReal)) (hw : AllReal w) (hb : AllReal b) (q : Fin 128) :
    ∃ v : ℝ, Ker.denseAt a w b r q = (v : EReal) :=
  real_max_zero (real_add (real_sum_univ _ fun k => real_mul (ha k) (hw _)) (hb _))

/-- The kernel's first region's first output of real arrays is real. -/
theorem pre_real (a : FVec Ideal S50000x128 .f32) (w : FVec Ideal S128x128 .f32) (b : FVec Ideal S128 .f32)
    (ha : AllReal a) (hw : AllReal w) (hb : AllReal b) : AllReal (Ker.pre a w b) :=
  fun i => denseAt_real a w b (i 0) (fun _ => ha _) hw hb (i 1)

/-- The reference's dense layer of real arrays is real. -/
theorem dense_real (a : FVec Ideal S50000x128 .f32) (w : FVec Ideal S128x128 .f32) (b : FVec Ideal S128 .f32)
    (ha : AllReal a) (hw : AllReal w) (hb : AllReal b) : AllReal (Spec.dense a w b) := by
  rw [dense_eq_pre]
  exact pre_real a w b ha hw hb

/-! ## Slices of the stacked parameters -/

theorem sliceMat_real (W : FVec Ideal S4x128x128 .f32) (hW : AllReal W) (l : Fin 4) : AllReal (Spec.sliceMat W l) := by
  unfold Spec.sliceMat shapeCast extractStridedSlice
  exact fun j => hW _

theorem sliceVec_real (B : FVec Ideal S4x128 .f32) (hB : AllReal B) (l : Fin 4) : AllReal (Spec.sliceVec B l) := by
  unfold Spec.sliceVec shapeCast extractStridedSlice
  exact fun j => hB _

/-! ## The aggregation -/

/-- The aggregation of a real array is real: at (p, k) it is the entry of h, plus zero plus the sum, over the edges
    that end at p, of the entry k of h's row at the edge's source. -/
theorem aggSD_real (h : FVec Ideal S50000x128 .f32) (hh : AllReal h) (s d : IVec S600000 32) :
    AllReal (Spec.aggSD h s d) := fun i => by
  obtain ⟨p, k, rfl⟩ : ∃ (p : Fin 50000) (k : Fin 128), i = ix2 p k := ⟨i 0, i 1, eq_ix2 i⟩
  have e1 := scatterAdd_rowsScatter_apply scatterD_wf (Spec.zeros (F := Ideal))
    (broadcastInDim S600000x1 ![0] bcast_S600000_S600000x1_0 d)
    (Host.gather gatherD h (broadcastInDim S600000x1 ![0] bcast_S600000_S600000x1_0 (wrap s))) p k
  show ∃ v : ℝ, h (ix2 p k) + Host.scatterAdd (F := Ideal) (φ := .f32) scatterD Spec.zeros
      (broadcastInDim S600000x1 ![0] bcast_S600000_S600000x1_0 d)
      (Host.gather gatherD h (broadcastInDim S600000x1 ![0] bcast_S600000_S600000x1_0 (wrap s))) (ix2 p k) = (v : EReal)
  refine real_add (hh _) ?_
  refine Exists.imp (fun v hv => e1.trans hv) ?_
  refine real_add ⟨0, zeros_apply _⟩ (real_sum _ _ fun e => ?_)
  have e2 := gather_rowsTake_apply (by norm_num : 0 < 50000) gatherD_wf h
    (broadcastInDim S600000x1 ![0] bcast_S600000_S600000x1_0 (wrap s)) e k
  exact Exists.imp (fun v hv => e2.trans hv) (hh _)

theorem agg_real (h : FVec Ideal S50000x128 .f32) (hh : AllReal h) (ei : IVec S2x600000 32) :
    AllReal (Spec.agg h ei) :=
  aggSD_real h hh (src ei) (dst ei)

end Cert.Gin

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.Alg.Law.lean ====
/-
  THE LAW between the two sides. The kernel normalizes by one multiplication and one addition per entry,
  x · scale + shift with scale = γ · rsqrt(E[x²] − E[x]² + ε) and shift = β − E[x] · scale, from the column sums and
  the column sums of squares; the reference centres, scales and shifts, (x − E[x]) · rsqrt(E[(x − E[x])²] + ε) · γ + β.
  For a column of REAL entries and real γ, β the two agree on the extended reals (the mean of squares minus the squared
  mean is the mean squared deviation, and the product distributes over the difference): this is where finiteness is
  used. Hence one graph layer of the kernel, from real aggregated rows and real parameters, is the reference's, and
  its output is real again.
-/
import proofs.«121608_j10213432229998_1_alg».proof.Proof.Alg.Real
import proofs.«121608_j10213432229998_1_alg».proof.Proof.LibBatchNormForms

noncomputable section

namespace Cert.Gin

open Idealize.ShloMosaic Idealize.ShloMosaic.ValueIdx Cert.Gin.Spec Cert.Lib
open scoped BigOperators

/-- Scale-and-shift is centre-scale-shift at every entry of a real array, and the common value is a real. -/
theorem bn_entry (x : FVec Ideal S50000x128 .f32) (hx : AllReal x) (gamma beta : FVec Ideal S128 .f32)
    (hg : AllReal gamma) (hb : AllReal beta) (r : Fin 50000) (k : Fin 128) :
    (x (ix2 r k) * Ker.scaleRow (Ker.colSum x) (Ker.colSumSq x) gamma (ix2 (0 : Fin 1) k)
        + Ker.shiftRow (Ker.colSum x) (Ker.colSumSq x) gamma beta (ix2 (0 : Fin 1) k) = Spec.bn x gamma beta (ix2 r k))
      ∧ ∃ v : ℝ, Spec.bn x gamma beta (ix2 r k) = (v : EReal) := by
  obtain ⟨e, he, hw⟩ := eps_word
  choose xr hxr using fun p : Fin 50000 => hx (ix2 p k)
  obtain ⟨g, hgk⟩ := hg (ix1 k)
  obtain ⟨b, hbk⟩ := hb (ix1 k)
  have law := bn_ereal (fun p : Fin 50000 => x (ix2 p k)) xr hxr 50000 (by norm_num) (by simp) g b e he r
  rw [shiftRow_apply, scaleRow_apply, bn_apply, hw, hgk, hbk]
  exact ⟨law.1.trans law.2.symm, _, law.2⟩

/-- The batch normalization of a real array with real γ, β is real. -/
theorem bn_real (x : FVec Ideal S50000x128 .f32) (hx : AllReal x) (gamma beta : FVec Ideal S128 .f32)
    (hg : AllReal gamma) (hb : AllReal beta) : AllReal (Spec.bn x gamma beta) := fun i => by
  obtain ⟨r, k, rfl⟩ : ∃ (r : Fin 50000) (k : Fin 128), i = ix2 r k := ⟨i 0, i 1, eq_ix2 i⟩
  exact (bn_entry x hx gamma beta hg hb r k).2

/-- One graph layer of the kernel from real aggregated rows: the reference's dense, batch normalization, dense. -/
theorem layerOfAgg_eq (a : FVec Ideal S50000x128 .f32) (w1 : FVec Ideal S128x128 .f32) (b1 gamma beta : FVec Ideal S128 .f32)
    (w2 : FVec Ideal S128x128 .f32) (b2 : FVec Ideal S128 .f32) (ha : AllReal a) (hw1 : AllReal w1) (hb1 : AllReal b1)
    (hg : AllReal gamma) (hb : AllReal beta) :
    Ker.layerOfAgg a w1 b1 gamma beta w2 b2 = Spec.dense2 (Spec.bn (Spec.dense1 a w1 b1) gamma beta) w2 b2 := by
  have hP := pre_real a w1 b1 ha hw1 hb1
  show _ = Spec.dense (Spec.bn (Spec.dense a w1 b1) gamma beta) w2 b2
  rw [dense_eq_pre a w1 b1]
  unfold Ker.layerOfAgg
  generalize Ker.pre a w1 b1 = P at hP ⊢
  funext i
  obtain ⟨r, q, rfl⟩ : ∃ (r : Fin 50000) (q : Fin 128), i = ix2 r q := ⟨i 0, i 1, eq_ix2 i⟩
  rw [dense_apply]
  show Ker.normDenseAt P (Ker.scaleRow (Ker.colSum P) (Ker.colSumSq P) gamma)
      (Ker.shiftRow (Ker.colSum P) (Ker.colSumSq P) gamma beta) w2 b2 r q = _
  unfold Ker.normDenseAt Ker.denseAt
  refine congrArg (fun s => max (s + b2 (ix1 q)) 0) (Finset.sum_congr rfl fun k _ => ?_)
  rw [(bn_entry P hP gamma beta hg hb r k).1]

/-- The output of the reference's graph layer from real aggregated rows and real parameters is real. -/
theorem layerOut_real (a : FVec Ideal S50000x128 .f32) (w1 : FVec Ideal S128x128 .f32) (b1 gamma beta : FVec Ideal S128 .f32)
    (w2 : FVec Ideal S128x128 .f32) (b2 : FVec Ideal S128 .f32) (ha : AllReal a) (hw1 : AllReal w1) (hb1 : AllReal b1)
    (hg : AllReal gamma) (hb : AllReal beta) (hw2 : AllReal w2) (hb2 : AllReal b2) :
    AllReal (Spec.dense2 (Spec.bn (Spec.dense1 a w1 b1) gamma beta) w2 b2) :=
  dense_real _ w2 b2 (bn_real _ (dense_real a w1 b1 ha hw1 hb1) gamma beta hg hb) hw2 hb2

end Cert.Gin

end
-- ==== Proof.Alg.Net.lean ====
/-
  The network of the kernel is the network of the reference, for real inputs: each graph layer is the law applied to
  the aggregation of a real array (which is real) at real slices of the stacked parameters, its output is real again,
  so the same step serves the four layers; the read-out is the same sums on both sides.
-/
import proofs.«121608_j10213432229998_1_alg».proof.Proof.Alg.Law

noncomputable section

namespace Cert.Gin

open Idealize.ShloMosaic Idealize.ShloMosaic.ValueIdx Cert.Gin.Spec Cert.Lib

/-- One graph layer, for a real input array and real parameters of the first dense layer and the normalization. -/
theorem layer_eq (h : FVec Ideal S50000x128 .f32) (ei : IVec S2x600000 32) (w1 : FVec Ideal S128x128 .f32)
    (b1 gamma beta : FVec Ideal S128 .f32) (w2 : FVec Ideal S128x128 .f32) (b2 : FVec Ideal S128 .f32)
    (hh : AllReal h) (hw1 : AllReal w1) (hb1 : AllReal b1) (hg : AllReal gamma) (hb : AllReal beta) :
    Ker.layer h ei w1 b1 gamma beta w2 b2 = Spec.layer h ei w1 b1 gamma beta w2 b2 :=
  layerOfAgg_eq (Spec.agg h ei) w1 b1 gamma beta w2 b2 (agg_real h hh ei) hw1 hb1 hg hb

/-- The output of a graph layer on real data is real. -/
theorem layer_real (h : FVec Ideal S50000x128 .f32) (ei : IVec S2x600000 32) (w1 : FVec Ideal S128x128 .f32)
    (b1 gamma beta : FVec Ideal S128 .f32) (w2 : FVec Ideal S128x128 .f32) (b2 : FVec Ideal S128 .f32)
    (hh : AllReal h) (hw1 : AllReal w1) (hb1 : AllReal b1) (hg : AllReal gamma) (hb : AllReal beta)
    (hw2 : AllReal w2) (hb2 : AllReal b2) : AllReal (Spec.layer h ei w1 b1 gamma beta w2 b2) :=
  layerOut_real (Spec.agg h ei) w1 b1 gamma beta w2 b2 (agg_real h hh ei) hw1 hb1 hg hb hw2 hb2

/-- Graph layer l of the network. -/
theorem conv_eq (l : Fin 4) (h : FVec Ideal S50000x128 .f32) (ei : IVec S2x600000 32) (cw1 : FVec Ideal S4x128x128 .f32)
    (cb1 cg cbeta : FVec Ideal S4x128 .f32) (cw2 : FVec Ideal S4x128x128 .f32) (cb2 : FVec Ideal S4x128 .f32)
    (hh : AllReal h) (hcw1 : AllReal cw1) (hcb1 : AllReal cb1) (hcg : AllReal cg) (hcbeta : AllReal cbeta) :
    Ker.conv l h ei cw1 cb1 cg cbeta cw2 cb2 = Spec.conv l h ei cw1 cb1 cg cbeta cw2 cb2 :=
  layer_eq h ei _ _ _ _ _ _ hh (sliceMat_real cw1 hcw1 l) (sliceVec_real cb1 hcb1 l) (sliceVec_real cg hcg l)
    (sliceVec_real cbeta hcbeta l)

/-- Its output on real data is real. -/
theorem conv_real (l : Fin 4) (h : FVec Ideal S50000x128 .f32) (ei : IVec S2x600000 32) (cw1 : FVec Ideal S4x128x128 .f32)
    (cb1 cg cbeta : FVec Ideal S4x128 .f32) (cw2 : FVec Ideal S4x128x128 .f32) (cb2 : FVec Ideal S4x128 .f32)
    (hh : AllReal h) (hcw1 : AllReal cw1) (hcb1 : AllReal cb1) (hcg : AllReal cg) (hcbeta : AllReal cbeta)
    (hcw2 : AllReal cw2) (hcb2 : AllReal cb2) : AllReal (Spec.conv l h ei cw1 cb1 cg cbeta cw2 cb2) :=
  layer_real h ei _ _ _ _ _ _ hh (sliceMat_real cw1 hcw1 l) (sliceVec_real cb1 hcb1 l) (sliceVec_real cg hcg l)
    (sliceVec_real cbeta hcbeta l) (sliceMat_real cw2 hcw2 l) (sliceVec_real cb2 hcb2 l)

/-- THE NETWORK: for real node features and real graph-layer parameters, any edge list and any read-out parameters,
    the kernel's network is the reference's. -/
theorem net_eq (x : FVec Ideal S50000x128 .f32) (ei : IVec S2x600000 32) (cw1 : FVec Ideal S4x128x128 .f32)
    (cb1 cg cbeta : FVec Ideal S4x128 .f32) (cw2 : FVec Ideal S4x128x128 .f32) (cb2 : FVec Ideal S4x128 .f32)
    (f1w : FVec Ideal S128x128 .f32) (f1b : FVec Ideal S128 .f32) (f2w : FVec Ideal S128x1 .f32) (f2b : FVec Ideal S1 .f32)
    (hx : AllReal x) (hcw1 : AllReal cw1) (hcb1 : AllReal cb1) (hcg : AllReal cg) (hcbeta : AllReal cbeta)
    (hcw2 : AllReal cw2) (hcb2 : AllReal cb2) :
    Ker.net x ei cw1 cb1 cg cbeta cw2 cb2 f1w f1b f2w f2b = Spec.net (F := Ideal) x ei cw1 cb1 cg cbeta cw2 cb2 f1w f1b f2w f2b := by
  have h0 := conv_real 0 x ei cw1 cb1 cg cbeta cw2 cb2 hx hcw1 hcb1 hcg hcbeta hcw2 hcb2
  have h1 := conv_real 1 _ ei cw1 cb1 cg cbeta cw2 cb2 h0 hcw1 hcb1 hcg hcbeta hcw2 hcb2
  have h2 := conv_real 2 _ ei cw1 cb1 cg cbeta cw2 cb2 h1 hcw1 hcb1 hcg hcbeta hcw2 hcb2
  unfold Ker.net Spec.net
  rw [conv_eq 0 x ei cw1 cb1 cg cbeta cw2 cb2 hx hcw1 hcb1 hcg hcbeta,
    conv_eq 1 _ ei cw1 cb1 cg cbeta cw2 cb2 h0 hcw1 hcb1 hcg hcbeta,
    conv_eq 2 _ ei cw1 cb1 cg cbeta cw2 cb2 h1 hcw1 hcb1 hcg hcbeta,
    conv_eq 3 _ ei cw1 cb1 cg cbeta cw2 cb2 h2 hcw1 hcb1 hcg hcbeta, fc_eq_readOut]

end Cert.Gin

end
-- ==== Proof.Alg.Pre.lean ====
/-
  The precondition read back: when the printed predicate `all (|a| < +inf)` over every float argument answers one,
  each of the eleven float arguments is an array of reals. The predicate is a conjunction, by `and`, of eleven
  reductions by `and` over all axes of the comparison `|a| < inf`; each conjunct alone says that its array has no
  infinite entry.
-/
import proofs.«121608_j10213432229998_1_alg».proof.Pre_finite_inputs
import proofs.«121608_j10213432229998_1_alg».proof.Proof.LibRealEntries
import Idealize.ShloMosaic.Lib.ValueIdx

noncomputable section

namespace Cert.Gin

open Idealize.ShloMosaic Cert.Pre_finite_inputs Cert.Lib

/-- The shape of rank zero has one index. -/
instance subsingleton_scalar_idx : Subsingleton S_.Idx := ⟨fun _ _ => funext fun d => d.elim0⟩

/-- Under the precondition every float argument is an array of reals. -/
theorem real_of_pre [Cert.Pre_finite_inputs.Facts]
    (a0 : FVec Ideal S50000x128 .f32) (a1 : IVec S2x600000 32) (a2 : FVec Ideal S4x128x128 .f32)
    (a3 a4 a5 : FVec Ideal S4x128 .f32) (a6 : FVec Ideal S4x128x128 .f32) (a7 : FVec Ideal S4x128 .f32)
    (a8 : FVec Ideal S128x128 .f32) (a9 : FVec Ideal S128 .f32) (a10 : FVec Ideal S128x1 .f32) (a11 : FVec Ideal S1 .f32)
    (h : Cert.Pre_finite_inputs.fn (F := Ideal) a0 a1 a2 a3 a4 a5 a6 a7 a8 a9 a10 a11 = fun _ => 1#1) :
    AllReal a0 ∧ AllReal a2 ∧ AllReal a3 ∧ AllReal a4 ∧ AllReal a5 ∧ AllReal a6 ∧ AllReal a7 ∧ AllReal a8
      ∧ AllReal a9 ∧ AllReal a10 ∧ AllReal a11 := by
  have h0 := congrFun h ValueIdx.ix0
  dsimp only [fn, fn_part1, fn_part2, fn_part3] at h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r0, r2⟩ := IntOp.andi_eq_one.1 h0
  exact ⟨allReal_of_all_abs_lt a0 _ (fun _ => rfl) _ _ _ _ r0,
    allReal_of_all_abs_lt a2 _ (fun _ => rfl) _ _ _ _ r2,
    allReal_of_all_abs_lt a3 _ (fun _ => rfl) _ _ _ _ r3,
    allReal_of_all_abs_lt a4 _ (fun _ => rfl) _ _ _ _ r4,
    allReal_of_all_abs_lt a5 _ (fun _ => rfl) _ _ _ _ r5,
    allReal_of_all_abs_lt a6 _ (fun _ => rfl) _ _ _ _ r6,
    allReal_of_all_abs_lt a7 _ (fun _ => rfl) _ _ _ _ r7,
    allReal_of_all_abs_lt a8 _ (fun _ => rfl) _ _ _ _ r8,
    allReal_of_all_abs_lt a9 _ (fun _ => rfl) _ _ _ _ r9,
    allReal_of_all_abs_lt a10 _ (fun _ => rfl) _ _ _ _ r10,
    allReal_of_all_abs_lt a11 _ (fun _ => rfl) _ _ _ _ r11⟩

end Cert.Gin

end
-- ==== Proof.lean ====
/-
  The certificate of a four-layer graph network with a two-layer read-out: a program of nine kernel regions
  among stretches of host operations, against its reference.

  Frames. The kernel program, read word by word and read on the extended reals, is run region by region: each
  region's body is run at every grid point (for a layer's first region in three cases — first point, middle
  point, last point — because it keeps two running sums between points), and the regions and host stretches
  are chained from the launch memory to the return; no stretch and no region writes an argument. The reference
  is a straight line of host operations.

  Equality of the results on the extended reals. The kernel program returns the network in this arrangement:
  per layer the aggregation h + segment_sum(h[src], dst), then x = max(a · W1 + b1, 0) with its column sums
  Σx and Σx², then max((x · scale + shift) · W2 + b2, 0) with scale = γ · rsqrt(Σx²/N − (Σx/N)² + ε) and
  shift = β − (Σx/N) · scale; the reference normalizes by (x − μ) · rsqrt(mean((x − μ)²) + ε) · γ + β. For
  real entries the two agree (the variance as mean of squares minus squared mean, and the affine map
  regrouped); finite inputs make every entry real, layer after layer.
-/
import proofs.«121608_j10213432229998_1_alg».proof.Defs
import proofs.«121608_j10213432229998_1_alg».proof.Proof.Gen.Kernel
import proofs.«121608_j10213432229998_1_alg».proof.Proof.Gen.KernelIdeal
import proofs.«121608_j10213432229998_1_alg».proof.Proof.Gen.ReferenceIdeal
import proofs.«121608_j10213432229998_1_alg».proof.Proof.Gen.Pre_finite_inputs
import proofs.«121608_j10213432229998_1_alg».proof.Proof.K.Args
import proofs.«121608_j10213432229998_1_alg».proof.Proof.KI.Args
import proofs.«121608_j10213432229998_1_alg».proof.Proof.KI.Chain
import proofs.«121608_j10213432229998_1_alg».proof.Proof.Ref.Frame
import proofs.«121608_j10213432229998_1_alg».proof.Proof.Ref.RunNet
import proofs.«121608_j10213432229998_1_alg».proof.Proof.Alg.Net
import proofs.«121608_j10213432229998_1_alg».proof.Proof.Alg.Pre
import Idealize.ShloMosaic.Adequacy
import Idealize.ShloMosaic.Init

noncomputable section

namespace Cert.Proof

open Idealize.ShloMosaic Idealize.SL.Sem

/-- The word-level kernel program runs and leaves its arguments unchanged. -/
theorem frame_k : @Cert.frame_Kernel Cert.Kernel.Gen.facts Cert.Pre_finite_inputs.Gen.facts :=
  fun m ρ _ => Cert.Kernel.Hand.frame (F := Bits) m ρ

/-- So does the kernel program read on the extended reals. -/
theorem frame_ki : @Cert.frame_KernelIdeal Cert.KernelIdeal.Gen.facts Cert.Pre_finite_inputs.Gen.facts :=
  fun m ρ _ => Cert.KernelIdeal.Hand.frame (F := Ideal) m ρ

/-- The two programs, from memories agreeing on finite arguments, return the same array of extended reals: the
    network in the kernel's arrangement equals the network in the reference's for real-valued data. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.ValueP.run_net (F := Ideal) m' ρ')
  obtain ⟨e0, e1, e2, e3, e4, e5, e6, e7, e8, e9, e10, e11⟩ := hagree c
  rw [e0, e1, e2, e3, e4, e5, e6, e7, e8, e9, e10, e11]
  obtain ⟨r0, r2, r3, r4, r5, r6, r7, -⟩ := Cert.Gin.real_of_pre _ _ _ _ _ _ _ _ _ _ _ _ (hpre c)
  exact (Cert.Gin.net_eq _ _ _ _ _ _ _ _ _ _ _ _ r0 r2 r3 r4 r5 r6 r7).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.ValueP.frame, trivial, algebraic⟩

end Cert.Proof

end
